-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v134)) (v1 : (c : Dev Cert.KernelIdeal.nD) → Buf (Elt Ideal) ((c.tc : Thread Cert.KernelIdeal.nD Cert.KernelIdeal.τ).loc Cert.KernelIdeal.main_v137)) (v2 : (c : Dev Cert.KernelIdeal.nD) → Buf (Elt Ideal) ((c.tc : Thread Cert.KernelIdeal.nD Cert.KernelIdeal.τ).loc Cert.KernelIdeal.main_v65)) (v3 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_v131) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S100000x128 : Shape := ⟨2, ![100000, 128]⟩
abbrev S800000x2 : Shape := ⟨2, ![800000, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000 : S_.BroadcastsInDim S10000 (![] : Fin 0 → Fin S10000.rank)
  reducesTo_S10000_S_d0 : S10000.ReducesTo [0] S_

variable [Facts]

def fn_part1 {F : FTy → Type} [FloatOps F] (main_arg1 : IVec S10000 32) (main_v15 : IVec S_ 1) (main_c_5 : IVec S_ 32) : IVec S_ 1 :=
  let main_v16 : IVec S10000 32 := broadcastInDim S10000 ![] bcast_S_S10000 main_c_5
  let main_v17 : IVec S10000 1 := cmpi .sge main_arg1 main_v16
  let main_c_6 : IVec S_ 32 := constantI S_ 32 100000#32
  let main_v18 : IVec S10000 32 := broadcastInDim S10000 ![] bcast_S_S10000 main_c_6
  let main_v19 : IVec S10000 1 := cmpi .slt main_arg1 main_v18
  let main_v20 : IVec S10000 1 := andi main_v17 main_v19
  let main_c_7 : IVec S_ 1 := constantI S_ 1 1#1
  let main_v21 : IVec S_ 1 := (fun x v => Host.reduce IntOp.andi x v reducesTo_S10000_S_d0 h_S_) main_v20 main_c_7
  let main_v22 : IVec S_ 1 := andi main_v15 main_v21
  main_v22

def fn {F : FTy → Type} [FloatOps F] (main_arg0 : IVec S10000 32) (main_arg1 : IVec S10000 32) (main_arg2 : FVec F S100000x128 .f32) (main_arg3 : FVec F S100000x128 .f32) (main_arg4 : IVec S800000x2 32) (main_arg5 : IVec S800000x2 32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S10000 32 := broadcastInDim S10000 ![] bcast_S_S10000 main_c_2
  let main_v10 : IVec S10000 1 := cmpi .sge main_arg0 main_v9
  let main_c_3 : IVec S_ 32 := constantI S_ 32 100000#32
  let main_v11 : IVec S10000 32 := broadcastInDim S10000 ![] bcast_S_S10000 main_c_3
  let main_v12 : IVec S10000 1 := cmpi .slt main_arg0 main_v11
  let main_v13 : IVec S10000 1 := andi main_v10 main_v12
  let main_c_4 : IVec S_ 1 := constantI S_ 1 1#1
  let main_v14 : IVec S_ 1 := (fun x v => Host.reduce IntOp.andi x v reducesTo_S10000_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S10000 : Shape := ⟨1, ![10000]⟩
abbrev S100000x128 : Shape := ⟨2, ![100000, 128]⟩
abbrev S800000x2 : Shape := ⟨2, ![800000, 2]⟩
abbrev S800000x1 : Shape := ⟨2, ![800000, 1]⟩
abbrev S800000 : Shape := ⟨1, ![800000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S4000 : Shape := ⟨1, ![4000]⟩
abbrev S100000x1x128 : Shape := ⟨3, ![100000, 1, 128]⟩
abbrev S10000x1x128 : Shape := ⟨3, ![10000, 1, 128]⟩
abbrev S1x1x128 : Shape := ⟨3, ![1, 1, 128]⟩
abbrev S1 : Shape := ⟨1, ![1]⟩
abbrev S10000x128 : Shape := ⟨2, ![10000, 128]⟩

abbrev nBuf : Space → Nat
  | .hbm => 170
  | .vmem => 48
  | .smem => 2
  | _ => 0

abbrev hbmTy0_0 (i : Nat) : BufTy := match i % 128 with
  | 0 => ⟨S100000x128, .f32⟩
  | 1 => ⟨S100000x128, .f32⟩
  | 2 => ⟨S800000x2, .i32⟩
  | 3 => ⟨S800000x2, .i32⟩
  | 4 => ⟨S800000x1, .i32⟩
  | 5 => ⟨S800000, .i32⟩
  | 6 => ⟨S800000x1, .i32⟩
  | 7 => ⟨S800000, .i32⟩
  | 8 => ⟨S1600000, .i32⟩
  | 9 => ⟨S800000x1, .i32⟩
  | 10 => ⟨S800000, .i32⟩
  | 11 => ⟨S800000x1, .i32⟩
  | 12 => ⟨S800000, .i32⟩
  | 13 => ⟨S1600000, .i32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S_, .f32⟩
  | 25 => ⟨S1600000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S100000, .f32⟩
  | 48 => ⟨S100000x1, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S1600000x1, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x128, .f32⟩
  | 83 => ⟨S100000x128, .f32⟩
  | 84 => ⟨S800000x1, .i32⟩
  | 85 => ⟨S800000, .i32⟩
  | 86 => ⟨S800000x1, .i32⟩
  | 87 => ⟨S800000, .i32⟩
  | 88 => ⟨S1600000, .i32⟩
  | 89 => ⟨S800000x1, .i32⟩
  | 90 => ⟨S800000, .i32⟩
  | 91 => ⟨S800000x1, .i32⟩
  | 92 => ⟨S800000, .i32⟩
  | 93 => ⟨S1600000, .i32⟩
  | 94 => ⟨S_, .f32⟩
  | 95 => ⟨S100000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S_, .f32⟩
  | 105 => ⟨S1600000, .f32⟩
  | 106 => ⟨S100000, .f32⟩
  | 107 => ⟨S100000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S1600000, .f32⟩
  | 127 => ⟨S100000, .f32⟩
  | _ => ⟨S100000x128, .f32⟩

abbrev hbmTy0_1 (i : Nat) : BufTy := match i % 128 with
  | 0 => ⟨S100000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S1600000x1, .f32⟩
  | 11 => ⟨S1600000x128, .f32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S100000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S1600000x1, .f32⟩
  | 28 => ⟨S1600000x128, .f32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x128, .f32⟩
  | 35 => ⟨S100000x128, .f32⟩
  | 36 => ⟨S100000x1x128, .f32⟩
  | 37 => ⟨S10000x1x128, .f32⟩
  | 38 => ⟨S10000x128, .f32⟩
  | 39 => ⟨S100000x1x128, .f32⟩
  | 40 => ⟨S10000x1x128, .f32⟩
  | 41 => ⟨S10000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x1, .f32⟩
  | .local _ .vmem, ⟨33, _⟩ => ⟨S4000x1, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S1x1x128, .f32⟩
  | .local _ .vmem, ⟨47, _⟩ => ⟨S1x1x128, .f32⟩
  | .local _ .smem, ⟨0, _⟩ => ⟨S10000, .i32⟩
  | .local _ .smem, ⟨1, _⟩ => ⟨S10000, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_c_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_12 : Ref sig .tc := ⟨.hbm, 94, rfl⟩
abbrev main_v76 : Ref sig .tc := ⟨.hbm, 95, rfl⟩
abbrev main_c_13 : Ref sig .tc := ⟨.hbm, 96, rfl⟩
abbrev main_v77 : Ref sig .tc := ⟨.hbm, 97, rfl⟩
abbrev main_v78 : Ref sig .tc := ⟨.hbm, 98, rfl⟩
abbrev main_c_14 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_15 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_16 : Ref sig .tc := ⟨.hbm, 108, rfl⟩
abbrev main_v86 : Ref sig .tc := ⟨.hbm, 109, rfl⟩
abbrev main_v87 : Ref sig .tc := ⟨.hbm, 110, rfl⟩
abbrev main_c_17 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_c_18 : Ref sig .tc := ⟨.hbm, 117, rfl⟩
abbrev main_v93 : Ref sig .tc := ⟨.hbm, 118, rfl⟩
abbrev main_v94 : Ref sig .tc := ⟨.hbm, 119, rfl⟩
abbrev main_c_19 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_c_20 : Ref sig .tc := ⟨.hbm, 129, rfl⟩
abbrev main_v103 : Ref sig .tc := ⟨.hbm, 130, rfl⟩
abbrev main_v104 : Ref sig .tc := ⟨.hbm, 131, rfl⟩
abbrev main_c_21 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_22 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_c_23 : Ref sig .tc := ⟨.hbm, 146, rfl⟩
abbrev main_v117 : Ref sig .tc := ⟨.hbm, 147, rfl⟩
abbrev main_v118 : Ref sig .tc := ⟨.hbm, 148, rfl⟩
abbrev main_c_24 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_25 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc7_sem0_0 : DmaSem sig := 44
abbrev cc7_sem0_1 : DmaSem sig := 45
abbrev cc7_sem1_0 : DmaSem sig := 46
abbrev cc7_sem1_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![10000], ![false]⟩

abbrev pre6 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S10000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S10000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![10000], ![false]⟩

abbrev pre7 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S10000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S10000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S800000_S1600000_d0 : Shape.Concatenates [S800000, S800000] S1600000 0
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  reduces_S4000x128_S4000 : S4000x128.Reduces [1] S4000
  shapeCasts_S4000_S4000x1 : S4000.ShapeCasts S4000x1
  shapeCasts_S100000x128_S100000x1x128 : S100000x128.ShapeCasts S100000x1x128
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S10000x1x128_S10000x128 : S10000x1x128.ShapeCasts S10000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x128.size a ≤ S100000x128.size a
  hwx4_3 : ∀ i : grid4.Coords, EltTy.bits .f32 = 32 ∨ (Rect.block (s := S100000x128) S4000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hrank6 : 0 < grid6.rank
  k6_off1_inb : ∀ i : grid6.Coords, ∀ a, (k6_off1 i) a + S1.size a ≤ S10000.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1x128.size a ≤ S10000x1x128.size a
  hwx6_1 : ∀ i : grid6.Coords, EltTy.bits .f32 = 32 ∨ (Rect.block (s := S10000x1x128) S1x1x128.size (cc6_transform_1 i) (hinb6_1 i)).WholeWords (EltTy.packing .f32)
  hrank7 : 0 < grid7.rank
  k7_off1_inb : ∀ i : grid7.Coords, ∀ a, (k7_off1 i) a + S1.size a ≤ S10000.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x128.size a ≤ S10000x1x128.size a
  hwx7_1 : ∀ i : grid7.Coords, EltTy.bits .f32 = 32 ∨ (Rect.block (s := S10000x1x128) S1x1x128.size (cc7_transform_1 i) (hinb7_1 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v49) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v63) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S4000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v115) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v102) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v116) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v129) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v116) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v102) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v130) S4000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v130) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v131) S4000x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev spec6_0 : Pipeline.WinSpec sig grid6.rank :=
  Pipeline.WinSpec.ofSpec (Memref.whole main_v132) S1x1x128.size reads6_0 false false 2 stage6_0 sem6_0 nbuf6_0 hstage6_0

abbrev spec6_1 : Pipeline.WinSpec sig grid6.rank :=
  Pipeline.WinSpec.ofSpec (Memref.whole main_v133) S1x1x128.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_0 k6_off1_inb numel1_S1 pf | 1 => cc6_transform_1 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 | ⟨_ + 2, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S100000x1x128.size a), EltTy.bits .f32 = 32 ∨ (Rect.block (s := S100000x1x128) S1x1x128.size (cc6_transform_0 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok i).elim fun h _ => h a | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok i).elim fun _ h => h | 1 => hwx6_1 | ⟨_ + 2, h⟩ => absurd h (Nat.not_lt.2 (Nat.le_add_left _ _))
abbrev spec7_0 : Pipeline.WinSpec sig grid7.rank :=
  Pipeline.WinSpec.ofSpec (Memref.whole main_v135) S1x1x128.size reads7_0 false false 2 stage7_0 sem7_0 nbuf7_0 hstage7_0

abbrev spec7_1 : Pipeline.WinSpec sig grid7.rank :=
  Pipeline.WinSpec.ofSpec (Memref.whole main_v136) S1x1x128.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_0 k7_off1_inb numel1_S1 pf | 1 => cc7_transform_1 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 | ⟨_ + 2, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S100000x1x128.size a), EltTy.bits .f32 = 32 ∨ (Rect.block (s := S100000x1x128) S1x1x128.size (cc7_transform_0 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok i).elim fun h _ => h a | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok i).elim fun _ h => h | 1 => hwx7_1 | ⟨_ + 2, h⟩ => absurd h (Nat.not_lt.2 (Nat.le_add_left _ _))

class Facts : Prop extends Facts₀ where
  harr6 : ∀ w, (spec6 w).arr.IsWhole
  harr7 : ∀ w, (spec7 w).arr.IsWhole

variable [Facts]
-- ==== ReferenceIdeal.lean ====
abbrev S10000 : Shape := ⟨1, ![10000]⟩
abbrev S100000x128 : Shape := ⟨2, ![100000, 128]⟩
abbrev S800000x2 : Shape := ⟨2, ![800000, 2]⟩
abbrev S800000x1 : Shape := ⟨2, ![800000, 1]⟩
abbrev S800000 : Shape := ⟨1, ![800000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S10000x1 : Shape := ⟨2, ![10000, 1]⟩
abbrev S10000x128 : Shape := ⟨2, ![10000, 128]⟩

abbrev nBuf : Space → Nat
  | .hbm => 218
  | .vmem => 0
  | .smem => 0
  | _ => 0

abbrev hbmTy0_0 (i : Nat) : BufTy := match i % 128 with
  | 0 => ⟨S10000, .i32⟩
  | 1 => ⟨S10000, .i32⟩
  | 2 => ⟨S100000x128, .f32⟩
  | 3 => ⟨S100000x128, .f32⟩
  | 4 => ⟨S800000x2, .i32⟩
  | 5 => ⟨S800000x2, .i32⟩
  | 6 => ⟨S800000x1, .i32⟩
  | 7 => ⟨S800000, .i32⟩
  | 8 => ⟨S800000x1, .i32⟩
  | 9 => ⟨S800000, .i32⟩
  | 10 => ⟨S1600000, .i32⟩
  | 11 => ⟨S800000x1, .i32⟩
  | 12 => ⟨S800000, .i32⟩
  | 13 => ⟨S800000x1, .i32⟩
  | 14 => ⟨S800000, .i32⟩
  | 15 => ⟨S1600000, .i32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S_, .f32⟩
  | 27 => ⟨S1600000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S100000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x1, .f32⟩
  | 67 => ⟨S100000x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S1600000x1, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x1, .f32⟩
  | 90 => ⟨S100000x128, .f32⟩
  | 91 => ⟨S100000x128, .f32⟩
  | 92 => ⟨S100000x128, .f32⟩
  | 93 => ⟨S100000x128, .f32⟩
  | 94 => ⟨S_, .f32⟩
  | 95 => ⟨S100000, .f32⟩
  | 96 => ⟨S100000x1, .f32⟩
  | 97 => ⟨S100000x1, .f32⟩
  | 98 => ⟨S_, .f32⟩
  | 99 => ⟨S100000x1, .f32⟩
  | 100 => ⟨S100000x1, .f32⟩
  | 101 => ⟨S100000x128, .f32⟩
  | 102 => ⟨S100000x128, .f32⟩
  | 103 => ⟨S800000x1, .i32⟩
  | 104 => ⟨S800000, .i32⟩
  | 105 => ⟨S800000x1, .i32⟩
  | 106 => ⟨S800000, .i32⟩
  | 107 => ⟨S1600000, .i32⟩
  | 108 => ⟨S800000x1, .i32⟩
  | 109 => ⟨S800000, .i32⟩
  | 110 => ⟨S800000x1, .i32⟩
  | 111 => ⟨S800000, .i32⟩
  | 112 => ⟨S1600000, .i32⟩
  | 113 => ⟨S_, .f32⟩
  | 114 => ⟨S100000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S_, .f32⟩
  | 124 => ⟨S1600000, .f32⟩
  | 125 => ⟨S100000, .f32⟩
  | 126 => ⟨S100000, .f32⟩
  | 127 => ⟨S_, .i32⟩
  | _ => ⟨S10000, .i32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000, .f32⟩
  | 17 => ⟨S1600000, .f32⟩
  | 18 => ⟨S100000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S1600000x1, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x1, .f32⟩
  | 36 => ⟨S100000x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S100000x128, .f32⟩
  | 62 => ⟨S100000x128, .f32⟩
  | 63 => ⟨S_, .f32⟩
  | 64 => ⟨S100000, .f32⟩
  | 65 => ⟨S100000x1, .f32⟩
  | 66 => ⟨S100000x1, .f32⟩
  | 67 => ⟨S_, .f32⟩
  | 68 => ⟨S100000x1, .f32⟩
  | 69 => ⟨S100000x1, .f32⟩
  | 70 => ⟨S100000x128, .f32⟩
  | 71 => ⟨S100000x128, .f32⟩
  | 72 => ⟨S_, .i32⟩
  | 73 => ⟨S10000, .i32⟩
  | 74 => ⟨S10000, .i1⟩
  | 75 => ⟨S_, .i32⟩
  | 76 => ⟨S10000, .i32⟩
  | 77 => ⟨S10000, .i32⟩
  | 78 => ⟨S10000, .i32⟩
  | 79 => ⟨S10000x1, .i32⟩
  | 80 => ⟨S10000x128, .f32⟩
  | 81 => ⟨S_, .i32⟩
  | 82 => ⟨S10000, .i32⟩
  | 83 => ⟨S10000, .i1⟩
  | 84 => ⟨S_, .i32⟩
  | 85 => ⟨S10000, .i32⟩
  | 86 => ⟨S10000, .i32⟩
  | 87 => ⟨S10000, .i32⟩
  | 88 => ⟨S10000x1, .i32⟩
  | 89 => ⟨S10000x128, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call0_cst : Ref sig .tc := ⟨.hbm, 70, rfl⟩
abbrev main_call0_v0 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_14 : Ref sig .tc := ⟨.hbm, 113, rfl⟩
abbrev main_v89 : Ref sig .tc := ⟨.hbm, 114, rfl⟩
abbrev main_c_15 : Ref sig .tc := ⟨.hbm, 115, rfl⟩
abbrev main_v90 : Ref sig .tc := ⟨.hbm, 116, rfl⟩
abbrev main_v91 : Ref sig .tc := ⟨.hbm, 117, rfl⟩
abbrev main_c_16 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_17 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_18 : Ref sig .tc := ⟨.hbm, 127, rfl⟩
abbrev main_v99 : Ref sig .tc := ⟨.hbm, 128, rfl⟩
abbrev main_v100 : Ref sig .tc := ⟨.hbm, 129, rfl⟩
abbrev main_c_19 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_c_20 : Ref sig .tc := ⟨.hbm, 136, rfl⟩
abbrev main_v106 : Ref sig .tc := ⟨.hbm, 137, rfl⟩
abbrev main_v107 : Ref sig .tc := ⟨.hbm, 138, rfl⟩
abbrev main_c_21 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c_22 : Ref sig .tc := ⟨.hbm, 147, rfl⟩
abbrev main_v115 : Ref sig .tc := ⟨.hbm, 148, rfl⟩
abbrev main_v116 : Ref sig .tc := ⟨.hbm, 149, rfl⟩
abbrev main_c_23 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_24 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_call1_cst : Ref sig .tc := ⟨.hbm, 167, rfl⟩
abbrev main_call1_v0 : Ref sig .tc := ⟨.hbm, 168, rfl⟩
abbrev main_v132 : Ref sig .tc := ⟨.hbm, 169, rfl⟩
abbrev main_c_25 : Ref sig .tc := ⟨.hbm, 170, rfl⟩
abbrev main_v133 : Ref sig .tc := ⟨.hbm, 171, rfl⟩
abbrev main_v134 : Ref sig .tc := ⟨.hbm, 172, rfl⟩
abbrev main_c_26 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_27 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_28 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_29 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_c_30 : Ref sig .tc := ⟨.hbm, 200, rfl⟩
abbrev main_v158 : Ref sig .tc := ⟨.hbm, 201, rfl⟩
abbrev main_v159 : Ref sig .tc := ⟨.hbm, 202, rfl⟩
abbrev main_c_31 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_c_32 : Ref sig .tc := ⟨.hbm, 209, rfl⟩
abbrev main_v165 : Ref sig .tc := ⟨.hbm, 210, rfl⟩
abbrev main_v166 : Ref sig .tc := ⟨.hbm, 211, rfl⟩
abbrev main_c_33 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S800000_S1600000_d0 : Shape.Concatenates [S800000, S800000] S1600000 0
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S_S10000 : S_.BroadcastsInDim S10000 (![] : Fin 0 → Fin S10000.rank)
  bcast_S10000_S10000x1_0 : S10000.BroadcastsInDim S10000x1 (![0] : Fin 1 → Fin S10000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S10000x1_S10000x128_1_0_n_n_0_1_1128_wf : GatherDims.WF S100000x128 S10000x1 S10000x128 [1] [0] [] [0] [] 1 ![1, 128]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S10000x1_S10000x128_1_0_n_n_0_1_1128 : GatherDims S100000x128 S10000x1 S10000x128 where
  offsetDims := [1]
  collapsedSliceDims := [0]
  operandBatchingDims := []
  startIndicesBatchingDims := []
  startIndexMap := [0]
  indexVectorDim := 1
  sliceSizes := ![1, 128]
  wf := gather_S100000x128_S10000x1_S10000x128_1_0_n_n_0_1_1128_wf

class Facts : Prop extends Facts₀ where

variable [Facts]
-- ==== Proof.KI.SeedRange.lean ====
/-
  The seeds are row numbers of the 100000-row table. The precondition ends in two `all` reductions, one per seed
  array, of the element-wise conjunction "0 ≤ seed (signed) and seed < 100000 (signed)". A conjunction word equal to 1
  has both conjuncts 1; an `all` that is 1 had a 1 at every element; a word in [0, 100000) read signed is below 100000
  read unsigned.
-/
import proofs.«114291_j3908420239568_2_alg».proof.Pre_finite_inputs
import proofs.«114291_j3908420239568_2_alg».proof.Proof.Gen.Pre_finite_inputs
import Idealize.ShloMosaic.Lib.ReduceAll

noncomputable section

namespace Cert.Hand

open Idealize.ShloMosaic
open Cert.Pre_finite_inputs

/-- The one index of the rank-0 shape. -/
def j0 : S_.Idx := fun a => a.elim0

instance : Subsingleton S_.Idx := ⟨fun a b => funext fun k => k.elim0⟩

/-- A word in [0, n) signed is below n unsigned. -/
theorem toNat_lt_of_signed (w : BitVec 32) (n : Nat) (hn : n < 2 ^ 31)
    (h0 : IntOp.cmpi .sge w (0#32) = 1#1) (h1 : IntOp.cmpi .slt w (BitVec.ofNat 32 n) = 1#1) : w.toNat < n := by
  rw [IntOp.cmpi_sge] at h0
  rw [IntOp.cmpi_slt] at h1
  have hz : (0#32 : BitVec 32).toInt = 0 := by decide
  have hnI : (BitVec.ofNat 32 n).toInt = (n : Int) := by
    rw [BitVec.toInt_ofNat']
    exact Int.bmod_eq_of_le (by omega) (by omega)
  rw [hz] at h0
  rw [hnI] at h1
  have h32 := w.isLt
  unfold BitVec.toInt at h0 h1
  split at h1 <;> omega

/-- One seed array: the `all` of its range test is 1, so each seed is below 100000 unsigned. -/
theorem seed_lt [Facts] (a : IVec S10000 32) (init : IVec S_ 1)
    (e : Host.reduce IntOp.andi
          (andi (cmpi .sge a (broadcastInDim S10000 ![] Facts.bcast_S_S10000 (constantI S_ 32 0#32)))
                (cmpi .slt a (broadcastInDim S10000 ![] Facts.bcast_S_S10000 (constantI S_ 32 100000#32))))
          init Facts.reducesTo_S10000_S_d0 Facts.h_S_ j0 = 1#1) (i : S10000.Idx) : (a i).toNat < 100000 := by
  have hi := Host.reduce_andi_all _ init Facts.reducesTo_S10000_S_d0 Facts.h_S_ j0 e i
  simp only [andi, cmpi, broadcastInDim, constantI] at hi
  rw [IntOp.andi_eq_one] at hi
  exact toNat_lt_of_signed _ 100000 (by decide) hi.1 hi.2

/-- THE PRECONDITION DECODED: every seed of either array is below 100000 read unsigned (and so names a row of the
    100000-row table). -/
theorem seeds_in_range {F : FTy → Type} [FloatOps F] [Facts]
    (a0 a1 : IVec S10000 32) (a2 a3 : FVec F S100000x128 .f32) (a4 a5 : IVec S800000x2 32)
    (h : Cert.Pre_finite_inputs.fn (F := F) a0 a1 a2 a3 a4 a5 = fun _ => 1#1) :
    (∀ i, (a0 i).toNat < 100000) ∧ (∀ i, (a1 i).toNat < 100000) := by
  have e := congrFun h j0
  unfold Cert.Pre_finite_inputs.fn Cert.Pre_finite_inputs.fn_part1 at e
  simp only [andi] at e
  rw [IntOp.andi_eq_one, IntOp.andi_eq_one] at e
  obtain ⟨⟨-, e0⟩, e1⟩ := e
  exact ⟨fun i => seed_lt a0 _ e0 i, fun i => seed_lt a1 _ e1 i⟩

end Cert.Hand

end
-- ==== Proof.KI.Reg0.lean ====
/-
  Region 0 of the program: the dense combine of one GCN layer, out = agg + x * self_coef, followed by max(., 0),
  on row blocks of 4000 rows. The grid has 25 points; at point t every window holds rows 4000 t … 4000 t + 3999
  of its array (the coefficient column as a 4000 x 1 block). The body reads the three input blocks whole and
  overwrites the output block whole with the pointwise value, so what the output block holds after the body is
  one function of the three input blocks, and nothing else of the state changes.
  Everything is stated at a parameter V, the contents of the TensorCore's buffers when the region is entered.
-/
import proofs.«114291_j3908420239568_2_alg».proof.Proof.Gen.KernelIdeal.Launch
import proofs.«114291_j3908420239568_2_alg».proof.Proof.Gen.KernelIdeal.Skeleton
import proofs.«114291_j3908420239568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched at that point or is still there from the point before (the block index did not move): for any proof
    data whose array is V's and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 4000 x 128 block and the whole 4000 x 1 column: the rectangles of the body's loads and of its store. -/
abbrev r0_0 : Rect S4000x128 := Rect.unit (s := S4000x128) ![0, 0] S4000x128.size inb_S4000x128_S4000x128_0_0
abbrev r0_1 : Rect S4000x1 := Rect.unit (s := S4000x1) ![0, 0] S4000x1.size inb_S4000x1_S4000x1_0_0

/-- The output block after the body, from the three input blocks: its one store, of the pointwise value
    agg + x * coef clipped below at 0, over the whole block. -/
def out0_3 (x0 x1 : Vec F S4000x128 .f32) (x2 : Vec F S4000x1 .f32) : Vec F S4000x128 .f32 :=
  View.canon [⟨r0_0, k0_pay1 (View.ld x0 r0_0) (View.ld x1 r0_0) (View.ld x2 r0_1)⟩]

/-- The one store covers the block. -/
theorem cover0_3 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y

set_option maxHeartbeats 1000000 in
/-- The body on whole staging buffers — the inputs' holding x0, x1, x2, the output's anything — ends with the inputs'
    as they were and the output's at out0_3 x0 x1 x2. -/
theorem sound_kernel0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x128 .f32) (harg4 : arg4.IsWhole)
    (x0 x1 : Vec F S4000x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c: the arrays as the region finds them; after the body at point t each
    input's buffer at its block and the output's at out0_3 of the three input blocks; the invariant carries the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program: the dense combine of one GCN layer, out = agg + x * self_coef,
  on row blocks of 4000 rows. The grid has 25 points; at point t every window holds rows 4000 t … 4000 t + 3999
  of its array (the coefficient column as a 4000 x 1 block). The body reads the three input blocks whole and
  overwrites the output block whole with the pointwise value, so what the output block holds after the body is
  one function of the three input blocks, and nothing else of the state changes.
  Everything is stated at a parameter V, the contents of the TensorCore's buffers when the region is entered.
-/
import proofs.«114291_j3908420239568_2_alg».proof.Proof.Gen.KernelIdeal.Launch
import proofs.«114291_j3908420239568_2_alg».proof.Proof.Gen.KernelIdeal.Skeleton
import proofs.«114291_j3908420239568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the block was
    fetched at that point or is still there from the point before (the block index did not move): for any proof
    data whose array is V's and whose body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 4000 x 128 block and the whole 4000 x 1 column: the rectangles of the body's loads and of its store. -/
abbrev r1_0 : Rect S4000x128 := Rect.unit (s := S4000x128) ![0, 0] S4000x128.size inb_S4000x128_S4000x128_0_0
abbrev r1_1 : Rect S4000x1 := Rect.unit (s := S4000x1) ![0, 0] S4000x1.size inb_S4000x1_S4000x1_0_0

/-- The output block after the body, from the three input blocks: its one store, of the pointwise value
    agg + x * coef, over the whole block. -/
def out1_3 (x0 x1 : Vec F S4000x128 .f32) (x2 : Vec F S4000x1 .f32) : Vec F S4000x128 .f32 :=
  View.canon [⟨r1_0, k1_pay1 (View.ld x0 r1_0) (View.ld x1 r1_0) (View.ld x2 r1_1)⟩]

/-- The one store covers the block. -/
theorem cover1_3 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

set_option maxHeartbeats 1000000 in
/-- The body on whole staging buffers — the inputs' holding x0, x1, x2, the output's anything — ends with the inputs'
    as they were and the output's at out1_3 x0 x1 x2. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x128 .f32) (harg4 : arg4.IsWhole)
    (x0 x1 : Vec F S4000x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core c: the arrays as the region finds them; after the body at point t each
    input's buffer at its block and the output's at out1_3 of the three input blocks; the invariant carries the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the program: the row-wise L2 normalization, out = x / max(sqrt(sum over the 128 lanes of x * x), eps),
  on row blocks of 4000 rows. The grid has 25 points; at point t both windows hold rows 4000 t … 4000 t + 3999 of
  their arrays. The body reads the input block whole and overwrites the output block whole, each row of the result
  depending only on the same row of the input, so what the output block holds after the body is one function of the
  input block, and nothing else of the state changes.
  Everything is stated at a parameter V, the contents of the TensorCore's buffers when the region is entered.
-/
import proofs.«114291_j3908420239568_2_alg».proof.Proof.Gen.KernelIdeal.Launch
import proofs.«114291_j3908420239568_2_alg».proof.Proof.Gen.KernelIdeal.Skeleton
import proofs.«114291_j3908420239568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds the window's block at every point, whether the block was
    fetched at that point or is still there from the point before: for any proof data whose array is V's and whose
    body leaves the input block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole 4000 x 128 block: the rectangle of the body's loads and of its store. -/
abbrev r2_0 : Rect S4000x128 := Rect.unit (s := S4000x128) ![0, 0] S4000x128.size inb_S4000x128_S4000x128_0_0

/-- The output block after the body, from the input block: its one store, of the rows divided by their clipped
    norms, over the whole block. -/
def out2_1 (x0 : Vec F S4000x128 .f32) : Vec F S4000x128 .f32 :=
  View.canon [⟨r2_0, k2_pay1 (View.ld x0 r2_0)⟩]

/-- The one store covers the block. -/
theorem cover2_1 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

set_option maxHeartbeats 1000000 in
/-- The body on whole staging buffers — the input's holding x0, the output's anything — ends with the input's as it
    was and the output's at out2_1 x0. -/
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole)
    (x0 : Vec F S4000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__l2norm_kernel i arg1 harg1 arg2 harg2) K := by
  simp only [cc2__l2norm_kernel_eq_skeleton]; unfold cc2__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of pipeline 2 on core c: the arrays as the region finds them; after the body at point t the
    input's buffer at its block and the output's at out2_1 of the input block; the invariant carries the scoped rest
    and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's staging buffer holds its block, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the program: the dense combine of one GCN layer, out = agg + x * self_coef, followed by max(., 0),
  on row blocks of 4000 rows. The grid has 25 points; at point t every window holds rows 4000 t … 4000 t + 3999
  of its array (the coefficient column as a 4000 x 1 block). The body reads the three input blocks whole and
  overwrites the output block whole with the pointwise value, so what the output block holds after the body is
  one function of the three input blocks, and nothing else of the state changes.
  Everything is stated at a parameter V, the contents of the TensorCore's buffers when the region is entered.
-/
import proofs.«114291_j3908420239568_2_alg».proof.Proof.Gen.KernelIdeal.Launch
import proofs.«114291_j3908420239568_2_alg».proof.Proof.Gen.KernelIdeal.Skeleton
import proofs.«114291_j3908420239568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, whether the block was
    fetched at that point or is still there from the point before (the block index did not move): for any proof
    data whose array is V's and whose body leaves the input block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 4000 x 128 block and the whole 4000 x 1 column: the rectangles of the body's loads and of its store. -/
abbrev r3_0 : Rect S4000x128 := Rect.unit (s := S4000x128) ![0, 0] S4000x128.size inb_S4000x128_S4000x128_0_0
abbrev r3_1 : Rect S4000x1 := Rect.unit (s := S4000x1) ![0, 0] S4000x1.size inb_S4000x1_S4000x1_0_0

/-- The output block after the body, from the three input blocks: its one store, of the pointwise value
    agg + x * coef clipped below at 0, over the whole block. -/
def out3_3 (x0 x1 : Vec F S4000x128 .f32) (x2 : Vec F S4000x1 .f32) : Vec F S4000x128 .f32 :=
  View.canon [⟨r3_0, k3_pay1 (View.ld x0 r3_0) (View.ld x1 r3_0) (View.ld x2 r3_1)⟩]

/-- The one store covers the block. -/
theorem cover3_3 (p0 : Vec F S4000x128 .f32) (y : S4000x128.Idx) :
    ∃ pc ∈ ([⟨r3_0, p0⟩] : List (View.Piece (Elt F) S4000x128 .f32)), y ∈ pc.1.set :=
  View.cover_of_tiled [⟨r3_0, p0⟩] S4000x128.size (by rfl) y

set_option maxHeartbeats 1000000 in
/-- The body on whole staging buffers — the inputs' holding x0, x1, x2, the output's anything — ends with the inputs'
    as they were and the output's at out3_3 x0 x1 x2. -/
theorem sound_kernel3 (c : Dev nD) (E : Set ℕ) (i : grid3.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x128 .f32) (harg4 : arg4.IsWhole)
    (x0 x1 : Vec F S4000x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__combine_kernel i arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core c: the arrays as the region finds them; after the body at point t each
    input's buffer at its block and the output's at out3_3 of the three input blocks; the invariant carries the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' staging buffers hold their blocks, so the body's triple applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the program: the dense combine of one GCN layer, out = agg + x * self_coef,
  on row blocks of 4000 rows. The grid has 25 points; at point t every window holds rows 4000 t … 4000 t + 3999
  of its array (the coefficient column as a 4000 x 1 block). The body reads the three input blocks whole and
  overwrites the output block whole with the pointwise value, so what the output block holds after the body is
  one function of the three input blocks, and nothing else of the state changes.
  Everything is stated at a parameter V, the contents of the TensorCore's buffers when the region is entered.
-/
import proofs.«114291_j3908420239568_2_alg».proof.Proof.Gen.KernelIdeal.Launch
import proofs.«114291_j3908420239568_2_alg».proof.Proof.Gen.KernelIdeal.Skeleton
import proofs.«114291_j3908420239568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds the window's block at every point, whether the block was
    fetched at that point or is still there from the point before (the block index did not move): for any proof
    data whose array is V's and whose body leaves the input block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole 4000 x 128 block and the whole 4000 x 1 column: the rectangles of the body's loads and of its store. -/
abbrev r4_0 : Rect S4000x128 := Rect.unit (s := S4000x128) ![0, 0] S4000x128.size inb_S4000x128_S4000x128_0_0
abbrev r4_1 : Rect S4000x1 := Rect.unit (s := S4000x1) ![0, 0] S4000x1.size inb_S4000x1_S4000x1_0_0

/-- The output block after the body, from the three input blocks: its one store, of the pointwise value
    agg + x * coef, over the whole block. -/
def out4_3 (x0 x1 : Vec F S4000x128 .f32) (x2 : Vec F S4000x1 .f32) : Vec F S4000x128 .f32 :=
  View.canon [⟨r4_0, k4_pay1 (View.ld x0 r4_0) (View.ld x1 r4_0) (View.ld x2 r4_1)⟩]

/-- The one store covers the block. -/
theorem cover4_3 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

set_option maxHeartbeats 1000000 in
/-- The body on whole staging buffers — the inputs' holding x0, x1, x2, the output's anything — ends with the inputs'
    as they were and the output's at out4_3 x0 x1 x2. -/
theorem sound_kernel4 (c : Dev nD) (E : Set ℕ) (i : grid4.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x128 .f32) (harg4 : arg4.IsWhole)
    (x0 x1 : Vec F S4000x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__combine_kernel i arg1 harg1 arg2 harg2 arg3 harg3 arg4 harg4) K := by
  simp only [cc4__combine_kernel_eq_skeleton]; unfold cc4__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core c: the arrays as the region finds them; after the body at point t each
    input's buffer at its block and the output's at out4_3 of the three input blocks; the invariant carries the
    scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' staging buffers hold their blocks, so the body's triple applies; the
    invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Region 5 of the program: the row-wise L2 normalization, out = x / max(sqrt(sum over the 128 lanes of x * x), eps),
  on row blocks of 4000 rows. The grid has 25 points; at point t both windows hold rows 4000 t … 4000 t + 3999 of
  their arrays. The body reads the input block whole and overwrites the output block whole, each row of the result
  depending only on the same row of the input, so what the output block holds after the body is one function of the
  input block, and nothing else of the state changes.
  Everything is stated at a parameter V, the contents of the TensorCore's buffers when the region is entered.
-/
import proofs.«114291_j3908420239568_2_alg».proof.Proof.Gen.KernelIdeal.Launch
import proofs.«114291_j3908420239568_2_alg».proof.Proof.Gen.KernelIdeal.Skeleton
import proofs.«114291_j3908420239568_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current staging buffer holds the window's block at every point, whether the block was
    fetched at that point or is still there from the point before: for any proof data whose array is V's and whose
    body leaves the input block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The whole 4000 x 128 block: the rectangle of the body's loads and of its store. -/
abbrev r5_0 : Rect S4000x128 := Rect.unit (s := S4000x128) ![0, 0] S4000x128.size inb_S4000x128_S4000x128_0_0

/-- The output block after the body, from the input block: its one store, of the rows divided by their clipped
    norms, over the whole block. -/
def out5_1 (x0 : Vec F S4000x128 .f32) : Vec F S4000x128 .f32 :=
  View.canon [⟨r5_0, k5_pay1 (View.ld x0 r5_0)⟩]

/-- The one store covers the block. -/
theorem cover5_1 (p0 : Vec F S4000x128 .f32) (y : S4000x128.Idx) :
    ∃ pc ∈ ([⟨r5_0, p0⟩] : List (View.Piece (Elt F) S4000x128 .f32)), y ∈ pc.1.set :=
  View.cover_of_tiled [⟨r5_0, p0⟩] S4000x128.size (by rfl) y

set_option maxHeartbeats 1000000 in
/-- The body on whole staging buffers — the input's holding x0, the output's anything — ends with the input's as it
    was and the output's at out5_1 x0. -/
theorem sound_kernel5 (c : Dev nD) (E : Set ℕ) (i : grid5.Coords) (arg1 : Memref sig .tc .vmem S4000x128 .f32) (harg1 : arg1.IsWhole) (arg2 : Memref sig .tc .vmem S4000x128 .f32) (harg2 : arg2.IsWhole)
    (x0 : Vec F S4000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__l2norm_kernel i arg1 harg1 arg2 harg2) K := by
  simp only [cc5__l2norm_kernel_eq_skeleton]; unfold cc5__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The proof data of pipeline 5 on core c: the arrays as the region finds them; after the body at point t the
    input's buffer at its block and the output's at out5_1 of the input block; the invariant carries the scoped rest
    and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d

/-- What the body is called with at point t, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

/-- The body at any point: the input's staging buffer holds its block, so the body's triple applies; the invariant
    and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ (grid5.coords t) _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Adm6.lean ====
/-
  The tables of the two gather regions as admissible contents. Each region's window 0 reads its block index from a
  prefetched table of row numbers; the region's side condition asks that block inside the [100000, 1, 128] array at
  every grid point, which holds of any contents whose words are all below 100000. Every structural fact is proved with
  the contents a variable.
-/
import proofs.«114291_j3908420239568_2_alg».proof.Proof.Gen.KernelIdeal
import proofs.«114291_j3908420239568_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The side condition of pipeline 6's table at any contents whose words are all below 100000: window 0's block
    index is ![word, 0, 0], and row `word` of the [100000, 1, 128] array is inside it; the element type is word-wide. -/
theorem ok6_of_lt (pf : pre6.Contents (Elt F)) (h : ∀ x, ((pf 0 x : BitVec 32)).toNat < 100000) : ok6 (F := F) pf := by
  intro i
  obtain ⟨w, hw, e⟩ : ∃ w : BitVec 32, w.toNat < 100000 ∧ cc6_transform_0 Facts₀.k6_off1_inb Facts₀.numel1_S1 pf i = ![w.toNat, 0, 0] :=
    ⟨_, h _, rfl⟩
  refine ⟨fun a => ?_, Or.inl rfl⟩
  rw [e]
  fin_cases a <;> simp [S1x1x128, S100000x1x128] <;> omega

/-- Contents of pipeline 6's table with every word below 100000, as ADMISSIBLE contents. -/
def adm6 (pf : pre6.Contents (Elt F)) (h : ∀ x, ((pf 0 x : BitVec 32)).toNat < 100000) : (pcfg6 (F := F)).Adm :=
  ⟨pf, ok6_of_lt pf h⟩

/-- They ARE the contents given. -/
theorem adm6_val (pf : pre6.Contents (Elt F)) (h : ∀ x, ((pf 0 x : BitVec 32)).toNat < 100000) : (adm6 pf h).1 = pf := rfl

/-- Pipeline 6's one table is main_arg0's buffer. -/
theorem pre6_ref (k : Fin 1) : pre6.ref k = main_arg0 := by
  obtain rfl : k = 0 := Subsingleton.elim _ _; rfl

/-- The table as a core's buffer contents `T` have it. -/
abbrev tbl6 {c : Dev nD} (T : (b : Ref sig .tc) → Buf (Elt F) ((c : Thread nD τ).loc b)) : pre6.Contents (Elt F) :=
  fun k => T (pre6.ref k)

/-- Its words are main_arg0's words. -/
theorem tbl6_lt {c : Dev nD} (T : (b : Ref sig .tc) → Buf (Elt F) ((c : Thread nD τ).loc b))
    (h : ∀ x : S10000.Idx, ((T main_arg0 x : BitVec 32)).toNat < 100000) : ∀ x, ((tbl6 T 0 x : BitVec 32)).toNat < 100000 := h

/-- The side condition of pipeline 7's table at any contents whose words are all below 100000: window 0's block
    index is ![word, 0, 0], and row `word` of the [100000, 1, 128] array is inside it; the element type is word-wide. -/
theorem ok7_of_lt (pf : pre7.Contents (Elt F)) (h : ∀ x, ((pf 0 x : BitVec 32)).toNat < 100000) : ok7 (F := F) pf := by
  intro i
  obtain ⟨w, hw, e⟩ : ∃ w : BitVec 32, w.toNat < 100000 ∧ cc7_transform_0 Facts₀.k7_off1_inb Facts₀.numel1_S1 pf i = ![w.toNat, 0, 0] :=
    ⟨_, h _, rfl⟩
  refine ⟨fun a => ?_, Or.inl rfl⟩
  rw [e]
  fin_cases a <;> simp [S1x1x128, S100000x1x128] <;> omega

/-- Contents of pipeline 7's table with every word below 100000, as ADMISSIBLE contents. -/
def adm7 (pf : pre7.Contents (Elt F)) (h : ∀ x, ((pf 0 x : BitVec 32)).toNat < 100000) : (pcfg7 (F := F)).Adm :=
  ⟨pf, ok7_of_lt pf h⟩

/-- They ARE the contents given. -/
theorem adm7_val (pf : pre7.Contents (Elt F)) (h : ∀ x, ((pf 0 x : BitVec 32)).toNat < 100000) : (adm7 pf h).1 = pf := rfl

/-- Pipeline 7's one table is main_arg1's buffer. -/
theorem pre7_ref (k : Fin 1) : pre7.ref k = main_arg1 := by
  obtain rfl : k = 0 := Subsingleton.elim _ _; rfl

/-- The table as a core's buffer contents `T` have it. -/
abbrev tbl7 {c : Dev nD} (T : (b : Ref sig .tc) → Buf (Elt F) ((c : Thread nD τ).loc b)) : pre7.Contents (Elt F) :=
  fun k => T (pre7.ref k)

/-- Its words are main_arg1's words. -/
theorem tbl7_lt {c : Dev nD} (T : (b : Ref sig .tc) → Buf (Elt F) ((c : Thread nD τ).loc b))
    (h : ∀ x : S10000.Idx, ((T main_arg1 x : BitVec 32)).toNat < 100000) : ∀ x, ((tbl7 T 0 x : BitVec 32)).toNat < 100000 := h

end Cert.KernelIdeal.Hand

end
-- ==== Proof.KI.Reg6.lean ====
/-
  Gather region 6 at a parameter `V` (the TensorCore's buffer contents when the region is entered) and admissible
  contents `a` of its table, over the pipeline pinned at them. Window 0 is one row of the [100000, 1, 128] table
  array, the row named by the table word at the grid point; window 1 is row `i` of the [10000, 1, 128] result. The body
  copies the input block to the output block: a whole-block load, and a whole-block store of what was loaded. The
  table itself is carried through the region's invariant untouched, at the full share.
-/
import proofs.«114291_j3908420239568_2_alg».proof.Proof.Gen.KernelIdeal.Launch
import proofs.«114291_j3908420239568_2_alg».proof.Proof.Gen.KernelIdeal.Skeleton
import proofs.«114291_j3908420239568_2_alg».proof.Proof.KI.Adm6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule's names, at any admissible contents of the table -/

/-- The current staging memref of each window at point `t`. -/
abbrev st6_0 (a : (pcfg6 (F := F)).Adm) (t : Fin (cfg6 a).N) := ((cfg6 a).win 0).stage ((cfg6 a).slots t 0)
abbrev st6_1 (a : (pcfg6 (F := F)).Adm) (t : Fin (cfg6 a).N) := ((cfg6 a).win 1).stage ((cfg6 a).slots t 1)

/-- The kernel body at point `t`, on what the pipeline calls it with. -/
abbrev bodyAt6 (a : (pcfg6 (F := F)).Adm) (t : Fin (cfg6 a).N) : Prog (TpuEff nD τ sig (Elt F) Λ₀ .tc) PUnit :=
  cc6__gather_kernel (grid6.coords t) (Memref.whole main_arg0) (Memref.isWhole_whole _) (spec6_0.stage ((cfg6 a).slots t 0)) (hstage6_0 (((cfg6 a).slots t 0).cast nbuf6_0)) (spec6_1.stage ((cfg6 a).slots t 1)) (hstage6_1 (((cfg6 a).slots t 1).cast nbuf6_1))

section Region
variable (V : (c : Dev nD) → (b : Ref sig .tc) → Buf (Elt F) ((c : Thread nD τ).loc b))
variable (a : (pcfg6 (F := F)).Adm)

/-! ## The windows' blocks -/

/-- Window `w`'s block at point `t`, read off its array as the region finds it (`V`); window 0's is a function of the
    table's word at the point. -/
def iblk6 (c : Dev nD) (w : Fin (cfg6 a).W) (t : Fin (cfg6 a).N) : (((cfg6 a).win w).xblock ((cfg6 a).grid.coords t)).Idx → Elt F ((cfg6 a).win w).elt :=
  (((cfg6 a).win w).blk t).view.read (Elt F) (V c (Pipeline.arrRef spec6 w))

/-- Input window 0's current staging buffer holds its block at every point, fetched there or not (unfetched, the
    block index has not moved), for any proof data whose array is `V`'s and whose body leaves the block in place. -/
theorem before6_0_of {c : Dev nD} (dat : Dat τ (Elt F) Unit ℕ (UR sig nD τ) ℕ (cfg6 a) c) (hA : dat.A 0 = V c (Pipeline.arrRef spec6 0))
    (hafter : ∀ t, dat.after 0 t = iblk6 V a c 0 t) (t : Fin (cfg6 a).N) (d) : dat.before 0 t d = iblk6 V a c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S1x1x128 := Rect.unit (s := S1x1x128) ![0, 0, 0] S1x1x128.size inb_S1x1x128_S1x1x128_0_0_0

/-- Window 1's staging buffer after the body, from the input block: its one store as a piece. -/
def out6_1 (x0 : Vec F S1x1x128 .f32) : Vec F S1x1x128 .f32 :=
  View.canon [⟨r6_0, k6_pay1 (View.ld x0 r6_0)⟩]

/-- The store is of the whole buffer, so it covers it. -/
theorem cover6_1 (p0 : Vec F S1x1x128 .f32) (y : S1x1x128.Idx) :
    ∃ pc ∈ ([⟨r6_0, p0⟩] : List (View.Piece (Elt F) S1x1x128 .f32)), y ∈ pc.1.set :=
  View.cover_of_tiled [⟨r6_0, p0⟩] S1x1x128.size (by rfl) y

/-! ## The body's triple -/

set_option maxHeartbeats 1000000 in
/-- The kernel body on whole staging memrefs, the input's at read contents `x0` and the output's at anything, runs to
    the continuation holding the input's as it was and the output's at `out6_1 x0`. The table memref is not touched. -/
theorem sound_kernel6 (c : Dev nD) (E : Set ℕ) (i : grid6.Coords) (arg1 : Memref sig .tc .smem S10000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out6_1 x0)) -∗ K ⟨⟩))
      ⊢ wp frame (wpE (defs₀ (F := F)) Variants.none c none) E (cc6__gather_kernel i arg1 harg1 arg2 harg2 arg3 harg3) K := by
  simp only [cc6__gather_kernel_eq_skeleton]; unfold cc6__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6_1 _)

/-! ## The pipeline's proof data -/

/-- The table on core `c`, whole, at the admissible contents: what the region's invariant carries beside the class's. -/
abbrev ΦTab6 (c : Dev nD) : sProp 𝕄 :=
  Pipeline.prefHeld (Ix := Unit) (Name := ℕ) (U := UR sig nD τ) (Lvl := ℕ) pre6 c (fun _ => fullShare) a.1

/-- The proof data of pipeline 6 on core `c`: the arrays as the region finds them (`V`); after the body at point `t`
    the input's buffer at its block and the output's at `out6_1` of it; the invariant the scoped rest, the generator
    register and the table, all untouched; nothing owed; full shares. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => out6_1 (iblk6 V a c 0 t)
  Φ _ := iprop(Pipeline.ΦA spec6 c ∗ ΦTab6 a c)
  q _ := fullShare
  owed _ := 0

/-- The proof data's arrays are the region-entry contents. -/
theorem A_eq6 (c : Dev nD) (w : Fin (cfg6 a).W) : (dat6 V a c).A w = V c (Pipeline.arrRef spec6 w) := by
  dsimp only [dat6]

/-- What the body leaves, window by window. -/
theorem after6_0 (c : Dev nD) (t : Fin (cfg6 a).N) : (dat6 V a c).after 0 t = iblk6 V a c 0 t := by dsimp only [dat6]; try rfl
theorem after6_1 (c : Dev nD) (t : Fin (cfg6 a).N) : (dat6 V a c).after 1 t = out6_1 (iblk6 V a c 0 t) := by dsimp only [dat6]; try rfl

/-- The input's current staging buffer holds its block at every point, fetched there or not. -/
theorem before6_0 (c : Dev nD) (t : Fin (cfg6 a).N) (d) : (dat6 V a c).before 0 t d = iblk6 V a c 0 t :=
  before6_0_of V a (dat6 V a c) (A_eq6 V a c 0) (after6_0 V a c) t d

/-! ## The body obligation, at a generic point -/

/-- What the body is called with at point `t`, the windows one by one, -/
def bodyPre6 (c : Dev nD) (t : Fin (cfg6 a).N) : sProp 𝕄 :=
  iprop((dat6 V a c).Φ t.castSucc ∗ (dat6 V a c).owesAt () t.castSucc
    ∗ (∃ d, owns (c : Thread nD τ) (st6_0 a t) fullShare ((dat6 V a c).before 0 t d))
    ∗ (∃ d, owns (c : Thread nD τ) (st6_1 a t) fullShare ((dat6 V a c).before 1 t d)))

/-- and what it returns. -/
def bodyPost6 (c : Dev nD) (t : Fin (cfg6 a).N) : sProp 𝕄 :=
  iprop((dat6 V a c).Φ t.succ ∗ (dat6 V a c).owesAt () t.succ
    ∗ owns (c : Thread nD τ) (st6_0 a t) fullShare ((dat6 V a c).after 0 t)
    ∗ owns (c : Thread nD τ) (st6_1 a t) fullShare ((dat6 V a c).after 1 t))

/-- The body at any point: the input's memref holds its block, so `sound_kernel6` applies; the invariant and the
    core's `owes` pass through unread. -/
theorem sound_body6 (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  simp only [before6_0]
  rw [show (dat6 V a c).Φ t.succ = (dat6 V a c).Φ t.castSucc from rfl,
    show (dat6 V a c).owesAt () t.succ = (dat6 V a c).owesAt () t.castSucc from rfl,
    after6_0, after6_1]
  iintro ⟨HΦ, Ho, ⟨%d0, H0⟩, ⟨%d1, H1⟩⟩
  iapply (sound_kernel6 c Set.univ _ _ _ _ _ _ _ (iblk6 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation6 (c : Dev nD) : BodyObligation (dat6 (F := F) V a c) (defs₀ (F := F)) Variants.none () Set.univ := fun t => by
  rw [bigSep_W6, bigSep_W6]
  exact sound_body6 V a c t

end Region

end Cert.KernelIdeal.Hand

end
-- ==== Proof.KI.Reg7.lean ====
/-
  Gather region 7 at a parameter `V` (the TensorCore's buffer contents when the region is entered) and admissible
  contents `a` of its table, over the pipeline pinned at them. Window 0 is one row of the [100000, 1, 128] table
  array, the row named by the table word at the grid point; window 1 is row `i` of the [10000, 1, 128] result. The body
  copies the input block to the output block: a whole-block load, and a whole-block store of what was loaded. The
  table itself is carried through the region's invariant untouched, at the full share.
-/
import proofs.«114291_j3908420239568_2_alg».proof.Proof.Gen.KernelIdeal.Launch
import proofs.«114291_j3908420239568_2_alg».proof.Proof.Gen.KernelIdeal.Skeleton
import proofs.«114291_j3908420239568_2_alg».proof.Proof.KI.Adm6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule's names, at any admissible contents of the table -/

/-- The current staging memref of each window at point `t`. -/
abbrev st7_0 (a : (pcfg7 (F := F)).Adm) (t : Fin (cfg7 a).N) := ((cfg7 a).win 0).stage ((cfg7 a).slots t 0)
abbrev st7_1 (a : (pcfg7 (F := F)).Adm) (t : Fin (cfg7 a).N) := ((cfg7 a).win 1).stage ((cfg7 a).slots t 1)

/-- The kernel body at point `t`, on what the pipeline calls it with. -/
abbrev bodyAt7 (a : (pcfg7 (F := F)).Adm) (t : Fin (cfg7 a).N) : Prog (TpuEff nD τ sig (Elt F) Λ₀ .tc) PUnit :=
  cc7__gather_kernel (grid7.coords t) (Memref.whole main_arg1) (Memref.isWhole_whole _) (spec7_0.stage ((cfg7 a).slots t 0)) (hstage7_0 (((cfg7 a).slots t 0).cast nbuf7_0)) (spec7_1.stage ((cfg7 a).slots t 1)) (hstage7_1 (((cfg7 a).slots t 1).cast nbuf7_1))

section Region
variable (V : (c : Dev nD) → (b : Ref sig .tc) → Buf (Elt F) ((c : Thread nD τ).loc b))
variable (a : (pcfg7 (F := F)).Adm)

/-! ## The windows' blocks -/

/-- Window `w`'s block at point `t`, read off its array as the region finds it (`V`); window 0's is a function of the
    table's word at the point. -/
def iblk7 (c : Dev nD) (w : Fin (cfg7 a).W) (t : Fin (cfg7 a).N) : (((cfg7 a).win w).xblock ((cfg7 a).grid.coords t)).Idx → Elt F ((cfg7 a).win w).elt :=
  (((cfg7 a).win w).blk t).view.read (Elt F) (V c (Pipeline.arrRef spec7 w))

/-- Input window 0's current staging buffer holds its block at every point, fetched there or not (unfetched, the
    block index has not moved), for any proof data whose array is `V`'s and whose body leaves the block in place. -/
theorem before7_0_of {c : Dev nD} (dat : Dat τ (Elt F) Unit ℕ (UR sig nD τ) ℕ (cfg7 a) c) (hA : dat.A 0 = V c (Pipeline.arrRef spec7 0))
    (hafter : ∀ t, dat.after 0 t = iblk7 V a c 0 t) (t : Fin (cfg7 a).N) (d) : dat.before 0 t d = iblk7 V a c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S1x1x128 := Rect.unit (s := S1x1x128) ![0, 0, 0] S1x1x128.size inb_S1x1x128_S1x1x128_0_0_0

/-- Window 1's staging buffer after the body, from the input block: its one store as a piece. -/
def out7_1 (x0 : Vec F S1x1x128 .f32) : Vec F S1x1x128 .f32 :=
  View.canon [⟨r7_0, k7_pay1 (View.ld x0 r7_0)⟩]

/-- The store is of the whole buffer, so it covers it. -/
theorem cover7_1 (p0 : Vec F S1x1x128 .f32) (y : S1x1x128.Idx) :
    ∃ pc ∈ ([⟨r7_0, p0⟩] : List (View.Piece (Elt F) S1x1x128 .f32)), y ∈ pc.1.set :=
  View.cover_of_tiled [⟨r7_0, p0⟩] S1x1x128.size (by rfl) y

/-! ## The body's triple -/

set_option maxHeartbeats 1000000 in
/-- The kernel body on whole staging memrefs, the input's at read contents `x0` and the output's at anything, runs to
    the continuation holding the input's as it was and the output's at `out7_1 x0`. The table memref is not touched. -/
theorem sound_kernel7 (c : Dev nD) (E : Set ℕ) (i : grid7.Coords) (arg1 : Memref sig .tc .smem S10000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out7_1 x0)) -∗ K ⟨⟩))
      ⊢ wp frame (wpE (defs₀ (F := F)) Variants.none c none) E (cc7__gather_kernel i arg1 harg1 arg2 harg2 arg3 harg3) K := by
  simp only [cc7__gather_kernel_eq_skeleton]; unfold cc7__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover7_1 _)

/-! ## The pipeline's proof data -/

/-- The table on core `c`, whole, at the admissible contents: what the region's invariant carries beside the class's. -/
abbrev ΦTab7 (c : Dev nD) : sProp 𝕄 :=
  Pipeline.prefHeld (Ix := Unit) (Name := ℕ) (U := UR sig nD τ) (Lvl := ℕ) pre7 c (fun _ => fullShare) a.1

/-- The proof data of pipeline 7 on core `c`: the arrays as the region finds them (`V`); after the body at point `t`
    the input's buffer at its block and the output's at `out7_1` of it; the invariant the scoped rest, the generator
    register and the table, all untouched; nothing owed; full shares. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => out7_1 (iblk7 V a c 0 t)
  Φ _ := iprop(Pipeline.ΦA spec7 c ∗ ΦTab7 a c)
  q _ := fullShare
  owed _ := 0

/-- The proof data's arrays are the region-entry contents. -/
theorem A_eq7 (c : Dev nD) (w : Fin (cfg7 a).W) : (dat7 V a c).A w = V c (Pipeline.arrRef spec7 w) := by
  dsimp only [dat7]

/-- What the body leaves, window by window. -/
theorem after7_0 (c : Dev nD) (t : Fin (cfg7 a).N) : (dat7 V a c).after 0 t = iblk7 V a c 0 t := by dsimp only [dat7]; try rfl
theorem after7_1 (c : Dev nD) (t : Fin (cfg7 a).N) : (dat7 V a c).after 1 t = out7_1 (iblk7 V a c 0 t) := by dsimp only [dat7]; try rfl

/-- The input's current staging buffer holds its block at every point, fetched there or not. -/
theorem before7_0 (c : Dev nD) (t : Fin (cfg7 a).N) (d) : (dat7 V a c).before 0 t d = iblk7 V a c 0 t :=
  before7_0_of V a (dat7 V a c) (A_eq7 V a c 0) (after7_0 V a c) t d

/-! ## The body obligation, at a generic point -/

/-- What the body is called with at point `t`, the windows one by one, -/
def bodyPre7 (c : Dev nD) (t : Fin (cfg7 a).N) : sProp 𝕄 :=
  iprop((dat7 V a c).Φ t.castSucc ∗ (dat7 V a c).owesAt () t.castSucc
    ∗ (∃ d, owns (c : Thread nD τ) (st7_0 a t) fullShare ((dat7 V a c).before 0 t d))
    ∗ (∃ d, owns (c : Thread nD τ) (st7_1 a t) fullShare ((dat7 V a c).before 1 t d)))

/-- and what it returns. -/
def bodyPost7 (c : Dev nD) (t : Fin (cfg7 a).N) : sProp 𝕄 :=
  iprop((dat7 V a c).Φ t.succ ∗ (dat7 V a c).owesAt () t.succ
    ∗ owns (c : Thread nD τ) (st7_0 a t) fullShare ((dat7 V a c).after 0 t)
    ∗ owns (c : Thread nD τ) (st7_1 a t) fullShare ((dat7 V a c).after 1 t))

/-- The body at any point: the input's memref holds its block, so `sound_kernel7` applies; the invariant and the
    core's `owes` pass through unread. -/
theorem sound_body7 (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7 bodyAt7
  simp only [before7_0]
  rw [show (dat7 V a c).Φ t.succ = (dat7 V a c).Φ t.castSucc from rfl,
    show (dat7 V a c).owesAt () t.succ = (dat7 V a c).owesAt () t.castSucc from rfl,
    after7_0, after7_1]
  iintro ⟨HΦ, Ho, ⟨%d0, H0⟩, ⟨%d1, H1⟩⟩
  iapply (sound_kernel7 c Set.univ _ _ _ _ _ _ _ (iblk7 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation7 (c : Dev nD) : BodyObligation (dat7 (F := F) V a c) (defs₀ (F := F)) Variants.none () Set.univ := fun t => by
  rw [bigSep_W7, bigSep_W7]
  exact sound_body7 V a c t

end Region

end Cert.KernelIdeal.Hand

end
-- ==== Proof.KI.Bound.lean ====
/-
  The contents of the TensorCore's unscoped buffers at each boundary between two items of @main — seven stretches of
  host operations and eight kernel regions. At launch they are the launch memory; a host stretch leaves what its
  operations compute from what it finds; a region leaves its output array at what its write-backs leave and every
  other buffer as it was. No item writes an argument, so the two seed arrays reach the two gather regions as
  launched; with every seed below 100000 they are admissible tables for those regions' index maps.
-/
import proofs.«114291_j3908420239568_2_alg».proof.Proof.Gen.KernelIdeal.Launch
import proofs.«114291_j3908420239568_2_alg».proof.Proof.Gen.KernelIdeal.Skeleton
import proofs.«114291_j3908420239568_2_alg».proof.Proof.Gen.KernelIdeal.Points
import proofs.«114291_j3908420239568_2_alg».proof.Proof.KI.Reg0
import proofs.«114291_j3908420239568_2_alg».proof.Proof.KI.Reg1
import proofs.«114291_j3908420239568_2_alg».proof.Proof.KI.Reg2
import proofs.«114291_j3908420239568_2_alg».proof.Proof.KI.Reg3
import proofs.«114291_j3908420239568_2_alg».proof.Proof.KI.Reg4
import proofs.«114291_j3908420239568_2_alg».proof.Proof.KI.Reg5
import proofs.«114291_j3908420239568_2_alg».proof.Proof.KI.Reg6
import proofs.«114291_j3908420239568_2_alg».proof.Proof.KI.Reg7
import proofs.«114291_j3908420239568_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch hostOps0. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- After region 0: its arrays at what the pipeline leaves (the inputs as entered, the output's write-backs folded),
    every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the host stretch hostOps1. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h

/-- After region 1: its arrays at what the pipeline leaves (the inputs as entered, the output's write-backs folded),
    every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After region 2: its arrays at what the pipeline leaves (the inputs as entered, the output's write-backs folded),
    every other buffer as entered. -/
def W5 (c : Dev nD) : Valuation τ sig (Elt F) :=
  Pipeline.withArrays spec2 c (W4 m c) fun w => (dat2 (E4 m) c).arrAt w cfg2.N
theorem W5_arr (c : Dev nD) (w : Fin cfg2.W) :
    W5 m c (Proc.devRef .tc (Pipeline.arrRef spec2 w)) = (dat2 (E4 m) c).arrAt w cfg2.N := by
  unfold W5; exact Pipeline.withArrays_arr spec2 (launch2 (F := F)).win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev E5 : (c : Dev nD) → (b : Ref sig .tc) → Buf (Elt F) ((c : Thread nD τ).loc b) := fun c b => W5 m c b
theorem hF2 (c : Dev nD) (w : Fin cfg2.W) : (dat2 (E4 m) c).arrAt w cfg2.N = E5 m c (Pipeline.arrRef spec2 w) :=
  (W5_arr m c w).symm
theorem hrest2 (c : Dev nD) : ∀ b, b ∉ Finset.univ.image (Pipeline.arrRef spec2) → E5 m c b = E4 m c b :=
  fun b hb => W5_of_ne m c b fun w e => hb (Finset.mem_image.mpr ⟨w, Finset.mem_univ _, e⟩)

/-- After the host stretch hostOps3. -/
abbrev W6 : Dev nD → Valuation τ sig (Elt F) := fun c => StableHlo.after hostOps3 (W5 m c)
abbrev E6 : (c : Dev nD) → (b : Ref sig .tc) → Buf (Elt F) ((c : Thread nD τ).loc b) := fun c b => W6 m c b
theorem W6_of (c : Dev nD) (r : Ref sig .tc) (h : r ∉ hostOps3_W) : W6 m c (Proc.devRef .tc r) = W5 m c (Proc.devRef .tc r) :=
  StableHlo.after_of_writes_sub hostOps3 _ hostOps3_writes h

/-- After region 3: its arrays at what the pipeline leaves (the inputs as entered, the output's write-backs folded),
    every other buffer as entered. -/
def W7 (c : Dev nD) : Valuation τ sig (Elt F) :=
  Pipeline.withArrays spec3 c (W6 m c) fun w => (dat3 (E6 m) c).arrAt w cfg3.N
theorem W7_arr (c : Dev nD) (w : Fin cfg3.W) :
    W7 m c (Proc.devRef .tc (Pipeline.arrRef spec3 w)) = (dat3 (E6 m) c).arrAt w cfg3.N := by
  unfold W7; exact Pipeline.withArrays_arr spec3 (launch3 (F := F)).win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev E7 : (c : Dev nD) → (b : Ref sig .tc) → Buf (Elt F) ((c : Thread nD τ).loc b) := fun c b => W7 m c b
theorem hF3 (c : Dev nD) (w : Fin cfg3.W) : (dat3 (E6 m) c).arrAt w cfg3.N = E7 m c (Pipeline.arrRef spec3 w) :=
  (W7_arr m c w).symm
theorem hrest3 (c : Dev nD) : ∀ b, b ∉ Finset.univ.image (Pipeline.arrRef spec3) → E7 m c b = E6 m c b :=
  fun b hb => W7_of_ne m c b fun w e => hb (Finset.mem_image.mpr ⟨w, Finset.mem_univ _, e⟩)

/-- After the host stretch hostOps4. -/
abbrev W8 : Dev nD → Valuation τ sig (Elt F) := fun c => StableHlo.after hostOps4 (W7 m c)
abbrev E8 : (c : Dev nD) → (b : Ref sig .tc) → Buf (Elt F) ((c : Thread nD τ).loc b) := fun c b => W8 m c b
theorem W8_of (c : Dev nD) (r : Ref sig .tc) (h : r ∉ hostOps4_W) : W8 m c (Proc.devRef .tc r) = W7 m c (Proc.devRef .tc r) :=
  StableHlo.after_of_writes_sub hostOps4 _ hostOps4_writes h

/-- After region 4: its arrays at what the pipeline leaves (the inputs as entered, the output's write-backs folded),
    every other buffer as entered. -/
def W9 (c : Dev nD) : Valuation τ sig (Elt F) :=
  Pipeline.withArrays spec4 c (W8 m c) fun w => (dat4 (E8 m) c).arrAt w cfg4.N
theorem W9_arr (c : Dev nD) (w : Fin cfg4.W) :
    W9 m c (Proc.devRef .tc (Pipeline.arrRef spec4 w)) = (dat4 (E8 m) c).arrAt w cfg4.N := by
  unfold W9; exact Pipeline.withArrays_arr spec4 (launch4 (F := F)).win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- The same read at the TensorCore's references. -/
abbrev E9 : (c : Dev nD) → (b : Ref sig .tc) → Buf (Elt F) ((c : Thread nD τ).loc b) := fun c b => W9 m c b
theorem hF4 (c : Dev nD) (w : Fin cfg4.W) : (dat4 (E8 m) c).arrAt w cfg4.N = E9 m c (Pipeline.arrRef spec4 w) :=
  (W9_arr m c w).symm
theorem hrest4 (c : Dev nD) : ∀ b, b ∉ Finset.univ.image (Pipeline.arrRef spec4) → E9 m c b = E8 m c b :=
  fun b hb => W9_of_ne m c b fun w e => hb (Finset.mem_image.mpr ⟨w, Finset.mem_univ _, e⟩)

/-- After region 5: its arrays at what the pipeline leaves (the inputs as entered, the output's write-backs folded),
    every other buffer as entered. -/
def W10 (c : Dev nD) : Valuation τ sig (Elt F) :=
  Pipeline.withArrays spec5 c (W9 m c) fun w => (dat5 (E9 m) c).arrAt w cfg5.N
theorem W10_arr (c : Dev nD) (w : Fin cfg5.W) :
    W10 m c (Proc.devRef .tc (Pipeline.arrRef spec5 w)) = (dat5 (E9 m) c).arrAt w cfg5.N := by
  unfold W10; exact Pipeline.withArrays_arr spec5 (launch5 (F := F)).win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
/-- The same read at the TensorCore's references. -/
abbrev E10 : (c : Dev nD) → (b : Ref sig .tc) → Buf (Elt F) ((c : Thread nD τ).loc b) := fun c b => W10 m c b
theorem hF5 (c : Dev nD) (w : Fin cfg5.W) : (dat5 (E9 m) c).arrAt w cfg5.N = E10 m c (Pipeline.arrRef spec5 w) :=
  (W10_arr m c w).symm
theorem hrest5 (c : Dev nD) : ∀ b, b ∉ Finset.univ.image (Pipeline.arrRef spec5) → E10 m c b = E9 m c b :=
  fun b hb => W10_of_ne m c b fun w e => hb (Finset.mem_image.mpr ⟨w, Finset.mem_univ _, e⟩)

/-- After the host stretch hostOps6. -/
abbrev W11 : Dev nD → Valuation τ sig (Elt F) := fun c => StableHlo.after hostOps6 (W10 m c)
abbrev E11 : (c : Dev nD) → (b : Ref sig .tc) → Buf (Elt F) ((c : Thread nD τ).loc b) := fun c b => W11 m c b
theorem W11_of (c : Dev nD) (r : Ref sig .tc) (h : r ∉ hostOps6_W) : W11 m c (Proc.devRef .tc r) = W10 m c (Proc.devRef .tc r) :=
  StableHlo.after_of_writes_sub hostOps6 _ hostOps6_writes h

/-! ## The two regions that read a seed table -/

variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

/-- No item before the first gather writes the first seed array. -/
theorem W11_arg0 (c : Dev nD) : W11 m c (Proc.devRef .tc main_arg0) = m ((c : Thread nD τ).loc main_arg0) :=
  (W11_of m c main_arg0 (by decide)).trans <| (W10_of_ne m c main_arg0 (by decide)).trans <| (W9_of_ne m c main_arg0 (by decide)).trans <| (W8_of m c main_arg0 (by decide)).trans <| (W7_of_ne m c main_arg0 (by decide)).trans <| (W6_of m c main_arg0 (by decide)).trans <| (W5_of_ne m c main_arg0 (by decide)).trans <| (W4_of_ne m c main_arg0 (by decide)).trans <| (W3_of m c main_arg0 (by decide)).trans <| (W2_of_ne m c main_arg0 (by decide)).trans <| (W1_of m c main_arg0 (by decide)).trans rfl
/-- The first gather's table, admissible: the seeds as the region finds them, each below 100000. -/
def a6 : (pcfg6 (F := F)).Adm :=
  adm6 (tbl6 (E11 m (0 : Dev nD))) (tbl6_lt (E11 m (0 : Dev nD)) fun x => by
    rw [show E11 m (0 : Dev nD) main_arg0 = m (((0 : Dev nD) : Thread nD τ).loc main_arg0) from W11_arg0 m 0]; exact hs0 0 x)

/-- After region 6: its arrays at what the pipeline leaves, every other buffer as entered. -/
def W12 (c : Dev nD) : Valuation τ sig (Elt F) :=
  Pipeline.withArrays spec6 c (W11 m c) fun w => (dat6 (E11 m) (a6 m hs0) c).arrAt w (cfg6 (a6 m hs0)).N
theorem W12_arr (c : Dev nD) (w : Fin (cfg6 (a6 m hs0)).W) :
    W12 m hs0 c (Proc.devRef .tc (Pipeline.arrRef spec6 w)) = (dat6 (E11 m) (a6 m hs0) c).arrAt w (cfg6 (a6 m hs0)).N := by
  unfold W12; exact Pipeline.withArrays_arr spec6 (launch6 (F := F)).win.arr_inj c _ _ w
theorem W12_of_ne (c : Dev nD) (b : Ref sig .tc) (hb : ∀ w, Pipeline.arrRef spec6 w ≠ b) :
    W12 m hs0 c (Proc.devRef .tc b) = W11 m c (Proc.devRef .tc b) := by
  unfold W12; exact Pipeline.withArrays_of_ne spec6 c _ _ b hb
abbrev E12 : (c : Dev nD) → (b : Ref sig .tc) → Buf (Elt F) ((c : Thread nD τ).loc b) := fun c b => W12 m hs0 c b
theorem hF6 (c : Dev nD) (w : Fin (cfg6 (a6 m hs0)).W) : (dat6 (E11 m) (a6 m hs0) c).arrAt w (cfg6 (a6 m hs0)).N = E12 m hs0 c (Pipeline.arrRef spec6 w) :=
  (W12_arr m hs0 c w).symm
theorem hrest6 (c : Dev nD) : ∀ b, b ∉ Finset.univ.image (Pipeline.arrRef spec6) → E12 m hs0 c b = E11 m c b :=
  fun b hb => W12_of_ne m hs0 c b fun w e => hb (Finset.mem_image.mpr ⟨w, Finset.mem_univ _, e⟩)

/-- After the host stretch hostOps7. -/
abbrev W13 : Dev nD → Valuation τ sig (Elt F) := fun c => StableHlo.after hostOps7 (W12 m hs0 c)
abbrev E13 : (c : Dev nD) → (b : Ref sig .tc) → Buf (Elt F) ((c : Thread nD τ).loc b) := fun c b => W13 m hs0 c b
theorem W13_of (c : Dev nD) (r : Ref sig .tc) (h : r ∉ hostOps7_W) : W13 m hs0 c (Proc.devRef .tc r) = W12 m hs0 c (Proc.devRef .tc r) :=
  StableHlo.after_of_writes_sub hostOps7 _ hostOps7_writes h

/-- No item before the second gather writes the second seed array. -/
theorem W13_arg1 (c : Dev nD) : W13 m hs0 c (Proc.devRef .tc main_arg1) = m ((c : Thread nD τ).loc main_arg1) :=
  (W13_of m hs0 c main_arg1 (by decide)).trans <| (W12_of_ne m hs0 c main_arg1 (by decide)).trans <| (W11_of m c main_arg1 (by decide)).trans <| (W10_of_ne m c main_arg1 (by decide)).trans <| (W9_of_ne m c main_arg1 (by decide)).trans <| (W8_of m c main_arg1 (by decide)).trans <| (W7_of_ne m c main_arg1 (by decide)).trans <| (W6_of m c main_arg1 (by decide)).trans <| (W5_of_ne m c main_arg1 (by decide)).trans <| (W4_of_ne m c main_arg1 (by decide)).trans <| (W3_of m c main_arg1 (by decide)).trans <| (W2_of_ne m c main_arg1 (by decide)).trans <| (W1_of m c main_arg1 (by decide)).trans rfl
/-- The second gather's table, admissible. -/
def a7 : (pcfg7 (F := F)).Adm :=
  adm7 (tbl7 (E13 m hs0 (0 : Dev nD))) (tbl7_lt (E13 m hs0 (0 : Dev nD)) fun x => by
    rw [show E13 m hs0 (0 : Dev nD) main_arg1 = m (((0 : Dev nD) : Thread nD τ).loc main_arg1) from W13_arg1 m hs0 0]; exact hs1 0 x)

/-- After region 7. -/
def W14 (c : Dev nD) : Valuation τ sig (Elt F) :=
  Pipeline.withArrays spec7 c (W13 m hs0 c) fun w => (dat7 (E13 m hs0) (a7 m hs0 hs1) c).arrAt w (cfg7 (a7 m hs0 hs1)).N
theorem W14_arr (c : Dev nD) (w : Fin (cfg7 (a7 m hs0 hs1)).W) :
    W14 m hs0 hs1 c (Proc.devRef .tc (Pipeline.arrRef spec7 w)) = (dat7 (E13 m hs0) (a7 m hs0 hs1) c).arrAt w (cfg7 (a7 m hs0 hs1)).N := by
  unfold W14; exact Pipeline.withArrays_arr spec7 (launch7 (F := F)).win.arr_inj c _ _ w
theorem W14_of_ne (c : Dev nD) (b : Ref sig .tc) (hb : ∀ w, Pipeline.arrRef spec7 w ≠ b) :
    W14 m hs0 hs1 c (Proc.devRef .tc b) = W13 m hs0 c (Proc.devRef .tc b) := by
  unfold W14; exact Pipeline.withArrays_of_ne spec7 c _ _ b hb
abbrev E14 : (c : Dev nD) → (b : Ref sig .tc) → Buf (Elt F) ((c : Thread nD τ).loc b) := fun c b => W14 m hs0 hs1 c b
theorem hF7 (c : Dev nD) (w : Fin (cfg7 (a7 m hs0 hs1)).W) : (dat7 (E13 m hs0) (a7 m hs0 hs1) c).arrAt w (cfg7 (a7 m hs0 hs1)).N = E14 m hs0 hs1 c (Pipeline.arrRef spec7 w) :=
  (W14_arr m hs0 hs1 c w).symm
theorem hrest7 (c : Dev nD) : ∀ b, b ∉ Finset.univ.image (Pipeline.arrRef spec7) → E14 m hs0 hs1 c b = E13 m hs0 c b :=
  fun b hb => W14_of_ne m hs0 hs1 c b fun w e => hb (Finset.mem_image.mpr ⟨w, Finset.mem_univ _, e⟩)

/-- After the last host stretch. -/
abbrev W15 : Dev nD → Valuation τ sig (Elt F) := fun c => StableHlo.after hostOps8 (W14 m hs0 hs1 c)
theorem W15_of (c : Dev nD) (r : Ref sig .tc) (h : r ∉ hostOps8_W) : W15 m hs0 hs1 c (Proc.devRef .tc r) = W14 m hs0 hs1 c (Proc.devRef .tc r) :=
  StableHlo.after_of_writes_sub hostOps8 _ hostOps8_writes h

/-! ## The proof data family and the thread state -/

/-- The prefetched tables' admissible contents: none for the six dense regions, the seeds for the two gathers. -/
def adm : (p : Fin 8) → (pcfgs (F := F) p).Adm
  | ⟨0, _⟩ => cfg0.toPCfg_adm | ⟨1, _⟩ => cfg1.toPCfg_adm | ⟨2, _⟩ => cfg2.toPCfg_adm | ⟨3, _⟩ => cfg3.toPCfg_adm
  | ⟨4, _⟩ => cfg4.toPCfg_adm | ⟨5, _⟩ => cfg5.toPCfg_adm | ⟨6, _⟩ => a6 m hs0 | ⟨7, _⟩ => a7 m hs0 hs1
/-- Every pipeline's proof data, each at its region's entry contents. -/
def pdats : (p : Fin 8) → (c : Dev nD) → Dat τ (Elt F) Unit ℕ (UR sig nD τ) ℕ (Pipeline.pin (pcfgs (F := F)) (adm m hs0 hs1) p) c
  | ⟨0, _⟩ => fun c => dat0 (E1 m) c
  | ⟨1, _⟩ => fun c => dat1 (E3 m) c
  | ⟨2, _⟩ => fun c => dat2 (E4 m) c
  | ⟨3, _⟩ => fun c => dat3 (E6 m) c
  | ⟨4, _⟩ => fun c => dat4 (E8 m) c
  | ⟨5, _⟩ => fun c => dat5 (E9 m) c
  | ⟨6, _⟩ => fun c => dat6 (E11 m) (a6 m hs0) c
  | ⟨7, _⟩ => fun c => dat7 (E13 m hs0) (a7 m hs0 hs1) c

end Cert.KernelIdeal.Hand

end
-- ==== Proof.KI.Seg6.lean ====
/-
  Gather region 6 as a segment of the run: the four entailments around its thread states. The region is entered from
  every unscoped buffer of the core held at contents `W c` beside the generator register and the core's `owes`; its two
  arrays and its table are split out of those buffers, the table (held whole at the admissible contents, which are what
  `W c` has at the table's buffer) rides through the region's invariant, and at the exit everything is put back at
  contents `W' c` that have the arrays at what the pipeline leaves and agree with `W c` elsewhere.
-/
import proofs.«114291_j3908420239568_2_alg».proof.Proof.KI.Reg6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg
variable (W W' : Dev nD → Valuation τ sig (Elt F))
variable (a : (pcfg6 (F := F)).Adm)

/-- A valuation read at the TensorCore's references. -/
abbrev VW6 (W : Dev nD → Valuation τ sig (Elt F)) : (c : Dev nD) → (b : Ref sig .tc) → Buf (Elt F) ((c : Thread nD τ).loc b) := fun c b => W c b

/-- What enters the invariant beside the table and the scoped rest: the generator register at some state. -/
abbrev X6 (c : Dev nD) : sProp 𝕄 := iprop(∃ r, prngReg c r)
/-- What the invariant gives back: the generator register and the table, whole, at the admissible contents. -/
abbrev Y6 (c : Dev nD) : sProp 𝕄 := iprop((∃ r, prngReg c r) ∗ ΦTab6 a c)
/-- What bypasses the region: the unscoped buffers that are neither an array of it nor its table, as entered. -/
abbrev Z6 (c : Dev nD) : sProp 𝕄 :=
  Pipeline.unscopedRestP (Ix := Unit) (Name := ℕ) (U := UR sig nD τ) (Lvl := ℕ) pre6 spec6 c (VW6 W c)

/-- The one-pipeline family the library's splitting lemmas are cited at. -/
abbrev fam6 : (p : Unit) → (c : Dev nD) → Dat τ (Elt F) Unit ℕ (UR sig nD τ) ℕ (Pipeline.pin (fun _ : Unit => pcfg6 (F := F)) (fun _ => a) p) c :=
  fun _ c => dat6 (VW6 W) a c

set_option backward.isDefEq.respectTransparency.types false in
/-- ENTRY: the arrays at the entry contents, the table whole at the admissible contents, the `owes`, `X` and `Z`. -/
theorem hentry6 (L : GSem nD τ sig → Finset Unit) (lv : GSem nD τ sig → Unit → ℕ) (c : Dev nD)
    (hpf : a.1 = tbl6 (VW6 W c)) :
    iprop((StableHlo.held (c : Thread nD τ) (Pipeline.ucRefs τ sig) (W c)
          ∗ ((∃ r, prngReg c r) ∗ ∃ Wo, owes (c : Thread nD τ) (0 : CellTallies nD τ sig Unit) Wo))
        ∗ Pipeline.ownSems0 (fun k : PEmpty => k.elim) c ∗ (levAts L lv : sProp 𝕄))
      ⊢ |={Set.univ}=> iprop((dat6 (VW6 W) a c).arrays ((dat6 (VW6 W) a c).arrAt · 0)
          ∗ Pipeline.prefHeld pre6 c (fun _ => fullShare) a.1
          ∗ (dat6 (VW6 W) a c).owesAt () 0 ∗ X6 c ∗ Z6 W c) := by
  have hsplit := Pipeline.arrays_of_unscopedBufs (p := ()) (fun _ : Unit => pcfg6 (F := F)) (fun _ => a) (fam6 W a) winFacts6 arr_whole6 c
    ((dat6 (VW6 W) a c).share_full fun _ => rfl) (VW6 W c) fun _ => rfl
  rw [Pipeline.unscopedBufs_held, Pipeline.unscopedRest_split preFacts6] at hsplit
  iintro ⟨⟨Hub, Hp, HO⟩, -, -⟩
  ihave H := hsplit $$ Hub
  icases H with ⟨Ha, Htab, Hrest⟩
  imodintro
  isplitl [Ha]; · iexact Ha
  isplitl [Htab]; · rw [hpf]; iexact Htab
  isplitl [HO]
  · unfold Pipeline.Dat.owesAt Pipeline.owesWithin
    icases HO with ⟨%Wo, HO⟩; iexists Wo; isplitr; · ipureintro; exact fun _ _ => Or.inl trivial
    iexact HO
  isplitl [Hp]; · iexact Hp
  iexact Hrest

set_option backward.isDefEq.respectTransparency.types false in
/-- The invariant at the first point, from `X`, the table and the scoped buffers no window stages. -/
theorem hin6 (V : (c : Dev nD) → (b : Ref sig .tc) → Buf (Elt F) ((c : Thread nD τ).loc b)) (c : Dev nD) :
    iprop(X6 (F := F) c ∗ Pipeline.prefHeld pre6 c (fun _ => fullShare) a.1
        ∗ Pipeline.scopedRest (Ix := Unit) (Name := ℕ) (U := UR sig nD τ) (Lvl := ℕ) (Val := Elt F) (cfg6 a).spec c)
      ⊢ (dat6 V a c).Φ 0 := by
  rw [show (dat6 V a c).Φ 0 = iprop(Pipeline.ΦA spec6 c ∗ ΦTab6 a c) from rfl]; unfold Pipeline.ΦA
  iintro ⟨Hp, Ht, Hr⟩
  isplitl [Hr Hp]
  · isplitl [Hr]; · iexact Hr
    iexact Hp
  iexact Ht

set_option backward.isDefEq.respectTransparency.types false in
/-- The invariant at the last point gives back `Y`, no semaphore of the kernel's own, and those scoped buffers. -/
theorem hout6 (V : (c : Dev nD) → (b : Ref sig .tc) → Buf (Elt F) ((c : Thread nD τ).loc b)) (c : Dev nD) :
    (dat6 V a c).Φ (Fin.last (cfg6 a).N)
      ⊢ iprop(Y6 a c ∗ Pipeline.ownSems0 (fun k : PEmpty => k.elim) c
          ∗ Pipeline.scopedRest (Ix := Unit) (Name := ℕ) (U := UR sig nD τ) (Lvl := ℕ) (Val := Elt F) (cfg6 a).spec c) := by
  rw [Pipeline.ownSems0_none, show (dat6 V a c).Φ (Fin.last (cfg6 a).N) = iprop(Pipeline.ΦA spec6 c ∗ ΦTab6 a c) from rfl]; unfold Pipeline.ΦA
  iintro ⟨⟨Hr, Hp⟩, Ht⟩
  isplitl [Hp Ht]
  · isplitl [Hp]; · iexact Hp
    iexact Ht
  isplitr; · iempintro
  iexact Hr

set_option backward.isDefEq.respectTransparency.types false in
/-- EXIT: the arrays at what the pipeline leaves, the table (unchanged) and the bypassed buffers are every unscoped
    buffer at contents `W' c` that have the arrays so (`hF`) and agree with `W c` off them (`hrest`). -/
theorem hexit6 (c : Dev nD) (hpf : a.1 = tbl6 (VW6 W c))
    (hF : ∀ w, (dat6 (VW6 W) a c).arrAt w (cfg6 a).N = VW6 W' c (Pipeline.arrRef spec6 w))
    (hrest : ∀ b, b ∉ Finset.univ.image (Pipeline.arrRef spec6) → VW6 W' c b = VW6 W c b) :
    iprop((dat6 (VW6 W) a c).arrays ((dat6 (VW6 W) a c).arrAt · (cfg6 a).N)
        ∗ (dat6 (VW6 W) a c).owesAt () (Fin.last (cfg6 a).N) ∗ Y6 a c ∗ Z6 W c)
      ⊢ |={Set.univ}=> iprop(StableHlo.held (c : Thread nD τ) (Pipeline.ucRefs τ sig) (W' c)
          ∗ ((∃ r, prngReg c r) ∗ ∃ Wo, owes (c : Thread nD τ) (0 : CellTallies nD τ sig Unit) Wo)) := by
  have hjoin := Pipeline.unscopedBufs_of_arrays (p := ()) (fun _ : Unit => pcfg6 (F := F)) (fun _ => a) (Ix := Unit) (Name := ℕ) (U := UR sig nD τ) (Lvl := ℕ)
    winFacts6 arr_whole6 c (fam6 W a) ((dat6 (VW6 W) a c).share_full fun _ => rfl)
    (VW6 W c) (VW6 W' c) ((dat6 (VW6 W) a c).arrAt · (cfg6 a).N) hF hrest
  rw [Pipeline.unscopedBufs_held, Pipeline.unscopedRest_split preFacts6] at hjoin
  iintro ⟨Ha, HO, ⟨Hp, Ht⟩, Hrest⟩
  imodintro
  isplitl [Ha Hrest Ht]
  · iapply hjoin
    isplitl [Ha]; · iexact Ha
    isplitl [Ht]
    · iapply (Entails.of_eq (congrArg (Pipeline.prefHeld (Ix := Unit) (Name := ℕ) (U := UR sig nD τ) (Lvl := ℕ) pre6 c (fun _ => fullShare)) hpf))
      iexact Ht
    iexact Hrest
  isplitl [Hp]; · iexact Hp
  unfold Pipeline.Dat.owesAt Pipeline.owesWithin
  icases HO with ⟨%Wo, -, HO⟩; iexists Wo; iexact HO

/-- EXIT, for a region the run ends with: the same, associated as (buffers ∗ generator register) ∗ `owes`. -/
theorem hexit6_last (c : Dev nD) (hpf : a.1 = tbl6 (VW6 W c))
    (hF : ∀ w, (dat6 (VW6 W) a c).arrAt w (cfg6 a).N = VW6 W' c (Pipeline.arrRef spec6 w))
    (hrest : ∀ b, b ∉ Finset.univ.image (Pipeline.arrRef spec6) → VW6 W' c b = VW6 W c b) :
    iprop((dat6 (VW6 W) a c).arrays ((dat6 (VW6 W) a c).arrAt · (cfg6 a).N)
        ∗ (dat6 (VW6 W) a c).owesAt () (Fin.last (cfg6 a).N) ∗ Y6 a c ∗ Z6 W c)
      ⊢ |={Set.univ}=> iprop((StableHlo.held (c : Thread nD τ) (Pipeline.ucRefs τ sig) (W' c) ∗ ∃ r, prngReg c r)
          ∗ ∃ Wo, owes (c : Thread nD τ) (0 : CellTallies nD τ sig Unit) Wo) := by
  refine (hexit6 W W' a c hpf hF hrest).trans (fupd_mono ?_)
  iintro ⟨Hh, Hp, HO⟩
  isplitl [Hh Hp]
  · isplitl [Hh]; · iexact Hh
    iexact Hp
  iexact HO

end Seg

end Cert.KernelIdeal.Hand

end
-- ==== Proof.KI.Seg7.lean ====
/-
  Gather region 7 as a segment of the run: the four entailments around its thread states. The region is entered from
  every unscoped buffer of the core held at contents `W c` beside the generator register and the core's `owes`; its two
  arrays and its table are split out of those buffers, the table (held whole at the admissible contents, which are what
  `W c` has at the table's buffer) rides through the region's invariant, and at the exit everything is put back at
  contents `W' c` that have the arrays at what the pipeline leaves and agree with `W c` elsewhere.
-/
import proofs.«114291_j3908420239568_2_alg».proof.Proof.KI.Reg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg
variable (W W' : Dev nD → Valuation τ sig (Elt F))
variable (a : (pcfg7 (F := F)).Adm)

/-- A valuation read at the TensorCore's references. -/
abbrev VW7 (W : Dev nD → Valuation τ sig (Elt F)) : (c : Dev nD) → (b : Ref sig .tc) → Buf (Elt F) ((c : Thread nD τ).loc b) := fun c b => W c b

/-- What enters the invariant beside the table and the scoped rest: the generator register at some state. -/
abbrev X7 (c : Dev nD) : sProp 𝕄 := iprop(∃ r, prngReg c r)
/-- What the invariant gives back: the generator register and the table, whole, at the admissible contents. -/
abbrev Y7 (c : Dev nD) : sProp 𝕄 := iprop((∃ r, prngReg c r) ∗ ΦTab7 a c)
/-- What bypasses the region: the unscoped buffers that are neither an array of it nor its table, as entered. -/
abbrev Z7 (c : Dev nD) : sProp 𝕄 :=
  Pipeline.unscopedRestP (Ix := Unit) (Name := ℕ) (U := UR sig nD τ) (Lvl := ℕ) pre7 spec7 c (VW7 W c)

/-- The one-pipeline family the library's splitting lemmas are cited at. -/
abbrev fam7 : (p : Unit) → (c : Dev nD) → Dat τ (Elt F) Unit ℕ (UR sig nD τ) ℕ (Pipeline.pin (fun _ : Unit => pcfg7 (F := F)) (fun _ => a) p) c :=
  fun _ c => dat7 (VW7 W) a c

set_option backward.isDefEq.respectTransparency.types false in
/-- ENTRY: the arrays at the entry contents, the table whole at the admissible contents, the `owes`, `X` and `Z`. -/
theorem hentry7 (L : GSem nD τ sig → Finset Unit) (lv : GSem nD τ sig → Unit → ℕ) (c : Dev nD)
    (hpf : a.1 = tbl7 (VW7 W c)) :
    iprop((StableHlo.held (c : Thread nD τ) (Pipeline.ucRefs τ sig) (W c)
          ∗ ((∃ r, prngReg c r) ∗ ∃ Wo, owes (c : Thread nD τ) (0 : CellTallies nD τ sig Unit) Wo))
        ∗ Pipeline.ownSems0 (fun k : PEmpty => k.elim) c ∗ (levAts L lv : sProp 𝕄))
      ⊢ |={Set.univ}=> iprop((dat7 (VW7 W) a c).arrays ((dat7 (VW7 W) a c).arrAt · 0)
          ∗ Pipeline.prefHeld pre7 c (fun _ => fullShare) a.1
          ∗ (dat7 (VW7 W) a c).owesAt () 0 ∗ X7 c ∗ Z7 W c) := by
  have hsplit := Pipeline.arrays_of_unscopedBufs (p := ()) (fun _ : Unit => pcfg7 (F := F)) (fun _ => a) (fam7 W a) winFacts7 arr_whole7 c
    ((dat7 (VW7 W) a c).share_full fun _ => rfl) (VW7 W c) fun _ => rfl
  rw [Pipeline.unscopedBufs_held, Pipeline.unscopedRest_split preFacts7] at hsplit
  iintro ⟨⟨Hub, Hp, HO⟩, -, -⟩
  ihave H := hsplit $$ Hub
  icases H with ⟨Ha, Htab, Hrest⟩
  imodintro
  isplitl [Ha]; · iexact Ha
  isplitl [Htab]; · rw [hpf]; iexact Htab
  isplitl [HO]
  · unfold Pipeline.Dat.owesAt Pipeline.owesWithin
    icases HO with ⟨%Wo, HO⟩; iexists Wo; isplitr; · ipureintro; exact fun _ _ => Or.inl trivial
    iexact HO
  isplitl [Hp]; · iexact Hp
  iexact Hrest

set_option backward.isDefEq.respectTransparency.types false in
/-- The invariant at the first point, from `X`, the table and the scoped buffers no window stages. -/
theorem hin7 (V : (c : Dev nD) → (b : Ref sig .tc) → Buf (Elt F) ((c : Thread nD τ).loc b)) (c : Dev nD) :
    iprop(X7 (F := F) c ∗ Pipeline.prefHeld pre7 c (fun _ => fullShare) a.1
        ∗ Pipeline.scopedRest (Ix := Unit) (Name := ℕ) (U := UR sig nD τ) (Lvl := ℕ) (Val := Elt F) (cfg7 a).spec c)
      ⊢ (dat7 V a c).Φ 0 := by
  rw [show (dat7 V a c).Φ 0 = iprop(Pipeline.ΦA spec7 c ∗ ΦTab7 a c) from rfl]; unfold Pipeline.ΦA
  iintro ⟨Hp, Ht, Hr⟩
  isplitl [Hr Hp]
  · isplitl [Hr]; · iexact Hr
    iexact Hp
  iexact Ht

set_option backward.isDefEq.respectTransparency.types false in
/-- The invariant at the last point gives back `Y`, no semaphore of the kernel's own, and those scoped buffers. -/
theorem hout7 (V : (c : Dev nD) → (b : Ref sig .tc) → Buf (Elt F) ((c : Thread nD τ).loc b)) (c : Dev nD) :
    (dat7 V a c).Φ (Fin.last (cfg7 a).N)
      ⊢ iprop(Y7 a c ∗ Pipeline.ownSems0 (fun k : PEmpty => k.elim) c
          ∗ Pipeline.scopedRest (Ix := Unit) (Name := ℕ) (U := UR sig nD τ) (Lvl := ℕ) (Val := Elt F) (cfg7 a).spec c) := by
  rw [Pipeline.ownSems0_none, show (dat7 V a c).Φ (Fin.last (cfg7 a).N) = iprop(Pipeline.ΦA spec7 c ∗ ΦTab7 a c) from rfl]; unfold Pipeline.ΦA
  iintro ⟨⟨Hr, Hp⟩, Ht⟩
  isplitl [Hp Ht]
  · isplitl [Hp]; · iexact Hp
    iexact Ht
  isplitr; · iempintro
  iexact Hr

set_option backward.isDefEq.respectTransparency.types false in
/-- EXIT: the arrays at what the pipeline leaves, the table (unchanged) and the bypassed buffers are every unscoped
    buffer at contents `W' c` that have the arrays so (`hF`) and agree with `W c` off them (`hrest`). -/
theorem hexit7 (c : Dev nD) (hpf : a.1 = tbl7 (VW7 W c))
    (hF : ∀ w, (dat7 (VW7 W) a c).arrAt w (cfg7 a).N = VW7 W' c (Pipeline.arrRef spec7 w))
    (hrest : ∀ b, b ∉ Finset.univ.image (Pipeline.arrRef spec7) → VW7 W' c b = VW7 W c b) :
    iprop((dat7 (VW7 W) a c).arrays ((dat7 (VW7 W) a c).arrAt · (cfg7 a).N)
        ∗ (dat7 (VW7 W) a c).owesAt () (Fin.last (cfg7 a).N) ∗ Y7 a c ∗ Z7 W c)
      ⊢ |={Set.univ}=> iprop(StableHlo.held (c : Thread nD τ) (Pipeline.ucRefs τ sig) (W' c)
          ∗ ((∃ r, prngReg c r) ∗ ∃ Wo, owes (c : Thread nD τ) (0 : CellTallies nD τ sig Unit) Wo)) := by
  have hjoin := Pipeline.unscopedBufs_of_arrays (p := ()) (fun _ : Unit => pcfg7 (F := F)) (fun _ => a) (Ix := Unit) (Name := ℕ) (U := UR sig nD τ) (Lvl := ℕ)
    winFacts7 arr_whole7 c (fam7 W a) ((dat7 (VW7 W) a c).share_full fun _ => rfl)
    (VW7 W c) (VW7 W' c) ((dat7 (VW7 W) a c).arrAt · (cfg7 a).N) hF hrest
  rw [Pipeline.unscopedBufs_held, Pipeline.unscopedRest_split preFacts7] at hjoin
  iintro ⟨Ha, HO, ⟨Hp, Ht⟩, Hrest⟩
  imodintro
  isplitl [Ha Hrest Ht]
  · iapply hjoin
    isplitl [Ha]; · iexact Ha
    isplitl [Ht]
    · iapply (Entails.of_eq (congrArg (Pipeline.prefHeld (Ix := Unit) (Name := ℕ) (U := UR sig nD τ) (Lvl := ℕ) pre7 c (fun _ => fullShare)) hpf))
      iexact Ht
    iexact Hrest
  isplitl [Hp]; · iexact Hp
  unfold Pipeline.Dat.owesAt Pipeline.owesWithin
  icases HO with ⟨%Wo, -, HO⟩; iexists Wo; iexact HO

/-- EXIT, for a region the run ends with: the same, associated as (buffers ∗ generator register) ∗ `owes`. -/
theorem hexit7_last (c : Dev nD) (hpf : a.1 = tbl7 (VW7 W c))
    (hF : ∀ w, (dat7 (VW7 W) a c).arrAt w (cfg7 a).N = VW7 W' c (Pipeline.arrRef spec7 w))
    (hrest : ∀ b, b ∉ Finset.univ.image (Pipeline.arrRef spec7) → VW7 W' c b = VW7 W c b) :
    iprop((dat7 (VW7 W) a c).arrays ((dat7 (VW7 W) a c).arrAt · (cfg7 a).N)
        ∗ (dat7 (VW7 W) a c).owesAt () (Fin.last (cfg7 a).N) ∗ Y7 a c ∗ Z7 W c)
      ⊢ |={Set.univ}=> iprop((StableHlo.held (c : Thread nD τ) (Pipeline.ucRefs τ sig) (W' c) ∗ ∃ r, prngReg c r)
          ∗ ∃ Wo, owes (c : Thread nD τ) (0 : CellTallies nD τ sig Unit) Wo) := by
  refine (hexit7 W W' a c hpf hF hrest).trans (fupd_mono ?_)
  iintro ⟨Hh, Hp, HO⟩
  isplitl [Hh Hp]
  · isplitl [Hh]; · iexact Hh
    iexact Hp
  iexact HO

end Seg

end Cert.KernelIdeal.Hand

end
-- ==== Proof.KI.Run.lean ====
/-
  The run of the whole program: @main is seven stretches of host operations and eight kernel regions. Between two
  items every unscoped buffer of the TensorCore is held whole at the boundary's contents. Each region is entered by
  splitting its arrays (and, for the two gathers, the seed table) out of these buffers and left by putting them back;
  nothing is ever owed and no semaphore outlives its region. At the end every unscoped buffer of every final state
  is read against the last contents.
-/
import proofs.«114291_j3908420239568_2_alg».proof.Proof.KI.Bound
import proofs.«114291_j3908420239568_2_alg».proof.Proof.KI.Seg6
import proofs.«114291_j3908420239568_2_alg».proof.Proof.KI.Seg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tₙ (c : Dev nD) : sProp 𝕄 := iprop(StableHlo.held (c : Thread nD τ) (Pipeline.ucRefs τ sig) (W15 m hs0 hs1 c) ∗ ∃ r, prngReg c r)

/-! ## The regions as segments -/

set_option backward.isDefEq.respectTransparency.types false in
/-- Region 0 over the thread state: entered with every unscoped buffer held at W1, left with them at W2. Its
    arrays are split out of the unscoped buffers and put back at the exit contents; the generator register goes
    into the invariant and comes back; nothing is owed; the kernel has no semaphore of its own. -/
def reg0 : Pipeline.RegionSeg (pcfgs (F := F)) (adm m hs0 hs1) (pdats m hs0 hs1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) (adm m hs0 hs1) (pdats m hs0 hs1) (launch0 (F := F)).win (launch0 (F := F)).arr_whole c
      ((pdats m hs0 hs1 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hs0 hs1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hs0 hs1) (Ix := Unit) (Name := ℕ) (U := UR sig nD τ) (Lvl := ℕ)
      (launch0 (F := F)).win (launch0 (F := F)).arr_whole c (pdats m hs0 hs1) ((pdats m hs0 hs1 0 c).share_full fun _ => rfl)
      (E1 m c) (E2 m c) ((pdats m hs0 hs1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer held at W3, left with them at W4. Its
    arrays are split out of the unscoped buffers and put back at the exit contents; the generator register goes
    into the invariant and comes back; nothing is owed; the kernel has no semaphore of its own. -/
def reg1 : Pipeline.RegionSeg (pcfgs (F := F)) (adm m hs0 hs1) (pdats m hs0 hs1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) (adm m hs0 hs1) (pdats m hs0 hs1) (launch1 (F := F)).win (launch1 (F := F)).arr_whole c
      ((pdats m hs0 hs1 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hs0 hs1 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hs0 hs1) (Ix := Unit) (Name := ℕ) (U := UR sig nD τ) (Lvl := ℕ)
      (launch1 (F := F)).win (launch1 (F := F)).arr_whole c (pdats m hs0 hs1) ((pdats m hs0 hs1 1 c).share_full fun _ => rfl)
      (E3 m c) (E4 m c) ((pdats m hs0 hs1 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer held at W4, left with them at W5. Its
    arrays are split out of the unscoped buffers and put back at the exit contents; the generator register goes
    into the invariant and comes back; nothing is owed; the kernel has no semaphore of its own. -/
def reg2 : Pipeline.RegionSeg (pcfgs (F := F)) (adm m hs0 hs1) (pdats m hs0 hs1) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) (adm m hs0 hs1) (pdats m hs0 hs1) (launch2 (F := F)).win (launch2 (F := F)).arr_whole c
      ((pdats m hs0 hs1 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hs0 hs1 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hs0 hs1) (Ix := Unit) (Name := ℕ) (U := UR sig nD τ) (Lvl := ℕ)
      (launch2 (F := F)).win (launch2 (F := F)).arr_whole c (pdats m hs0 hs1) ((pdats m hs0 hs1 2 c).share_full fun _ => rfl)
      (E4 m c) (E5 m c) ((pdats m hs0 hs1 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer held at W6, left with them at W7. Its
    arrays are split out of the unscoped buffers and put back at the exit contents; the generator register goes
    into the invariant and comes back; nothing is owed; the kernel has no semaphore of its own. -/
def reg3 : Pipeline.RegionSeg (pcfgs (F := F)) (adm m hs0 hs1) (pdats m hs0 hs1) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (E6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) (adm m hs0 hs1) (pdats m hs0 hs1) (launch3 (F := F)).win (launch3 (F := F)).arr_whole c
      ((pdats m hs0 hs1 3 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m hs0 hs1 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m hs0 hs1) (Ix := Unit) (Name := ℕ) (U := UR sig nD τ) (Lvl := ℕ)
      (launch3 (F := F)).win (launch3 (F := F)).arr_whole c (pdats m hs0 hs1) ((pdats m hs0 hs1 3 c).share_full fun _ => rfl)
      (E6 m c) (E7 m c) ((pdats m hs0 hs1 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer held at W8, left with them at W9. Its
    arrays are split out of the unscoped buffers and put back at the exit contents; the generator register goes
    into the invariant and comes back; nothing is owed; the kernel has no semaphore of its own. -/
def reg4 : Pipeline.RegionSeg (pcfgs (F := F)) (adm m hs0 hs1) (pdats m hs0 hs1) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (E8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (E8 m c)
  hentry c := by
    rw [Pipeline.ownSems0_none]
    have hsplit := Pipeline.arrays_of_unscopedBufs (p := 4) (pcfgs (F := F)) (adm m hs0 hs1) (pdats m hs0 hs1) (launch4 (F := F)).win (launch4 (F := F)).arr_whole c
      ((pdats m hs0 hs1 4 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m hs0 hs1 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm m hs0 hs1) (Ix := Unit) (Name := ℕ) (U := UR sig nD τ) (Lvl := ℕ)
      (launch4 (F := F)).win (launch4 (F := F)).arr_whole c (pdats m hs0 hs1) ((pdats m hs0 hs1 4 c).share_full fun _ => rfl)
      (E8 m c) (E9 m c) ((pdats m hs0 hs1 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer held at W9, left with them at W10. Its
    arrays are split out of the unscoped buffers and put back at the exit contents; the generator register goes
    into the invariant and comes back; nothing is owed; the kernel has no semaphore of its own. -/
def reg5 : Pipeline.RegionSeg (pcfgs (F := F)) (adm m hs0 hs1) (pdats m hs0 hs1) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 (E9 m) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec5 c (E9 m c)
  hentry c := by
    rw [Pipeline.ownSems0_none]
    have hsplit := Pipeline.arrays_of_unscopedBufs (p := 5) (pcfgs (F := F)) (adm m hs0 hs1) (pdats m hs0 hs1) (launch5 (F := F)).win (launch5 (F := F)).arr_whole c
      ((pdats m hs0 hs1 5 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m hs0 hs1 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) (adm m hs0 hs1) (Ix := Unit) (Name := ℕ) (U := UR sig nD τ) (Lvl := ℕ)
      (launch5 (F := F)).win (launch5 (F := F)).arr_whole c (pdats m hs0 hs1) ((pdats m hs0 hs1 5 c).share_full fun _ => rfl)
      (E9 m c) (E10 m c) ((pdats m hs0 hs1 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's table is the seed array as the region finds it (one device). -/
theorem hpf6 (c : Dev nD) : (a6 m hs0).1 = tbl6 (VW6 (W11 m) c) := by
  obtain rfl : c = 0 := Subsingleton.elim _ _
  rfl

set_option backward.isDefEq.respectTransparency.types false in
/-- Region 6 over the thread state: entered with every unscoped buffer held at the contents before it, left with
    them at the contents after it. Its arrays and the seed table are split out of the unscoped buffers; the table is
    held by the region's invariant throughout and put back unchanged; the generator register goes in and comes back;
    nothing is owed; the kernel has no semaphore of its own. -/
def reg6 : Pipeline.RegionSeg (pcfgs (F := F)) (adm m hs0 hs1) (pdats m hs0 hs1) () defs₀ 𝒱₀ L lv 6 where
  win := (launch6 (F := F)).win.to₀
  block_pos := (launch6 (F := F)).block_pos
  stage_whole := (launch6 (F := F)).stage_whole
  K := PEmpty
  osem k := k.elim
  ho := Pipeline.OwnSemFacts.none _
  hbody c := (body_obligation6 (VW6 (W11 m)) (a6 m hs0) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m hs0 c) ∗ R c)
  X := X6
  Y := Y6 (a6 m hs0)
  Z := Z6 (W11 m)
  hentry c := hentry6 (W11 m) (a6 m hs0) L lv c (hpf6 m hs0 c)
  hin c := hin6 (a6 m hs0) (VW6 (W11 m)) c
  hout c := hout6 (a6 m hs0) (VW6 (W11 m)) c
  hexit c := hexit6 (W11 m) (W12 m hs0) (a6 m hs0) c (hpf6 m hs0 c) (hF6 m hs0 c) (hrest6 m hs0 c)

/-- The region's table is the seed array as the region finds it (one device). -/
theorem hpf7 (c : Dev nD) : (a7 m hs0 hs1).1 = tbl7 (VW7 (W13 m hs0) c) := by
  obtain rfl : c = 0 := Subsingleton.elim _ _
  rfl

set_option backward.isDefEq.respectTransparency.types false in
/-- Region 7 over the thread state: entered with every unscoped buffer held at the contents before it, left with
    them at the contents after it. Its arrays and the seed table are split out of the unscoped buffers; the table is
    held by the region's invariant throughout and put back unchanged; the generator register goes in and comes back;
    nothing is owed; the kernel has no semaphore of its own. -/
def reg7 : Pipeline.RegionSeg (pcfgs (F := F)) (adm m hs0 hs1) (pdats m hs0 hs1) () defs₀ 𝒱₀ L lv 7 where
  win := (launch7 (F := F)).win.to₀
  block_pos := (launch7 (F := F)).block_pos
  stage_whole := (launch7 (F := F)).stage_whole
  K := PEmpty
  osem k := k.elim
  ho := Pipeline.OwnSemFacts.none _
  hbody c := (body_obligation7 (VW7 (W13 m hs0)) (a7 m hs0 hs1) c).loose
  hwaits := Pipeline.hwaits_of_owed_zero _ _ _ _ L lv 7 fun _ _ => rfl
  pre c := iprop(StableHlo.held (c : Thread nD τ) (Pipeline.ucRefs τ sig) (W13 m hs0 c) ∗ R c)
  post c := iprop(StableHlo.held (c : Thread nD τ) (Pipeline.ucRefs τ sig) (W14 m hs0 hs1 c) ∗ R c)
  X := X7
  Y := Y7 (a7 m hs0 hs1)
  Z := Z7 (W13 m hs0)
  hentry c := hentry7 (W13 m hs0) (a7 m hs0 hs1) L lv c (hpf7 m hs0 hs1 c)
  hin c := hin7 (a7 m hs0 hs1) (VW7 (W13 m hs0)) c
  hout c := hout7 (a7 m hs0 hs1) (VW7 (W13 m hs0)) c
  hexit c := hexit7 (W13 m hs0) (W14 m hs0 hs1) (a7 m hs0 hs1) c (hpf7 m hs0 hs1 c) (hF7 m hs0 hs1 c) (hrest7 m hs0 hs1 c)

/-! ## @main as segments, and the launch -/

/-- @main's fifteen items in order: a host segment per stretch from its boundary's contents, a region per kernel call. -/
abbrev segs : List (Pipeline.Seg (pcfgs (F := F)) (adm m hs0 hs1) (pdats m hs0 hs1) () defs₀ 𝒱₀ L lv) :=
  [ .host (hseg hostOps0 hostOps0_sub hostOps0_fresh (W0 m)),
    .region (reg0 m hs0 hs1),
    .host (hseg hostOps1 hostOps1_sub hostOps1_fresh (W2 m)),
    .region (reg1 m hs0 hs1),
    .region (reg2 m hs0 hs1),
    .host (hseg hostOps3 hostOps3_sub hostOps3_fresh (W5 m)),
    .region (reg3 m hs0 hs1),
    .host (hseg hostOps4 hostOps4_sub hostOps4_fresh (W7 m)),
    .region (reg4 m hs0 hs1),
    .region (reg5 m hs0 hs1),
    .host (hseg hostOps6 hostOps6_sub hostOps6_fresh (W10 m)),
    .region (reg6 m hs0 hs1),
    .host (hseg hostOps7 hostOps7_sub hostOps7_fresh (W12 m hs0)),
    .region (reg7 m hs0 hs1),
    .host (hseg hostOps8 hostOps8_sub hostOps8_fresh (W14 m hs0 hs1)) ]

/-- @main is the run of its segments. -/
theorem main_run (c : Dev nD) : main (F := F) c = Pipeline.Seg.run (segs m hs0 hs1) := (main_chain c).trans (by chain_rfl)

set_option backward.isDefEq.respectTransparency.types false in
/-- From any memory with zero counters whose seeds are below 100000, every weakly fair execution of @main on the
    TensorCores terminates, nothing faulting, and every final state holds every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m hs0 hs1 c b) :=
  Pipeline.θ_run_regions_kit (pcfgs (F := F)) (adm m hs0 hs1) (pdats m hs0 hs1) () (cellOf_inj (adm m hs0 hs1)) emb₁ defs₀ 𝒱₀ L lv m ρ main (segs m hs0 hs1)
    (fun c Q => by rw [main_run m hs0 hs1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hs0 hs1)) (cellOf_inj (adm m hs0 hs1))) (Pipeline.launchToks (Pipeline.pin (pcfgs (F := F)) (adm m hs0 hs1)) (cellOf_inj (adm m hs0 hs1))))
    (hu₀ := by
      iintro Hu; imodintro
      isplitl [Hu]
      · iapply (show (ownU (initOf (Pipeline.cells (Pipeline.pin (pcfgs (F := F)) (adm m hs0 hs1)) (cellOf_inj (adm m hs0 hs1))) (Pipeline.launchToks (Pipeline.pin (pcfgs (F := F)) (adm m hs0 hs1)) (cellOf_inj (adm m hs0 hs1)))) : sProp 𝕄)
            ⊢ BI.own (emb₁ (initOf (Pipeline.cells (Pipeline.pin (pcfgs (F := F)) (adm m hs0 hs1)) (cellOf_inj (adm m hs0 hs1))) (Pipeline.launchToks (Pipeline.pin (pcfgs (F := F)) (adm m hs0 hs1)) (cellOf_inj (adm m hs0 hs1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hs0 hs1)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => show iprop(StableHlo.held (c : Thread nD τ) (Pipeline.ucRefs τ sig) (W15 m hs0 hs1 c) ∗ R c)
          ⊢ iprop(Tₙ m hs0 hs1 c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m hs0 hs1 c b)
    (hfin := fun c s' => by
      iintro ⟨⟨Hh, -⟩, HSI⟩
      unfold StableHlo.held
      imodintro
      iapply (pointsTo_read_all (Pipeline.ucRefs τ sig) (fun b => (((c : Thread nD τ)).1, b)) (W15 m hs0 hs1 c) s')
      isplitl [Hh] <;> iassumption)
    (hQ := fun s h c => h c)

end Cert.KernelIdeal.Hand

end
-- ==== Proof.KI.Args.lean ====
/-
  No item of @main writes an argument: a host stretch writes only its own results, a region only its output array
  (the features of the two graphs are read by the first-layer combine through an input window, whose array is left
  as entered). So each argument buffer holds its launch contents at the last boundary.
-/
import proofs.«114291_j3908420239568_2_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

theorem W15_arg0 (c : Dev nD) : W15 m hs0 hs1 c (Proc.devRef .tc main_arg0) = m ((c : Thread nD τ).loc main_arg0) :=
  (W15_of m hs0 hs1 c main_arg0 (by decide)).trans <|
  (W14_of_ne m hs0 hs1 c main_arg0 (by decide)).trans <|
  (W13_of m hs0 c main_arg0 (by decide)).trans <|
  (W12_of_ne m hs0 c main_arg0 (by decide)).trans <|
  (W11_of m c main_arg0 (by decide)).trans <|
  (W10_of_ne m c main_arg0 (by decide)).trans <|
  (W9_of_ne m c main_arg0 (by decide)).trans <|
  (W8_of m c main_arg0 (by decide)).trans <|
  (W7_of_ne m c main_arg0 (by decide)).trans <|
  (W6_of m c main_arg0 (by decide)).trans <|
  (W5_of_ne m c main_arg0 (by decide)).trans <|
  (W4_of_ne m c main_arg0 (by decide)).trans <|
  (W3_of m c main_arg0 (by decide)).trans <|
  (W2_of_ne m c main_arg0 (by decide)).trans <|
  (W1_of m c main_arg0 (by decide)).trans rfl

theorem W15_arg1 (c : Dev nD) : W15 m hs0 hs1 c (Proc.devRef .tc main_arg1) = m ((c : Thread nD τ).loc main_arg1) :=
  (W15_of m hs0 hs1 c main_arg1 (by decide)).trans <|
  (W14_of_ne m hs0 hs1 c main_arg1 (by decide)).trans <|
  (W13_of m hs0 c main_arg1 (by decide)).trans <|
  (W12_of_ne m hs0 c main_arg1 (by decide)).trans <|
  (W11_of m c main_arg1 (by decide)).trans <|
  (W10_of_ne m c main_arg1 (by decide)).trans <|
  (W9_of_ne m c main_arg1 (by decide)).trans <|
  (W8_of m c main_arg1 (by decide)).trans <|
  (W7_of_ne m c main_arg1 (by decide)).trans <|
  (W6_of m c main_arg1 (by decide)).trans <|
  (W5_of_ne m c main_arg1 (by decide)).trans <|
  (W4_of_ne m c main_arg1 (by decide)).trans <|
  (W3_of m c main_arg1 (by decide)).trans <|
  (W2_of_ne m c main_arg1 (by decide)).trans <|
  (W1_of m c main_arg1 (by decide)).trans rfl

theorem W15_arg2 (c : Dev nD) : W15 m hs0 hs1 c (Proc.devRef .tc main_arg2) = m ((c : Thread nD τ).loc main_arg2) :=
  (W15_of m hs0 hs1 c main_arg2 (by decide)).trans <|
  (W14_of_ne m hs0 hs1 c main_arg2 (by decide)).trans <|
  (W13_of m hs0 c main_arg2 (by decide)).trans <|
  (W12_of_ne m hs0 c main_arg2 (by decide)).trans <|
  (W11_of m c main_arg2 (by decide)).trans <|
  (W10_of_ne m c main_arg2 (by decide)).trans <|
  (W9_of_ne m c main_arg2 (by decide)).trans <|
  (W8_of m c main_arg2 (by decide)).trans <|
  (W7_of_ne m c main_arg2 (by decide)).trans <|
  (W6_of m c main_arg2 (by decide)).trans <|
  (W5_of_ne m c main_arg2 (by decide)).trans <|
  (W4_of_ne m c main_arg2 (by decide)).trans <|
  (W3_of m c main_arg2 (by decide)).trans <|
  ((W2_arr m c 1).trans (((dat0 (E1 m) c).arrAt_in 1 rfl _).trans (A_eq0 (E1 m) c 1))).trans <|
  (W1_of m c main_arg2 (by decide)).trans rfl

theorem W15_arg3 (c : Dev nD) : W15 m hs0 hs1 c (Proc.devRef .tc main_arg3) = m ((c : Thread nD τ).loc main_arg3) :=
  (W15_of m hs0 hs1 c main_arg3 (by decide)).trans <|
  (W14_of_ne m hs0 hs1 c main_arg3 (by decide)).trans <|
  (W13_of m hs0 c main_arg3 (by decide)).trans <|
  (W12_of_ne m hs0 c main_arg3 (by decide)).trans <|
  (W11_of m c main_arg3 (by decide)).trans <|
  (W10_of_ne m c main_arg3 (by decide)).trans <|
  (W9_of_ne m c main_arg3 (by decide)).trans <|
  (W8_of m c main_arg3 (by decide)).trans <|
  ((W7_arr m c 1).trans (((dat3 (E6 m) c).arrAt_in 1 rfl _).trans (A_eq3 (E6 m) c 1))).trans <|
  (W6_of m c main_arg3 (by decide)).trans <|
  (W5_of_ne m c main_arg3 (by decide)).trans <|
  (W4_of_ne m c main_arg3 (by decide)).trans <|
  (W3_of m c main_arg3 (by decide)).trans <|
  (W2_of_ne m c main_arg3 (by decide)).trans <|
  (W1_of m c main_arg3 (by decide)).trans rfl

theorem W15_arg4 (c : Dev nD) : W15 m hs0 hs1 c (Proc.devRef .tc main_arg4) = m ((c : Thread nD τ).loc main_arg4) :=
  (W15_of m hs0 hs1 c main_arg4 (by decide)).trans <|
  (W14_of_ne m hs0 hs1 c main_arg4 (by decide)).trans <|
  (W13_of m hs0 c main_arg4 (by decide)).trans <|
  (W12_of_ne m hs0 c main_arg4 (by decide)).trans <|
  (W11_of m c main_arg4 (by decide)).trans <|
  (W10_of_ne m c main_arg4 (by decide)).trans <|
  (W9_of_ne m c main_arg4 (by decide)).trans <|
  (W8_of m c main_arg4 (by decide)).trans <|
  (W7_of_ne m c main_arg4 (by decide)).trans <|
  (W6_of m c main_arg4 (by decide)).trans <|
  (W5_of_ne m c main_arg4 (by decide)).trans <|
  (W4_of_ne m c main_arg4 (by decide)).trans <|
  (W3_of m c main_arg4 (by decide)).trans <|
  (W2_of_ne m c main_arg4 (by decide)).trans <|
  (W1_of m c main_arg4 (by decide)).trans rfl

theorem W15_arg5 (c : Dev nD) : W15 m hs0 hs1 c (Proc.devRef .tc main_arg5) = m ((c : Thread nD τ).loc main_arg5) :=
  (W15_of m hs0 hs1 c main_arg5 (by decide)).trans <|
  (W14_of_ne m hs0 hs1 c main_arg5 (by decide)).trans <|
  (W13_of m hs0 c main_arg5 (by decide)).trans <|
  (W12_of_ne m hs0 c main_arg5 (by decide)).trans <|
  (W11_of m c main_arg5 (by decide)).trans <|
  (W10_of_ne m c main_arg5 (by decide)).trans <|
  (W9_of_ne m c main_arg5 (by decide)).trans <|
  (W8_of m c main_arg5 (by decide)).trans <|
  (W7_of_ne m c main_arg5 (by decide)).trans <|
  (W6_of m c main_arg5 (by decide)).trans <|
  (W5_of_ne m c main_arg5 (by decide)).trans <|
  (W4_of_ne m c main_arg5 (by decide)).trans <|
  (W3_of m c main_arg5 (by decide)).trans <|
  (W2_of_ne m c main_arg5 (by decide)).trans <|
  (W1_of m c main_arg5 (by decide)).trans rfl

end Cert.KernelIdeal.Hand

end
-- ==== Proof.K.Reg0.lean ====
/-
  Region 0 of the program: the dense combine of one GCN layer, out = agg + x * self_coef, followed by max(., 0),
  on row blocks of 4000 rows. The grid has 25 points; at point t every window holds rows 4000 t … 4000 t + 3999
  of its array (the coefficient column as a 4000 x 1 block). The body reads the three input blocks whole and
  overwrites the output block whole with the pointwise value, so what the output block holds after the body is
  one function of the three input blocks, and nothing else of the state changes.
  Everything is stated at a parameter V, the contents of the TensorCore's buffers when the region is entered.
-/
import proofs.«114291_j3908420239568_2_alg».proof.Proof.Gen.Kernel.Launch
import proofs.«114291_j3908420239568_2_alg».proof.Proof.Gen.Kernel.Skeleton
import proofs.«114291_j3908420239568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, whether the block was
    fetched at that point or is still there from the point before (the block index did not move): for any proof
    data whose array is V's and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 4000 x 128 block and the whole 4000 x 1 column: the rectangles of the body's loads and of its store. -/
abbrev r0_0 : Rect S4000x128 := Rect.unit (s := S4000x128) ![0, 0] S4000x128.size inb_S4000x128_S4000x128_0_0
abbrev r0_1 : Rect S4000x1 := Rect.unit (s := S4000x1) ![0, 0] S4000x1.size inb_S4000x1_S4000x1_0_0

/-- The output block after the body, from the three input blocks: its one store, of the pointwise value
    agg + x * coef clipped below at 0, over the whole block. -/
def out0_3 (x0 x1 : Vec F S4000x128 .f32) (x2 : Vec F S4000x1 .f32) : Vec F S4000x128 .f32 :=
  View.canon [⟨r0_0, k0_pay1 (View.ld x0 r0_0) (View.ld x1 r0_0) (View.ld x2 r0_1)⟩]

/-- The one store covers the block. -/
theorem cover0_3 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y

set_option maxHeartbeats 1000000 in
/-- The body on whole staging buffers — the inputs' holding x0, x1, x2, the output's anything — ends with the inputs'
    as they were and the output's at out0_3 x0 x1 x2. -/
theorem sound_kernel0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x128 .f32) (harg4 : arg4.IsWhole)
    (x0 x1 : Vec F S4000x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c: the arrays as the region finds them; after the body at point t each
    input's buffer at its block and the output's at out0_3 of the three input blocks; the invariant carries the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the program: the dense combine of one GCN layer, out = agg + x * self_coef,
  on row blocks of 4000 rows. The grid has 25 points; at point t every window holds rows 4000 t … 4000 t + 3999
  of its array (the coefficient column as a 4000 x 1 block). The body reads the three input blocks whole and
  overwrites the output block whole with the pointwise value, so what the output block holds after the body is
  one function of the three input blocks, and nothing else of the state changes.
  Everything is stated at a parameter V, the contents of the TensorCore's buffers when the region is entered.
-/
import proofs.«114291_j3908420239568_2_alg».proof.Proof.Gen.Kernel.Launch
import proofs.«114291_j3908420239568_2_alg».proof.Proof.Gen.Kernel.Skeleton
import proofs.«114291_j3908420239568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the block was
    fetched at that point or is still there from the point before (the block index did not move): for any proof
    data whose array is V's and whose body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 4000 x 128 block and the whole 4000 x 1 column: the rectangles of the body's loads and of its store. -/
abbrev r1_0 : Rect S4000x128 := Rect.unit (s := S4000x128) ![0, 0] S4000x128.size inb_S4000x128_S4000x128_0_0
abbrev r1_1 : Rect S4000x1 := Rect.unit (s := S4000x1) ![0, 0] S4000x1.size inb_S4000x1_S4000x1_0_0

/-- The output block after the body, from the three input blocks: its one store, of the pointwise value
    agg + x * coef, over the whole block. -/
def out1_3 (x0 x1 : Vec F S4000x128 .f32) (x2 : Vec F S4000x1 .f32) : Vec F S4000x128 .f32 :=
  View.canon [⟨r1_0, k1_pay1 (View.ld x0 r1_0) (View.ld x1 r1_0) (View.ld x2 r1_1)⟩]

/-- The one store covers the block. -/
theorem cover1_3 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

set_option maxHeartbeats 1000000 in
/-- The body on whole staging buffers — the inputs' holding x0, x1, x2, the output's anything — ends with the inputs'
    as they were and the output's at out1_3 x0 x1 x2. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x128 .f32) (harg4 : arg4.IsWhole)
    (x0 x1 : Vec F S4000x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core c: the arrays as the region finds them; after the body at point t each
    input's buffer at its block and the output's at out1_3 of the three input blocks; the invariant carries the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the program: the row-wise L2 normalization, out = x / max(sqrt(sum over the 128 lanes of x * x), eps),
  on row blocks of 4000 rows. The grid has 25 points; at point t both windows hold rows 4000 t … 4000 t + 3999 of
  their arrays. The body reads the input block whole and overwrites the output block whole, each row of the result
  depending only on the same row of the input, so what the output block holds after the body is one function of the
  input block, and nothing else of the state changes.
  Everything is stated at a parameter V, the contents of the TensorCore's buffers when the region is entered.
-/
import proofs.«114291_j3908420239568_2_alg».proof.Proof.Gen.Kernel.Launch
import proofs.«114291_j3908420239568_2_alg».proof.Proof.Gen.Kernel.Skeleton
import proofs.«114291_j3908420239568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds the window's block at every point, whether the block was
    fetched at that point or is still there from the point before: for any proof data whose array is V's and whose
    body leaves the input block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole 4000 x 128 block: the rectangle of the body's loads and of its store. -/
abbrev r2_0 : Rect S4000x128 := Rect.unit (s := S4000x128) ![0, 0] S4000x128.size inb_S4000x128_S4000x128_0_0

/-- The output block after the body, from the input block: its one store, of the rows divided by their clipped
    norms, over the whole block. -/
def out2_1 (x0 : Vec F S4000x128 .f32) : Vec F S4000x128 .f32 :=
  View.canon [⟨r2_0, k2_pay1 (View.ld x0 r2_0)⟩]

/-- The one store covers the block. -/
theorem cover2_1 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

set_option maxHeartbeats 1000000 in
/-- The body on whole staging buffers — the input's holding x0, the output's anything — ends with the input's as it
    was and the output's at out2_1 x0. -/
theorem sound_kernel2 (c : Dev nD) (E : Set ℕ) (i : grid2.Coords) (arg1 : Memref sig .tc .vmem S4000x128 .f32) (harg1 : arg1.IsWhole) (arg2 : Memref sig .tc .vmem S4000x128 .f32) (harg2 : arg2.IsWhole)
    (x0 : Vec F S4000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__l2norm_kernel i arg1 harg1 arg2 harg2) K := by
  simp only [cc2__l2norm_kernel_eq_skeleton]; unfold cc2__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of pipeline 2 on core c: the arrays as the region finds them; after the body at point t the
    input's buffer at its block and the output's at out2_1 of the input block; the invariant carries the scoped rest
    and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's staging buffer holds its block, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the program: the dense combine of one GCN layer, out = agg + x * self_coef, followed by max(., 0),
  on row blocks of 4000 rows. The grid has 25 points; at point t every window holds rows 4000 t … 4000 t + 3999
  of its array (the coefficient column as a 4000 x 1 block). The body reads the three input blocks whole and
  overwrites the output block whole with the pointwise value, so what the output block holds after the body is
  one function of the three input blocks, and nothing else of the state changes.
  Everything is stated at a parameter V, the contents of the TensorCore's buffers when the region is entered.
-/
import proofs.«114291_j3908420239568_2_alg».proof.Proof.Gen.Kernel.Launch
import proofs.«114291_j3908420239568_2_alg».proof.Proof.Gen.Kernel.Skeleton
import proofs.«114291_j3908420239568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, whether the block was
    fetched at that point or is still there from the point before (the block index did not move): for any proof
    data whose array is V's and whose body leaves the input block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 4000 x 128 block and the whole 4000 x 1 column: the rectangles of the body's loads and of its store. -/
abbrev r3_0 : Rect S4000x128 := Rect.unit (s := S4000x128) ![0, 0] S4000x128.size inb_S4000x128_S4000x128_0_0
abbrev r3_1 : Rect S4000x1 := Rect.unit (s := S4000x1) ![0, 0] S4000x1.size inb_S4000x1_S4000x1_0_0

/-- The output block after the body, from the three input blocks: its one store, of the pointwise value
    agg + x * coef clipped below at 0, over the whole block. -/
def out3_3 (x0 x1 : Vec F S4000x128 .f32) (x2 : Vec F S4000x1 .f32) : Vec F S4000x128 .f32 :=
  View.canon [⟨r3_0, k3_pay1 (View.ld x0 r3_0) (View.ld x1 r3_0) (View.ld x2 r3_1)⟩]

/-- The one store covers the block. -/
theorem cover3_3 (p0 : Vec F S4000x128 .f32) (y : S4000x128.Idx) :
    ∃ pc ∈ ([⟨r3_0, p0⟩] : List (View.Piece (Elt F) S4000x128 .f32)), y ∈ pc.1.set :=
  View.cover_of_tiled [⟨r3_0, p0⟩] S4000x128.size (by rfl) y

set_option maxHeartbeats 1000000 in
/-- The body on whole staging buffers — the inputs' holding x0, x1, x2, the output's anything — ends with the inputs'
    as they were and the output's at out3_3 x0 x1 x2. -/
theorem sound_kernel3 (c : Dev nD) (E : Set ℕ) (i : grid3.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x128 .f32) (harg4 : arg4.IsWhole)
    (x0 x1 : Vec F S4000x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__combine_kernel i arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core c: the arrays as the region finds them; after the body at point t each
    input's buffer at its block and the output's at out3_3 of the three input blocks; the invariant carries the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' staging buffers hold their blocks, so the body's triple applies; the
    invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of the program: the dense combine of one GCN layer, out = agg + x * self_coef,
  on row blocks of 4000 rows. The grid has 25 points; at point t every window holds rows 4000 t … 4000 t + 3999
  of its array (the coefficient column as a 4000 x 1 block). The body reads the three input blocks whole and
  overwrites the output block whole with the pointwise value, so what the output block holds after the body is
  one function of the three input blocks, and nothing else of the state changes.
  Everything is stated at a parameter V, the contents of the TensorCore's buffers when the region is entered.
-/
import proofs.«114291_j3908420239568_2_alg».proof.Proof.Gen.Kernel.Launch
import proofs.«114291_j3908420239568_2_alg».proof.Proof.Gen.Kernel.Skeleton
import proofs.«114291_j3908420239568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds the window's block at every point, whether the block was
    fetched at that point or is still there from the point before (the block index did not move): for any proof
    data whose array is V's and whose body leaves the input block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole 4000 x 128 block and the whole 4000 x 1 column: the rectangles of the body's loads and of its store. -/
abbrev r4_0 : Rect S4000x128 := Rect.unit (s := S4000x128) ![0, 0] S4000x128.size inb_S4000x128_S4000x128_0_0
abbrev r4_1 : Rect S4000x1 := Rect.unit (s := S4000x1) ![0, 0] S4000x1.size inb_S4000x1_S4000x1_0_0

/-- The output block after the body, from the three input blocks: its one store, of the pointwise value
    agg + x * coef, over the whole block. -/
def out4_3 (x0 x1 : Vec F S4000x128 .f32) (x2 : Vec F S4000x1 .f32) : Vec F S4000x128 .f32 :=
  View.canon [⟨r4_0, k4_pay1 (View.ld x0 r4_0) (View.ld x1 r4_0) (View.ld x2 r4_1)⟩]

/-- The one store covers the block. -/
theorem cover4_3 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

set_option maxHeartbeats 1000000 in
/-- The body on whole staging buffers — the inputs' holding x0, x1, x2, the output's anything — ends with the inputs'
    as they were and the output's at out4_3 x0 x1 x2. -/
theorem sound_kernel4 (c : Dev nD) (E : Set ℕ) (i : grid4.Coords) (arg1 : Memref sig .tc .vmem S4000x128 .f32) (harg1 : arg1.IsWhole) (arg2 : Memref sig .tc .vmem S4000x128 .f32) (harg2 : arg2.IsWhole) (arg3 : Memref sig .tc .vmem S4000x1 .f32) (harg3 : arg3.IsWhole) (arg4 : Memref sig .tc .vmem S4000x128 .f32) (harg4 : arg4.IsWhole)
    (x0 x1 : Vec F S4000x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__combine_kernel i arg1 harg1 arg2 harg2 arg3 harg3 arg4 harg4) K := by
  simp only [cc4__combine_kernel_eq_skeleton]; unfold cc4__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core c: the arrays as the region finds them; after the body at point t each
    input's buffer at its block and the output's at out4_3 of the three input blocks; the invariant carries the
    scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' staging buffers hold their blocks, so the body's triple applies; the
    invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/-
  Region 5 of the program: the row-wise L2 normalization, out = x / max(sqrt(sum over the 128 lanes of x * x), eps),
  on row blocks of 4000 rows. The grid has 25 points; at point t both windows hold rows 4000 t … 4000 t + 3999 of
  their arrays. The body reads the input block whole and overwrites the output block whole, each row of the result
  depending only on the same row of the input, so what the output block holds after the body is one function of the
  input block, and nothing else of the state changes.
  Everything is stated at a parameter V, the contents of the TensorCore's buffers when the region is entered.
-/
import proofs.«114291_j3908420239568_2_alg».proof.Proof.Gen.Kernel.Launch
import proofs.«114291_j3908420239568_2_alg».proof.Proof.Gen.Kernel.Skeleton
import proofs.«114291_j3908420239568_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current staging buffer holds the window's block at every point, whether the block was
    fetched at that point or is still there from the point before: for any proof data whose array is V's and whose
    body leaves the input block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The whole 4000 x 128 block: the rectangle of the body's loads and of its store. -/
abbrev r5_0 : Rect S4000x128 := Rect.unit (s := S4000x128) ![0, 0] S4000x128.size inb_S4000x128_S4000x128_0_0

/-- The output block after the body, from the input block: its one store, of the rows divided by their clipped
    norms, over the whole block. -/
def out5_1 (x0 : Vec F S4000x128 .f32) : Vec F S4000x128 .f32 :=
  View.canon [⟨r5_0, k5_pay1 (View.ld x0 r5_0)⟩]

/-- The one store covers the block. -/
theorem cover5_1 (p0 : Vec F S4000x128 .f32) (y : S4000x128.Idx) :
    ∃ pc ∈ ([⟨r5_0, p0⟩] : List (View.Piece (Elt F) S4000x128 .f32)), y ∈ pc.1.set :=
  View.cover_of_tiled [⟨r5_0, p0⟩] S4000x128.size (by rfl) y

set_option maxHeartbeats 1000000 in
/-- The body on whole staging buffers — the input's holding x0, the output's anything — ends with the input's as it
    was and the output's at out5_1 x0. -/
theorem sound_kernel5 (c : Dev nD) (E : Set ℕ) (i : grid5.Coords) (arg1 : Memref sig .tc .vmem S4000x128 .f32) (harg1 : arg1.IsWhole) (arg2 : Memref sig .tc .vmem S4000x128 .f32) (harg2 : arg2.IsWhole)
    (x0 : Vec F S4000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out5_1 x0)) -∗ K ⟨⟩))
      ⊢ wp frame (wpE (defs₀ (F := F)) Variants.none c none) E (cc5__l2norm_kernel i arg1 harg1 arg2 harg2) K := by
  simp only [cc5__l2norm_kernel_eq_skeleton]; unfold cc5__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover5_1 _)

/-- The proof data of pipeline 5 on core c: the arrays as the region finds them; after the body at point t the
    input's buffer at its block and the output's at out5_1 of the input block; the invariant carries the scoped rest
    and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = out5_1 (iblk5 V c 0 t) := by dsimp only [dat5]

theorem before5_0 (c : Dev nD) (t : Fin cfg5.N) (d) : (dat5 V c).before 0 t d = iblk5 V c 0 t :=
  before5_0_of V (dat5 V c) (A_eq5 V c 0) (after5_0 V c) t d

/-- What the body is called with at point t, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t))

/-- The body at any point: the input's staging buffer holds its block, so the body's triple applies; the invariant
    and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  iintro ⟨HΦ, Ho, ⟨%d0, H0⟩, ⟨%d1, H1⟩⟩
  iapply (sound_kernel5 c Set.univ (grid5.coords t) _ _ _ _ (iblk5 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Adm6.lean ====
/-
  The tables of the two gather regions as admissible contents. Each region's window 0 reads its block index from a
  prefetched table of row numbers; the region's side condition asks that block inside the [100000, 1, 128] array at
  every grid point, which holds of any contents whose words are all below 100000. Every structural fact is proved with
  the contents a variable.
-/
import proofs.«114291_j3908420239568_2_alg».proof.Proof.Gen.Kernel
import proofs.«114291_j3908420239568_2_alg».proof.Proof.Gen.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The side condition of pipeline 6's table at any contents whose words are all below 100000: window 0's block
    index is ![word, 0, 0], and row `word` of the [100000, 1, 128] array is inside it; the element type is word-wide. -/
theorem ok6_of_lt (pf : pre6.Contents (Elt F)) (h : ∀ x, ((pf 0 x : BitVec 32)).toNat < 100000) : ok6 (F := F) pf := by
  intro i
  obtain ⟨w, hw, e⟩ : ∃ w : BitVec 32, w.toNat < 100000 ∧ cc6_transform_0 Facts₀.k6_off1_inb Facts₀.numel1_S1 pf i = ![w.toNat, 0, 0] :=
    ⟨_, h _, rfl⟩
  refine ⟨fun a => ?_, Or.inl rfl⟩
  rw [e]
  fin_cases a <;> simp [S1x1x128, S100000x1x128] <;> omega

/-- Contents of pipeline 6's table with every word below 100000, as ADMISSIBLE contents. -/
def adm6 (pf : pre6.Contents (Elt F)) (h : ∀ x, ((pf 0 x : BitVec 32)).toNat < 100000) : (pcfg6 (F := F)).Adm :=
  ⟨pf, ok6_of_lt pf h⟩

/-- They ARE the contents given. -/
theorem adm6_val (pf : pre6.Contents (Elt F)) (h : ∀ x, ((pf 0 x : BitVec 32)).toNat < 100000) : (adm6 pf h).1 = pf := rfl

/-- Pipeline 6's one table is main_arg0's buffer. -/
theorem pre6_ref (k : Fin 1) : pre6.ref k = main_arg0 := by
  obtain rfl : k = 0 := Subsingleton.elim _ _; rfl

/-- The table as a core's buffer contents `T` have it. -/
abbrev tbl6 {c : Dev nD} (T : (b : Ref sig .tc) → Buf (Elt F) ((c : Thread nD τ).loc b)) : pre6.Contents (Elt F) :=
  fun k => T (pre6.ref k)

/-- Its words are main_arg0's words. -/
theorem tbl6_lt {c : Dev nD} (T : (b : Ref sig .tc) → Buf (Elt F) ((c : Thread nD τ).loc b))
    (h : ∀ x : S10000.Idx, ((T main_arg0 x : BitVec 32)).toNat < 100000) : ∀ x, ((tbl6 T 0 x : BitVec 32)).toNat < 100000 := h

/-- The side condition of pipeline 7's table at any contents whose words are all below 100000: window 0's block
    index is ![word, 0, 0], and row `word` of the [100000, 1, 128] array is inside it; the element type is word-wide. -/
theorem ok7_of_lt (pf : pre7.Contents (Elt F)) (h : ∀ x, ((pf 0 x : BitVec 32)).toNat < 100000) : ok7 (F := F) pf := by
  intro i
  obtain ⟨w, hw, e⟩ : ∃ w : BitVec 32, w.toNat < 100000 ∧ cc7_transform_0 Facts₀.k7_off1_inb Facts₀.numel1_S1 pf i = ![w.toNat, 0, 0] :=
    ⟨_, h _, rfl⟩
  refine ⟨fun a => ?_, Or.inl rfl⟩
  rw [e]
  fin_cases a <;> simp [S1x1x128, S100000x1x128] <;> omega

/-- Contents of pipeline 7's table with every word below 100000, as ADMISSIBLE contents. -/
def adm7 (pf : pre7.Contents (Elt F)) (h : ∀ x, ((pf 0 x : BitVec 32)).toNat < 100000) : (pcfg7 (F := F)).Adm :=
  ⟨pf, ok7_of_lt pf h⟩

/-- They ARE the contents given. -/
theorem adm7_val (pf : pre7.Contents (Elt F)) (h : ∀ x, ((pf 0 x : BitVec 32)).toNat < 100000) : (adm7 pf h).1 = pf := rfl

/-- Pipeline 7's one table is main_arg1's buffer. -/
theorem pre7_ref (k : Fin 1) : pre7.ref k = main_arg1 := by
  obtain rfl : k = 0 := Subsingleton.elim _ _; rfl

/-- The table as a core's buffer contents `T` have it. -/
abbrev tbl7 {c : Dev nD} (T : (b : Ref sig .tc) → Buf (Elt F) ((c : Thread nD τ).loc b)) : pre7.Contents (Elt F) :=
  fun k => T (pre7.ref k)

/-- Its words are main_arg1's words. -/
theorem tbl7_lt {c : Dev nD} (T : (b : Ref sig .tc) → Buf (Elt F) ((c : Thread nD τ).loc b))
    (h : ∀ x : S10000.Idx, ((T main_arg1 x : BitVec 32)).toNat < 100000) : ∀ x, ((tbl7 T 0 x : BitVec 32)).toNat < 100000 := h

end Cert.Kernel.Hand

end
-- ==== Proof.K.Reg6.lean ====
/-
  Gather region 6 at a parameter `V` (the TensorCore's buffer contents when the region is entered) and admissible
  contents `a` of its table, over the pipeline pinned at them. Window 0 is one row of the [100000, 1, 128] table
  array, the row named by the table word at the grid point; window 1 is row `i` of the [10000, 1, 128] result. The body
  copies the input block to the output block: a whole-block load, and a whole-block store of what was loaded. The
  table itself is carried through the region's invariant untouched, at the full share.
-/
import proofs.«114291_j3908420239568_2_alg».proof.Proof.Gen.Kernel.Launch
import proofs.«114291_j3908420239568_2_alg».proof.Proof.Gen.Kernel.Skeleton
import proofs.«114291_j3908420239568_2_alg».proof.Proof.K.Adm6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule's names, at any admissible contents of the table -/

/-- The current staging memref of each window at point `t`. -/
abbrev st6_0 (a : (pcfg6 (F := F)).Adm) (t : Fin (cfg6 a).N) := ((cfg6 a).win 0).stage ((cfg6 a).slots t 0)
abbrev st6_1 (a : (pcfg6 (F := F)).Adm) (t : Fin (cfg6 a).N) := ((cfg6 a).win 1).stage ((cfg6 a).slots t 1)

/-- The kernel body at point `t`, on what the pipeline calls it with. -/
abbrev bodyAt6 (a : (pcfg6 (F := F)).Adm) (t : Fin (cfg6 a).N) : Prog (TpuEff nD τ sig (Elt F) Λ₀ .tc) PUnit :=
  cc6__gather_kernel (grid6.coords t) (Memref.whole main_arg0) (Memref.isWhole_whole _) (spec6_0.stage ((cfg6 a).slots t 0)) (hstage6_0 (((cfg6 a).slots t 0).cast nbuf6_0)) (spec6_1.stage ((cfg6 a).slots t 1)) (hstage6_1 (((cfg6 a).slots t 1).cast nbuf6_1))

section Region
variable (V : (c : Dev nD) → (b : Ref sig .tc) → Buf (Elt F) ((c : Thread nD τ).loc b))
variable (a : (pcfg6 (F := F)).Adm)

/-! ## The windows' blocks -/

/-- Window `w`'s block at point `t`, read off its array as the region finds it (`V`); window 0's is a function of the
    table's word at the point. -/
def iblk6 (c : Dev nD) (w : Fin (cfg6 a).W) (t : Fin (cfg6 a).N) : (((cfg6 a).win w).xblock ((cfg6 a).grid.coords t)).Idx → Elt F ((cfg6 a).win w).elt :=
  (((cfg6 a).win w).blk t).view.read (Elt F) (V c (Pipeline.arrRef spec6 w))

/-- Input window 0's current staging buffer holds its block at every point, fetched there or not (unfetched, the
    block index has not moved), for any proof data whose array is `V`'s and whose body leaves the block in place. -/
theorem before6_0_of {c : Dev nD} (dat : Dat τ (Elt F) Unit ℕ (UR sig nD τ) ℕ (cfg6 a) c) (hA : dat.A 0 = V c (Pipeline.arrRef spec6 0))
    (hafter : ∀ t, dat.after 0 t = iblk6 V a c 0 t) (t : Fin (cfg6 a).N) (d) : dat.before 0 t d = iblk6 V a c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S1x1x128 := Rect.unit (s := S1x1x128) ![0, 0, 0] S1x1x128.size inb_S1x1x128_S1x1x128_0_0_0

/-- Window 1's staging buffer after the body, from the input block: its one store as a piece. -/
def out6_1 (x0 : Vec F S1x1x128 .f32) : Vec F S1x1x128 .f32 :=
  View.canon [⟨r6_0, k6_pay1 (View.ld x0 r6_0)⟩]

/-- The store is of the whole buffer, so it covers it. -/
theorem cover6_1 (p0 : Vec F S1x1x128 .f32) (y : S1x1x128.Idx) :
    ∃ pc ∈ ([⟨r6_0, p0⟩] : List (View.Piece (Elt F) S1x1x128 .f32)), y ∈ pc.1.set :=
  View.cover_of_tiled [⟨r6_0, p0⟩] S1x1x128.size (by rfl) y

/-! ## The body's triple -/

set_option maxHeartbeats 1000000 in
/-- The kernel body on whole staging memrefs, the input's at read contents `x0` and the output's at anything, runs to
    the continuation holding the input's as it was and the output's at `out6_1 x0`. The table memref is not touched. -/
theorem sound_kernel6 (c : Dev nD) (E : Set ℕ) (i : grid6.Coords) (arg1 : Memref sig .tc .smem S10000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out6_1 x0)) -∗ K ⟨⟩))
      ⊢ wp frame (wpE (defs₀ (F := F)) Variants.none c none) E (cc6__gather_kernel i arg1 harg1 arg2 harg2 arg3 harg3) K := by
  simp only [cc6__gather_kernel_eq_skeleton]; unfold cc6__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6_1 _)

/-! ## The pipeline's proof data -/

/-- The table on core `c`, whole, at the admissible contents: what the region's invariant carries beside the class's. -/
abbrev ΦTab6 (c : Dev nD) : sProp 𝕄 :=
  Pipeline.prefHeld (Ix := Unit) (Name := ℕ) (U := UR sig nD τ) (Lvl := ℕ) pre6 c (fun _ => fullShare) a.1

/-- The proof data of pipeline 6 on core `c`: the arrays as the region finds them (`V`); after the body at point `t`
    the input's buffer at its block and the output's at `out6_1` of it; the invariant the scoped rest, the generator
    register and the table, all untouched; nothing owed; full shares. -/
def dat6 (c : Dev nD) : Dat τ (Elt F) Unit ℕ (UR sig nD τ) ℕ (cfg6 a) c where
  A w := V c (Pipeline.arrRef spec6 w)
  after w t := match w with
    | ⟨0, _⟩ => iblk6 V a c 0 t
    | ⟨1, _⟩ => out6_1 (iblk6 V a c 0 t)
  Φ _ := iprop(Pipeline.ΦA spec6 c ∗ ΦTab6 a c)
  q _ := fullShare
  owed _ := 0

/-- The proof data's arrays are the region-entry contents. -/
theorem A_eq6 (c : Dev nD) (w : Fin (cfg6 a).W) : (dat6 V a c).A w = V c (Pipeline.arrRef spec6 w) := by
  dsimp only [dat6]

/-- What the body leaves, window by window. -/
theorem after6_0 (c : Dev nD) (t : Fin (cfg6 a).N) : (dat6 V a c).after 0 t = iblk6 V a c 0 t := by dsimp only [dat6]; try rfl
theorem after6_1 (c : Dev nD) (t : Fin (cfg6 a).N) : (dat6 V a c).after 1 t = out6_1 (iblk6 V a c 0 t) := by dsimp only [dat6]; try rfl

/-- The input's current staging buffer holds its block at every point, fetched there or not. -/
theorem before6_0 (c : Dev nD) (t : Fin (cfg6 a).N) (d) : (dat6 V a c).before 0 t d = iblk6 V a c 0 t :=
  before6_0_of V a (dat6 V a c) (A_eq6 V a c 0) (after6_0 V a c) t d

/-! ## The body obligation, at a generic point -/

/-- What the body is called with at point `t`, the windows one by one, -/
def bodyPre6 (c : Dev nD) (t : Fin (cfg6 a).N) : sProp 𝕄 :=
  iprop((dat6 V a c).Φ t.castSucc ∗ (dat6 V a c).owesAt () t.castSucc
    ∗ (∃ d, owns (c : Thread nD τ) (st6_0 a t) fullShare ((dat6 V a c).before 0 t d))
    ∗ (∃ d, owns (c : Thread nD τ) (st6_1 a t) fullShare ((dat6 V a c).before 1 t d)))

/-- and what it returns. -/
def bodyPost6 (c : Dev nD) (t : Fin (cfg6 a).N) : sProp 𝕄 :=
  iprop((dat6 V a c).Φ t.succ ∗ (dat6 V a c).owesAt () t.succ
    ∗ owns (c : Thread nD τ) (st6_0 a t) fullShare ((dat6 V a c).after 0 t)
    ∗ owns (c : Thread nD τ) (st6_1 a t) fullShare ((dat6 V a c).after 1 t))

/-- The body at any point: the input's memref holds its block, so `sound_kernel6` applies; the invariant and the
    core's `owes` pass through unread. -/
theorem sound_body6 (c : Dev nD) (t : Fin (cfg6 a).N) :
    bodyPre6 V a c t ⊢ wp frame (wpE (defs₀ (F := F)) Variants.none c none) Set.univ (bodyAt6 a t) (fun _ => bodyPost6 V a c t) := by
  unfold bodyPre6 bodyPost6 bodyAt6
  simp only [before6_0]
  rw [show (dat6 V a c).Φ t.succ = (dat6 V a c).Φ t.castSucc from rfl,
    show (dat6 V a c).owesAt () t.succ = (dat6 V a c).owesAt () t.castSucc from rfl,
    after6_0, after6_1]
  iintro ⟨HΦ, Ho, ⟨%d0, H0⟩, ⟨%d1, H1⟩⟩
  iapply (sound_kernel6 c Set.univ _ _ _ _ _ _ _ (iblk6 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation6 (c : Dev nD) : BodyObligation (dat6 (F := F) V a c) (defs₀ (F := F)) Variants.none () Set.univ := fun t => by
  rw [bigSep_W6, bigSep_W6]
  exact sound_body6 V a c t

end Region

end Cert.Kernel.Hand

end
-- ==== Proof.K.Reg7.lean ====
/-
  Gather region 7 at a parameter `V` (the TensorCore's buffer contents when the region is entered) and admissible
  contents `a` of its table, over the pipeline pinned at them. Window 0 is one row of the [100000, 1, 128] table
  array, the row named by the table word at the grid point; window 1 is row `i` of the [10000, 1, 128] result. The body
  copies the input block to the output block: a whole-block load, and a whole-block store of what was loaded. The
  table itself is carried through the region's invariant untouched, at the full share.
-/
import proofs.«114291_j3908420239568_2_alg».proof.Proof.Gen.Kernel.Launch
import proofs.«114291_j3908420239568_2_alg».proof.Proof.Gen.Kernel.Skeleton
import proofs.«114291_j3908420239568_2_alg».proof.Proof.K.Adm6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule's names, at any admissible contents of the table -/

/-- The current staging memref of each window at point `t`. -/
abbrev st7_0 (a : (pcfg7 (F := F)).Adm) (t : Fin (cfg7 a).N) := ((cfg7 a).win 0).stage ((cfg7 a).slots t 0)
abbrev st7_1 (a : (pcfg7 (F := F)).Adm) (t : Fin (cfg7 a).N) := ((cfg7 a).win 1).stage ((cfg7 a).slots t 1)

/-- The kernel body at point `t`, on what the pipeline calls it with. -/
abbrev bodyAt7 (a : (pcfg7 (F := F)).Adm) (t : Fin (cfg7 a).N) : Prog (TpuEff nD τ sig (Elt F) Λ₀ .tc) PUnit :=
  cc7__gather_kernel (grid7.coords t) (Memref.whole main_arg1) (Memref.isWhole_whole _) (spec7_0.stage ((cfg7 a).slots t 0)) (hstage7_0 (((cfg7 a).slots t 0).cast nbuf7_0)) (spec7_1.stage ((cfg7 a).slots t 1)) (hstage7_1 (((cfg7 a).slots t 1).cast nbuf7_1))

section Region
variable (V : (c : Dev nD) → (b : Ref sig .tc) → Buf (Elt F) ((c : Thread nD τ).loc b))
variable (a : (pcfg7 (F := F)).Adm)

/-! ## The windows' blocks -/

/-- Window `w`'s block at point `t`, read off its array as the region finds it (`V`); window 0's is a function of the
    table's word at the point. -/
def iblk7 (c : Dev nD) (w : Fin (cfg7 a).W) (t : Fin (cfg7 a).N) : (((cfg7 a).win w).xblock ((cfg7 a).grid.coords t)).Idx → Elt F ((cfg7 a).win w).elt :=
  (((cfg7 a).win w).blk t).view.read (Elt F) (V c (Pipeline.arrRef spec7 w))

/-- Input window 0's current staging buffer holds its block at every point, fetched there or not (unfetched, the
    block index has not moved), for any proof data whose array is `V`'s and whose body leaves the block in place. -/
theorem before7_0_of {c : Dev nD} (dat : Dat τ (Elt F) Unit ℕ (UR sig nD τ) ℕ (cfg7 a) c) (hA : dat.A 0 = V c (Pipeline.arrRef spec7 0))
    (hafter : ∀ t, dat.after 0 t = iblk7 V a c 0 t) (t : Fin (cfg7 a).N) (d) : dat.before 0 t d = iblk7 V a c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S1x1x128 := Rect.unit (s := S1x1x128) ![0, 0, 0] S1x1x128.size inb_S1x1x128_S1x1x128_0_0_0

/-- Window 1's staging buffer after the body, from the input block: its one store as a piece. -/
def out7_1 (x0 : Vec F S1x1x128 .f32) : Vec F S1x1x128 .f32 :=
  View.canon [⟨r7_0, k7_pay1 (View.ld x0 r7_0)⟩]

/-- The store is of the whole buffer, so it covers it. -/
theorem cover7_1 (p0 : Vec F S1x1x128 .f32) (y : S1x1x128.Idx) :
    ∃ pc ∈ ([⟨r7_0, p0⟩] : List (View.Piece (Elt F) S1x1x128 .f32)), y ∈ pc.1.set :=
  View.cover_of_tiled [⟨r7_0, p0⟩] S1x1x128.size (by rfl) y

/-! ## The body's triple -/

set_option maxHeartbeats 1000000 in
/-- The kernel body on whole staging memrefs, the input's at read contents `x0` and the output's at anything, runs to
    the continuation holding the input's as it was and the output's at `out7_1 x0`. The table memref is not touched. -/
theorem sound_kernel7 (c : Dev nD) (E : Set ℕ) (i : grid7.Coords) (arg1 : Memref sig .tc .smem S10000 .i32) (harg1 : arg1.IsWhole)
    (arg2 : Memref sig .tc .vmem S1x1x128 .f32) (harg2 : arg2.IsWhole) (arg3 : Memref sig .tc .vmem S1x1x128 .f32) (harg3 : arg3.IsWhole)
    (x0 : Vec F S1x1x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out7_1 x0)) -∗ K ⟨⟩))
      ⊢ wp frame (wpE (defs₀ (F := F)) Variants.none c none) E (cc7__gather_kernel i arg1 harg1 arg2 harg2 arg3 harg3) K := by
  simp only [cc7__gather_kernel_eq_skeleton]; unfold cc7__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover7_1 _)

/-! ## The pipeline's proof data -/

/-- The table on core `c`, whole, at the admissible contents: what the region's invariant carries beside the class's. -/
abbrev ΦTab7 (c : Dev nD) : sProp 𝕄 :=
  Pipeline.prefHeld (Ix := Unit) (Name := ℕ) (U := UR sig nD τ) (Lvl := ℕ) pre7 c (fun _ => fullShare) a.1

/-- The proof data of pipeline 7 on core `c`: the arrays as the region finds them (`V`); after the body at point `t`
    the input's buffer at its block and the output's at `out7_1` of it; the invariant the scoped rest, the generator
    register and the table, all untouched; nothing owed; full shares. -/
def dat7 (c : Dev nD) : Dat τ (Elt F) Unit ℕ (UR sig nD τ) ℕ (cfg7 a) c where
  A w := V c (Pipeline.arrRef spec7 w)
  after w t := match w with
    | ⟨0, _⟩ => iblk7 V a c 0 t
    | ⟨1, _⟩ => out7_1 (iblk7 V a c 0 t)
  Φ _ := iprop(Pipeline.ΦA spec7 c ∗ ΦTab7 a c)
  q _ := fullShare
  owed _ := 0

/-- The proof data's arrays are the region-entry contents. -/
theorem A_eq7 (c : Dev nD) (w : Fin (cfg7 a).W) : (dat7 V a c).A w = V c (Pipeline.arrRef spec7 w) := by
  dsimp only [dat7]

/-- What the body leaves, window by window. -/
theorem after7_0 (c : Dev nD) (t : Fin (cfg7 a).N) : (dat7 V a c).after 0 t = iblk7 V a c 0 t := by dsimp only [dat7]; try rfl
theorem after7_1 (c : Dev nD) (t : Fin (cfg7 a).N) : (dat7 V a c).after 1 t = out7_1 (iblk7 V a c 0 t) := by dsimp only [dat7]; try rfl

/-- The input's current staging buffer holds its block at every point, fetched there or not. -/
theorem before7_0 (c : Dev nD) (t : Fin (cfg7 a).N) (d) : (dat7 V a c).before 0 t d = iblk7 V a c 0 t :=
  before7_0_of V a (dat7 V a c) (A_eq7 V a c 0) (after7_0 V a c) t d

/-! ## The body obligation, at a generic point -/

/-- What the body is called with at point `t`, the windows one by one, -/
def bodyPre7 (c : Dev nD) (t : Fin (cfg7 a).N) : sProp 𝕄 :=
  iprop((dat7 V a c).Φ t.castSucc ∗ (dat7 V a c).owesAt () t.castSucc
    ∗ (∃ d, owns (c : Thread nD τ) (st7_0 a t) fullShare ((dat7 V a c).before 0 t d))
    ∗ (∃ d, owns (c : Thread nD τ) (st7_1 a t) fullShare ((dat7 V a c).before 1 t d)))

/-- and what it returns. -/
def bodyPost7 (c : Dev nD) (t : Fin (cfg7 a).N) : sProp 𝕄 :=
  iprop((dat7 V a c).Φ t.succ ∗ (dat7 V a c).owesAt () t.succ
    ∗ owns (c : Thread nD τ) (st7_0 a t) fullShare ((dat7 V a c).after 0 t)
    ∗ owns (c : Thread nD τ) (st7_1 a t) fullShare ((dat7 V a c).after 1 t))

/-- The body at any point: the input's memref holds its block, so `sound_kernel7` applies; the invariant and the
    core's `owes` pass through unread. -/
theorem sound_body7 (c : Dev nD) (t : Fin (cfg7 a).N) :
    bodyPre7 V a c t ⊢ wp frame (wpE (defs₀ (F := F)) Variants.none c none) Set.univ (bodyAt7 a t) (fun _ => bodyPost7 V a c t) := by
  unfold bodyPre7 bodyPost7 bodyAt7
  simp only [before7_0]
  rw [show (dat7 V a c).Φ t.succ = (dat7 V a c).Φ t.castSucc from rfl,
    show (dat7 V a c).owesAt () t.succ = (dat7 V a c).owesAt () t.castSucc from rfl,
    after7_0, after7_1]
  iintro ⟨HΦ, Ho, ⟨%d0, H0⟩, ⟨%d1, H1⟩⟩
  iapply (sound_kernel7 c Set.univ _ _ _ _ _ _ _ (iblk7 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation7 (c : Dev nD) : BodyObligation (dat7 (F := F) V a c) (defs₀ (F := F)) Variants.none () Set.univ := fun t => by
  rw [bigSep_W7, bigSep_W7]
  exact sound_body7 V a c t

end Region

end Cert.Kernel.Hand

end
-- ==== Proof.K.Bound.lean ====
/-
  The contents of the TensorCore's unscoped buffers at each boundary between two items of @main — seven stretches of
  host operations and eight kernel regions. At launch they are the launch memory; a host stretch leaves what its
  operations compute from what it finds; a region leaves its output array at what its write-backs leave and every
  other buffer as it was. No item writes an argument, so the two seed arrays reach the two gather regions as
  launched; with every seed below 100000 they are admissible tables for those regions' index maps.
-/
import proofs.«114291_j3908420239568_2_alg».proof.Proof.Gen.Kernel.Launch
import proofs.«114291_j3908420239568_2_alg».proof.Proof.Gen.Kernel.Skeleton
import proofs.«114291_j3908420239568_2_alg».proof.Proof.Gen.Kernel.Points
import proofs.«114291_j3908420239568_2_alg».proof.Proof.K.Reg0
import proofs.«114291_j3908420239568_2_alg».proof.Proof.K.Reg1
import proofs.«114291_j3908420239568_2_alg».proof.Proof.K.Reg2
import proofs.«114291_j3908420239568_2_alg».proof.Proof.K.Reg3
import proofs.«114291_j3908420239568_2_alg».proof.Proof.K.Reg4
import proofs.«114291_j3908420239568_2_alg».proof.Proof.K.Reg5
import proofs.«114291_j3908420239568_2_alg».proof.Proof.K.Reg6
import proofs.«114291_j3908420239568_2_alg».proof.Proof.K.Reg7
import proofs.«114291_j3908420239568_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host stretch hostOps0. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
theorem W1_of (c : Dev nD) (r : Ref sig .tc) (h : r ∉ hostOps0_W) : W1 m c (Proc.devRef .tc r) = W0 m c (Proc.devRef .tc r) :=
  StableHlo.after_of_writes_sub hostOps0 _ hostOps0_writes h

/-- After region 0: its arrays at what the pipeline leaves (the inputs as entered, the output's write-backs folded),
    every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the host stretch hostOps1. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h

/-- After region 1: its arrays at what the pipeline leaves (the inputs as entered, the output's write-backs folded),
    every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After region 2: its arrays at what the pipeline leaves (the inputs as entered, the output's write-backs folded),
    every other buffer as entered. -/
def W5 (c : Dev nD) : Valuation τ sig (Elt F) :=
  Pipeline.withArrays spec2 c (W4 m c) fun w => (dat2 (E4 m) c).arrAt w cfg2.N
theorem W5_arr (c : Dev nD) (w : Fin cfg2.W) :
    W5 m c (Proc.devRef .tc (Pipeline.arrRef spec2 w)) = (dat2 (E4 m) c).arrAt w cfg2.N := by
  unfold W5; exact Pipeline.withArrays_arr spec2 (launch2 (F := F)).win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev E5 : (c : Dev nD) → (b : Ref sig .tc) → Buf (Elt F) ((c : Thread nD τ).loc b) := fun c b => W5 m c b
theorem hF2 (c : Dev nD) (w : Fin cfg2.W) : (dat2 (E4 m) c).arrAt w cfg2.N = E5 m c (Pipeline.arrRef spec2 w) :=
  (W5_arr m c w).symm
theorem hrest2 (c : Dev nD) : ∀ b, b ∉ Finset.univ.image (Pipeline.arrRef spec2) → E5 m c b = E4 m c b :=
  fun b hb => W5_of_ne m c b fun w e => hb (Finset.mem_image.mpr ⟨w, Finset.mem_univ _, e⟩)

/-- After the host stretch hostOps3. -/
abbrev W6 : Dev nD → Valuation τ sig (Elt F) := fun c => StableHlo.after hostOps3 (W5 m c)
abbrev E6 : (c : Dev nD) → (b : Ref sig .tc) → Buf (Elt F) ((c : Thread nD τ).loc b) := fun c b => W6 m c b
theorem W6_of (c : Dev nD) (r : Ref sig .tc) (h : r ∉ hostOps3_W) : W6 m c (Proc.devRef .tc r) = W5 m c (Proc.devRef .tc r) :=
  StableHlo.after_of_writes_sub hostOps3 _ hostOps3_writes h

/-- After region 3: its arrays at what the pipeline leaves (the inputs as entered, the output's write-backs folded),
    every other buffer as entered. -/
def W7 (c : Dev nD) : Valuation τ sig (Elt F) :=
  Pipeline.withArrays spec3 c (W6 m c) fun w => (dat3 (E6 m) c).arrAt w cfg3.N
theorem W7_arr (c : Dev nD) (w : Fin cfg3.W) :
    W7 m c (Proc.devRef .tc (Pipeline.arrRef spec3 w)) = (dat3 (E6 m) c).arrAt w cfg3.N := by
  unfold W7; exact Pipeline.withArrays_arr spec3 (launch3 (F := F)).win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev E7 : (c : Dev nD) → (b : Ref sig .tc) → Buf (Elt F) ((c : Thread nD τ).loc b) := fun c b => W7 m c b
theorem hF3 (c : Dev nD) (w : Fin cfg3.W) : (dat3 (E6 m) c).arrAt w cfg3.N = E7 m c (Pipeline.arrRef spec3 w) :=
  (W7_arr m c w).symm
theorem hrest3 (c : Dev nD) : ∀ b, b ∉ Finset.univ.image (Pipeline.arrRef spec3) → E7 m c b = E6 m c b :=
  fun b hb => W7_of_ne m c b fun w e => hb (Finset.mem_image.mpr ⟨w, Finset.mem_univ _, e⟩)

/-- After the host stretch hostOps4. -/
abbrev W8 : Dev nD → Valuation τ sig (Elt F) := fun c => StableHlo.after hostOps4 (W7 m c)
abbrev E8 : (c : Dev nD) → (b : Ref sig .tc) → Buf (Elt F) ((c : Thread nD τ).loc b) := fun c b => W8 m c b
theorem W8_of (c : Dev nD) (r : Ref sig .tc) (h : r ∉ hostOps4_W) : W8 m c (Proc.devRef .tc r) = W7 m c (Proc.devRef .tc r) :=
  StableHlo.after_of_writes_sub hostOps4 _ hostOps4_writes h

/-- After region 4: its arrays at what the pipeline leaves (the inputs as entered, the output's write-backs folded),
    every other buffer as entered. -/
def W9 (c : Dev nD) : Valuation τ sig (Elt F) :=
  Pipeline.withArrays spec4 c (W8 m c) fun w => (dat4 (E8 m) c).arrAt w cfg4.N
theorem W9_arr (c : Dev nD) (w : Fin cfg4.W) :
    W9 m c (Proc.devRef .tc (Pipeline.arrRef spec4 w)) = (dat4 (E8 m) c).arrAt w cfg4.N := by
  unfold W9; exact Pipeline.withArrays_arr spec4 (launch4 (F := F)).win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- The same read at the TensorCore's references. -/
abbrev E9 : (c : Dev nD) → (b : Ref sig .tc) → Buf (Elt F) ((c : Thread nD τ).loc b) := fun c b => W9 m c b
theorem hF4 (c : Dev nD) (w : Fin cfg4.W) : (dat4 (E8 m) c).arrAt w cfg4.N = E9 m c (Pipeline.arrRef spec4 w) :=
  (W9_arr m c w).symm
theorem hrest4 (c : Dev nD) : ∀ b, b ∉ Finset.univ.image (Pipeline.arrRef spec4) → E9 m c b = E8 m c b :=
  fun b hb => W9_of_ne m c b fun w e => hb (Finset.mem_image.mpr ⟨w, Finset.mem_univ _, e⟩)

/-- After region 5: its arrays at what the pipeline leaves (the inputs as entered, the output's write-backs folded),
    every other buffer as entered. -/
def W10 (c : Dev nD) : Valuation τ sig (Elt F) :=
  Pipeline.withArrays spec5 c (W9 m c) fun w => (dat5 (E9 m) c).arrAt w cfg5.N
theorem W10_arr (c : Dev nD) (w : Fin cfg5.W) :
    W10 m c (Proc.devRef .tc (Pipeline.arrRef spec5 w)) = (dat5 (E9 m) c).arrAt w cfg5.N := by
  unfold W10; exact Pipeline.withArrays_arr spec5 (launch5 (F := F)).win.arr_inj c _ _ w
theorem W10_of_ne (c : Dev nD) (b : Ref sig .tc) (hb : ∀ w, Pipeline.arrRef spec5 w ≠ b) :
    W10 m c (Proc.devRef .tc b) = W9 m c (Proc.devRef .tc b) := by
  unfold W10; exact Pipeline.withArrays_of_ne spec5 c _ _ b hb
/-- The same read at the TensorCore's references. -/
abbrev E10 : (c : Dev nD) → (b : Ref sig .tc) → Buf (Elt F) ((c : Thread nD τ).loc b) := fun c b => W10 m c b
theorem hF5 (c : Dev nD) (w : Fin cfg5.W) : (dat5 (E9 m) c).arrAt w cfg5.N = E10 m c (Pipeline.arrRef spec5 w) :=
  (W10_arr m c w).symm
theorem hrest5 (c : Dev nD) : ∀ b, b ∉ Finset.univ.image (Pipeline.arrRef spec5) → E10 m c b = E9 m c b :=
  fun b hb => W10_of_ne m c b fun w e => hb (Finset.mem_image.mpr ⟨w, Finset.mem_univ _, e⟩)

/-- After the host stretch hostOps6. -/
abbrev W11 : Dev nD → Valuation τ sig (Elt F) := fun c => StableHlo.after hostOps6 (W10 m c)
abbrev E11 : (c : Dev nD) → (b : Ref sig .tc) → Buf (Elt F) ((c : Thread nD τ).loc b) := fun c b => W11 m c b
theorem W11_of (c : Dev nD) (r : Ref sig .tc) (h : r ∉ hostOps6_W) : W11 m c (Proc.devRef .tc r) = W10 m c (Proc.devRef .tc r) :=
  StableHlo.after_of_writes_sub hostOps6 _ hostOps6_writes h

/-! ## The two regions that read a seed table -/

variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

/-- No item before the first gather writes the first seed array. -/
theorem W11_arg0 (c : Dev nD) : W11 m c (Proc.devRef .tc main_arg0) = m ((c : Thread nD τ).loc main_arg0) :=
  (W11_of m c main_arg0 (by decide)).trans <| (W10_of_ne m c main_arg0 (by decide)).trans <| (W9_of_ne m c main_arg0 (by decide)).trans <| (W8_of m c main_arg0 (by decide)).trans <| (W7_of_ne m c main_arg0 (by decide)).trans <| (W6_of m c main_arg0 (by decide)).trans <| (W5_of_ne m c main_arg0 (by decide)).trans <| (W4_of_ne m c main_arg0 (by decide)).trans <| (W3_of m c main_arg0 (by decide)).trans <| (W2_of_ne m c main_arg0 (by decide)).trans <| (W1_of m c main_arg0 (by decide)).trans rfl
/-- The first gather's table, admissible: the seeds as the region finds them, each below 100000. -/
def a6 : (pcfg6 (F := F)).Adm :=
  adm6 (tbl6 (E11 m (0 : Dev nD))) (tbl6_lt (E11 m (0 : Dev nD)) fun x => by
    rw [show E11 m (0 : Dev nD) main_arg0 = m (((0 : Dev nD) : Thread nD τ).loc main_arg0) from W11_arg0 m 0]; exact hs0 0 x)

/-- After region 6: its arrays at what the pipeline leaves, every other buffer as entered. -/
def W12 (c : Dev nD) : Valuation τ sig (Elt F) :=
  Pipeline.withArrays spec6 c (W11 m c) fun w => (dat6 (E11 m) (a6 m hs0) c).arrAt w (cfg6 (a6 m hs0)).N
theorem W12_arr (c : Dev nD) (w : Fin (cfg6 (a6 m hs0)).W) :
    W12 m hs0 c (Proc.devRef .tc (Pipeline.arrRef spec6 w)) = (dat6 (E11 m) (a6 m hs0) c).arrAt w (cfg6 (a6 m hs0)).N := by
  unfold W12; exact Pipeline.withArrays_arr spec6 (launch6 (F := F)).win.arr_inj c _ _ w
theorem W12_of_ne (c : Dev nD) (b : Ref sig .tc) (hb : ∀ w, Pipeline.arrRef spec6 w ≠ b) :
    W12 m hs0 c (Proc.devRef .tc b) = W11 m c (Proc.devRef .tc b) := by
  unfold W12; exact Pipeline.withArrays_of_ne spec6 c _ _ b hb
abbrev E12 : (c : Dev nD) → (b : Ref sig .tc) → Buf (Elt F) ((c : Thread nD τ).loc b) := fun c b => W12 m hs0 c b
theorem hF6 (c : Dev nD) (w : Fin (cfg6 (a6 m hs0)).W) : (dat6 (E11 m) (a6 m hs0) c).arrAt w (cfg6 (a6 m hs0)).N = E12 m hs0 c (Pipeline.arrRef spec6 w) :=
  (W12_arr m hs0 c w).symm
theorem hrest6 (c : Dev nD) : ∀ b, b ∉ Finset.univ.image (Pipeline.arrRef spec6) → E12 m hs0 c b = E11 m c b :=
  fun b hb => W12_of_ne m hs0 c b fun w e => hb (Finset.mem_image.mpr ⟨w, Finset.mem_univ _, e⟩)

/-- After the host stretch hostOps7. -/
abbrev W13 : Dev nD → Valuation τ sig (Elt F) := fun c => StableHlo.after hostOps7 (W12 m hs0 c)
abbrev E13 : (c : Dev nD) → (b : Ref sig .tc) → Buf (Elt F) ((c : Thread nD τ).loc b) := fun c b => W13 m hs0 c b
theorem W13_of (c : Dev nD) (r : Ref sig .tc) (h : r ∉ hostOps7_W) : W13 m hs0 c (Proc.devRef .tc r) = W12 m hs0 c (Proc.devRef .tc r) :=
  StableHlo.after_of_writes_sub hostOps7 _ hostOps7_writes h

/-- No item before the second gather writes the second seed array. -/
theorem W13_arg1 (c : Dev nD) : W13 m hs0 c (Proc.devRef .tc main_arg1) = m ((c : Thread nD τ).loc main_arg1) :=
  (W13_of m hs0 c main_arg1 (by decide)).trans <| (W12_of_ne m hs0 c main_arg1 (by decide)).trans <| (W11_of m c main_arg1 (by decide)).trans <| (W10_of_ne m c main_arg1 (by decide)).trans <| (W9_of_ne m c main_arg1 (by decide)).trans <| (W8_of m c main_arg1 (by decide)).trans <| (W7_of_ne m c main_arg1 (by decide)).trans <| (W6_of m c main_arg1 (by decide)).trans <| (W5_of_ne m c main_arg1 (by decide)).trans <| (W4_of_ne m c main_arg1 (by decide)).trans <| (W3_of m c main_arg1 (by decide)).trans <| (W2_of_ne m c main_arg1 (by decide)).trans <| (W1_of m c main_arg1 (by decide)).trans rfl
/-- The second gather's table, admissible. -/
def a7 : (pcfg7 (F := F)).Adm :=
  adm7 (tbl7 (E13 m hs0 (0 : Dev nD))) (tbl7_lt (E13 m hs0 (0 : Dev nD)) fun x => by
    rw [show E13 m hs0 (0 : Dev nD) main_arg1 = m (((0 : Dev nD) : Thread nD τ).loc main_arg1) from W13_arg1 m hs0 0]; exact hs1 0 x)

/-- After region 7. -/
def W14 (c : Dev nD) : Valuation τ sig (Elt F) :=
  Pipeline.withArrays spec7 c (W13 m hs0 c) fun w => (dat7 (E13 m hs0) (a7 m hs0 hs1) c).arrAt w (cfg7 (a7 m hs0 hs1)).N
theorem W14_arr (c : Dev nD) (w : Fin (cfg7 (a7 m hs0 hs1)).W) :
    W14 m hs0 hs1 c (Proc.devRef .tc (Pipeline.arrRef spec7 w)) = (dat7 (E13 m hs0) (a7 m hs0 hs1) c).arrAt w (cfg7 (a7 m hs0 hs1)).N := by
  unfold W14; exact Pipeline.withArrays_arr spec7 (launch7 (F := F)).win.arr_inj c _ _ w
theorem W14_of_ne (c : Dev nD) (b : Ref sig .tc) (hb : ∀ w, Pipeline.arrRef spec7 w ≠ b) :
    W14 m hs0 hs1 c (Proc.devRef .tc b) = W13 m hs0 c (Proc.devRef .tc b) := by
  unfold W14; exact Pipeline.withArrays_of_ne spec7 c _ _ b hb
abbrev E14 : (c : Dev nD) → (b : Ref sig .tc) → Buf (Elt F) ((c : Thread nD τ).loc b) := fun c b => W14 m hs0 hs1 c b
theorem hF7 (c : Dev nD) (w : Fin (cfg7 (a7 m hs0 hs1)).W) : (dat7 (E13 m hs0) (a7 m hs0 hs1) c).arrAt w (cfg7 (a7 m hs0 hs1)).N = E14 m hs0 hs1 c (Pipeline.arrRef spec7 w) :=
  (W14_arr m hs0 hs1 c w).symm
theorem hrest7 (c : Dev nD) : ∀ b, b ∉ Finset.univ.image (Pipeline.arrRef spec7) → E14 m hs0 hs1 c b = E13 m hs0 c b :=
  fun b hb => W14_of_ne m hs0 hs1 c b fun w e => hb (Finset.mem_image.mpr ⟨w, Finset.mem_univ _, e⟩)

/-- After the last host stretch. -/
abbrev W15 : Dev nD → Valuation τ sig (Elt F) := fun c => StableHlo.after hostOps8 (W14 m hs0 hs1 c)
theorem W15_of (c : Dev nD) (r : Ref sig .tc) (h : r ∉ hostOps8_W) : W15 m hs0 hs1 c (Proc.devRef .tc r) = W14 m hs0 hs1 c (Proc.devRef .tc r) :=
  StableHlo.after_of_writes_sub hostOps8 _ hostOps8_writes h

/-! ## The proof data family and the thread state -/

/-- The prefetched tables' admissible contents: none for the six dense regions, the seeds for the two gathers. -/
def adm : (p : Fin 8) → (pcfgs (F := F) p).Adm
  | ⟨0, _⟩ => cfg0.toPCfg_adm | ⟨1, _⟩ => cfg1.toPCfg_adm | ⟨2, _⟩ => cfg2.toPCfg_adm | ⟨3, _⟩ => cfg3.toPCfg_adm
  | ⟨4, _⟩ => cfg4.toPCfg_adm | ⟨5, _⟩ => cfg5.toPCfg_adm | ⟨6, _⟩ => a6 m hs0 | ⟨7, _⟩ => a7 m hs0 hs1
/-- Every pipeline's proof data, each at its region's entry contents. -/
def pdats : (p : Fin 8) → (c : Dev nD) → Dat τ (Elt F) Unit ℕ (UR sig nD τ) ℕ (Pipeline.pin (pcfgs (F := F)) (adm m hs0 hs1) p) c
  | ⟨0, _⟩ => fun c => dat0 (E1 m) c
  | ⟨1, _⟩ => fun c => dat1 (E3 m) c
  | ⟨2, _⟩ => fun c => dat2 (E4 m) c
  | ⟨3, _⟩ => fun c => dat3 (E6 m) c
  | ⟨4, _⟩ => fun c => dat4 (E8 m) c
  | ⟨5, _⟩ => fun c => dat5 (E9 m) c
  | ⟨6, _⟩ => fun c => dat6 (E11 m) (a6 m hs0) c
  | ⟨7, _⟩ => fun c => dat7 (E13 m hs0) (a7 m hs0 hs1) c

end Cert.Kernel.Hand

end
-- ==== Proof.K.Seg6.lean ====
/-
  Gather region 6 as a segment of the run: the four entailments around its thread states. The region is entered from
  every unscoped buffer of the core held at contents `W c` beside the generator register and the core's `owes`; its two
  arrays and its table are split out of those buffers, the table (held whole at the admissible contents, which are what
  `W c` has at the table's buffer) rides through the region's invariant, and at the exit everything is put back at
  contents `W' c` that have the arrays at what the pipeline leaves and agree with `W c` elsewhere.
-/
import proofs.«114291_j3908420239568_2_alg».proof.Proof.K.Reg6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg
variable (W W' : Dev nD → Valuation τ sig (Elt F))
variable (a : (pcfg6 (F := F)).Adm)

/-- A valuation read at the TensorCore's references. -/
abbrev VW6 (W : Dev nD → Valuation τ sig (Elt F)) : (c : Dev nD) → (b : Ref sig .tc) → Buf (Elt F) ((c : Thread nD τ).loc b) := fun c b => W c b

/-- What enters the invariant beside the table and the scoped rest: the generator register at some state. -/
abbrev X6 (c : Dev nD) : sProp 𝕄 := iprop(∃ r, prngReg c r)
/-- What the invariant gives back: the generator register and the table, whole, at the admissible contents. -/
abbrev Y6 (c : Dev nD) : sProp 𝕄 := iprop((∃ r, prngReg c r) ∗ ΦTab6 a c)
/-- What bypasses the region: the unscoped buffers that are neither an array of it nor its table, as entered. -/
abbrev Z6 (c : Dev nD) : sProp 𝕄 :=
  Pipeline.unscopedRestP (Ix := Unit) (Name := ℕ) (U := UR sig nD τ) (Lvl := ℕ) pre6 spec6 c (VW6 W c)

/-- The one-pipeline family the library's splitting lemmas are cited at. -/
abbrev fam6 : (p : Unit) → (c : Dev nD) → Dat τ (Elt F) Unit ℕ (UR sig nD τ) ℕ (Pipeline.pin (fun _ : Unit => pcfg6 (F := F)) (fun _ => a) p) c :=
  fun _ c => dat6 (VW6 W) a c

set_option backward.isDefEq.respectTransparency.types false in
/-- ENTRY: the arrays at the entry contents, the table whole at the admissible contents, the `owes`, `X` and `Z`. -/
theorem hentry6 (L : GSem nD τ sig → Finset Unit) (lv : GSem nD τ sig → Unit → ℕ) (c : Dev nD)
    (hpf : a.1 = tbl6 (VW6 W c)) :
    iprop((StableHlo.held (c : Thread nD τ) (Pipeline.ucRefs τ sig) (W c)
          ∗ ((∃ r, prngReg c r) ∗ ∃ Wo, owes (c : Thread nD τ) (0 : CellTallies nD τ sig Unit) Wo))
        ∗ Pipeline.ownSems0 (fun k : PEmpty => k.elim) c ∗ (levAts L lv : sProp 𝕄))
      ⊢ |={Set.univ}=> iprop((dat6 (VW6 W) a c).arrays ((dat6 (VW6 W) a c).arrAt · 0)
          ∗ Pipeline.prefHeld pre6 c (fun _ => fullShare) a.1
          ∗ (dat6 (VW6 W) a c).owesAt () 0 ∗ X6 c ∗ Z6 W c) := by
  have hsplit := Pipeline.arrays_of_unscopedBufs (p := ()) (fun _ : Unit => pcfg6 (F := F)) (fun _ => a) (fam6 W a) winFacts6 arr_whole6 c
    ((dat6 (VW6 W) a c).share_full fun _ => rfl) (VW6 W c) fun _ => rfl
  rw [Pipeline.unscopedBufs_held, Pipeline.unscopedRest_split preFacts6] at hsplit
  iintro ⟨⟨Hub, Hp, HO⟩, -, -⟩
  ihave H := hsplit $$ Hub
  icases H with ⟨Ha, Htab, Hrest⟩
  imodintro
  isplitl [Ha]; · iexact Ha
  isplitl [Htab]; · rw [hpf]; iexact Htab
  isplitl [HO]
  · unfold Pipeline.Dat.owesAt Pipeline.owesWithin
    icases HO with ⟨%Wo, HO⟩; iexists Wo; isplitr; · ipureintro; exact fun _ _ => Or.inl trivial
    iexact HO
  isplitl [Hp]; · iexact Hp
  iexact Hrest

set_option backward.isDefEq.respectTransparency.types false in
/-- The invariant at the first point, from `X`, the table and the scoped buffers no window stages. -/
theorem hin6 (V : (c : Dev nD) → (b : Ref sig .tc) → Buf (Elt F) ((c : Thread nD τ).loc b)) (c : Dev nD) :
    iprop(X6 (F := F) c ∗ Pipeline.prefHeld pre6 c (fun _ => fullShare) a.1
        ∗ Pipeline.scopedRest (Ix := Unit) (Name := ℕ) (U := UR sig nD τ) (Lvl := ℕ) (Val := Elt F) (cfg6 a).spec c)
      ⊢ (dat6 V a c).Φ 0 := by
  rw [show (dat6 V a c).Φ 0 = iprop(Pipeline.ΦA spec6 c ∗ ΦTab6 a c) from rfl]; unfold Pipeline.ΦA
  iintro ⟨Hp, Ht, Hr⟩
  isplitl [Hr Hp]
  · isplitl [Hr]; · iexact Hr
    iexact Hp
  iexact Ht

set_option backward.isDefEq.respectTransparency.types false in
/-- The invariant at the last point gives back `Y`, no semaphore of the kernel's own, and those scoped buffers. -/
theorem hout6 (V : (c : Dev nD) → (b : Ref sig .tc) → Buf (Elt F) ((c : Thread nD τ).loc b)) (c : Dev nD) :
    (dat6 V a c).Φ (Fin.last (cfg6 a).N)
      ⊢ iprop(Y6 a c ∗ Pipeline.ownSems0 (fun k : PEmpty => k.elim) c
          ∗ Pipeline.scopedRest (Ix := Unit) (Name := ℕ) (U := UR sig nD τ) (Lvl := ℕ) (Val := Elt F) (cfg6 a).spec c) := by
  rw [Pipeline.ownSems0_none, show (dat6 V a c).Φ (Fin.last (cfg6 a).N) = iprop(Pipeline.ΦA spec6 c ∗ ΦTab6 a c) from rfl]; unfold Pipeline.ΦA
  iintro ⟨⟨Hr, Hp⟩, Ht⟩
  isplitl [Hp Ht]
  · isplitl [Hp]; · iexact Hp
    iexact Ht
  isplitr; · iempintro
  iexact Hr

set_option backward.isDefEq.respectTransparency.types false in
/-- EXIT: the arrays at what the pipeline leaves, the table (unchanged) and the bypassed buffers are every unscoped
    buffer at contents `W' c` that have the arrays so (`hF`) and agree with `W c` off them (`hrest`). -/
theorem hexit6 (c : Dev nD) (hpf : a.1 = tbl6 (VW6 W c))
    (hF : ∀ w, (dat6 (VW6 W) a c).arrAt w (cfg6 a).N = VW6 W' c (Pipeline.arrRef spec6 w))
    (hrest : ∀ b, b ∉ Finset.univ.image (Pipeline.arrRef spec6) → VW6 W' c b = VW6 W c b) :
    iprop((dat6 (VW6 W) a c).arrays ((dat6 (VW6 W) a c).arrAt · (cfg6 a).N)
        ∗ (dat6 (VW6 W) a c).owesAt () (Fin.last (cfg6 a).N) ∗ Y6 a c ∗ Z6 W c)
      ⊢ |={Set.univ}=> iprop(StableHlo.held (c : Thread nD τ) (Pipeline.ucRefs τ sig) (W' c)
          ∗ ((∃ r, prngReg c r) ∗ ∃ Wo, owes (c : Thread nD τ) (0 : CellTallies nD τ sig Unit) Wo)) := by
  have hjoin := Pipeline.unscopedBufs_of_arrays (p := ()) (fun _ : Unit => pcfg6 (F := F)) (fun _ => a) (Ix := Unit) (Name := ℕ) (U := UR sig nD τ) (Lvl := ℕ)
    winFacts6 arr_whole6 c (fam6 W a) ((dat6 (VW6 W) a c).share_full fun _ => rfl)
    (VW6 W c) (VW6 W' c) ((dat6 (VW6 W) a c).arrAt · (cfg6 a).N) hF hrest
  rw [Pipeline.unscopedBufs_held, Pipeline.unscopedRest_split preFacts6] at hjoin
  iintro ⟨Ha, HO, ⟨Hp, Ht⟩, Hrest⟩
  imodintro
  isplitl [Ha Hrest Ht]
  · iapply hjoin
    isplitl [Ha]; · iexact Ha
    isplitl [Ht]
    · iapply (Entails.of_eq (congrArg (Pipeline.prefHeld (Ix := Unit) (Name := ℕ) (U := UR sig nD τ) (Lvl := ℕ) pre6 c (fun _ => fullShare)) hpf))
      iexact Ht
    iexact Hrest
  isplitl [Hp]; · iexact Hp
  unfold Pipeline.Dat.owesAt Pipeline.owesWithin
  icases HO with ⟨%Wo, -, HO⟩; iexists Wo; iexact HO

/-- EXIT, for a region the run ends with: the same, associated as (buffers ∗ generator register) ∗ `owes`. -/
theorem hexit6_last (c : Dev nD) (hpf : a.1 = tbl6 (VW6 W c))
    (hF : ∀ w, (dat6 (VW6 W) a c).arrAt w (cfg6 a).N = VW6 W' c (Pipeline.arrRef spec6 w))
    (hrest : ∀ b, b ∉ Finset.univ.image (Pipeline.arrRef spec6) → VW6 W' c b = VW6 W c b) :
    iprop((dat6 (VW6 W) a c).arrays ((dat6 (VW6 W) a c).arrAt · (cfg6 a).N)
        ∗ (dat6 (VW6 W) a c).owesAt () (Fin.last (cfg6 a).N) ∗ Y6 a c ∗ Z6 W c)
      ⊢ |={Set.univ}=> iprop((StableHlo.held (c : Thread nD τ) (Pipeline.ucRefs τ sig) (W' c) ∗ ∃ r, prngReg c r)
          ∗ ∃ Wo, owes (c : Thread nD τ) (0 : CellTallies nD τ sig Unit) Wo) := by
  refine (hexit6 W W' a c hpf hF hrest).trans (fupd_mono ?_)
  iintro ⟨Hh, Hp, HO⟩
  isplitl [Hh Hp]
  · isplitl [Hh]; · iexact Hh
    iexact Hp
  iexact HO

end Seg

end Cert.Kernel.Hand

end
-- ==== Proof.K.Seg7.lean ====
/-
  Gather region 7 as a segment of the run: the four entailments around its thread states. The region is entered from
  every unscoped buffer of the core held at contents `W c` beside the generator register and the core's `owes`; its two
  arrays and its table are split out of those buffers, the table (held whole at the admissible contents, which are what
  `W c` has at the table's buffer) rides through the region's invariant, and at the exit everything is put back at
  contents `W' c` that have the arrays at what the pipeline leaves and agree with `W c` elsewhere.
-/
import proofs.«114291_j3908420239568_2_alg».proof.Proof.K.Reg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Seg
variable (W W' : Dev nD → Valuation τ sig (Elt F))
variable (a : (pcfg7 (F := F)).Adm)

/-- A valuation read at the TensorCore's references. -/
abbrev VW7 (W : Dev nD → Valuation τ sig (Elt F)) : (c : Dev nD) → (b : Ref sig .tc) → Buf (Elt F) ((c : Thread nD τ).loc b) := fun c b => W c b

/-- What enters the invariant beside the table and the scoped rest: the generator register at some state. -/
abbrev X7 (c : Dev nD) : sProp 𝕄 := iprop(∃ r, prngReg c r)
/-- What the invariant gives back: the generator register and the table, whole, at the admissible contents. -/
abbrev Y7 (c : Dev nD) : sProp 𝕄 := iprop((∃ r, prngReg c r) ∗ ΦTab7 a c)
/-- What bypasses the region: the unscoped buffers that are neither an array of it nor its table, as entered. -/
abbrev Z7 (c : Dev nD) : sProp 𝕄 :=
  Pipeline.unscopedRestP (Ix := Unit) (Name := ℕ) (U := UR sig nD τ) (Lvl := ℕ) pre7 spec7 c (VW7 W c)

/-- The one-pipeline family the library's splitting lemmas are cited at. -/
abbrev fam7 : (p : Unit) → (c : Dev nD) → Dat τ (Elt F) Unit ℕ (UR sig nD τ) ℕ (Pipeline.pin (fun _ : Unit => pcfg7 (F := F)) (fun _ => a) p) c :=
  fun _ c => dat7 (VW7 W) a c

set_option backward.isDefEq.respectTransparency.types false in
/-- ENTRY: the arrays at the entry contents, the table whole at the admissible contents, the `owes`, `X` and `Z`. -/
theorem hentry7 (L : GSem nD τ sig → Finset Unit) (lv : GSem nD τ sig → Unit → ℕ) (c : Dev nD)
    (hpf : a.1 = tbl7 (VW7 W c)) :
    iprop((StableHlo.held (c : Thread nD τ) (Pipeline.ucRefs τ sig) (W c)
          ∗ ((∃ r, prngReg c r) ∗ ∃ Wo, owes (c : Thread nD τ) (0 : CellTallies nD τ sig Unit) Wo))
        ∗ Pipeline.ownSems0 (fun k : PEmpty => k.elim) c ∗ (levAts L lv : sProp 𝕄))
      ⊢ |={Set.univ}=> iprop((dat7 (VW7 W) a c).arrays ((dat7 (VW7 W) a c).arrAt · 0)
          ∗ Pipeline.prefHeld pre7 c (fun _ => fullShare) a.1
          ∗ (dat7 (VW7 W) a c).owesAt () 0 ∗ X7 c ∗ Z7 W c) := by
  have hsplit := Pipeline.arrays_of_unscopedBufs (p := ()) (fun _ : Unit => pcfg7 (F := F)) (fun _ => a) (fam7 W a) winFacts7 arr_whole7 c
    ((dat7 (VW7 W) a c).share_full fun _ => rfl) (VW7 W c) fun _ => rfl
  rw [Pipeline.unscopedBufs_held, Pipeline.unscopedRest_split preFacts7] at hsplit
  iintro ⟨⟨Hub, Hp, HO⟩, -, -⟩
  ihave H := hsplit $$ Hub
  icases H with ⟨Ha, Htab, Hrest⟩
  imodintro
  isplitl [Ha]; · iexact Ha
  isplitl [Htab]; · rw [hpf]; iexact Htab
  isplitl [HO]
  · unfold Pipeline.Dat.owesAt Pipeline.owesWithin
    icases HO with ⟨%Wo, HO⟩; iexists Wo; isplitr; · ipureintro; exact fun _ _ => Or.inl trivial
    iexact HO
  isplitl [Hp]; · iexact Hp
  iexact Hrest

set_option backward.isDefEq.respectTransparency.types false in
/-- The invariant at the first point, from `X`, the table and the scoped buffers no window stages. -/
theorem hin7 (V : (c : Dev nD) → (b : Ref sig .tc) → Buf (Elt F) ((c : Thread nD τ).loc b)) (c : Dev nD) :
    iprop(X7 (F := F) c ∗ Pipeline.prefHeld pre7 c (fun _ => fullShare) a.1
        ∗ Pipeline.scopedRest (Ix := Unit) (Name := ℕ) (U := UR sig nD τ) (Lvl := ℕ) (Val := Elt F) (cfg7 a).spec c)
      ⊢ (dat7 V a c).Φ 0 := by
  rw [show (dat7 V a c).Φ 0 = iprop(Pipeline.ΦA spec7 c ∗ ΦTab7 a c) from rfl]; unfold Pipeline.ΦA
  iintro ⟨Hp, Ht, Hr⟩
  isplitl [Hr Hp]
  · isplitl [Hr]; · iexact Hr
    iexact Hp
  iexact Ht

set_option backward.isDefEq.respectTransparency.types false in
/-- The invariant at the last point gives back `Y`, no semaphore of the kernel's own, and those scoped buffers. -/
theorem hout7 (V : (c : Dev nD) → (b : Ref sig .tc) → Buf (Elt F) ((c : Thread nD τ).loc b)) (c : Dev nD) :
    (dat7 V a c).Φ (Fin.last (cfg7 a).N)
      ⊢ iprop(Y7 a c ∗ Pipeline.ownSems0 (fun k : PEmpty => k.elim) c
          ∗ Pipeline.scopedRest (Ix := Unit) (Name := ℕ) (U := UR sig nD τ) (Lvl := ℕ) (Val := Elt F) (cfg7 a).spec c) := by
  rw [Pipeline.ownSems0_none, show (dat7 V a c).Φ (Fin.last (cfg7 a).N) = iprop(Pipeline.ΦA spec7 c ∗ ΦTab7 a c) from rfl]; unfold Pipeline.ΦA
  iintro ⟨⟨Hr, Hp⟩, Ht⟩
  isplitl [Hp Ht]
  · isplitl [Hp]; · iexact Hp
    iexact Ht
  isplitr; · iempintro
  iexact Hr

set_option backward.isDefEq.respectTransparency.types false in
/-- EXIT: the arrays at what the pipeline leaves, the table (unchanged) and the bypassed buffers are every unscoped
    buffer at contents `W' c` that have the arrays so (`hF`) and agree with `W c` off them (`hrest`). -/
theorem hexit7 (c : Dev nD) (hpf : a.1 = tbl7 (VW7 W c))
    (hF : ∀ w, (dat7 (VW7 W) a c).arrAt w (cfg7 a).N = VW7 W' c (Pipeline.arrRef spec7 w))
    (hrest : ∀ b, b ∉ Finset.univ.image (Pipeline.arrRef spec7) → VW7 W' c b = VW7 W c b) :
    iprop((dat7 (VW7 W) a c).arrays ((dat7 (VW7 W) a c).arrAt · (cfg7 a).N)
        ∗ (dat7 (VW7 W) a c).owesAt () (Fin.last (cfg7 a).N) ∗ Y7 a c ∗ Z7 W c)
      ⊢ |={Set.univ}=> iprop(StableHlo.held (c : Thread nD τ) (Pipeline.ucRefs τ sig) (W' c)
          ∗ ((∃ r, prngReg c r) ∗ ∃ Wo, owes (c : Thread nD τ) (0 : CellTallies nD τ sig Unit) Wo)) := by
  have hjoin := Pipeline.unscopedBufs_of_arrays (p := ()) (fun _ : Unit => pcfg7 (F := F)) (fun _ => a) (Ix := Unit) (Name := ℕ) (U := UR sig nD τ) (Lvl := ℕ)
    winFacts7 arr_whole7 c (fam7 W a) ((dat7 (VW7 W) a c).share_full fun _ => rfl)
    (VW7 W c) (VW7 W' c) ((dat7 (VW7 W) a c).arrAt · (cfg7 a).N) hF hrest
  rw [Pipeline.unscopedBufs_held, Pipeline.unscopedRest_split preFacts7] at hjoin
  iintro ⟨Ha, HO, ⟨Hp, Ht⟩, Hrest⟩
  imodintro
  isplitl [Ha Hrest Ht]
  · iapply hjoin
    isplitl [Ha]; · iexact Ha
    isplitl [Ht]
    · iapply (Entails.of_eq (congrArg (Pipeline.prefHeld (Ix := Unit) (Name := ℕ) (U := UR sig nD τ) (Lvl := ℕ) pre7 c (fun _ => fullShare)) hpf))
      iexact Ht
    iexact Hrest
  isplitl [Hp]; · iexact Hp
  unfold Pipeline.Dat.owesAt Pipeline.owesWithin
  icases HO with ⟨%Wo, -, HO⟩; iexists Wo; iexact HO

/-- EXIT, for a region the run ends with: the same, associated as (buffers ∗ generator register) ∗ `owes`. -/
theorem hexit7_last (c : Dev nD) (hpf : a.1 = tbl7 (VW7 W c))
    (hF : ∀ w, (dat7 (VW7 W) a c).arrAt w (cfg7 a).N = VW7 W' c (Pipeline.arrRef spec7 w))
    (hrest : ∀ b, b ∉ Finset.univ.image (Pipeline.arrRef spec7) → VW7 W' c b = VW7 W c b) :
    iprop((dat7 (VW7 W) a c).arrays ((dat7 (VW7 W) a c).arrAt · (cfg7 a).N)
        ∗ (dat7 (VW7 W) a c).owesAt () (Fin.last (cfg7 a).N) ∗ Y7 a c ∗ Z7 W c)
      ⊢ |={Set.univ}=> iprop((StableHlo.held (c : Thread nD τ) (Pipeline.ucRefs τ sig) (W' c) ∗ ∃ r, prngReg c r)
          ∗ ∃ Wo, owes (c : Thread nD τ) (0 : CellTallies nD τ sig Unit) Wo) := by
  refine (hexit7 W W' a c hpf hF hrest).trans (fupd_mono ?_)
  iintro ⟨Hh, Hp, HO⟩
  isplitl [Hh Hp]
  · isplitl [Hh]; · iexact Hh
    iexact Hp
  iexact HO

end Seg

end Cert.Kernel.Hand

end
-- ==== Proof.K.Run.lean ====
/-
  The run of the whole program: @main is seven stretches of host operations and eight kernel regions. Between two
  items every unscoped buffer of the TensorCore is held whole at the boundary's contents. Each region is entered by
  splitting its arrays (and, for the two gathers, the seed table) out of these buffers and left by putting them back;
  nothing is ever owed and no semaphore outlives its region. At the end every unscoped buffer of every final state
  is read against the last contents.
-/
import proofs.«114291_j3908420239568_2_alg».proof.Proof.K.Bound
import proofs.«114291_j3908420239568_2_alg».proof.Proof.K.Seg6
import proofs.«114291_j3908420239568_2_alg».proof.Proof.K.Seg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tₙ (c : Dev nD) : sProp 𝕄 := iprop(StableHlo.held (c : Thread nD τ) (Pipeline.ucRefs τ sig) (W15 m hs0 hs1 c) ∗ ∃ r, prngReg c r)

/-! ## The regions as segments -/

set_option backward.isDefEq.respectTransparency.types false in
/-- Region 0 over the thread state: entered with every unscoped buffer held at W1, left with them at W2. Its
    arrays are split out of the unscoped buffers and put back at the exit contents; the generator register goes
    into the invariant and comes back; nothing is owed; the kernel has no semaphore of its own. -/
def reg0 : Pipeline.RegionSeg (pcfgs (F := F)) (adm m hs0 hs1) (pdats m hs0 hs1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) (adm m hs0 hs1) (pdats m hs0 hs1) (launch0 (F := F)).win (launch0 (F := F)).arr_whole c
      ((pdats m hs0 hs1 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hs0 hs1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hs0 hs1) (Ix := Unit) (Name := ℕ) (U := UR sig nD τ) (Lvl := ℕ)
      (launch0 (F := F)).win (launch0 (F := F)).arr_whole c (pdats m hs0 hs1) ((pdats m hs0 hs1 0 c).share_full fun _ => rfl)
      (E1 m c) (E2 m c) ((pdats m hs0 hs1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer held at W3, left with them at W4. Its
    arrays are split out of the unscoped buffers and put back at the exit contents; the generator register goes
    into the invariant and comes back; nothing is owed; the kernel has no semaphore of its own. -/
def reg1 : Pipeline.RegionSeg (pcfgs (F := F)) (adm m hs0 hs1) (pdats m hs0 hs1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) (adm m hs0 hs1) (pdats m hs0 hs1) (launch1 (F := F)).win (launch1 (F := F)).arr_whole c
      ((pdats m hs0 hs1 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hs0 hs1 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m hs0 hs1) (Ix := Unit) (Name := ℕ) (U := UR sig nD τ) (Lvl := ℕ)
      (launch1 (F := F)).win (launch1 (F := F)).arr_whole c (pdats m hs0 hs1) ((pdats m hs0 hs1 1 c).share_full fun _ => rfl)
      (E3 m c) (E4 m c) ((pdats m hs0 hs1 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer held at W4, left with them at W5. Its
    arrays are split out of the unscoped buffers and put back at the exit contents; the generator register goes
    into the invariant and comes back; nothing is owed; the kernel has no semaphore of its own. -/
def reg2 : Pipeline.RegionSeg (pcfgs (F := F)) (adm m hs0 hs1) (pdats m hs0 hs1) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) (adm m hs0 hs1) (pdats m hs0 hs1) (launch2 (F := F)).win (launch2 (F := F)).arr_whole c
      ((pdats m hs0 hs1 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hs0 hs1 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m hs0 hs1) (Ix := Unit) (Name := ℕ) (U := UR sig nD τ) (Lvl := ℕ)
      (launch2 (F := F)).win (launch2 (F := F)).arr_whole c (pdats m hs0 hs1) ((pdats m hs0 hs1 2 c).share_full fun _ => rfl)
      (E4 m c) (E5 m c) ((pdats m hs0 hs1 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer held at W6, left with them at W7. Its
    arrays are split out of the unscoped buffers and put back at the exit contents; the generator register goes
    into the invariant and comes back; nothing is owed; the kernel has no semaphore of its own. -/
def reg3 : Pipeline.RegionSeg (pcfgs (F := F)) (adm m hs0 hs1) (pdats m hs0 hs1) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (E6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) (adm m hs0 hs1) (pdats m hs0 hs1) (launch3 (F := F)).win (launch3 (F := F)).arr_whole c
      ((pdats m hs0 hs1 3 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m hs0 hs1 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m hs0 hs1) (Ix := Unit) (Name := ℕ) (U := UR sig nD τ) (Lvl := ℕ)
      (launch3 (F := F)).win (launch3 (F := F)).arr_whole c (pdats m hs0 hs1) ((pdats m hs0 hs1 3 c).share_full fun _ => rfl)
      (E6 m c) (E7 m c) ((pdats m hs0 hs1 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer held at W8, left with them at W9. Its
    arrays are split out of the unscoped buffers and put back at the exit contents; the generator register goes
    into the invariant and comes back; nothing is owed; the kernel has no semaphore of its own. -/
def reg4 : Pipeline.RegionSeg (pcfgs (F := F)) (adm m hs0 hs1) (pdats m hs0 hs1) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (E8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (E8 m c)
  hentry c := by
    rw [Pipeline.ownSems0_none]
    have hsplit := Pipeline.arrays_of_unscopedBufs (p := 4) (pcfgs (F := F)) (adm m hs0 hs1) (pdats m hs0 hs1) (launch4 (F := F)).win (launch4 (F := F)).arr_whole c
      ((pdats m hs0 hs1 4 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m hs0 hs1 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm m hs0 hs1) (Ix := Unit) (Name := ℕ) (U := UR sig nD τ) (Lvl := ℕ)
      (launch4 (F := F)).win (launch4 (F := F)).arr_whole c (pdats m hs0 hs1) ((pdats m hs0 hs1 4 c).share_full fun _ => rfl)
      (E8 m c) (E9 m c) ((pdats m hs0 hs1 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer held at W9, left with them at W10. Its
    arrays are split out of the unscoped buffers and put back at the exit contents; the generator register goes
    into the invariant and comes back; nothing is owed; the kernel has no semaphore of its own. -/
def reg5 : Pipeline.RegionSeg (pcfgs (F := F)) (adm m hs0 hs1) (pdats m hs0 hs1) () defs₀ 𝒱₀ L lv 5 where
  win := (launch5 (F := F)).win.to₀
  block_pos := (launch5 (F := F)).block_pos
  stage_whole := (launch5 (F := F)).stage_whole
  K := PEmpty
  osem k := k.elim
  ho := Pipeline.OwnSemFacts.none _
  hbody c := (body_obligation5 (E9 m) c).loose
  hwaits := Pipeline.hwaits_of_owed_zero _ _ _ _ L lv 5 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec5 c (E9 m c)
  hentry c := by
    rw [Pipeline.ownSems0_none]
    have hsplit := Pipeline.arrays_of_unscopedBufs (p := 5) (pcfgs (F := F)) (adm m hs0 hs1) (pdats m hs0 hs1) (launch5 (F := F)).win (launch5 (F := F)).arr_whole c
      ((pdats m hs0 hs1 5 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hs0 hs1 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m hs0 hs1 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) (adm m hs0 hs1) (Ix := Unit) (Name := ℕ) (U := UR sig nD τ) (Lvl := ℕ)
      (launch5 (F := F)).win (launch5 (F := F)).arr_whole c (pdats m hs0 hs1) ((pdats m hs0 hs1 5 c).share_full fun _ => rfl)
      (E9 m c) (E10 m c) ((pdats m hs0 hs1 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's table is the seed array as the region finds it (one device). -/
theorem hpf6 (c : Dev nD) : (a6 m hs0).1 = tbl6 (VW6 (W11 m) c) := by
  obtain rfl : c = 0 := Subsingleton.elim _ _
  rfl

set_option backward.isDefEq.respectTransparency.types false in
/-- Region 6 over the thread state: entered with every unscoped buffer held at the contents before it, left with
    them at the contents after it. Its arrays and the seed table are split out of the unscoped buffers; the table is
    held by the region's invariant throughout and put back unchanged; the generator register goes in and comes back;
    nothing is owed; the kernel has no semaphore of its own. -/
def reg6 : Pipeline.RegionSeg (pcfgs (F := F)) (adm m hs0 hs1) (pdats m hs0 hs1) () defs₀ 𝒱₀ L lv 6 where
  win := (launch6 (F := F)).win.to₀
  block_pos := (launch6 (F := F)).block_pos
  stage_whole := (launch6 (F := F)).stage_whole
  K := PEmpty
  osem k := k.elim
  ho := Pipeline.OwnSemFacts.none _
  hbody c := (body_obligation6 (VW6 (W11 m)) (a6 m hs0) c).loose
  hwaits := Pipeline.hwaits_of_owed_zero _ _ _ _ L lv 6 fun _ _ => rfl
  pre c := iprop(StableHlo.held (c : Thread nD τ) (Pipeline.ucRefs τ sig) (W11 m c) ∗ R c)
  post c := iprop(StableHlo.held (c : Thread nD τ) (Pipeline.ucRefs τ sig) (W12 m hs0 c) ∗ R c)
  X := X6
  Y := Y6 (a6 m hs0)
  Z := Z6 (W11 m)
  hentry c := hentry6 (W11 m) (a6 m hs0) L lv c (hpf6 m hs0 c)
  hin c := hin6 (a6 m hs0) (VW6 (W11 m)) c
  hout c := hout6 (a6 m hs0) (VW6 (W11 m)) c
  hexit c := hexit6 (W11 m) (W12 m hs0) (a6 m hs0) c (hpf6 m hs0 c) (hF6 m hs0 c) (hrest6 m hs0 c)

/-- The region's table is the seed array as the region finds it (one device). -/
theorem hpf7 (c : Dev nD) : (a7 m hs0 hs1).1 = tbl7 (VW7 (W13 m hs0) c) := by
  obtain rfl : c = 0 := Subsingleton.elim _ _
  rfl

set_option backward.isDefEq.respectTransparency.types false in
/-- Region 7 over the thread state: entered with every unscoped buffer held at the contents before it, left with
    them at the contents after it. Its arrays and the seed table are split out of the unscoped buffers; the table is
    held by the region's invariant throughout and put back unchanged; the generator register goes in and comes back;
    nothing is owed; the kernel has no semaphore of its own. -/
def reg7 : Pipeline.RegionSeg (pcfgs (F := F)) (adm m hs0 hs1) (pdats m hs0 hs1) () defs₀ 𝒱₀ L lv 7 where
  win := (launch7 (F := F)).win.to₀
  block_pos := (launch7 (F := F)).block_pos
  stage_whole := (launch7 (F := F)).stage_whole
  K := PEmpty
  osem k := k.elim
  ho := Pipeline.OwnSemFacts.none _
  hbody c := (body_obligation7 (VW7 (W13 m hs0)) (a7 m hs0 hs1) c).loose
  hwaits := Pipeline.hwaits_of_owed_zero _ _ _ _ L lv 7 fun _ _ => rfl
  pre c := iprop(StableHlo.held (c : Thread nD τ) (Pipeline.ucRefs τ sig) (W13 m hs0 c) ∗ R c)
  post c := iprop(StableHlo.held (c : Thread nD τ) (Pipeline.ucRefs τ sig) (W14 m hs0 hs1 c) ∗ R c)
  X := X7
  Y := Y7 (a7 m hs0 hs1)
  Z := Z7 (W13 m hs0)
  hentry c := hentry7 (W13 m hs0) (a7 m hs0 hs1) L lv c (hpf7 m hs0 hs1 c)
  hin c := hin7 (a7 m hs0 hs1) (VW7 (W13 m hs0)) c
  hout c := hout7 (a7 m hs0 hs1) (VW7 (W13 m hs0)) c
  hexit c := hexit7 (W13 m hs0) (W14 m hs0 hs1) (a7 m hs0 hs1) c (hpf7 m hs0 hs1 c) (hF7 m hs0 hs1 c) (hrest7 m hs0 hs1 c)

/-! ## @main as segments, and the launch -/

/-- @main's fifteen items in order: a host segment per stretch from its boundary's contents, a region per kernel call. -/
abbrev segs : List (Pipeline.Seg (pcfgs (F := F)) (adm m hs0 hs1) (pdats m hs0 hs1) () defs₀ 𝒱₀ L lv) :=
  [ .host (hseg hostOps0 hostOps0_sub hostOps0_fresh (W0 m)),
    .region (reg0 m hs0 hs1),
    .host (hseg hostOps1 hostOps1_sub hostOps1_fresh (W2 m)),
    .region (reg1 m hs0 hs1),
    .region (reg2 m hs0 hs1),
    .host (hseg hostOps3 hostOps3_sub hostOps3_fresh (W5 m)),
    .region (reg3 m hs0 hs1),
    .host (hseg hostOps4 hostOps4_sub hostOps4_fresh (W7 m)),
    .region (reg4 m hs0 hs1),
    .region (reg5 m hs0 hs1),
    .host (hseg hostOps6 hostOps6_sub hostOps6_fresh (W10 m)),
    .region (reg6 m hs0 hs1),
    .host (hseg hostOps7 hostOps7_sub hostOps7_fresh (W12 m hs0)),
    .region (reg7 m hs0 hs1),
    .host (hseg hostOps8 hostOps8_sub hostOps8_fresh (W14 m hs0 hs1)) ]

/-- @main is the run of its segments. -/
theorem main_run (c : Dev nD) : main (F := F) c = Pipeline.Seg.run (segs m hs0 hs1) := (main_chain c).trans (by chain_rfl)

set_option backward.isDefEq.respectTransparency.types false in
/-- From any memory with zero counters whose seeds are below 100000, every weakly fair execution of @main on the
    TensorCores terminates, nothing faulting, and every final state holds every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m hs0 hs1 c b) :=
  Pipeline.θ_run_regions_kit (pcfgs (F := F)) (adm m hs0 hs1) (pdats m hs0 hs1) () (cellOf_inj (adm m hs0 hs1)) emb₁ defs₀ 𝒱₀ L lv m ρ main (segs m hs0 hs1)
    (fun c Q => by rw [main_run m hs0 hs1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hs0 hs1)) (cellOf_inj (adm m hs0 hs1))) (Pipeline.launchToks (Pipeline.pin (pcfgs (F := F)) (adm m hs0 hs1)) (cellOf_inj (adm m hs0 hs1))))
    (hu₀ := by
      iintro Hu; imodintro
      isplitl [Hu]
      · iapply (show (ownU (initOf (Pipeline.cells (Pipeline.pin (pcfgs (F := F)) (adm m hs0 hs1)) (cellOf_inj (adm m hs0 hs1))) (Pipeline.launchToks (Pipeline.pin (pcfgs (F := F)) (adm m hs0 hs1)) (cellOf_inj (adm m hs0 hs1)))) : sProp 𝕄)
            ⊢ BI.own (emb₁ (initOf (Pipeline.cells (Pipeline.pin (pcfgs (F := F)) (adm m hs0 hs1)) (cellOf_inj (adm m hs0 hs1))) (Pipeline.launchToks (Pipeline.pin (pcfgs (F := F)) (adm m hs0 hs1)) (cellOf_inj (adm m hs0 hs1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hs0 hs1)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => show iprop(StableHlo.held (c : Thread nD τ) (Pipeline.ucRefs τ sig) (W15 m hs0 hs1 c) ∗ R c)
          ⊢ iprop(Tₙ m hs0 hs1 c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m hs0 hs1 c b)
    (hfin := fun c s' => by
      iintro ⟨⟨Hh, -⟩, HSI⟩
      unfold StableHlo.held
      imodintro
      iapply (pointsTo_read_all (Pipeline.ucRefs τ sig) (fun b => (((c : Thread nD τ)).1, b)) (W15 m hs0 hs1 c) s')
      isplitl [Hh] <;> iassumption)
    (hQ := fun s h c => h c)

end Cert.Kernel.Hand

end
-- ==== Proof.K.Args.lean ====
/-
  No item of @main writes an argument: a host stretch writes only its own results, a region only its output array
  (the features of the two graphs are read by the first-layer combine through an input window, whose array is left
  as entered). So each argument buffer holds its launch contents at the last boundary.
-/
import proofs.«114291_j3908420239568_2_alg».proof.Proof.K.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

theorem W15_arg0 (c : Dev nD) : W15 m hs0 hs1 c (Proc.devRef .tc main_arg0) = m ((c : Thread nD τ).loc main_arg0) :=
  (W15_of m hs0 hs1 c main_arg0 (by decide)).trans <|
  (W14_of_ne m hs0 hs1 c main_arg0 (by decide)).trans <|
  (W13_of m hs0 c main_arg0 (by decide)).trans <|
  (W12_of_ne m hs0 c main_arg0 (by decide)).trans <|
  (W11_of m c main_arg0 (by decide)).trans <|
  (W10_of_ne m c main_arg0 (by decide)).trans <|
  (W9_of_ne m c main_arg0 (by decide)).trans <|
  (W8_of m c main_arg0 (by decide)).trans <|
  (W7_of_ne m c main_arg0 (by decide)).trans <|
  (W6_of m c main_arg0 (by decide)).trans <|
  (W5_of_ne m c main_arg0 (by decide)).trans <|
  (W4_of_ne m c main_arg0 (by decide)).trans <|
  (W3_of m c main_arg0 (by decide)).trans <|
  (W2_of_ne m c main_arg0 (by decide)).trans <|
  (W1_of m c main_arg0 (by decide)).trans rfl

theorem W15_arg1 (c : Dev nD) : W15 m hs0 hs1 c (Proc.devRef .tc main_arg1) = m ((c : Thread nD τ).loc main_arg1) :=
  (W15_of m hs0 hs1 c main_arg1 (by decide)).trans <|
  (W14_of_ne m hs0 hs1 c main_arg1 (by decide)).trans <|
  (W13_of m hs0 c main_arg1 (by decide)).trans <|
  (W12_of_ne m hs0 c main_arg1 (by decide)).trans <|
  (W11_of m c main_arg1 (by decide)).trans <|
  (W10_of_ne m c main_arg1 (by decide)).trans <|
  (W9_of_ne m c main_arg1 (by decide)).trans <|
  (W8_of m c main_arg1 (by decide)).trans <|
  (W7_of_ne m c main_arg1 (by decide)).trans <|
  (W6_of m c main_arg1 (by decide)).trans <|
  (W5_of_ne m c main_arg1 (by decide)).trans <|
  (W4_of_ne m c main_arg1 (by decide)).trans <|
  (W3_of m c main_arg1 (by decide)).trans <|
  (W2_of_ne m c main_arg1 (by decide)).trans <|
  (W1_of m c main_arg1 (by decide)).trans rfl

theorem W15_arg2 (c : Dev nD) : W15 m hs0 hs1 c (Proc.devRef .tc main_arg2) = m ((c : Thread nD τ).loc main_arg2) :=
  (W15_of m hs0 hs1 c main_arg2 (by decide)).trans <|
  (W14_of_ne m hs0 hs1 c main_arg2 (by decide)).trans <|
  (W13_of m hs0 c main_arg2 (by decide)).trans <|
  (W12_of_ne m hs0 c main_arg2 (by decide)).trans <|
  (W11_of m c main_arg2 (by decide)).trans <|
  (W10_of_ne m c main_arg2 (by decide)).trans <|
  (W9_of_ne m c main_arg2 (by decide)).trans <|
  (W8_of m c main_arg2 (by decide)).trans <|
  (W7_of_ne m c main_arg2 (by decide)).trans <|
  (W6_of m c main_arg2 (by decide)).trans <|
  (W5_of_ne m c main_arg2 (by decide)).trans <|
  (W4_of_ne m c main_arg2 (by decide)).trans <|
  (W3_of m c main_arg2 (by decide)).trans <|
  ((W2_arr m c 1).trans (((dat0 (E1 m) c).arrAt_in 1 rfl _).trans (A_eq0 (E1 m) c 1))).trans <|
  (W1_of m c main_arg2 (by decide)).trans rfl

theorem W15_arg3 (c : Dev nD) : W15 m hs0 hs1 c (Proc.devRef .tc main_arg3) = m ((c : Thread nD τ).loc main_arg3) :=
  (W15_of m hs0 hs1 c main_arg3 (by decide)).trans <|
  (W14_of_ne m hs0 hs1 c main_arg3 (by decide)).trans <|
  (W13_of m hs0 c main_arg3 (by decide)).trans <|
  (W12_of_ne m hs0 c main_arg3 (by decide)).trans <|
  (W11_of m c main_arg3 (by decide)).trans <|
  (W10_of_ne m c main_arg3 (by decide)).trans <|
  (W9_of_ne m c main_arg3 (by decide)).trans <|
  (W8_of m c main_arg3 (by decide)).trans <|
  ((W7_arr m c 1).trans (((dat3 (E6 m) c).arrAt_in 1 rfl _).trans (A_eq3 (E6 m) c 1))).trans <|
  (W6_of m c main_arg3 (by decide)).trans <|
  (W5_of_ne m c main_arg3 (by decide)).trans <|
  (W4_of_ne m c main_arg3 (by decide)).trans <|
  (W3_of m c main_arg3 (by decide)).trans <|
  (W2_of_ne m c main_arg3 (by decide)).trans <|
  (W1_of m c main_arg3 (by decide)).trans rfl

theorem W15_arg4 (c : Dev nD) : W15 m hs0 hs1 c (Proc.devRef .tc main_arg4) = m ((c : Thread nD τ).loc main_arg4) :=
  (W15_of m hs0 hs1 c main_arg4 (by decide)).trans <|
  (W14_of_ne m hs0 hs1 c main_arg4 (by decide)).trans <|
  (W13_of m hs0 c main_arg4 (by decide)).trans <|
  (W12_of_ne m hs0 c main_arg4 (by decide)).trans <|
  (W11_of m c main_arg4 (by decide)).trans <|
  (W10_of_ne m c main_arg4 (by decide)).trans <|
  (W9_of_ne m c main_arg4 (by decide)).trans <|
  (W8_of m c main_arg4 (by decide)).trans <|
  (W7_of_ne m c main_arg4 (by decide)).trans <|
  (W6_of m c main_arg4 (by decide)).trans <|
  (W5_of_ne m c main_arg4 (by decide)).trans <|
  (W4_of_ne m c main_arg4 (by decide)).trans <|
  (W3_of m c main_arg4 (by decide)).trans <|
  (W2_of_ne m c main_arg4 (by decide)).trans <|
  (W1_of m c main_arg4 (by decide)).trans rfl

theorem W15_arg5 (c : Dev nD) : W15 m hs0 hs1 c (Proc.devRef .tc main_arg5) = m ((c : Thread nD τ).loc main_arg5) :=
  (W15_of m hs0 hs1 c main_arg5 (by decide)).trans <|
  (W14_of_ne m hs0 hs1 c main_arg5 (by decide)).trans <|
  (W13_of m hs0 c main_arg5 (by decide)).trans <|
  (W12_of_ne m hs0 c main_arg5 (by decide)).trans <|
  (W11_of m c main_arg5 (by decide)).trans <|
  (W10_of_ne m c main_arg5 (by decide)).trans <|
  (W9_of_ne m c main_arg5 (by decide)).trans <|
  (W8_of m c main_arg5 (by decide)).trans <|
  (W7_of_ne m c main_arg5 (by decide)).trans <|
  (W6_of m c main_arg5 (by decide)).trans <|
  (W5_of_ne m c main_arg5 (by decide)).trans <|
  (W4_of_ne m c main_arg5 (by decide)).trans <|
  (W3_of m c main_arg5 (by decide)).trans <|
  (W2_of_ne m c main_arg5 (by decide)).trans <|
  (W1_of m c main_arg5 (by decide)).trans rfl

end Cert.Kernel.Hand

end
-- ==== Proof.LibReshapeAtIndex.lean ====
import Idealize.ShloMosaic.Lib.Pipeline.Value
import Idealize.ShloMosaic.Lib.ValueIdx

/-!
Reshapes that add or drop a unit axis, read at an index given by its coordinates. A reshape keeps the row-major
position, so on a unit axis the coordinate is 0 and contributes nothing to the position.
-/

noncomputable section

namespace Cert.Bridge

open Idealize.ShloMosaic Idealize.ShloMosaic.ValueIdx

variable {α : Type}

/-- An `[a]` array viewed as `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array viewed as `[a, 1, b]` reads, at `(r, u, l)`, the operand at `(r, l)`. -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (l : Fin b) :
    shapeCast ⟨3, ![a, 1, b]⟩ x h (ix3 r u l) = x (ix2 r l) :=
  shapeCast_apply x h _ _ (by
    have hu : u.val = 0 := by omega
    rw [Shape.rowMajor_val_three, Shape.rowMajor_val_two]
    show r.val * b + l.val = (r.val * 1 + u.val) * b + l.val
    rw [hu, Nat.mul_one, Nat.add_zero])

/-- An `[a, 1, b]` array viewed as `[a, b]` reads, at `(r, l)`, the operand at `(r, 0, l)`. -/
theorem shapeCast_a1b_ab_apply {a b : ℕ} (x : (⟨3, ![a, 1, b]⟩ : Shape).Idx → α)
    (h : (⟨3, ![a, 1, b]⟩ : Shape).ShapeCasts ⟨2, ![a, b]⟩) (r : Fin a) (l : Fin b) :
    shapeCast ⟨2, ![a, b]⟩ x h (ix2 r l) = x (ix3 r (0 : Fin 1) l) :=
  shapeCast_apply x h _ _ (by
    rw [Shape.rowMajor_val_three, Shape.rowMajor_val_two]
    show (r.val * 1 + 0) * b + l.val = r.val * b + l.val
    rw [Nat.mul_one, Nat.add_zero])

end Cert.Bridge
-- ==== Proof.Br.Host0.lean ====
import proofs.«114291_j3908420239568_2_alg».proof.Proof.Gen.KernelIdeal.Regions
import proofs.«114291_j3908420239568_2_alg».proof.Proof.Gen.ReferenceIdeal.Read
import proofs.«114291_j3908420239568_2_alg».proof.Proof.LibReshapeAtIndex

noncomputable section

namespace Cert.Bridge

open Idealize.ShloMosaic Idealize.ShloMosaic.TcCoe Idealize.SL.Sem Idealize.ShloMosaic.StableHlo
open Idealize.ShloMosaic.ValueIdx
open Cert.ReferenceIdeal.Read

/-!
The first host stretch, graph `sr`: the edge lists, the degree normalization, the per-edge coefficient and the
layer-0 aggregate. The two programs apply the same operations to the same arguments, so from ANY contents `W` of the
buffers each buffer the stretch writes holds the reference's stage of the same name, as a function of `W` at the two
arguments it reads (the features `main_arg2` and the edges `main_arg4`).
-/

/- Buffer contents on the TensorCore, for the kernel program's signature, at exact arithmetic. -/
local notation "KW" => Valuation Cert.KernelIdeal.τ Cert.KernelIdeal.sig (Elt Ideal)

/-- The layer-0 aggregate (scatter-add of the weighted gathered rows) is the reference's. -/
theorem host0_v49 (W : KW) :
    StableHlo.after (Cert.KernelIdeal.Gen.hostOps0 (F := Ideal)) W (Proc.devRef .tc Cert.KernelIdeal.main_v49)
      = val_main_v48 (F := Ideal) (W (Proc.devRef .tc Cert.KernelIdeal.main_arg2)) (W (Proc.devRef .tc Cert.KernelIdeal.main_arg4)) := by
  after_results_simp
  rfl

/-- The source list of the symmetrized edges. -/
theorem host0_v4 (W : KW) :
    StableHlo.after (Cert.KernelIdeal.Gen.hostOps0 (F := Ideal)) W (Proc.devRef .tc Cert.KernelIdeal.main_v4)
      = val_main_v4 (F := Ideal) (W (Proc.devRef .tc Cert.KernelIdeal.main_arg4)) := by
  after_results_simp
  rfl

/-- The destination list of the symmetrized edges. -/
theorem host0_v9 (W : KW) :
    StableHlo.after (Cert.KernelIdeal.Gen.hostOps0 (F := Ideal)) W (Proc.devRef .tc Cert.KernelIdeal.main_v9)
      = val_main_v9 (F := Ideal) (W (Proc.devRef .tc Cert.KernelIdeal.main_arg4)) := by
  after_results_simp
  rfl

/-- The per-edge coefficient `dis[src] * dis[dst]`. -/
theorem host0_v34 (W : KW) :
    StableHlo.after (Cert.KernelIdeal.Gen.hostOps0 (F := Ideal)) W (Proc.devRef .tc Cert.KernelIdeal.main_v34)
      = val_main_v34 (F := Ideal) (W (Proc.devRef .tc Cert.KernelIdeal.main_arg4)) := by
  after_results_simp
  rfl

/-- The self coefficient `dis * dis`, as the flat array. -/
theorem host0_v35 (W : KW) :
    StableHlo.after (Cert.KernelIdeal.Gen.hostOps0 (F := Ideal)) W (Proc.devRef .tc Cert.KernelIdeal.main_v35)
      = val_main_v35 (F := Ideal) (W (Proc.devRef .tc Cert.KernelIdeal.main_arg4)) := by
  after_results_simp
  rfl

/-- The self coefficient as a column is the flat array viewed `[100000, 1]`. -/
theorem host0_v36_eq (W : KW) :
    StableHlo.after (Cert.KernelIdeal.Gen.hostOps0 (F := Ideal)) W (Proc.devRef .tc Cert.KernelIdeal.main_v36)
      = shapeCast Cert.KernelIdeal.S100000x1 (val_main_v35 (F := Ideal) (W (Proc.devRef .tc Cert.KernelIdeal.main_arg4)))
          Cert.KernelIdeal.Gen.shapeCasts_S100000_S100000x1 := by
  after_results_simp
  rfl

/-- The self coefficient column at row `r` is `dis * dis` at `r`. -/
theorem host0_v36_ix (W : KW) (r : Fin 100000) (u : Fin 1) :
    StableHlo.after (Cert.KernelIdeal.Gen.hostOps0 (F := Ideal)) W (Proc.devRef .tc Cert.KernelIdeal.main_v36) (ix2 r u)
      = val_main_v35 (F := Ideal) (W (Proc.devRef .tc Cert.KernelIdeal.main_arg4)) (ix1 r) := by
  rw [host0_v36_eq]
  exact shapeCast_a_a1_apply _ _ r u

/-- The same at an index of the column's shape. -/
theorem host0_v36 (W : KW) (i : Cert.KernelIdeal.S100000x1.Idx) :
    StableHlo.after (Cert.KernelIdeal.Gen.hostOps0 (F := Ideal)) W (Proc.devRef .tc Cert.KernelIdeal.main_v36) i
      = val_main_v35 (F := Ideal) (W (Proc.devRef .tc Cert.KernelIdeal.main_arg4)) (ix1 (n := 100000) (i 0)) := by
  rw [eq_ix2 i]
  exact host0_v36_ix W (i 0) (i 1)

/-- A buffer the stretch does not write keeps its contents. -/
theorem host0_of (W : KW) (r : Ref Cert.KernelIdeal.sig .tc) (h : r ∉ Cert.KernelIdeal.Gen.hostOps0_W) :
    StableHlo.after (Cert.KernelIdeal.Gen.hostOps0 (F := Ideal)) W (Proc.devRef .tc r) = W (Proc.devRef .tc r) :=
  StableHlo.after_of_writes_sub _ W Cert.KernelIdeal.Gen.hostOps0_writes h

theorem host0_arg0 (W : KW) : StableHlo.after (Cert.KernelIdeal.Gen.hostOps0 (F := Ideal)) W (Proc.devRef .tc Cert.KernelIdeal.main_arg0) = W (Proc.devRef .tc Cert.KernelIdeal.main_arg0) := host0_of W _ (by decide)
theorem host0_arg1 (W : KW) : StableHlo.after (Cert.KernelIdeal.Gen.hostOps0 (F := Ideal)) W (Proc.devRef .tc Cert.KernelIdeal.main_arg1) = W (Proc.devRef .tc Cert.KernelIdeal.main_arg1) := host0_of W _ (by decide)
theorem host0_arg2 (W : KW) : StableHlo.after (Cert.KernelIdeal.Gen.hostOps0 (F := Ideal)) W (Proc.devRef .tc Cert.KernelIdeal.main_arg2) = W (Proc.devRef .tc Cert.KernelIdeal.main_arg2) := host0_of W _ (by decide)
theorem host0_arg3 (W : KW) : StableHlo.after (Cert.KernelIdeal.Gen.hostOps0 (F := Ideal)) W (Proc.devRef .tc Cert.KernelIdeal.main_arg3) = W (Proc.devRef .tc Cert.KernelIdeal.main_arg3) := host0_of W _ (by decide)
theorem host0_arg4 (W : KW) : StableHlo.after (Cert.KernelIdeal.Gen.hostOps0 (F := Ideal)) W (Proc.devRef .tc Cert.KernelIdeal.main_arg4) = W (Proc.devRef .tc Cert.KernelIdeal.main_arg4) := host0_of W _ (by decide)
theorem host0_arg5 (W : KW) : StableHlo.after (Cert.KernelIdeal.Gen.hostOps0 (F := Ideal)) W (Proc.devRef .tc Cert.KernelIdeal.main_arg5) = W (Proc.devRef .tc Cert.KernelIdeal.main_arg5) := host0_of W _ (by decide)

end Cert.Bridge
-- ==== Proof.Br.Host1.lean ====
import proofs.«114291_j3908420239568_2_alg».proof.Proof.Gen.KernelIdeal.Regions
import proofs.«114291_j3908420239568_2_alg».proof.Proof.Gen.ReferenceIdeal.Read

noncomputable section

namespace Cert.Bridge

open Idealize.ShloMosaic Idealize.ShloMosaic.TcCoe Idealize.SL.Sem Idealize.ShloMosaic.StableHlo
open Cert.ReferenceIdeal.Read

/-!
The second host stretch, graph `sr`: the layer-1 aggregate. It gathers the rows of the layer-0 output at the sources,
weights them by the per-edge coefficient and scatter-adds them at the destinations: the reference's operations on the
reference's stages, once the four buffers it reads hold those stages.
-/

/- Buffer contents on the TensorCore, for the kernel program's signature, at exact arithmetic. -/
local notation "KW" => Valuation Cert.KernelIdeal.τ Cert.KernelIdeal.sig (Elt Ideal)

/-- The layer-1 aggregate is the reference's, from contents that hold the layer-0 output, the two edge lists and the
    per-edge coefficient as the reference's stages. -/
theorem host1_v63 (W : KW)
    (x2 : (⟨Cert.ReferenceIdeal.S100000x128, .f32⟩ : BufTy).Contents (Elt Ideal))
    (x4 : (⟨Cert.ReferenceIdeal.S800000x2, .i32⟩ : BufTy).Contents (Elt Ideal))
    (h50 : W (Proc.devRef .tc Cert.KernelIdeal.main_v50) = val_main_v53 (F := Ideal) x2 x4)
    (h4 : W (Proc.devRef .tc Cert.KernelIdeal.main_v4) = val_main_v4 (F := Ideal) x4)
    (h9 : W (Proc.devRef .tc Cert.KernelIdeal.main_v9) = val_main_v9 (F := Ideal) x4)
    (h34 : W (Proc.devRef .tc Cert.KernelIdeal.main_v34) = val_main_v34 (F := Ideal) x4) :
    StableHlo.after (Cert.KernelIdeal.Gen.hostOps1 (F := Ideal)) W (Proc.devRef .tc Cert.KernelIdeal.main_v63)
      = val_main_v66 (F := Ideal) x2 x4 := by
  after_results_simp
  rw [h50, h4, h9, h34]
  rfl

/-- A buffer the stretch does not write keeps its contents. -/
theorem host1_of (W : KW) (r : Ref Cert.KernelIdeal.sig .tc) (h : r ∉ Cert.KernelIdeal.Gen.hostOps1_W) :
    StableHlo.after (Cert.KernelIdeal.Gen.hostOps1 (F := Ideal)) W (Proc.devRef .tc r) = W (Proc.devRef .tc r) :=
  StableHlo.after_of_writes_sub _ W Cert.KernelIdeal.Gen.hostOps1_writes h

theorem host1_arg0 (W : KW) : StableHlo.after (Cert.KernelIdeal.Gen.hostOps1 (F := Ideal)) W (Proc.devRef .tc Cert.KernelIdeal.main_arg0) = W (Proc.devRef .tc Cert.KernelIdeal.main_arg0) := host1_of W _ (by decide)
theorem host1_arg1 (W : KW) : StableHlo.after (Cert.KernelIdeal.Gen.hostOps1 (F := Ideal)) W (Proc.devRef .tc Cert.KernelIdeal.main_arg1) = W (Proc.devRef .tc Cert.KernelIdeal.main_arg1) := host1_of W _ (by decide)
theorem host1_arg2 (W : KW) : StableHlo.after (Cert.KernelIdeal.Gen.hostOps1 (F := Ideal)) W (Proc.devRef .tc Cert.KernelIdeal.main_arg2) = W (Proc.devRef .tc Cert.KernelIdeal.main_arg2) := host1_of W _ (by decide)
theorem host1_arg3 (W : KW) : StableHlo.after (Cert.KernelIdeal.Gen.hostOps1 (F := Ideal)) W (Proc.devRef .tc Cert.KernelIdeal.main_arg3) = W (Proc.devRef .tc Cert.KernelIdeal.main_arg3) := host1_of W _ (by decide)
theorem host1_arg4 (W : KW) : StableHlo.after (Cert.KernelIdeal.Gen.hostOps1 (F := Ideal)) W (Proc.devRef .tc Cert.KernelIdeal.main_arg4) = W (Proc.devRef .tc Cert.KernelIdeal.main_arg4) := host1_of W _ (by decide)
theorem host1_arg5 (W : KW) : StableHlo.after (Cert.KernelIdeal.Gen.hostOps1 (F := Ideal)) W (Proc.devRef .tc Cert.KernelIdeal.main_arg5) = W (Proc.devRef .tc Cert.KernelIdeal.main_arg5) := host1_of W _ (by decide)
theorem host1_v50 (W : KW) : StableHlo.after (Cert.KernelIdeal.Gen.hostOps1 (F := Ideal)) W (Proc.devRef .tc Cert.KernelIdeal.main_v50) = W (Proc.devRef .tc Cert.KernelIdeal.main_v50) := host1_of W _ (by decide)
theorem host1_v36 (W : KW) : StableHlo.after (Cert.KernelIdeal.Gen.hostOps1 (F := Ideal)) W (Proc.devRef .tc Cert.KernelIdeal.main_v36) = W (Proc.devRef .tc Cert.KernelIdeal.main_v36) := host1_of W _ (by decide)
theorem host1_v4 (W : KW) : StableHlo.after (Cert.KernelIdeal.Gen.hostOps1 (F := Ideal)) W (Proc.devRef .tc Cert.KernelIdeal.main_v4) = W (Proc.devRef .tc Cert.KernelIdeal.main_v4) := host1_of W _ (by decide)
theorem host1_v9 (W : KW) : StableHlo.after (Cert.KernelIdeal.Gen.hostOps1 (F := Ideal)) W (Proc.devRef .tc Cert.KernelIdeal.main_v9) = W (Proc.devRef .tc Cert.KernelIdeal.main_v9) := host1_of W _ (by decide)
theorem host1_v34 (W : KW) : StableHlo.after (Cert.KernelIdeal.Gen.hostOps1 (F := Ideal)) W (Proc.devRef .tc Cert.KernelIdeal.main_v34) = W (Proc.devRef .tc Cert.KernelIdeal.main_v34) := host1_of W _ (by decide)
theorem host1_v49 (W : KW) : StableHlo.after (Cert.KernelIdeal.Gen.hostOps1 (F := Ideal)) W (Proc.devRef .tc Cert.KernelIdeal.main_v49) = W (Proc.devRef .tc Cert.KernelIdeal.main_v49) := host1_of W _ (by decide)

end Cert.Bridge
-- ==== Proof.Br.HostTail.lean ====
import proofs.«114291_j3908420239568_2_alg».proof.Proof.Gen.KernelIdeal.Regions
import proofs.«114291_j3908420239568_2_alg».proof.Proof.Gen.ReferenceIdeal.Read
import proofs.«114291_j3908420239568_2_alg».proof.Proof.LibReshapeAtIndex

noncomputable section

namespace Cert.Bridge

open Idealize.ShloMosaic Idealize.ShloMosaic.TcCoe Idealize.SL.Sem Idealize.ShloMosaic.StableHlo
open Idealize.ShloMosaic.ValueIdx
open Cert.ReferenceIdeal.Read

/-!
The last host stretches only change the layout: the normalized embeddings `[100000, 128]` are viewed
`[100000, 1, 128]` for the row gather, and the gathered rows `[10000, 1, 128]` are viewed `[10000, 128]`. A reshape
keeps the row-major position, so each reads the operand at the same row and lane.
-/

/- Buffer contents on the TensorCore, for the kernel program's signature, at exact arithmetic. -/
local notation "KW" => Valuation Cert.KernelIdeal.τ Cert.KernelIdeal.sig (Elt Ideal)

/-! ### Before the first row gather: `main_v132` is `main_v65` viewed `[100000, 1, 128]` -/

theorem host6_v132_eq (W : KW) :
    StableHlo.after (Cert.KernelIdeal.Gen.hostOps6 (F := Ideal)) W (Proc.devRef .tc Cert.KernelIdeal.main_v132)
      = shapeCast Cert.KernelIdeal.S100000x1x128 (W (Proc.devRef .tc Cert.KernelIdeal.main_v65))
          Cert.KernelIdeal.Gen.shapeCasts_S100000x128_S100000x1x128 := by
  after_results_simp
  rfl

theorem host6_v132_ix (W : KW) (r : Fin 100000) (u : Fin 1) (l : Fin 128) :
    StableHlo.after (Cert.KernelIdeal.Gen.hostOps6 (F := Ideal)) W (Proc.devRef .tc Cert.KernelIdeal.main_v132) (ix3 r u l)
      = W (Proc.devRef .tc Cert.KernelIdeal.main_v65) (ix2 r l) := by
  rw [host6_v132_eq]
  exact shapeCast_ab_a1b_apply _ _ r u l

/-- A buffer the stretch does not write keeps its contents. -/
theorem host6_of (W : KW) (r : Ref Cert.KernelIdeal.sig .tc) (h : r ∉ Cert.KernelIdeal.Gen.hostOps6_W) :
    StableHlo.after (Cert.KernelIdeal.Gen.hostOps6 (F := Ideal)) W (Proc.devRef .tc r) = W (Proc.devRef .tc r) :=
  StableHlo.after_of_writes_sub _ W Cert.KernelIdeal.Gen.hostOps6_writes h

theorem host6_arg0 (W : KW) : StableHlo.after (Cert.KernelIdeal.Gen.hostOps6 (F := Ideal)) W (Proc.devRef .tc Cert.KernelIdeal.main_arg0) = W (Proc.devRef .tc Cert.KernelIdeal.main_arg0) := host6_of W _ (by decide)
theorem host6_arg1 (W : KW) : StableHlo.after (Cert.KernelIdeal.Gen.hostOps6 (F := Ideal)) W (Proc.devRef .tc Cert.KernelIdeal.main_arg1) = W (Proc.devRef .tc Cert.KernelIdeal.main_arg1) := host6_of W _ (by decide)
theorem host6_arg2 (W : KW) : StableHlo.after (Cert.KernelIdeal.Gen.hostOps6 (F := Ideal)) W (Proc.devRef .tc Cert.KernelIdeal.main_arg2) = W (Proc.devRef .tc Cert.KernelIdeal.main_arg2) := host6_of W _ (by decide)
theorem host6_arg3 (W : KW) : StableHlo.after (Cert.KernelIdeal.Gen.hostOps6 (F := Ideal)) W (Proc.devRef .tc Cert.KernelIdeal.main_arg3) = W (Proc.devRef .tc Cert.KernelIdeal.main_arg3) := host6_of W _ (by decide)
theorem host6_arg4 (W : KW) : StableHlo.after (Cert.KernelIdeal.Gen.hostOps6 (F := Ideal)) W (Proc.devRef .tc Cert.KernelIdeal.main_arg4) = W (Proc.devRef .tc Cert.KernelIdeal.main_arg4) := host6_of W _ (by decide)
theorem host6_arg5 (W : KW) : StableHlo.after (Cert.KernelIdeal.Gen.hostOps6 (F := Ideal)) W (Proc.devRef .tc Cert.KernelIdeal.main_arg5) = W (Proc.devRef .tc Cert.KernelIdeal.main_arg5) := host6_of W _ (by decide)
theorem host6_v65 (W : KW) : StableHlo.after (Cert.KernelIdeal.Gen.hostOps6 (F := Ideal)) W (Proc.devRef .tc Cert.KernelIdeal.main_v65) = W (Proc.devRef .tc Cert.KernelIdeal.main_v65) := host6_of W _ (by decide)
theorem host6_v131 (W : KW) : StableHlo.after (Cert.KernelIdeal.Gen.hostOps6 (F := Ideal)) W (Proc.devRef .tc Cert.KernelIdeal.main_v131) = W (Proc.devRef .tc Cert.KernelIdeal.main_v131) := host6_of W _ (by decide)

/-! ### Between the two row gathers: `main_v134` is `main_v133` viewed `[10000, 128]`, `main_v135` is `main_v131`
viewed `[100000, 1, 128]` -/

theorem host7_v134_eq (W : KW) :
    StableHlo.after (Cert.KernelIdeal.Gen.hostOps7 (F := Ideal)) W (Proc.devRef .tc Cert.KernelIdeal.main_v134)
      = shapeCast Cert.KernelIdeal.S10000x128 (W (Proc.devRef .tc Cert.KernelIdeal.main_v133))
          Cert.KernelIdeal.Gen.shapeCasts_S10000x1x128_S10000x128 := by
  after_results_simp
  rfl

theorem host7_v134_ix (W : KW) (s : Fin 10000) (l : Fin 128) :
    StableHlo.after (Cert.KernelIdeal.Gen.hostOps7 (F := Ideal)) W (Proc.devRef .tc Cert.KernelIdeal.main_v134) (ix2 s l)
      = W (Proc.devRef .tc Cert.KernelIdeal.main_v133) (ix3 s (0 : Fin 1) l) := by
  rw [host7_v134_eq]
  exact shapeCast_a1b_ab_apply _ _ s l

theorem host7_v135_eq (W : KW) :
    StableHlo.after (Cert.KernelIdeal.Gen.hostOps7 (F := Ideal)) W (Proc.devRef .tc Cert.KernelIdeal.main_v135)
      = shapeCast Cert.KernelIdeal.S100000x1x128 (W (Proc.devRef .tc Cert.KernelIdeal.main_v131))
          Cert.KernelIdeal.Gen.shapeCasts_S100000x128_S100000x1x128 := by
  after_results_simp
  rfl

theorem host7_v135_ix (W : KW) (r : Fin 100000) (u : Fin 1) (l : Fin 128) :
    StableHlo.after (Cert.KernelIdeal.Gen.hostOps7 (F := Ideal)) W (Proc.devRef .tc Cert.KernelIdeal.main_v135) (ix3 r u l)
      = W (Proc.devRef .tc Cert.KernelIdeal.main_v131) (ix2 r l) := by
  rw [host7_v135_eq]
  exact shapeCast_ab_a1b_apply _ _ r u l

/-- A buffer the stretch does not write keeps its contents. -/
theorem host7_of (W : KW) (r : Ref Cert.KernelIdeal.sig .tc) (h : r ∉ Cert.KernelIdeal.Gen.hostOps7_W) :
    StableHlo.after (Cert.KernelIdeal.Gen.hostOps7 (F := Ideal)) W (Proc.devRef .tc r) = W (Proc.devRef .tc r) :=
  StableHlo.after_of_writes_sub _ W Cert.KernelIdeal.Gen.hostOps7_writes h

theorem host7_arg0 (W : KW) : StableHlo.after (Cert.KernelIdeal.Gen.hostOps7 (F := Ideal)) W (Proc.devRef .tc Cert.KernelIdeal.main_arg0) = W (Proc.devRef .tc Cert.KernelIdeal.main_arg0) := host7_of W _ (by decide)
theorem host7_arg1 (W : KW) : StableHlo.after (Cert.KernelIdeal.Gen.hostOps7 (F := Ideal)) W (Proc.devRef .tc Cert.KernelIdeal.main_arg1) = W (Proc.devRef .tc Cert.KernelIdeal.main_arg1) := host7_of W _ (by decide)
theorem host7_arg2 (W : KW) : StableHlo.after (Cert.KernelIdeal.Gen.hostOps7 (F := Ideal)) W (Proc.devRef .tc Cert.KernelIdeal.main_arg2) = W (Proc.devRef .tc Cert.KernelIdeal.main_arg2) := host7_of W _ (by decide)
theorem host7_arg3 (W : KW) : StableHlo.after (Cert.KernelIdeal.Gen.hostOps7 (F := Ideal)) W (Proc.devRef .tc Cert.KernelIdeal.main_arg3) = W (Proc.devRef .tc Cert.KernelIdeal.main_arg3) := host7_of W _ (by decide)
theorem host7_arg4 (W : KW) : StableHlo.after (Cert.KernelIdeal.Gen.hostOps7 (F := Ideal)) W (Proc.devRef .tc Cert.KernelIdeal.main_arg4) = W (Proc.devRef .tc Cert.KernelIdeal.main_arg4) := host7_of W _ (by decide)
theorem host7_arg5 (W : KW) : StableHlo.after (Cert.KernelIdeal.Gen.hostOps7 (F := Ideal)) W (Proc.devRef .tc Cert.KernelIdeal.main_arg5) = W (Proc.devRef .tc Cert.KernelIdeal.main_arg5) := host7_of W _ (by decide)
theorem host7_v65 (W : KW) : StableHlo.after (Cert.KernelIdeal.Gen.hostOps7 (F := Ideal)) W (Proc.devRef .tc Cert.KernelIdeal.main_v65) = W (Proc.devRef .tc Cert.KernelIdeal.main_v65) := host7_of W _ (by decide)
theorem host7_v131 (W : KW) : StableHlo.after (Cert.KernelIdeal.Gen.hostOps7 (F := Ideal)) W (Proc.devRef .tc Cert.KernelIdeal.main_v131) = W (Proc.devRef .tc Cert.KernelIdeal.main_v131) := host7_of W _ (by decide)
theorem host7_v133 (W : KW) : StableHlo.after (Cert.KernelIdeal.Gen.hostOps7 (F := Ideal)) W (Proc.devRef .tc Cert.KernelIdeal.main_v133) = W (Proc.devRef .tc Cert.KernelIdeal.main_v133) := host7_of W _ (by decide)

/-! ### After the second row gather: `main_v137` is `main_v136` viewed `[10000, 128]` -/

theorem host8_v137_eq (W : KW) :
    StableHlo.after (Cert.KernelIdeal.Gen.hostOps8 (F := Ideal)) W (Proc.devRef .tc Cert.KernelIdeal.main_v137)
      = shapeCast Cert.KernelIdeal.S10000x128 (W (Proc.devRef .tc Cert.KernelIdeal.main_v136))
          Cert.KernelIdeal.Gen.shapeCasts_S10000x1x128_S10000x128 := by
  after_results_simp
  rfl

theorem host8_v137_ix (W : KW) (s : Fin 10000) (l : Fin 128) :
    StableHlo.after (Cert.KernelIdeal.Gen.hostOps8 (F := Ideal)) W (Proc.devRef .tc Cert.KernelIdeal.main_v137) (ix2 s l)
      = W (Proc.devRef .tc Cert.KernelIdeal.main_v136) (ix3 s (0 : Fin 1) l) := by
  rw [host8_v137_eq]
  exact shapeCast_a1b_ab_apply _ _ s l

/-- A buffer the stretch does not write keeps its contents. -/
theorem host8_of (W : KW) (r : Ref Cert.KernelIdeal.sig .tc) (h : r ∉ Cert.KernelIdeal.Gen.hostOps8_W) :
    StableHlo.after (Cert.KernelIdeal.Gen.hostOps8 (F := Ideal)) W (Proc.devRef .tc r) = W (Proc.devRef .tc r) :=
  StableHlo.after_of_writes_sub _ W Cert.KernelIdeal.Gen.hostOps8_writes h

theorem host8_arg0 (W : KW) : StableHlo.after (Cert.KernelIdeal.Gen.hostOps8 (F := Ideal)) W (Proc.devRef .tc Cert.KernelIdeal.main_arg0) = W (Proc.devRef .tc Cert.KernelIdeal.main_arg0) := host8_of W _ (by decide)
theorem host8_arg1 (W : KW) : StableHlo.after (Cert.KernelIdeal.Gen.hostOps8 (F := Ideal)) W (Proc.devRef .tc Cert.KernelIdeal.main_arg1) = W (Proc.devRef .tc Cert.KernelIdeal.main_arg1) := host8_of W _ (by decide)
theorem host8_arg2 (W : KW) : StableHlo.after (Cert.KernelIdeal.Gen.hostOps8 (F := Ideal)) W (Proc.devRef .tc Cert.KernelIdeal.main_arg2) = W (Proc.devRef .tc Cert.KernelIdeal.main_arg2) := host8_of W _ (by decide)
theorem host8_arg3 (W : KW) : StableHlo.after (Cert.KernelIdeal.Gen.hostOps8 (F := Ideal)) W (Proc.devRef .tc Cert.KernelIdeal.main_arg3) = W (Proc.devRef .tc Cert.KernelIdeal.main_arg3) := host8_of W _ (by decide)
theorem host8_arg4 (W : KW) : StableHlo.after (Cert.KernelIdeal.Gen.hostOps8 (F := Ideal)) W (Proc.devRef .tc Cert.KernelIdeal.main_arg4) = W (Proc.devRef .tc Cert.KernelIdeal.main_arg4) := host8_of W _ (by decide)
theorem host8_arg5 (W : KW) : StableHlo.after (Cert.KernelIdeal.Gen.hostOps8 (F := Ideal)) W (Proc.devRef .tc Cert.KernelIdeal.main_arg5) = W (Proc.devRef .tc Cert.KernelIdeal.main_arg5) := host8_of W _ (by decide)
theorem host8_v65 (W : KW) : StableHlo.after (Cert.KernelIdeal.Gen.hostOps8 (F := Ideal)) W (Proc.devRef .tc Cert.KernelIdeal.main_v65) = W (Proc.devRef .tc Cert.KernelIdeal.main_v65) := host8_of W _ (by decide)
theorem host8_v131 (W : KW) : StableHlo.after (Cert.KernelIdeal.Gen.hostOps8 (F := Ideal)) W (Proc.devRef .tc Cert.KernelIdeal.main_v131) = W (Proc.devRef .tc Cert.KernelIdeal.main_v131) := host8_of W _ (by decide)
theorem host8_v134 (W : KW) : StableHlo.after (Cert.KernelIdeal.Gen.hostOps8 (F := Ideal)) W (Proc.devRef .tc Cert.KernelIdeal.main_v134) = W (Proc.devRef .tc Cert.KernelIdeal.main_v134) := host8_of W _ (by decide)
theorem host8_v136 (W : KW) : StableHlo.after (Cert.KernelIdeal.Gen.hostOps8 (F := Ideal)) W (Proc.devRef .tc Cert.KernelIdeal.main_v136) = W (Proc.devRef .tc Cert.KernelIdeal.main_v136) := host8_of W _ (by decide)

end Cert.Bridge
-- ==== Proof.Br.ChainSr.lean ====
/-
  Graph `sr` along the program: at each boundary between two items the buffers that matter hold the reference's
  stages, as functions of the launch contents of the features `main_arg2` and the edges `main_arg4`. A host stretch
  computes the reference's operations on what it finds; a region is asked to leave the reference's stage in its output
  array when its input arrays hold the stages it reads (stated here as what each region must satisfy, proved with the
  regions' values); nothing else touches the buffers in between.
-/
import proofs.«114291_j3908420239568_2_alg».proof.Proof.KI.Bound
import proofs.«114291_j3908420239568_2_alg».proof.Proof.Br.Host0
import proofs.«114291_j3908420239568_2_alg».proof.Proof.Br.Host1
import proofs.«114291_j3908420239568_2_alg».proof.Proof.Br.HostTail
import proofs.«114291_j3908420239568_2_alg».proof.Proof.Gen.ReferenceIdeal.Read

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.ReferenceIdeal.Read

variable (m : (ℓ : Loc nD τ sig) → Buf (Elt Ideal) ℓ) (c : Dev nD)

/-! ## What the three regions of graph `sr` must leave -/

/-- Region 0 (combine and clip): from the aggregate, the features and the coefficient column as the reference's stages,
    the reference's stage after the first layer. -/
abbrev Region0Spec : Prop :=
  ∀ (V : (c : Dev nD) → (b : Ref sig .tc) → Buf (Elt Ideal) ((c : Thread nD τ).loc b)) (c : Dev nD) (x2 : (⟨Cert.ReferenceIdeal.S100000x128, .f32⟩ : BufTy).Contents (Elt Ideal)) (x4 : (⟨Cert.ReferenceIdeal.S800000x2, .i32⟩ : BufTy).Contents (Elt Ideal)),
    V c main_v49 = val_main_v48 (F := Ideal) x2 x4 → V c main_arg2 = x2 →
    (∀ i, V c main_v36 i = val_main_v35 (F := Ideal) x4 (ix1 (i 0))) →
    (dat0 V c).arrAt 3 cfg0.N = val_main_v53 (F := Ideal) x2 x4

/-- Region 1 (combine): the reference's stage after the second layer. -/
abbrev Region1Spec : Prop :=
  ∀ (V : (c : Dev nD) → (b : Ref sig .tc) → Buf (Elt Ideal) ((c : Thread nD τ).loc b)) (c : Dev nD) (x2 : (⟨Cert.ReferenceIdeal.S100000x128, .f32⟩ : BufTy).Contents (Elt Ideal)) (x4 : (⟨Cert.ReferenceIdeal.S800000x2, .i32⟩ : BufTy).Contents (Elt Ideal)),
    V c main_v63 = val_main_v66 (F := Ideal) x2 x4 → V c main_v50 = val_main_v53 (F := Ideal) x2 x4 →
    (∀ i, V c main_v36 i = val_main_v35 (F := Ideal) x4 (ix1 (i 0))) →
    (dat1 V c).arrAt 3 cfg1.N = val_main_v70 (F := Ideal) x2 x4

/-- Region 2 (row normalization): the reference's normalized embeddings. -/
abbrev Region2Spec : Prop :=
  ∀ (V : (c : Dev nD) → (b : Ref sig .tc) → Buf (Elt Ideal) ((c : Thread nD τ).loc b)) (c : Dev nD) (x2 : (⟨Cert.ReferenceIdeal.S100000x128, .f32⟩ : BufTy).Contents (Elt Ideal)) (x4 : (⟨Cert.ReferenceIdeal.S800000x2, .i32⟩ : BufTy).Contents (Elt Ideal)),
    V c main_v64 = val_main_v70 (F := Ideal) x2 x4 →
    (dat2 V c).arrAt 1 cfg2.N = val_main_v78 (F := Ideal) x2 x4

/-! ## After the first host stretch -/

theorem sr_E1_v49 : E1 m c main_v49 = val_main_v48 (F := Ideal) (m ((c : Thread nD τ).loc main_arg2)) (m ((c : Thread nD τ).loc main_arg4)) :=
  host0_v49 (W0 m c)

theorem sr_E1_v36 (i : S100000x1.Idx) : E1 m c main_v36 i = val_main_v35 (F := Ideal) (m ((c : Thread nD τ).loc main_arg4)) (ix1 (n := 100000) (i 0)) :=
  host0_v36 (W0 m c) i

theorem sr_E1_arg2 : E1 m c main_arg2 = (m ((c : Thread nD τ).loc main_arg2)) :=
  (W1_of m c main_arg2 (by decide)).trans rfl

theorem sr_W1_v4 : W1 m c (Proc.devRef .tc main_v4) = val_main_v4 (F := Ideal) (m ((c : Thread nD τ).loc main_arg4)) := host0_v4 (W0 m c)
theorem sr_W1_v9 : W1 m c (Proc.devRef .tc main_v9) = val_main_v9 (F := Ideal) (m ((c : Thread nD τ).loc main_arg4)) := host0_v9 (W0 m c)
theorem sr_W1_v34 : W1 m c (Proc.devRef .tc main_v34) = val_main_v34 (F := Ideal) (m ((c : Thread nD τ).loc main_arg4)) := host0_v34 (W0 m c)

/-! ## After region 0 -/

/-- The layer-0 output. -/
theorem sr_W2_v50 (hR0 : Region0Spec) : W2 m c (Proc.devRef .tc main_v50) = val_main_v53 (F := Ideal) (m ((c : Thread nD τ).loc main_arg2)) (m ((c : Thread nD τ).loc main_arg4)) :=
  (W2_arr m c 3).trans (hR0 (E1 m) c _ _ (sr_E1_v49 m c) (sr_E1_arg2 m c) (sr_E1_v36 m c))

/-- The coefficient column is an input of region 0: it leaves it as it was. -/
theorem sr_W2_v36 : W2 m c (Proc.devRef .tc main_v36) = W1 m c (Proc.devRef .tc main_v36) :=
  (W2_arr m c 2).trans (((dat0 (E1 m) c).arrAt_in 2 rfl _).trans (A_eq0 (E1 m) c 2))

theorem sr_W2_v4 : W2 m c (Proc.devRef .tc main_v4) = val_main_v4 (F := Ideal) (m ((c : Thread nD τ).loc main_arg4)) :=
  (W2_of_ne m c main_v4 (by decide)).trans (sr_W1_v4 m c)
theorem sr_W2_v9 : W2 m c (Proc.devRef .tc main_v9) = val_main_v9 (F := Ideal) (m ((c : Thread nD τ).loc main_arg4)) :=
  (W2_of_ne m c main_v9 (by decide)).trans (sr_W1_v9 m c)
theorem sr_W2_v34 : W2 m c (Proc.devRef .tc main_v34) = val_main_v34 (F := Ideal) (m ((c : Thread nD τ).loc main_arg4)) :=
  (W2_of_ne m c main_v34 (by decide)).trans (sr_W1_v34 m c)

/-! ## After the second host stretch -/

/-- The layer-1 aggregate. -/
theorem sr_E3_v63 (hR0 : Region0Spec) : E3 m c main_v63 = val_main_v66 (F := Ideal) (m ((c : Thread nD τ).loc main_arg2)) (m ((c : Thread nD τ).loc main_arg4)) :=
  host1_v63 (W2 m c) _ _ (sr_W2_v50 m c hR0) (sr_W2_v4 m c) (sr_W2_v9 m c) (sr_W2_v34 m c)

theorem sr_E3_v50 (hR0 : Region0Spec) : E3 m c main_v50 = val_main_v53 (F := Ideal) (m ((c : Thread nD τ).loc main_arg2)) (m ((c : Thread nD τ).loc main_arg4)) :=
  (W3_of m c main_v50 (by decide)).trans (sr_W2_v50 m c hR0)

theorem sr_W3_v36 : W3 m c (Proc.devRef .tc main_v36) = W1 m c (Proc.devRef .tc main_v36) :=
  (W3_of m c main_v36 (by decide)).trans (sr_W2_v36 m c)

theorem sr_E3_v36 (i : S100000x1.Idx) : E3 m c main_v36 i = val_main_v35 (F := Ideal) (m ((c : Thread nD τ).loc main_arg4)) (ix1 (n := 100000) (i 0)) :=
  (congrFun (sr_W3_v36 m c) i).trans (sr_E1_v36 m c i)

/-! ## After regions 1 and 2 -/

/-- The layer-1 output. -/
theorem sr_W4_v64 (hR0 : Region0Spec) (hR1 : Region1Spec) : W4 m c (Proc.devRef .tc main_v64) = val_main_v70 (F := Ideal) (m ((c : Thread nD τ).loc main_arg2)) (m ((c : Thread nD τ).loc main_arg4)) :=
  (W4_arr m c 3).trans (hR1 (E3 m) c _ _ (sr_E3_v63 m c hR0) (sr_E3_v50 m c hR0) (sr_E3_v36 m c))

/-- The normalized embeddings of graph `sr`: the program's third result. -/
theorem sr_W5_v65 (hR0 : Region0Spec) (hR1 : Region1Spec) (hR2 : Region2Spec) :
    W5 m c (Proc.devRef .tc main_v65) = val_main_v78 (F := Ideal) (m ((c : Thread nD τ).loc main_arg2)) (m ((c : Thread nD τ).loc main_arg4)) :=
  (W5_arr m c 1).trans (hR2 (E4 m) c _ _ (sr_W4_v64 m c hR0 hR1))

/-! ## The embeddings reach the end: nothing after region 2 writes `main_v65` -/

theorem sr_W10_v65 (hR0 : Region0Spec) (hR1 : Region1Spec) (hR2 : Region2Spec) :
    W10 m c (Proc.devRef .tc main_v65) = val_main_v78 (F := Ideal) (m ((c : Thread nD τ).loc main_arg2)) (m ((c : Thread nD τ).loc main_arg4)) :=
  ((W10_of_ne m c main_v65 (by decide)).trans <| (W9_of_ne m c main_v65 (by decide)).trans <| (W8_of m c main_v65 (by decide)).trans <| (W7_of_ne m c main_v65 (by decide)).trans <| (W6_of m c main_v65 (by decide))).trans (sr_W5_v65 m c hR0 hR1 hR2)

/-- The embeddings viewed `[100000, 1, 128]` for the row gather, entry by entry. -/
theorem sr_W11_v132_ix (hR0 : Region0Spec) (hR1 : Region1Spec) (hR2 : Region2Spec) (r : Fin 100000) (u : Fin 1) (l : Fin 128) :
    W11 m c (Proc.devRef .tc main_v132) (ix3 r u l) = val_main_v78 (F := Ideal) (m ((c : Thread nD τ).loc main_arg2)) (m ((c : Thread nD τ).loc main_arg4)) (ix2 r l) :=
  (host6_v132_ix (W10 m c) r u l).trans (congrFun (sr_W10_v65 m c hR0 hR1 hR2) (ix2 r l))

variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

/-- The program's third result. -/
theorem sr_W15_v65 (hR0 : Region0Spec) (hR1 : Region1Spec) (hR2 : Region2Spec) :
    W15 m hs0 hs1 c (Proc.devRef .tc main_v65) = val_main_v78 (F := Ideal) (m ((c : Thread nD τ).loc main_arg2)) (m ((c : Thread nD τ).loc main_arg4)) :=
  ((W15_of m hs0 hs1 c main_v65 (by decide)).trans <| (W14_of_ne m hs0 hs1 c main_v65 (by decide)).trans <| (W13_of m hs0 c main_v65 (by decide)).trans <| (W12_of_ne m hs0 c main_v65 (by decide)).trans <| (W11_of m c main_v65 (by decide))).trans (sr_W10_v65 m c hR0 hR1 hR2)

/-- The gathered rows viewed `[10000, 128]`, entry by entry. -/
theorem sr_W13_v134_ix (s : Fin 10000) (l : Fin 128) :
    W13 m hs0 c (Proc.devRef .tc main_v134) (ix2 s l) = W12 m hs0 c (Proc.devRef .tc main_v133) (ix3 s (0 : Fin 1) l) :=
  host7_v134_ix (W12 m hs0 c) s l

/-- The program's first result reaches the end. -/
theorem sr_W15_v134 : W15 m hs0 hs1 c (Proc.devRef .tc main_v134) = W13 m hs0 c (Proc.devRef .tc main_v134) :=
  (W15_of m hs0 hs1 c main_v134 (by decide)).trans <| (W14_of_ne m hs0 hs1 c main_v134 (by decide))

end Cert.Bridge
-- ==== Proof.Br.Host3.lean ====
import proofs.«114291_j3908420239568_2_alg».proof.Proof.Gen.KernelIdeal.Regions
import proofs.«114291_j3908420239568_2_alg».proof.Proof.Gen.ReferenceIdeal.Read
import proofs.«114291_j3908420239568_2_alg».proof.Proof.LibReshapeAtIndex

noncomputable section

namespace Cert.Bridge

open Idealize.ShloMosaic Idealize.ShloMosaic.TcCoe Idealize.SL.Sem Idealize.ShloMosaic.StableHlo
open Idealize.ShloMosaic.ValueIdx
open Cert.ReferenceIdeal.Read

/-!
The host stretch of graph `tg` that precedes its first layer: the edge lists, the degree normalization, the per-edge
coefficient and the layer-0 aggregate, the same operations as for graph `sr` on the features `main_arg3` and the edges
`main_arg5`. From ANY contents `W` each buffer the stretch writes holds the reference's stage, as a function of `W`
at those two arguments.
-/

/- Buffer contents on the TensorCore, for the kernel program's signature, at exact arithmetic. -/
local notation "KW" => Valuation Cert.KernelIdeal.τ Cert.KernelIdeal.sig (Elt Ideal)

/-- The layer-0 aggregate of graph `tg` is the reference's. -/
theorem host3_v115 (W : KW) :
    StableHlo.after (Cert.KernelIdeal.Gen.hostOps3 (F := Ideal)) W (Proc.devRef .tc Cert.KernelIdeal.main_v115)
      = val_main_v127 (F := Ideal) (W (Proc.devRef .tc Cert.KernelIdeal.main_arg3)) (W (Proc.devRef .tc Cert.KernelIdeal.main_arg5)) := by
  after_results_simp
  rfl

/-- The source list of the symmetrized edges. -/
theorem host3_v70 (W : KW) :
    StableHlo.after (Cert.KernelIdeal.Gen.hostOps3 (F := Ideal)) W (Proc.devRef .tc Cert.KernelIdeal.main_v70)
      = val_main_v83 (F := Ideal) (W (Proc.devRef .tc Cert.KernelIdeal.main_arg5)) := by
  after_results_simp
  rfl

/-- The destination list of the symmetrized edges. -/
theorem host3_v75 (W : KW) :
    StableHlo.after (Cert.KernelIdeal.Gen.hostOps3 (F := Ideal)) W (Proc.devRef .tc Cert.KernelIdeal.main_v75)
      = val_main_v88 (F := Ideal) (W (Proc.devRef .tc Cert.KernelIdeal.main_arg5)) := by
  after_results_simp
  rfl

/-- The per-edge coefficient `dis[src] * dis[dst]`. -/
theorem host3_v100 (W : KW) :
    StableHlo.after (Cert.KernelIdeal.Gen.hostOps3 (F := Ideal)) W (Proc.devRef .tc Cert.KernelIdeal.main_v100)
      = val_main_v113 (F := Ideal) (W (Proc.devRef .tc Cert.KernelIdeal.main_arg5)) := by
  after_results_simp
  rfl

/-- The self coefficient `dis * dis`, as the flat array. -/
theorem host3_v101 (W : KW) :
    StableHlo.after (Cert.KernelIdeal.Gen.hostOps3 (F := Ideal)) W (Proc.devRef .tc Cert.KernelIdeal.main_v101)
      = val_main_v114 (F := Ideal) (W (Proc.devRef .tc Cert.KernelIdeal.main_arg5)) := by
  after_results_simp
  rfl

/-- The self coefficient as a column is the flat array viewed `[100000, 1]`. -/
theorem host3_v102_eq (W : KW) :
    StableHlo.after (Cert.KernelIdeal.Gen.hostOps3 (F := Ideal)) W (Proc.devRef .tc Cert.KernelIdeal.main_v102)
      = shapeCast Cert.KernelIdeal.S100000x1 (val_main_v114 (F := Ideal) (W (Proc.devRef .tc Cert.KernelIdeal.main_arg5)))
          Cert.KernelIdeal.Gen.shapeCasts_S100000_S100000x1 := by
  after_results_simp
  rfl

/-- The self coefficient column at row `r` is `dis * dis` at `r`. -/
theorem host3_v102_ix (W : KW) (r : Fin 100000) (u : Fin 1) :
    StableHlo.after (Cert.KernelIdeal.Gen.hostOps3 (F := Ideal)) W (Proc.devRef .tc Cert.KernelIdeal.main_v102) (ix2 r u)
      = val_main_v114 (F := Ideal) (W (Proc.devRef .tc Cert.KernelIdeal.main_arg5)) (ix1 r) := by
  rw [host3_v102_eq]
  exact shapeCast_a_a1_apply _ _ r u

/-- The same at an index of the column's shape. -/
theorem host3_v102 (W : KW) (i : Cert.KernelIdeal.S100000x1.Idx) :
    StableHlo.after (Cert.KernelIdeal.Gen.hostOps3 (F := Ideal)) W (Proc.devRef .tc Cert.KernelIdeal.main_v102) i
      = val_main_v114 (F := Ideal) (W (Proc.devRef .tc Cert.KernelIdeal.main_arg5)) (ix1 (n := 100000) (i 0)) := by
  rw [eq_ix2 i]
  exact host3_v102_ix W (i 0) (i 1)

/-- A buffer the stretch does not write keeps its contents. -/
theorem host3_of (W : KW) (r : Ref Cert.KernelIdeal.sig .tc) (h : r ∉ Cert.KernelIdeal.Gen.hostOps3_W) :
    StableHlo.after (Cert.KernelIdeal.Gen.hostOps3 (F := Ideal)) W (Proc.devRef .tc r) = W (Proc.devRef .tc r) :=
  StableHlo.after_of_writes_sub _ W Cert.KernelIdeal.Gen.hostOps3_writes h

theorem host3_arg0 (W : KW) : StableHlo.after (Cert.KernelIdeal.Gen.hostOps3 (F := Ideal)) W (Proc.devRef .tc Cert.KernelIdeal.main_arg0) = W (Proc.devRef .tc Cert.KernelIdeal.main_arg0) := host3_of W _ (by decide)
theorem host3_arg1 (W : KW) : StableHlo.after (Cert.KernelIdeal.Gen.hostOps3 (F := Ideal)) W (Proc.devRef .tc Cert.KernelIdeal.main_arg1) = W (Proc.devRef .tc Cert.KernelIdeal.main_arg1) := host3_of W _ (by decide)
theorem host3_arg2 (W : KW) : StableHlo.after (Cert.KernelIdeal.Gen.hostOps3 (F := Ideal)) W (Proc.devRef .tc Cert.KernelIdeal.main_arg2) = W (Proc.devRef .tc Cert.KernelIdeal.main_arg2) := host3_of W _ (by decide)
theorem host3_arg3 (W : KW) : StableHlo.after (Cert.KernelIdeal.Gen.hostOps3 (F := Ideal)) W (Proc.devRef .tc Cert.KernelIdeal.main_arg3) = W (Proc.devRef .tc Cert.KernelIdeal.main_arg3) := host3_of W _ (by decide)
theorem host3_arg4 (W : KW) : StableHlo.after (Cert.KernelIdeal.Gen.hostOps3 (F := Ideal)) W (Proc.devRef .tc Cert.KernelIdeal.main_arg4) = W (Proc.devRef .tc Cert.KernelIdeal.main_arg4) := host3_of W _ (by decide)
theorem host3_arg5 (W : KW) : StableHlo.after (Cert.KernelIdeal.Gen.hostOps3 (F := Ideal)) W (Proc.devRef .tc Cert.KernelIdeal.main_arg5) = W (Proc.devRef .tc Cert.KernelIdeal.main_arg5) := host3_of W _ (by decide)
theorem host3_v65 (W : KW) : StableHlo.after (Cert.KernelIdeal.Gen.hostOps3 (F := Ideal)) W (Proc.devRef .tc Cert.KernelIdeal.main_v65) = W (Proc.devRef .tc Cert.KernelIdeal.main_v65) := host3_of W _ (by decide)
theorem host3_v64 (W : KW) : StableHlo.after (Cert.KernelIdeal.Gen.hostOps3 (F := Ideal)) W (Proc.devRef .tc Cert.KernelIdeal.main_v64) = W (Proc.devRef .tc Cert.KernelIdeal.main_v64) := host3_of W _ (by decide)

end Cert.Bridge
-- ==== Proof.Br.Host4.lean ====
import proofs.«114291_j3908420239568_2_alg».proof.Proof.Gen.KernelIdeal.Regions
import proofs.«114291_j3908420239568_2_alg».proof.Proof.Gen.ReferenceIdeal.Read

noncomputable section

namespace Cert.Bridge

open Idealize.ShloMosaic Idealize.ShloMosaic.TcCoe Idealize.SL.Sem Idealize.ShloMosaic.StableHlo
open Cert.ReferenceIdeal.Read

/-!
The host stretch of graph `tg` between its two layers: the layer-1 aggregate. It gathers the rows of the layer-0
output at the sources, weights them by the per-edge coefficient and scatter-adds them at the destinations: the
reference's operations on the reference's stages, once the four buffers it reads hold those stages.
-/

/- Buffer contents on the TensorCore, for the kernel program's signature, at exact arithmetic. -/
local notation "KW" => Valuation Cert.KernelIdeal.τ Cert.KernelIdeal.sig (Elt Ideal)

/-- The layer-1 aggregate of graph `tg` is the reference's, from contents that hold the layer-0 output, the two edge
    lists and the per-edge coefficient as the reference's stages. -/
theorem host4_v129 (W : KW)
    (x3 : (⟨Cert.ReferenceIdeal.S100000x128, .f32⟩ : BufTy).Contents (Elt Ideal))
    (x5 : (⟨Cert.ReferenceIdeal.S800000x2, .i32⟩ : BufTy).Contents (Elt Ideal))
    (h116 : W (Proc.devRef .tc Cert.KernelIdeal.main_v116) = val_main_v132 (F := Ideal) x3 x5)
    (h70 : W (Proc.devRef .tc Cert.KernelIdeal.main_v70) = val_main_v83 (F := Ideal) x5)
    (h75 : W (Proc.devRef .tc Cert.KernelIdeal.main_v75) = val_main_v88 (F := Ideal) x5)
    (h100 : W (Proc.devRef .tc Cert.KernelIdeal.main_v100) = val_main_v113 (F := Ideal) x5) :
    StableHlo.after (Cert.KernelIdeal.Gen.hostOps4 (F := Ideal)) W (Proc.devRef .tc Cert.KernelIdeal.main_v129)
      = val_main_v145 (F := Ideal) x3 x5 := by
  after_results_simp
  rw [h116, h70, h75, h100]
  rfl

/-- A buffer the stretch does not write keeps its contents. -/
theorem host4_of (W : KW) (r : Ref Cert.KernelIdeal.sig .tc) (h : r ∉ Cert.KernelIdeal.Gen.hostOps4_W) :
    StableHlo.after (Cert.KernelIdeal.Gen.hostOps4 (F := Ideal)) W (Proc.devRef .tc r) = W (Proc.devRef .tc r) :=
  StableHlo.after_of_writes_sub _ W Cert.KernelIdeal.Gen.hostOps4_writes h

theorem host4_arg0 (W : KW) : StableHlo.after (Cert.KernelIdeal.Gen.hostOps4 (F := Ideal)) W (Proc.devRef .tc Cert.KernelIdeal.main_arg0) = W (Proc.devRef .tc Cert.KernelIdeal.main_arg0) := host4_of W _ (by decide)
theorem host4_arg1 (W : KW) : StableHlo.after (Cert.KernelIdeal.Gen.hostOps4 (F := Ideal)) W (Proc.devRef .tc Cert.KernelIdeal.main_arg1) = W (Proc.devRef .tc Cert.KernelIdeal.main_arg1) := host4_of W _ (by decide)
theorem host4_arg2 (W : KW) : StableHlo.after (Cert.KernelIdeal.Gen.hostOps4 (F := Ideal)) W (Proc.devRef .tc Cert.KernelIdeal.main_arg2) = W (Proc.devRef .tc Cert.KernelIdeal.main_arg2) := host4_of W _ (by decide)
theorem host4_arg3 (W : KW) : StableHlo.after (Cert.KernelIdeal.Gen.hostOps4 (F := Ideal)) W (Proc.devRef .tc Cert.KernelIdeal.main_arg3) = W (Proc.devRef .tc Cert.KernelIdeal.main_arg3) := host4_of W _ (by decide)
theorem host4_arg4 (W : KW) : StableHlo.after (Cert.KernelIdeal.Gen.hostOps4 (F := Ideal)) W (Proc.devRef .tc Cert.KernelIdeal.main_arg4) = W (Proc.devRef .tc Cert.KernelIdeal.main_arg4) := host4_of W _ (by decide)
theorem host4_arg5 (W : KW) : StableHlo.after (Cert.KernelIdeal.Gen.hostOps4 (F := Ideal)) W (Proc.devRef .tc Cert.KernelIdeal.main_arg5) = W (Proc.devRef .tc Cert.KernelIdeal.main_arg5) := host4_of W _ (by decide)
theorem host4_v116 (W : KW) : StableHlo.after (Cert.KernelIdeal.Gen.hostOps4 (F := Ideal)) W (Proc.devRef .tc Cert.KernelIdeal.main_v116) = W (Proc.devRef .tc Cert.KernelIdeal.main_v116) := host4_of W _ (by decide)
theorem host4_v102 (W : KW) : StableHlo.after (Cert.KernelIdeal.Gen.hostOps4 (F := Ideal)) W (Proc.devRef .tc Cert.KernelIdeal.main_v102) = W (Proc.devRef .tc Cert.KernelIdeal.main_v102) := host4_of W _ (by decide)
theorem host4_v65 (W : KW) : StableHlo.after (Cert.KernelIdeal.Gen.hostOps4 (F := Ideal)) W (Proc.devRef .tc Cert.KernelIdeal.main_v65) = W (Proc.devRef .tc Cert.KernelIdeal.main_v65) := host4_of W _ (by decide)
theorem host4_v70 (W : KW) : StableHlo.after (Cert.KernelIdeal.Gen.hostOps4 (F := Ideal)) W (Proc.devRef .tc Cert.KernelIdeal.main_v70) = W (Proc.devRef .tc Cert.KernelIdeal.main_v70) := host4_of W _ (by decide)
theorem host4_v75 (W : KW) : StableHlo.after (Cert.KernelIdeal.Gen.hostOps4 (F := Ideal)) W (Proc.devRef .tc Cert.KernelIdeal.main_v75) = W (Proc.devRef .tc Cert.KernelIdeal.main_v75) := host4_of W _ (by decide)
theorem host4_v100 (W : KW) : StableHlo.after (Cert.KernelIdeal.Gen.hostOps4 (F := Ideal)) W (Proc.devRef .tc Cert.KernelIdeal.main_v100) = W (Proc.devRef .tc Cert.KernelIdeal.main_v100) := host4_of W _ (by decide)
theorem host4_v115 (W : KW) : StableHlo.after (Cert.KernelIdeal.Gen.hostOps4 (F := Ideal)) W (Proc.devRef .tc Cert.KernelIdeal.main_v115) = W (Proc.devRef .tc Cert.KernelIdeal.main_v115) := host4_of W _ (by decide)

end Cert.Bridge
-- ==== Proof.Br.ChainTg.lean ====
/-
  Graph `tg` along the program: from the boundary after graph `sr`'s regions on, the buffers that matter hold the
  reference's stages, as functions of the launch contents of the features `main_arg3` and the edges `main_arg5` (no item
  before writes an argument, so the host stretch finds them as launched). A host stretch computes the reference's
  operations on what it finds; a region is asked to leave the reference's stage in its output array when its input
  arrays hold the stages it reads; nothing else touches the buffers in between.
-/
import proofs.«114291_j3908420239568_2_alg».proof.Proof.KI.Bound
import proofs.«114291_j3908420239568_2_alg».proof.Proof.Br.Host3
import proofs.«114291_j3908420239568_2_alg».proof.Proof.Br.Host4
import proofs.«114291_j3908420239568_2_alg».proof.Proof.Br.HostTail
import proofs.«114291_j3908420239568_2_alg».proof.Proof.Gen.ReferenceIdeal.Read

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.ReferenceIdeal.Read

variable (m : (ℓ : Loc nD τ sig) → Buf (Elt Ideal) ℓ) (c : Dev nD)

/-! ## What the three regions of graph `tg` must leave -/

/-- Region 3 (combine and clip). -/
abbrev Region3Spec : Prop :=
  ∀ (V : (c : Dev nD) → (b : Ref sig .tc) → Buf (Elt Ideal) ((c : Thread nD τ).loc b)) (c : Dev nD) (x3 : (⟨Cert.ReferenceIdeal.S100000x128, .f32⟩ : BufTy).Contents (Elt Ideal)) (x5 : (⟨Cert.ReferenceIdeal.S800000x2, .i32⟩ : BufTy).Contents (Elt Ideal)),
    V c main_v115 = val_main_v127 (F := Ideal) x3 x5 → V c main_arg3 = x3 →
    (∀ i, V c main_v102 i = val_main_v114 (F := Ideal) x5 (ix1 (i 0))) →
    (dat3 V c).arrAt 3 cfg3.N = val_main_v132 (F := Ideal) x3 x5

/-- Region 4 (combine). -/
abbrev Region4Spec : Prop :=
  ∀ (V : (c : Dev nD) → (b : Ref sig .tc) → Buf (Elt Ideal) ((c : Thread nD τ).loc b)) (c : Dev nD) (x3 : (⟨Cert.ReferenceIdeal.S100000x128, .f32⟩ : BufTy).Contents (Elt Ideal)) (x5 : (⟨Cert.ReferenceIdeal.S800000x2, .i32⟩ : BufTy).Contents (Elt Ideal)),
    V c main_v129 = val_main_v145 (F := Ideal) x3 x5 → V c main_v116 = val_main_v132 (F := Ideal) x3 x5 →
    (∀ i, V c main_v102 i = val_main_v114 (F := Ideal) x5 (ix1 (i 0))) →
    (dat4 V c).arrAt 3 cfg4.N = val_main_v149 (F := Ideal) x3 x5

/-- Region 5 (row normalization). -/
abbrev Region5Spec : Prop :=
  ∀ (V : (c : Dev nD) → (b : Ref sig .tc) → Buf (Elt Ideal) ((c : Thread nD τ).loc b)) (c : Dev nD) (x3 : (⟨Cert.ReferenceIdeal.S100000x128, .f32⟩ : BufTy).Contents (Elt Ideal)) (x5 : (⟨Cert.ReferenceIdeal.S800000x2, .i32⟩ : BufTy).Contents (Elt Ideal)),
    V c main_v130 = val_main_v149 (F := Ideal) x3 x5 →
    (dat5 V c).arrAt 1 cfg5.N = val_main_v157 (F := Ideal) x3 x5

/-! ## The two arguments as the host stretch finds them -/

theorem tg_W5_arg3 : W5 m c (Proc.devRef .tc main_arg3) = (m ((c : Thread nD τ).loc main_arg3)) :=
  ((W5_of_ne m c main_arg3 (by decide)).trans <| (W4_of_ne m c main_arg3 (by decide)).trans <| (W3_of m c main_arg3 (by decide)).trans <| (W2_of_ne m c main_arg3 (by decide)).trans <| (W1_of m c main_arg3 (by decide))).trans rfl
theorem tg_W5_arg5 : W5 m c (Proc.devRef .tc main_arg5) = (m ((c : Thread nD τ).loc main_arg5)) :=
  ((W5_of_ne m c main_arg5 (by decide)).trans <| (W4_of_ne m c main_arg5 (by decide)).trans <| (W3_of m c main_arg5 (by decide)).trans <| (W2_of_ne m c main_arg5 (by decide)).trans <| (W1_of m c main_arg5 (by decide))).trans rfl

/-! ## After the host stretch -/

theorem tg_E6_v115 : E6 m c main_v115 = val_main_v127 (F := Ideal) (m ((c : Thread nD τ).loc main_arg3)) (m ((c : Thread nD τ).loc main_arg5)) :=
  (host3_v115 (W5 m c)).trans (by rw [tg_W5_arg3, tg_W5_arg5])

theorem tg_W6_v70 : W6 m c (Proc.devRef .tc main_v70) = val_main_v83 (F := Ideal) (m ((c : Thread nD τ).loc main_arg5)) :=
  (host3_v70 (W5 m c)).trans (by rw [tg_W5_arg5])
theorem tg_W6_v75 : W6 m c (Proc.devRef .tc main_v75) = val_main_v88 (F := Ideal) (m ((c : Thread nD τ).loc main_arg5)) :=
  (host3_v75 (W5 m c)).trans (by rw [tg_W5_arg5])
theorem tg_W6_v100 : W6 m c (Proc.devRef .tc main_v100) = val_main_v113 (F := Ideal) (m ((c : Thread nD τ).loc main_arg5)) :=
  (host3_v100 (W5 m c)).trans (by rw [tg_W5_arg5])

theorem tg_E6_v102 (i : S100000x1.Idx) : E6 m c main_v102 i = val_main_v114 (F := Ideal) (m ((c : Thread nD τ).loc main_arg5)) (ix1 (n := 100000) (i 0)) :=
  (host3_v102 (W5 m c) i).trans (by rw [tg_W5_arg5])

theorem tg_E6_arg3 : E6 m c main_arg3 = (m ((c : Thread nD τ).loc main_arg3)) :=
  (W6_of m c main_arg3 (by decide)).trans (tg_W5_arg3 m c)

/-! ## After region 3 -/

/-- The layer-0 output. -/
theorem tg_W7_v116 (hR3 : Region3Spec) : W7 m c (Proc.devRef .tc main_v116) = val_main_v132 (F := Ideal) (m ((c : Thread nD τ).loc main_arg3)) (m ((c : Thread nD τ).loc main_arg5)) :=
  (W7_arr m c 3).trans (hR3 (E6 m) c _ _ (tg_E6_v115 m c) (tg_E6_arg3 m c) (tg_E6_v102 m c))

/-- The coefficient column is an input of region 3: it leaves it as it was. -/
theorem tg_W7_v102 : W7 m c (Proc.devRef .tc main_v102) = W6 m c (Proc.devRef .tc main_v102) :=
  (W7_arr m c 2).trans (((dat3 (E6 m) c).arrAt_in 2 rfl _).trans (A_eq3 (E6 m) c 2))

theorem tg_W7_v70 : W7 m c (Proc.devRef .tc main_v70) = val_main_v83 (F := Ideal) (m ((c : Thread nD τ).loc main_arg5)) :=
  (W7_of_ne m c main_v70 (by decide)).trans (tg_W6_v70 m c)
theorem tg_W7_v75 : W7 m c (Proc.devRef .tc main_v75) = val_main_v88 (F := Ideal) (m ((c : Thread nD τ).loc main_arg5)) :=
  (W7_of_ne m c main_v75 (by decide)).trans (tg_W6_v75 m c)
theorem tg_W7_v100 : W7 m c (Proc.devRef .tc main_v100) = val_main_v113 (F := Ideal) (m ((c : Thread nD τ).loc main_arg5)) :=
  (W7_of_ne m c main_v100 (by decide)).trans (tg_W6_v100 m c)

/-! ## After the host stretch between the layers -/

/-- The layer-1 aggregate. -/
theorem tg_E8_v129 (hR3 : Region3Spec) : E8 m c main_v129 = val_main_v145 (F := Ideal) (m ((c : Thread nD τ).loc main_arg3)) (m ((c : Thread nD τ).loc main_arg5)) :=
  host4_v129 (W7 m c) _ _ (tg_W7_v116 m c hR3) (tg_W7_v70 m c) (tg_W7_v75 m c) (tg_W7_v100 m c)

theorem tg_E8_v116 (hR3 : Region3Spec) : E8 m c main_v116 = val_main_v132 (F := Ideal) (m ((c : Thread nD τ).loc main_arg3)) (m ((c : Thread nD τ).loc main_arg5)) :=
  (W8_of m c main_v116 (by decide)).trans (tg_W7_v116 m c hR3)

theorem tg_W8_v102 : W8 m c (Proc.devRef .tc main_v102) = W6 m c (Proc.devRef .tc main_v102) :=
  (W8_of m c main_v102 (by decide)).trans (tg_W7_v102 m c)

theorem tg_E8_v102 (i : S100000x1.Idx) : E8 m c main_v102 i = val_main_v114 (F := Ideal) (m ((c : Thread nD τ).loc main_arg5)) (ix1 (n := 100000) (i 0)) :=
  (congrFun (tg_W8_v102 m c) i).trans (tg_E6_v102 m c i)

/-! ## After regions 4 and 5 -/

/-- The layer-1 output. -/
theorem tg_W9_v130 (hR3 : Region3Spec) (hR4 : Region4Spec) : W9 m c (Proc.devRef .tc main_v130) = val_main_v149 (F := Ideal) (m ((c : Thread nD τ).loc main_arg3)) (m ((c : Thread nD τ).loc main_arg5)) :=
  (W9_arr m c 3).trans (hR4 (E8 m) c _ _ (tg_E8_v129 m c hR3) (tg_E8_v116 m c hR3) (tg_E8_v102 m c))

/-- The normalized embeddings of graph `tg`: the program's fourth result. -/
theorem tg_W10_v131 (hR3 : Region3Spec) (hR4 : Region4Spec) (hR5 : Region5Spec) :
    W10 m c (Proc.devRef .tc main_v131) = val_main_v157 (F := Ideal) (m ((c : Thread nD τ).loc main_arg3)) (m ((c : Thread nD τ).loc main_arg5)) :=
  (W10_arr m c 1).trans (hR5 (E9 m) c _ _ (tg_W9_v130 m c hR3 hR4))

/-! ## The embeddings reach the end: nothing after region 5 writes `main_v131` -/

variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

theorem tg_W12_v131 (hR3 : Region3Spec) (hR4 : Region4Spec) (hR5 : Region5Spec) :
    W12 m hs0 c (Proc.devRef .tc main_v131) = val_main_v157 (F := Ideal) (m ((c : Thread nD τ).loc main_arg3)) (m ((c : Thread nD τ).loc main_arg5)) :=
  ((W12_of_ne m hs0 c main_v131 (by decide)).trans <| (W11_of m c main_v131 (by decide))).trans (tg_W10_v131 m c hR3 hR4 hR5)

/-- The embeddings viewed `[100000, 1, 128]` for the row gather, entry by entry. -/
theorem tg_W13_v135_ix (hR3 : Region3Spec) (hR4 : Region4Spec) (hR5 : Region5Spec) (r : Fin 100000) (u : Fin 1) (l : Fin 128) :
    W13 m hs0 c (Proc.devRef .tc main_v135) (ix3 r u l) = val_main_v157 (F := Ideal) (m ((c : Thread nD τ).loc main_arg3)) (m ((c : Thread nD τ).loc main_arg5)) (ix2 r l) :=
  (host7_v135_ix (W12 m hs0 c) r u l).trans (congrFun (tg_W12_v131 m c hs0 hR3 hR4 hR5) (ix2 r l))

/-- The program's fourth result. -/
theorem tg_W15_v131 (hR3 : Region3Spec) (hR4 : Region4Spec) (hR5 : Region5Spec) :
    W15 m hs0 hs1 c (Proc.devRef .tc main_v131) = val_main_v157 (F := Ideal) (m ((c : Thread nD τ).loc main_arg3)) (m ((c : Thread nD τ).loc main_arg5)) :=
  ((W15_of m hs0 hs1 c main_v131 (by decide)).trans <| (W14_of_ne m hs0 hs1 c main_v131 (by decide)).trans <| (W13_of m hs0 c main_v131 (by decide))).trans (tg_W12_v131 m c hs0 hR3 hR4 hR5)

/-- The gathered rows viewed `[10000, 128]`, entry by entry: the program's second result. -/
theorem tg_W15_v137_ix (s : Fin 10000) (l : Fin 128) :
    W15 m hs0 hs1 c (Proc.devRef .tc main_v137) (ix2 s l) = W14 m hs0 hs1 c (Proc.devRef .tc main_v136) (ix3 s (0 : Fin 1) l) :=
  host8_v137_ix (W14 m hs0 hs1 c) s l

end Cert.Bridge
-- ==== Proof.Br.RefGather.lean ====
/-
  The reference's final gather, read at an index. The reference takes rows of the normalized [100000, 128] table at
  the seeds: a gather with offset axis 1, collapsed axis 0, start index map [0], slice sizes [1, 128] over start
  indices [10000, 1]. Its element (s, l) is the table's at (clamp(start index s), l), the start index read signed and
  clamped into [0, 99999]. The start index is the seed, wrapped by +100000 when negative; a seed below 100000 read
  unsigned is nonnegative read signed, so it is not wrapped and not clamped, and the element is row `seed s`'s.
-/
import proofs.«114291_j3908420239568_2_alg».proof.Proof.Gen.ReferenceIdeal.Read
import Idealize.ShloMosaic.Lib.ValueIdx
import Idealize.ShloMosaic.Lib.Affine

set_option maxRecDepth 16384

noncomputable section

namespace Cert.Bridge

open Cert.ReferenceIdeal Cert.ReferenceIdeal.Gen Cert.ReferenceIdeal.Read
open Idealize.ShloMosaic Idealize.ShloMosaic.ValueIdx

variable {F : FTy → Type} [FloatOps F]

/-- The gather's dimension numbers. -/
abbrev gd : GatherDims S100000x128 S10000x1 S10000x128 := gather_S100000x128_S10000x1_S10000x128_1_0_n_n_0_1_1128

/-- THE ROW GATHER READ AT (s, l): the operand at (the start index of s, read signed and clamped into [0, 99999]; l). -/
theorem gather_rows_apply {α : Type} (x : S100000x128.Idx → α) (idx : IVec S10000x1 32) (s : Fin 10000) (l : Fin 128) :
    Host.gather gd x idx (ix2 s l)
      = x (ix2 (⟨min (idx (ix2 s (0 : Fin 1))).toInt.toNat (100000 - 1), by omega⟩ : Fin 100000) l) := by
  unfold Host.gather
  refine congrArg x ?_
  funext a
  refine Fin.ext ?_
  match a with
  | ⟨0, _⟩ =>
    show gd.start (ix2 s l) idx 0 + gd.batchCoord (ix2 s l) 0 + gd.offCoord (ix2 s l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 s l) ⟨List.idxOf (0 : Fin 2) gd.startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show gd.start (ix2 s l) idx 1 + gd.batchCoord (ix2 s l) 1 + gd.offCoord (ix2 s l) 1 = l.val
    rw [GatherDims.batchCoord_eq_zero _ _ _ List.not_mem_nil]
    have h1 : gd.start (ix2 s l) idx 1 = 0 := by
      unfold GatherDims.start; rw [dif_neg (by decide)]
    have h2 : gd.offCoord (ix2 s l) 1 = l.val := by
      unfold GatherDims.offCoord; rw [dif_pos (by decide)]; rfl
    omega

/-- A seed below 100000 read unsigned is its own start index: the signed test "negative" fails, so it is not wrapped. -/
theorem start_index_of_lt (w : BitVec 32) (hw : w.toNat < 100000) :
    Scalar.select (IntOp.cmpi .slt w 0#32) (IntOp.addi w 100000#32) w = w := by
  have hne : ¬ IntOp.cmpi .slt w 0#32 = 1#1 := by
    rw [IntOp.cmpi_slt, show (0#32 : BitVec 32).toInt = 0 from by decide, BitVec.toInt_eq_toNat_of_lt (by omega)]
    omega
  rw [eq_zero_of_ne_one hne, select_zero]

/-- and, read signed and clamped into [0, 99999], it is itself. -/
theorem clamp_of_lt (w : BitVec 32) (hw : w.toNat < 100000) : min w.toInt.toNat (100000 - 1) = w.toNat := by
  rw [BitVec.toInt_eq_toNat_of_lt (by omega), Int.toNat_natCast]; omega

/-- The start indices at (s, 0), under the seed bound: seed s. -/
theorem v163_apply (x0 : (⟨S10000, .i32⟩ : BufTy).Contents (Elt F)) (h : ∀ i, ((x0 i : BitVec 32)).toNat < 100000) (s : Fin 10000) :
    val_main_v163 (F := F) x0 (ix2 s (0 : Fin 1)) = x0 (ix1 s) := by
  rw [val_main_v163_apply, val_main_v162_apply, val_main_v159_apply, val_main_v161_apply, val_main_v158_apply, val_main_v160_apply,
    val_main_c_30_apply, val_main_c_31_apply]
  have e : idx_main_v163 (ix2 s (0 : Fin 1)) = ix1 s := by funext a; match a with | ⟨0, _⟩ => rfl
  rw [e]
  exact start_index_of_lt _ (h _)

theorem v170_apply (x1 : (⟨S10000, .i32⟩ : BufTy).Contents (Elt F)) (h : ∀ i, ((x1 i : BitVec 32)).toNat < 100000) (s : Fin 10000) :
    val_main_v170 (F := F) x1 (ix2 s (0 : Fin 1)) = x1 (ix1 s) := by
  rw [val_main_v170_apply, val_main_v169_apply, val_main_v166_apply, val_main_v168_apply, val_main_v165_apply, val_main_v167_apply,
    val_main_c_32_apply, val_main_c_33_apply]
  have e : idx_main_v170 (ix2 s (0 : Fin 1)) = ix1 s := by funext a; match a with | ⟨0, _⟩ => rfl
  rw [e]
  exact start_index_of_lt _ (h _)

/-- THE REFERENCE'S FIRST RESULT AT (s, l): row `seed s` of the normalized table. -/
theorem ref_gather_v164 (x0 : (⟨S10000, .i32⟩ : BufTy).Contents (Elt F)) (x2 : (⟨S100000x128, .f32⟩ : BufTy).Contents (Elt F))
    (x4 : (⟨S800000x2, .i32⟩ : BufTy).Contents (Elt F)) (h : ∀ i, ((x0 i : BitVec 32)).toNat < 100000) (s : Fin 10000) (l : Fin 128) :
    val_main_v164 (F := F) x0 x2 x4 (ix2 s l)
      = val_main_v78 (F := F) x2 x4 (ix2 (⟨((x0 (ix1 s) : BitVec 32)).toNat, h _⟩ : Fin 100000) l) := by
  unfold val_main_v164
  generalize val_main_v78 (F := F) x2 x4 = T
  rw [gather_rows_apply]
  refine congrArg T ?_
  have e : min (val_main_v163 (F := F) x0 (ix2 s (0 : Fin 1))).toInt.toNat (100000 - 1) = ((x0 (ix1 s) : BitVec 32)).toNat := by
    rw [v163_apply x0 h s]; exact clamp_of_lt _ (h _)
  funext a
  match a with
  | ⟨0, _⟩ => exact Fin.ext e
  | ⟨1, _⟩ => rfl

/-- THE REFERENCE'S SECOND RESULT AT (s, l): row `seed s` of the second normalized table. -/
theorem ref_gather_v171 (x1 : (⟨S10000, .i32⟩ : BufTy).Contents (Elt F)) (x3 : (⟨S100000x128, .f32⟩ : BufTy).Contents (Elt F))
    (x5 : (⟨S800000x2, .i32⟩ : BufTy).Contents (Elt F)) (h : ∀ i, ((x1 i : BitVec 32)).toNat < 100000) (s : Fin 10000) (l : Fin 128) :
    val_main_v171 (F := F) x1 x3 x5 (ix2 s l)
      = val_main_v157 (F := F) x3 x5 (ix2 (⟨((x1 (ix1 s) : BitVec 32)).toNat, h _⟩ : Fin 100000) l) := by
  unfold val_main_v171
  generalize val_main_v157 (F := F) x3 x5 = T
  rw [gather_rows_apply]
  refine congrArg T ?_
  have e : min (val_main_v170 (F := F) x1 (ix2 s (0 : Fin 1))).toInt.toNat (100000 - 1) = ((x1 (ix1 s) : BitVec 32)).toNat := by
    rw [v170_apply x1 h s]; exact clamp_of_lt _ (h _)
  funext a
  match a with
  | ⟨0, _⟩ => exact Fin.ext e
  | ⟨1, _⟩ => rfl

end Cert.Bridge

end
-- ==== Proof.Br.FinalOf.lean ====
/-
  The four results of the program at the end, as the reference's results. The two normalized embedding tables are the
  reference's by the chain of boundaries. Each row gather is asked to leave, at row s, the row of its input array that
  the seed table names; the input array is the embedding table viewed `[100000, 1, 128]`, the table is the seed array as
  launched (no item writes it), and the reference's gather, with every seed below 100000, reads the same row.
-/
import proofs.«114291_j3908420239568_2_alg».proof.Proof.Br.ChainSr
import proofs.«114291_j3908420239568_2_alg».proof.Proof.Br.ChainTg
import proofs.«114291_j3908420239568_2_alg».proof.Proof.Br.RefGather

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.ReferenceIdeal.Read

variable (m : (ℓ : Loc nD τ sig) → Buf (Elt Ideal) ℓ) (c : Dev nD)

variable (hs0 : ∀ (c : Dev nD) x, ((m ((c : Thread nD τ).loc main_arg0) x : BitVec 32)).toNat < 100000)
variable (hs1 : ∀ (c : Dev nD) x, ((m ((c : Thread nD τ).loc main_arg1) x : BitVec 32)).toNat < 100000)

/-! ## What the two row gathers must leave -/

/-- Region 6: row s of the output is the row of `main_v132` that the table's word s names. -/
abbrev Gather6Spec : Prop :=
  ∀ (V : (c : Dev nD) → (b : Ref sig .tc) → Buf (Elt Ideal) ((c : Thread nD τ).loc b)) (a : (pcfg6 (F := Ideal)).Adm) (c : Dev nD) (s : Fin 10000) (l : Fin 128)
    (h : ((a.1 0 (ix1 s) : BitVec 32)).toNat < 100000),
    (dat6 V a c).arrAt 1 (cfg6 a).N (ix3 s (0 : Fin 1) l)
      = V c main_v132 (ix3 (⟨((a.1 0 (ix1 s) : BitVec 32)).toNat, h⟩ : Fin 100000) (0 : Fin 1) l)

/-- Region 7: row s of the output is the row of `main_v135` that the table's word s names. -/
abbrev Gather7Spec : Prop :=
  ∀ (V : (c : Dev nD) → (b : Ref sig .tc) → Buf (Elt Ideal) ((c : Thread nD τ).loc b)) (a : (pcfg7 (F := Ideal)).Adm) (c : Dev nD) (s : Fin 10000) (l : Fin 128)
    (h : ((a.1 0 (ix1 s) : BitVec 32)).toNat < 100000),
    (dat7 V a c).arrAt 1 (cfg7 a).N (ix3 s (0 : Fin 1) l)
      = V c main_v135 (ix3 (⟨((a.1 0 (ix1 s) : BitVec 32)).toNat, h⟩ : Fin 100000) (0 : Fin 1) l)

/-! ## The two embedding tables -/

theorem final_v65_of (hR0 : Region0Spec) (hR1 : Region1Spec) (hR2 : Region2Spec) :
    W15 m hs0 hs1 c (Proc.devRef .tc main_v65) = val_main_v78 (F := Ideal) (m ((c : Thread nD τ).loc main_arg2)) (m ((c : Thread nD τ).loc main_arg4)) :=
  sr_W15_v65 m c hs0 hs1 hR0 hR1 hR2

theorem final_v131_of (hR3 : Region3Spec) (hR4 : Region4Spec) (hR5 : Region5Spec) :
    W15 m hs0 hs1 c (Proc.devRef .tc main_v131) = val_main_v157 (F := Ideal) (m ((c : Thread nD τ).loc main_arg3)) (m ((c : Thread nD τ).loc main_arg5)) :=
  tg_W15_v131 m c hs0 hs1 hR3 hR4 hR5

/-! ## The gathered rows -/

/-- The first gather's table is the first seed array as launched. -/
theorem a6_tbl : (a6 m hs0).1 0 = m (((0 : Dev nD) : Thread nD τ).loc main_arg0) := W11_arg0 m 0

/-- The second gather's table is the second seed array as launched. -/
theorem a7_tbl : (a7 m hs0 hs1).1 0 = m (((0 : Dev nD) : Thread nD τ).loc main_arg1) := W13_arg1 m hs0 0

theorem final_v134_of (hR0 : Region0Spec) (hR1 : Region1Spec) (hR2 : Region2Spec) (hG6 : Gather6Spec) :
    W15 m hs0 hs1 c (Proc.devRef .tc main_v134) = val_main_v164 (F := Ideal) (m ((c : Thread nD τ).loc main_arg0)) (m ((c : Thread nD τ).loc main_arg2)) (m ((c : Thread nD τ).loc main_arg4)) := by
  obtain rfl : c = 0 := Subsingleton.elim _ _
  funext i
  obtain ⟨s, l, rfl⟩ : ∃ (s : Fin 10000) (l : Fin 128), i = ix2 s l := ⟨i 0, i 1, eq_ix2 i⟩
  have hT := a6_tbl m hs0
  have hlt : (((a6 m hs0).1 0 (ix1 s) : BitVec 32)).toNat < 100000 := by rw [hT]; exact hs0 0 _
  refine (congrFun (sr_W15_v134 m 0 hs0 hs1) (ix2 s l)).trans ?_
  refine (sr_W13_v134_ix m 0 hs0 s l).trans ?_
  refine (congrFun (W12_arr m hs0 0 1) (ix3 s (0 : Fin 1) l)).trans ?_
  refine (hG6 (E11 m) (a6 m hs0) 0 s l hlt).trans ?_
  refine (sr_W11_v132_ix m 0 hR0 hR1 hR2 _ 0 l).trans ?_
  refine Eq.trans ?_ (ref_gather_v164 (F := Ideal) (m (((0 : Dev nD) : Thread nD τ).loc main_arg0)) (m (((0 : Dev nD) : Thread nD τ).loc main_arg2)) (m (((0 : Dev nD) : Thread nD τ).loc main_arg4)) (hs0 0) s l).symm
  refine congrArg (fun r : Fin 100000 => val_main_v78 (F := Ideal) (m (((0 : Dev nD) : Thread nD τ).loc main_arg2)) (m (((0 : Dev nD) : Thread nD τ).loc main_arg4)) (ix2 r l)) (Fin.ext ?_)
  exact congrArg BitVec.toNat (congrFun hT (ix1 s))

theorem final_v137_of (hR3 : Region3Spec) (hR4 : Region4Spec) (hR5 : Region5Spec) (hG7 : Gather7Spec) :
    W15 m hs0 hs1 c (Proc.devRef .tc main_v137) = val_main_v171 (F := Ideal) (m ((c : Thread nD τ).loc main_arg1)) (m ((c : Thread nD τ).loc main_arg3)) (m ((c : Thread nD τ).loc main_arg5)) := by
  obtain rfl : c = 0 := Subsingleton.elim _ _
  funext i
  obtain ⟨s, l, rfl⟩ : ∃ (s : Fin 10000) (l : Fin 128), i = ix2 s l := ⟨i 0, i 1, eq_ix2 i⟩
  have hT := a7_tbl m hs0 hs1
  have hlt : (((a7 m hs0 hs1).1 0 (ix1 s) : BitVec 32)).toNat < 100000 := by rw [hT]; exact hs1 0 _
  refine (tg_W15_v137_ix m 0 hs0 hs1 s l).trans ?_
  refine (congrFun (W14_arr m hs0 hs1 0 1) (ix3 s (0 : Fin 1) l)).trans ?_
  refine (hG7 (E13 m hs0) (a7 m hs0 hs1) 0 s l hlt).trans ?_
  refine (tg_W13_v135_ix m 0 hs0 hR3 hR4 hR5 _ 0 l).trans ?_
  refine Eq.trans ?_ (ref_gather_v171 (F := Ideal) (m (((0 : Dev nD) : Thread nD τ).loc main_arg1)) (m (((0 : Dev nD) : Thread nD τ).loc main_arg3)) (m (((0 : Dev nD) : Thread nD τ).loc main_arg5)) (hs1 0) s l).symm
  refine congrArg (fun r : Fin 100000 => val_main_v157 (F := Ideal) (m (((0 : Dev nD) : Thread nD τ).loc main_arg3)) (m (((0 : Dev nD) : Thread nD τ).loc main_arg5)) (ix2 r l)) (Fin.ext ?_)
  exact congrArg BitVec.toNat (congrFun hT (ix1 s))

end Cert.Bridge
-- ==== Proof.LibColumnLayout.lean ====
/-
  Layout and reduction readings shared by the region values: a column of coefficients broadcast along rows,
  a vector cast to a column, and a row sum, each read at an explicit (row, lane) index over literal extents.
-/
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand.Lay

open Idealize.ShloMosaic Idealize.ShloMosaic.ValueIdx

variable {α : Type}

/-- An [a, 1] column broadcast to [a, b] reads, at (p, q), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- An [a] vector cast to an [a, 1] column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column cast to [a] reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An [a] vector cast to an [a, 1] column: the other direction of the same reading. -/
theorem shapeCast_a_a1_apply' {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 (j 0)) := by
  rw [eq_ix2 j]; exact shapeCast_a_a1_apply x h (j 0) (j 1)

/-- The sum over the lanes of a row, at the ideal values: a lane-axis add reduction of an [a, b] array read at row p. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

end Cert.KernelIdeal.Hand.Lay

end
-- ==== Proof.KI.ValSpec.lean ====
/-
  The three whole-array functions the dense regions compute, over literal extents: 100000 rows of 128 lanes, and a
  column of 100000 coefficients. A combine adds to the aggregate the features scaled row by row by the coefficient;
  the first layer clips the sum below at zero; the normalization divides each row by its Euclidean length, the
  length clipped below at a small constant.
-/
import Idealize.ShloMosaic.PureOps.Ideal.Laws
import Idealize.ShloMosaic.Lib.ValueIdx

noncomputable section

namespace Cert.KernelIdeal.Hand.Spec

open Idealize.ShloMosaic Idealize.ShloMosaic.ValueIdx

/-- agg + x * coef, the coefficient of row r at column entry (r, 0). -/
def comb (agg x : (⟨2, ![100000, 128]⟩ : Shape).Idx → EReal) (sc : (⟨2, ![100000, 1]⟩ : Shape).Idx → EReal) :
    (⟨2, ![100000, 128]⟩ : Shape).Idx → EReal :=
  fun i => agg i + x i * sc (ix2 (i 0) (0 : Fin 1))

/-- max (agg + x * coef, 0). -/
def combRelu (agg x : (⟨2, ![100000, 128]⟩ : Shape).Idx → EReal) (sc : (⟨2, ![100000, 1]⟩ : Shape).Idx → EReal) :
    (⟨2, ![100000, 128]⟩ : Shape).Idx → EReal :=
  fun i => max (agg i + x i * sc (ix2 (i 0) (0 : Fin 1))) (Ideal.ofBits .f32 0x00000000#32)

/-- x / max (sqrt (sum over the row's lanes of x * x), eps), eps the constant of bit pattern 0x2B8CBCCC. -/
def l2n (x : (⟨2, ![100000, 128]⟩ : Shape).Idx → EReal) : (⟨2, ![100000, 128]⟩ : Shape).Idx → EReal :=
  fun i => Ideal.div (x i)
    (max (Ideal.sqrt (∑ k : Fin 128, x (ix2 (i 0) k) * x (ix2 (i 0) k))) (Ideal.ofBits .f32 0x2B8CBCCC#32))

end Cert.KernelIdeal.Hand.Spec

end
-- ==== Proof.KI.Val0.lean ====
/-
  The value of region 0 at the ideal floats. Its output array, after the 25 grid points have written their row
  blocks back, is max (agg + x * coef, 0) entry by entry, agg the aggregate the region finds in its first window's
  array, x the features, coef the column of self-loop coefficients: block t of the output is rows 4000 t … 4000 t + 3999,
  every input block is read at the same rows, and row r lies in block r / 4000. The reference computes the same
  entries by broadcasting the coefficient vector along the lanes.
-/
import proofs.«114291_j3908420239568_2_alg».proof.Proof.KI.Reg0
import proofs.«114291_j3908420239568_2_alg».proof.Proof.LibColumnLayout
import proofs.«114291_j3908420239568_2_alg».proof.Proof.KI.ValSpec
import proofs.«114291_j3908420239568_2_alg».proof.Proof.Gen.ReferenceIdeal.Read
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The stored value at entry (p, q) of the block: the clipped combine of the three loaded blocks there, the
    coefficient read at row p. -/
theorem pay0_point (x0 x1 : Vec Ideal S4000x128 .f32) (x2 : Vec Ideal S4000x1 .f32) (p : Fin 4000) (q : Fin 128) :
    k0_pay1 (F := Ideal) x0 x1 x2 (ix2 p q) = max (x0 (ix2 p q) + x1 (ix2 p q) * x2 (ix2 p (0 : Fin 1))) (Ideal.ofBits .f32 0x00000000#32) := by
  unfold k0_pay1
  rw [maximumf_apply, addf_apply, mulf_apply, broadcast_apply, shapeCast_self, shapeCast_self, Lay.broadcastTo_a1_ab_apply]
  rfl

/-- The index maps over the grid: every window's block index on the row axis is the output's, which is the point's
    number; on the lane axis it is 0. -/
theorem idx_facts0 : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- What point t writes back is block t of the clipped combine of the three arrays as the region finds them. -/
theorem flushed0_eq (c : Dev nD) (t : Fin cfg0.N) :
    (dat0 V c).flushed 3 t = ((cfg0.win 3).blk t).view.read (Elt Ideal) (Spec.combRelu (V c main_v49) (V c main_arg2) (V c main_v36)) := by
  show (cfg0.win 3).cut (grid0.coords t) ((dat0 V c).after 3 t) = _
  rw [after0_3]
  unfold out0_3
  rw [View.canon_unit_zero hz0]
  simp only [View.ld_unit_zero (S := S4000x128) hz0, View.ld_unit_zero (S := S4000x1) hz0]
  obtain ⟨e0, e1, e2, e3, e4, e5, e6, e7⟩ := idx_facts0 t
  funext j
  obtain ⟨p, q, rfl⟩ : ∃ (p : Fin 4000) (q : Fin 128), j = ix2 p q := ⟨j 0, j 1, eq_ix2 j⟩
  refine (pay0_point (iblk0 V c 0 t) (iblk0 V c 1 t) (iblk0 V c 2 t) p q).trans ?_
  have h0 : iblk0 V c 0 t (ix2 p q) = V c main_v49 (((cfg0.win 3).blk t).view.emb (ix2 p q)) := by
    show V c main_v49 (((cfg0.win 0).blk t).view.emb (ix2 p q)) = _
    refine congrArg (V c main_v49) (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * q.val = win0_3.index t (1 : Fin 2) * 128 + 1 * q.val; omega
  have h1 : iblk0 V c 1 t (ix2 p q) = V c main_arg2 (((cfg0.win 3).blk t).view.emb (ix2 p q)) := by
    show V c main_arg2 (((cfg0.win 1).blk t).view.emb (ix2 p q)) = _
    refine congrArg (V c main_arg2) (funext fun a => Fin.ext ?_)
    match a with
    | ⟨0, _⟩ => show win0_1.index t (0 : Fin 2) * 4000 + 1 * p.val = win0_3.index t (0 : Fin 2) * 4000 + 1 * p.val; omega
    | ⟨1, _⟩ => show win0_1.index t (1 : Fin 2) * 128 + 1 * q.val = win0_3.index t (1 : Fin 2) * 128 + 1 * q.val; omega
  have h2 : iblk0 V c 2 t (ix2 p (0 : Fin 1)) = V c main_v36 (ix2 ((((cfg0.win 3).blk t).view.emb (ix2 p q)) 0) (0 : Fin 1)) := by
    show V c main_v36 (((cfg0.win 2).blk t).view.emb (ix2 p (0 : Fin 1))) = _
    refine congrArg (V c main_v36) (funext fun a => Fin.ext ?_)
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega
  rw [h0, h1, h2]
  rfl

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v50).slice (win0_3.rect t)).set ↔ _
  rw [View.set_slice_whole, Rect.mem_set_unit]
  exact Iff.rfl

/-- Row r of the output lies in the block of point r / 4000: the 25 blocks cover the array. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The output array after the region: the clipped combine of the three arrays the region finds. -/
theorem final0 (c : Dev nD) :
    (dat0 V c).arrAt 3 cfg0.N = Spec.combRelu (V c main_v49) (V c main_arg2) (V c main_v36) :=
  (dat0 V c).arrAt_eq_of_cover 3 _ (fun t _ => flushed0_eq V c t) cover0

open Cert.ReferenceIdeal.Read in
/-- The reference's stage after the first layer's clip is the same function of its own aggregate, the features and
    the coefficient vector: its two broadcasts read the coefficient of the entry's row. -/
theorem combRelu0_is_ref (A X : S100000x128.Idx → EReal) (S : S100000x1.Idx → EReal)
    (x2 : (⟨Cert.ReferenceIdeal.S100000x128, .f32⟩ : BufTy).Contents (Elt Ideal)) (x4 : (⟨Cert.ReferenceIdeal.S800000x2, .i32⟩ : BufTy).Contents (Elt Ideal))
    (hagg : A = val_main_v48 (F := Ideal) x2 x4) (hx : X = x2)
    (hsc : ∀ i, S i = val_main_v35 (F := Ideal) x4 (ix1 (i 0))) :
    Spec.combRelu A X S = val_main_v53 (F := Ideal) x2 x4 := by
  funext i
  have hs : S (ix2 (i 0) (0 : Fin 1)) = val_main_v35 (F := Ideal) x4 (idx_main_v49 (idx_main_v50 i)) :=
    (hsc (ix2 (i 0) (0 : Fin 1))).trans (congrArg (val_main_v35 (F := Ideal) x4)
      (funext fun a => Fin.ext (by match a with | ⟨0, _⟩ => rfl)))
  rw [val_main_v53_apply, val_main_v52_apply, val_main_v51_apply, val_main_v50_apply, val_main_v49_apply, val_main_call0_v0_apply, val_main_call0_cst_apply]
  unfold Spec.combRelu
  rw [hagg, hx, hs]
  generalize val_main_v48 (F := Ideal) x2 x4 i = a
  generalize val_main_v35 (F := Ideal) x4 (idx_main_v49 (idx_main_v50 i)) = s
  generalize x2 i = b
  rfl

/-- Region 0 leaves in its output array the reference's stage after the first layer's clip. -/
theorem region0_is_ref (c : Dev nD)
    (x2 : (⟨Cert.ReferenceIdeal.S100000x128, .f32⟩ : BufTy).Contents (Elt Ideal)) (x4 : (⟨Cert.ReferenceIdeal.S800000x2, .i32⟩ : BufTy).Contents (Elt Ideal))
    (hagg : V c main_v49 = Cert.ReferenceIdeal.Read.val_main_v48 (F := Ideal) x2 x4) (hx : V c main_arg2 = x2)
    (hsc : ∀ i, V c main_v36 i = Cert.ReferenceIdeal.Read.val_main_v35 (F := Ideal) x4 (ix1 (i 0))) :
    (dat0 V c).arrAt 3 cfg0.N = Cert.ReferenceIdeal.Read.val_main_v53 (F := Ideal) x2 x4 :=
  (final0 V c).trans (combRelu0_is_ref _ _ _ x2 x4 hagg hx hsc)

end Cert.KernelIdeal.Hand

end
-- ==== Proof.KI.Val1.lean ====
/-
  The value of region 1 at the ideal floats. Its output array, after the 25 grid points have written their row
  blocks back, is agg + x * coef entry by entry, agg the second layer's aggregate the region finds in its first
  window's array, x the first layer's output, coef the column of self-loop coefficients: block t of the output is
  rows 4000 t … 4000 t + 3999, every input block is read at the same rows, and row r lies in block r / 4000. The
  reference computes the same entries by broadcasting the coefficient vector along the lanes.
-/
import proofs.«114291_j3908420239568_2_alg».proof.Proof.KI.Reg1
import proofs.«114291_j3908420239568_2_alg».proof.Proof.LibColumnLayout
import proofs.«114291_j3908420239568_2_alg».proof.Proof.KI.ValSpec
import proofs.«114291_j3908420239568_2_alg».proof.Proof.Gen.ReferenceIdeal.Read
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The stored value at entry (p, q) of the block: the combine of the three loaded blocks there, the
    coefficient read at row p. -/
theorem pay1_point (x0 x1 : Vec Ideal S4000x128 .f32) (x2 : Vec Ideal S4000x1 .f32) (p : Fin 4000) (q : Fin 128) :
    k1_pay1 (F := Ideal) x0 x1 x2 (ix2 p q) = x0 (ix2 p q) + x1 (ix2 p q) * x2 (ix2 p (0 : Fin 1)) := by
  unfold k1_pay1
  rw [addf_apply, mulf_apply, shapeCast_self, shapeCast_self, shapeCast_self, Lay.broadcastTo_a1_ab_apply]

/-- The index maps over the grid: every window's block index on the row axis is the output's, which is the point's
    number; on the lane axis it is 0. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = 0
    ∧ win1_3.index t (0 : Fin 2) = t.val
    ∧ win1_3.index t (1 : Fin 2) = 0 :=
  (by decide +kernel : ∀ t : Fin grid1.N, _)

/-- What point t writes back is block t of the combine of the three arrays as the region finds them. -/
theorem flushed1_eq (c : Dev nD) (t : Fin cfg1.N) :
    (dat1 V c).flushed 3 t = ((cfg1.win 3).blk t).view.read (Elt Ideal) (Spec.comb (V c main_v63) (V c main_v50) (V c main_v36)) := by
  show (cfg1.win 3).cut (grid1.coords t) ((dat1 V c).after 3 t) = _
  rw [after1_3]
  unfold out1_3
  rw [View.canon_unit_zero hz1]
  simp only [View.ld_unit_zero (S := S4000x128) hz1, View.ld_unit_zero (S := S4000x1) hz1]
  obtain ⟨e0, e1, e2, e3, e4, e5, e6, e7⟩ := idx_facts1 t
  funext j
  obtain ⟨p, q, rfl⟩ : ∃ (p : Fin 4000) (q : Fin 128), j = ix2 p q := ⟨j 0, j 1, eq_ix2 j⟩
  refine (pay1_point (iblk1 V c 0 t) (iblk1 V c 1 t) (iblk1 V c 2 t) p q).trans ?_
  have h0 : iblk1 V c 0 t (ix2 p q) = V c main_v63 (((cfg1.win 3).blk t).view.emb (ix2 p q)) := by
    show V c main_v63 (((cfg1.win 0).blk t).view.emb (ix2 p q)) = _
    refine congrArg (V c main_v63) (funext fun a => Fin.ext ?_)
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * q.val = win1_3.index t (1 : Fin 2) * 128 + 1 * q.val; omega
  have h1 : iblk1 V c 1 t (ix2 p q) = V c main_v50 (((cfg1.win 3).blk t).view.emb (ix2 p q)) := by
    show V c main_v50 (((cfg1.win 1).blk t).view.emb (ix2 p q)) = _
    refine congrArg (V c main_v50) (funext fun a => Fin.ext ?_)
    match a with
    | ⟨0, _⟩ => show win1_1.index t (0 : Fin 2) * 4000 + 1 * p.val = win1_3.index t (0 : Fin 2) * 4000 + 1 * p.val; omega
    | ⟨1, _⟩ => show win1_1.index t (1 : Fin 2) * 128 + 1 * q.val = win1_3.index t (1 : Fin 2) * 128 + 1 * q.val; omega
  have h2 : iblk1 V c 2 t (ix2 p (0 : Fin 1)) = V c main_v36 (ix2 ((((cfg1.win 3).blk t).view.emb (ix2 p q)) 0) (0 : Fin 1)) := by
    show V c main_v36 (((cfg1.win 2).blk t).view.emb (ix2 p (0 : Fin 1))) = _
    refine congrArg (V c main_v36) (funext fun a => Fin.ext ?_)
    match a with
    | ⟨0, _⟩ => show win1_2.index t (0 : Fin 2) * 4000 + 1 * p.val = win1_3.index t (0 : Fin 2) * 4000 + 1 * p.val; omega
    | ⟨1, _⟩ => show win1_2.index t (1 : Fin 2) * 1 + 1 * 0 = 0; omega
  rw [h0, h1, h2]
  rfl

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v64).slice (win1_3.rect t)).set ↔ _
  rw [View.set_slice_whole, Rect.mem_set_unit]
  exact Iff.rfl

/-- Row r of the output lies in the block of point r / 4000: the 25 blocks cover the array. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, e6, e7⟩ := idx_facts1 t
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- The output array after the region: the combine of the three arrays the region finds. -/
theorem final1 (c : Dev nD) :
    (dat1 V c).arrAt 3 cfg1.N = Spec.comb (V c main_v63) (V c main_v50) (V c main_v36) :=
  (dat1 V c).arrAt_eq_of_cover 3 _ (fun t _ => flushed1_eq V c t) cover1

open Cert.ReferenceIdeal.Read in
/-- The reference's second-layer stage is the same function of its own aggregate, its first-layer stage and the
    coefficient vector: its two broadcasts read the coefficient of the entry's row. -/
theorem comb1_is_ref (A X : S100000x128.Idx → EReal) (S : S100000x1.Idx → EReal)
    (x2 : (⟨Cert.ReferenceIdeal.S100000x128, .f32⟩ : BufTy).Contents (Elt Ideal)) (x4 : (⟨Cert.ReferenceIdeal.S800000x2, .i32⟩ : BufTy).Contents (Elt Ideal))
    (hagg : A = val_main_v66 (F := Ideal) x2 x4) (hx : X = val_main_v53 (F := Ideal) x2 x4)
    (hsc : ∀ i, S i = val_main_v35 (F := Ideal) x4 (ix1 (i 0))) :
    Spec.comb A X S = val_main_v70 (F := Ideal) x2 x4 := by
  funext i
  have hs : S (ix2 (i 0) (0 : Fin 1)) = val_main_v35 (F := Ideal) x4 (idx_main_v67 (idx_main_v68 i)) :=
    (hsc (ix2 (i 0) (0 : Fin 1))).trans (congrArg (val_main_v35 (F := Ideal) x4)
      (funext fun a => Fin.ext (by match a with | ⟨0, _⟩ => rfl)))
  rw [val_main_v70_apply, val_main_v69_apply, val_main_v68_apply, val_main_v67_apply]
  unfold Spec.comb
  rw [hagg, hx, hs]
  generalize val_main_v66 (F := Ideal) x2 x4 i = a
  generalize val_main_v35 (F := Ideal) x4 (idx_main_v67 (idx_main_v68 i)) = s
  generalize val_main_v53 (F := Ideal) x2 x4 i = b
  rfl

/-- Region 1 leaves in its output array the reference's second-layer stage. -/
theorem region1_is_ref (c : Dev nD)
    (x2 : (⟨Cert.ReferenceIdeal.S100000x128, .f32⟩ : BufTy).Contents (Elt Ideal)) (x4 : (⟨Cert.ReferenceIdeal.S800000x2, .i32⟩ : BufTy).Contents (Elt Ideal))
    (hagg : V c main_v63 = Cert.ReferenceIdeal.Read.val_main_v66 (F := Ideal) x2 x4) (hx : V c main_v50 = Cert.ReferenceIdeal.Read.val_main_v53 (F := Ideal) x2 x4)
    (hsc : ∀ i, V c main_v36 i = Cert.ReferenceIdeal.Read.val_main_v35 (F := Ideal) x4 (ix1 (i 0))) :
    (dat1 V c).arrAt 3 cfg1.N = Cert.ReferenceIdeal.Read.val_main_v70 (F := Ideal) x2 x4 :=
  (final1 V c).trans (comb1_is_ref _ _ _ x2 x4 hagg hx hsc)

end Cert.KernelIdeal.Hand

end
-- ==== Proof.KI.ValRef2.lean ====
/-
  The reference's row normalization on the first graph, read entry by entry: the stage before it divided by the row's
  Euclidean length clipped below at the constant of bit pattern 0x2B8CBCCC.
-/
import proofs.«114291_j3908420239568_2_alg».proof.Proof.KI.ValSpec
import proofs.«114291_j3908420239568_2_alg».proof.Proof.Gen.ReferenceIdeal.Read

set_option maxRecDepth 16384

noncomputable section

namespace Cert.KernelIdeal.Hand

open Idealize.ShloMosaic Idealize.ShloMosaic.ValueIdx
open Cert.ReferenceIdeal.Read

/-- The reference's normalized stage is the row normalization of its own stage before it: its reduction over the lane
    axis starts from the zero constant and sums the squares of the entry's row, and its broadcasts read the row's
    clipped length. -/
theorem l2n2_is_ref (X : (⟨2, ![100000, 128]⟩ : Shape).Idx → EReal)
    (x2 : (⟨Cert.ReferenceIdeal.S100000x128, .f32⟩ : BufTy).Contents (Elt Ideal)) (x4 : (⟨Cert.ReferenceIdeal.S800000x2, .i32⟩ : BufTy).Contents (Elt Ideal))
    (hx : X = val_main_v70 (F := Ideal) x2 x4) :
    Spec.l2n X = val_main_v78 (F := Ideal) x2 x4 := by
  funext i
  have hidx : ∀ k : Fin 128, idx_main_v72 (idx_main_v73 (idx_main_v77 i)) k = ix2 (i 0) k :=
    fun k => funext fun a => Fin.ext (by match a with | ⟨0, _⟩ => rfl | ⟨1, _⟩ => rfl)
  have hsum : ∀ k : Fin 128, val_main_v71 (F := Ideal) x2 x4 (idx_main_v72 (idx_main_v73 (idx_main_v77 i)) k)
      = X (ix2 (i 0) k) * X (ix2 (i 0) k) := fun k => by
    rw [val_main_v71_apply, ← hx, hidx k]
    rfl
  have hS : (∑ k : Fin 128, val_main_v71 (F := Ideal) x2 x4 (idx_main_v72 (idx_main_v73 (idx_main_v77 i)) k))
      = ∑ k : Fin 128, X (ix2 (i 0) k) * X (ix2 (i 0) k) := Finset.sum_congr rfl fun k _ => hsum k
  rw [val_main_v78_apply, val_main_v77_apply, val_main_v76_apply, val_main_v75_apply, val_main_cst_13_apply,
    val_main_v74_apply, val_main_v73_apply, val_main_v72_apply, val_main_cst_12_apply]
  rw [hS, ← hx]
  unfold Spec.l2n
  generalize (∑ k : Fin 128, X (ix2 (i 0) k) * X (ix2 (i 0) k)) = s
  generalize X i = a
  show _ = Ideal.div a (max (Ideal.sqrt (Ideal.ofBits .f32 0x00000000#32 + s)) (Ideal.ofBits .f32 0x2B8CBCCC#32))
  rw [Ideal.ofBits_zero_f32, zero_add]

end Cert.KernelIdeal.Hand

end
-- ==== Proof.KI.Val2.lean ====
/-
  The value of region 2 at the ideal floats: the rows of the array the region finds, each divided by its Euclidean
  length clipped below at the constant of bit pattern 0x2B8CBCCC. Block t of the output is rows 4000 t … 4000 t + 3999,
  a row's length is the square root of the sum over its 128 lanes of the squares, all of which lie in the same
  block, and row r lies in block r / 4000. The reference computes the same entries through a reduction over the
  lane axis and two broadcasts.
-/
import proofs.«114291_j3908420239568_2_alg».proof.Proof.KI.Reg2
import proofs.«114291_j3908420239568_2_alg».proof.Proof.LibColumnLayout
import proofs.«114291_j3908420239568_2_alg».proof.Proof.KI.ValSpec
import proofs.«114291_j3908420239568_2_alg».proof.Proof.KI.ValRef2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The stored value at entry (p, q) of the block: the loaded block's entry divided by the clipped length of row p. -/
theorem pay2_point (x0 : Vec Ideal S4000x128 .f32) (p : Fin 4000) (q : Fin 128) :
    k2_pay1 (F := Ideal) x0 (ix2 p q)
      = Ideal.div (x0 (ix2 p q)) (max (Ideal.sqrt (∑ k : Fin 128, x0 (ix2 p k) * x0 (ix2 p k))) (Ideal.ofBits .f32 0x2B8CBCCC#32)) := by
  unfold k2_pay1
  rw [divf_apply, shapeCast_self, Lay.broadcastTo_a1_ab_apply, maximumf_apply, broadcast_apply]
  refine congrArg (fun z => Ideal.div (x0 (ix2 p q)) (max (Ideal.sqrt z) (Ideal.ofBits .f32 0x2B8CBCCC#32))) ?_
  refine (Lay.shapeCast_a_a1_apply _ shapeCasts_S4000_S4000x1 p (0 : Fin 1)).trans ?_
  refine (Lay.rowSum_apply (mulf x0 x0) reduces_S4000x128_S4000 _ _ p).trans ?_
  rfl

/-- The index maps over the grid: the input's block index on the row axis is the output's, which is the point's
    number; on the lane axis both are 0. -/
theorem idx_facts2 : ∀ t : Fin cfg2.N, win2_0.index t (0 : Fin 2) = win2_1.index t (0 : Fin 2)
    ∧ win2_0.index t (1 : Fin 2) = 0
    ∧ win2_1.index t (0 : Fin 2) = t.val
    ∧ win2_1.index t (1 : Fin 2) = 0 :=
  (by decide +kernel : ∀ t : Fin grid2.N, _)

/-- An entry (p, q') of the input block at point t is the array's entry (r, q'), r the array row at which the output's
    block at t has its row p. -/
theorem iblk2_at (c : Dev nD) (t : Fin cfg2.N) (p : Fin 4000) (q : Fin 128) (r : Fin 100000)
    (hr : ((cfg2.win 1).blk t).view.emb (ix2 p q) = ix2 r q) (q' : Fin 128) :
    iblk2 V c 0 t (ix2 p q') = V c main_v64 (ix2 r q') := by
  obtain ⟨e0, e1, e2, e3⟩ := idx_facts2 t
  have h0 : win2_1.index t (0 : Fin 2) * 4000 + 1 * p.val = r.val := congrArg (fun f => (f 0).val) hr
  show V c main_v64 (((cfg2.win 0).blk t).view.emb (ix2 p q')) = _
  refine congrArg (V c main_v64) (funext fun a => Fin.ext ?_)
  match a with
  | ⟨0, _⟩ => show win2_0.index t (0 : Fin 2) * 4000 + 1 * p.val = r.val; omega
  | ⟨1, _⟩ => show win2_0.index t (1 : Fin 2) * 128 + 1 * q'.val = q'.val; omega

/-- What point t writes back is block t of the row-normalized array the region finds. -/
theorem flushed2_eq (c : Dev nD) (t : Fin cfg2.N) :
    (dat2 V c).flushed 1 t = ((cfg2.win 1).blk t).view.read (Elt Ideal) (Spec.l2n (V c main_v64)) := by
  show (cfg2.win 1).cut (grid2.coords t) ((dat2 V c).after 1 t) = _
  rw [after2_1]
  unfold out2_1
  rw [View.canon_unit_zero hz2]
  simp only [View.ld_unit_zero (S := S4000x128) hz2]
  obtain ⟨e0, e1, e2, e3⟩ := idx_facts2 t
  funext j
  obtain ⟨p, q, rfl⟩ : ∃ (p : Fin 4000) (q : Fin 128), j = ix2 p q := ⟨j 0, j 1, eq_ix2 j⟩
  refine (pay2_point (iblk2 V c 0 t) p q).trans ?_
  obtain ⟨r, hr⟩ : ∃ r : Fin 100000, ((cfg2.win 1).blk t).view.emb (ix2 p q) = ix2 r q :=
    ⟨((cfg2.win 1).blk t).view.emb (ix2 p q) 0, funext fun a => Fin.ext (by
      match a with
      | ⟨0, _⟩ => rfl
      | ⟨1, _⟩ => show win2_1.index t (1 : Fin 2) * 128 + 1 * q.val = q.val; omega)⟩
  simp only [iblk2_at V c t p q r hr]
  show _ = Spec.l2n (V c main_v64) (((cfg2.win 1).blk t).view.emb (ix2 p q))
  rw [hr]
  rfl

/-- An index of the output array is in point t's block iff each coordinate is in the block's range on its axis. -/
theorem mem_blk2 (t : Fin cfg2.N) (i : S100000x128.Idx) :
    i ∈ ((cfg2.win 1).blk t).view.set ↔ ∀ a : Fin 2, win2_1.index t a * S4000x128.size a ≤ (i a).val ∧ (i a).val < win2_1.index t a * S4000x128.size a + S4000x128.size a := by
  show i ∈ ((View.whole main_v65).slice (win2_1.rect t)).set ↔ _
  rw [View.set_slice_whole, Rect.mem_set_unit]
  exact Iff.rfl

/-- Row r of the output lies in the block of point r / 4000: the 25 blocks cover the array. -/
theorem cover2 (i : S100000x128.Idx) : ∃ t : Fin cfg2.N, (cfg2.win 1).flush t = true ∧ i ∈ ((cfg2.win 1).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, e2, e3⟩ := idx_facts2 t
  refine ⟨t, flush2_1 t, ?_⟩
  rw [mem_blk2]
  intro a
  match a with
  | ⟨0, _⟩ => show win2_1.index t (0 : Fin 2) * 4000 ≤ (i 0).val ∧ (i 0).val < win2_1.index t (0 : Fin 2) * 4000 + 4000; omega
  | ⟨1, _⟩ => show win2_1.index t (1 : Fin 2) * 128 ≤ (i 1).val ∧ (i 1).val < win2_1.index t (1 : Fin 2) * 128 + 128; omega

/-- The output array after the region: the row-normalized array the region finds. -/
theorem final2 (c : Dev nD) : (dat2 V c).arrAt 1 cfg2.N = Spec.l2n (V c main_v64) :=
  (dat2 V c).arrAt_eq_of_cover 1 _ (fun t _ => flushed2_eq V c t) cover2

/-- Region 2 leaves in its output array the reference's normalized stage. -/
theorem region2_is_ref (c : Dev nD)
    (x2 : (⟨Cert.ReferenceIdeal.S100000x128, .f32⟩ : BufTy).Contents (Elt Ideal)) (x4 : (⟨Cert.ReferenceIdeal.S800000x2, .i32⟩ : BufTy).Contents (Elt Ideal))
    (hx : V c main_v64 = Cert.ReferenceIdeal.Read.val_main_v70 (F := Ideal) x2 x4) :
    (dat2 V c).arrAt 1 cfg2.N = Cert.ReferenceIdeal.Read.val_main_v78 (F := Ideal) x2 x4 :=
  (final2 V c).trans (l2n2_is_ref _ x2 x4 hx)

end Cert.KernelIdeal.Hand

end
-- ==== Proof.KI.Val3.lean ====
/-
  The value of region 3 at the ideal floats: region 0's computation on the second graph. Its output array, after the
  25 grid points have written their row blocks back, is max (agg + x * coef, 0) entry by entry, agg the aggregate the
  region finds in its first window's array, x the features, coef the column of self-loop coefficients: block t of the
  output is rows 4000 t … 4000 t + 3999, every input block is read at the same rows, and row r lies in block r / 4000.
  The reference computes the same entries by broadcasting the coefficient vector along the lanes.
-/
import proofs.«114291_j3908420239568_2_alg».proof.Proof.KI.Reg3
import proofs.«114291_j3908420239568_2_alg».proof.Proof.LibColumnLayout
import proofs.«114291_j3908420239568_2_alg».proof.Proof.KI.ValSpec
import proofs.«114291_j3908420239568_2_alg».proof.Proof.Gen.ReferenceIdeal.Read
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The stored value at entry (p, q) of the block: the clipped combine of the three loaded blocks there, the
    coefficient read at row p. -/
theorem pay3_point (x0 x1 : Vec Ideal S4000x128 .f32) (x2 : Vec Ideal S4000x1 .f32) (p : Fin 4000) (q : Fin 128) :
    k3_pay1 (F := Ideal) x0 x1 x2 (ix2 p q) = max (x0 (ix2 p q) + x1 (ix2 p q) * x2 (ix2 p (0 : Fin 1))) (Ideal.ofBits .f32 0x00000000#32) := by
  unfold k3_pay1
  rw [maximumf_apply, addf_apply, mulf_apply, broadcast_apply, shapeCast_self, shapeCast_self, Lay.broadcastTo_a1_ab_apply]
  rfl

/-- The index maps over the grid: every window's block index on the row axis is the output's, which is the point's
    number; on the lane axis it is 0. -/
theorem idx_facts3 : ∀ t : Fin cfg3.N, win3_0.index t (0 : Fin 2) = win3_3.index t (0 : Fin 2)
    ∧ win3_0.index t (1 : Fin 2) = win3_3.index t (1 : Fin 2)
    ∧ win3_1.index t (0 : Fin 2) = win3_3.index t (0 : Fin 2)
    ∧ win3_1.index t (1 : Fin 2) = win3_3.index t (1 : Fin 2)
    ∧ win3_2.index t (0 : Fin 2) = win3_3.index t (0 : Fin 2)
    ∧ win3_2.index t (1 : Fin 2) = 0
    ∧ win3_3.index t (0 : Fin 2) = t.val
    ∧ win3_3.index t (1 : Fin 2) = 0 :=
  (by decide +kernel : ∀ t : Fin grid3.N, _)

/-- What point t writes back is block t of the clipped combine of the three arrays as the region finds them. -/
theorem flushed3_eq (c : Dev nD) (t : Fin cfg3.N) :
    (dat3 V c).flushed 3 t = ((cfg3.win 3).blk t).view.read (Elt Ideal) (Spec.combRelu (V c main_v115) (V c main_arg3) (V c main_v102)) := by
  show (cfg3.win 3).cut (grid3.coords t) ((dat3 V c).after 3 t) = _
  rw [after3_3]
  unfold out3_3
  rw [View.canon_unit_zero hz3]
  simp only [View.ld_unit_zero (S := S4000x128) hz3, View.ld_unit_zero (S := S4000x1) hz3]
  obtain ⟨e0, e1, e2, e3, e4, e5, e6, e7⟩ := idx_facts3 t
  funext j
  obtain ⟨p, q, rfl⟩ : ∃ (p : Fin 4000) (q : Fin 128), j = ix2 p q := ⟨j 0, j 1, eq_ix2 j⟩
  refine (pay3_point (iblk3 V c 0 t) (iblk3 V c 1 t) (iblk3 V c 2 t) p q).trans ?_
  have h0 : iblk3 V c 0 t (ix2 p q) = V c main_v115 (((cfg3.win 3).blk t).view.emb (ix2 p q)) := by
    show V c main_v115 (((cfg3.win 0).blk t).view.emb (ix2 p q)) = _
    refine congrArg (V c main_v115) (funext fun a => Fin.ext ?_)
    match a with
    | ⟨0, _⟩ => show win3_0.index t (0 : Fin 2) * 4000 + 1 * p.val = win3_3.index t (0 : Fin 2) * 4000 + 1 * p.val; omega
    | ⟨1, _⟩ => show win3_0.index t (1 : Fin 2) * 128 + 1 * q.val = win3_3.index t (1 : Fin 2) * 128 + 1 * q.val; omega
  have h1 : iblk3 V c 1 t (ix2 p q) = V c main_arg3 (((cfg3.win 3).blk t).view.emb (ix2 p q)) := by
    show V c main_arg3 (((cfg3.win 1).blk t).view.emb (ix2 p q)) = _
    refine congrArg (V c main_arg3) (funext fun a => Fin.ext ?_)
    match a with
    | ⟨0, _⟩ => show win3_1.index t (0 : Fin 2) * 4000 + 1 * p.val = win3_3.index t (0 : Fin 2) * 4000 + 1 * p.val; omega
    | ⟨1, _⟩ => show win3_1.index t (1 : Fin 2) * 128 + 1 * q.val = win3_3.index t (1 : Fin 2) * 128 + 1 * q.val; omega
  have h2 : iblk3 V c 2 t (ix2 p (0 : Fin 1)) = V c main_v102 (ix2 ((((cfg3.win 3).blk t).view.emb (ix2 p q)) 0) (0 : Fin 1)) := by
    show V c main_v102 (((cfg3.win 2).blk t).view.emb (ix2 p (0 : Fin 1))) = _
    refine congrArg (V c main_v102) (funext fun a => Fin.ext ?_)
    match a with
    | ⟨0, _⟩ => show win3_2.index t (0 : Fin 2) * 4000 + 1 * p.val = win3_3.index t (0 : Fin 2) * 4000 + 1 * p.val; omega
    | ⟨1, _⟩ => show win3_2.index t (1 : Fin 2) * 1 + 1 * 0 = 0; omega
  rw [h0, h1, h2]
  rfl

/-- An index of the output array is in point t's block iff each coordinate is in the block's range on its axis. -/
theorem mem_blk3 (t : Fin cfg3.N) (i : S100000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v116).slice (win3_3.rect t)).set ↔ _
  rw [View.set_slice_whole, Rect.mem_set_unit]
  exact Iff.rfl

/-- Row r of the output lies in the block of point r / 4000: the 25 blocks cover the array. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, -, -, e6, e7⟩ := idx_facts3 t
  refine ⟨t, flush3_3 t, ?_⟩
  rw [mem_blk3]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 128 ≤ (i 1).val ∧ (i 1).val < win3_3.index t (1 : Fin 2) * 128 + 128; omega

/-- The output array after the region: the clipped combine of the three arrays the region finds. -/
theorem final3 (c : Dev nD) :
    (dat3 V c).arrAt 3 cfg3.N = Spec.combRelu (V c main_v115) (V c main_arg3) (V c main_v102) :=
  (dat3 V c).arrAt_eq_of_cover 3 _ (fun t _ => flushed3_eq V c t) cover3

open Cert.ReferenceIdeal.Read in
/-- The reference's stage after the first layer's clip, on the second graph, is the same function of its own
    aggregate, the features and the coefficient vector: its two broadcasts read the coefficient of the entry's row. -/
theorem combRelu3_is_ref (A X : S100000x128.Idx → EReal) (S : S100000x1.Idx → EReal)
    (x3 : (⟨Cert.ReferenceIdeal.S100000x128, .f32⟩ : BufTy).Contents (Elt Ideal)) (x5 : (⟨Cert.ReferenceIdeal.S800000x2, .i32⟩ : BufTy).Contents (Elt Ideal))
    (hagg : A = val_main_v127 (F := Ideal) x3 x5) (hx : X = x3)
    (hsc : ∀ i, S i = val_main_v114 (F := Ideal) x5 (ix1 (i 0))) :
    Spec.combRelu A X S = val_main_v132 (F := Ideal) x3 x5 := by
  funext i
  have hs : S (ix2 (i 0) (0 : Fin 1)) = val_main_v114 (F := Ideal) x5 (idx_main_v128 (idx_main_v129 i)) :=
    (hsc (ix2 (i 0) (0 : Fin 1))).trans (congrArg (val_main_v114 (F := Ideal) x5)
      (funext fun a => Fin.ext (by match a with | ⟨0, _⟩ => rfl)))
  rw [val_main_v132_apply, val_main_v131_apply, val_main_v130_apply, val_main_v129_apply, val_main_v128_apply, val_main_call1_v0_apply, val_main_call1_cst_apply]
  unfold Spec.combRelu
  rw [hagg, hx, hs]
  generalize val_main_v127 (F := Ideal) x3 x5 i = a
  generalize val_main_v114 (F := Ideal) x5 (idx_main_v128 (idx_main_v129 i)) = s
  generalize x3 i = b
  rfl

/-- Region 3 leaves in its output array the reference's stage after the first layer's clip on the second graph. -/
theorem region3_is_ref (c : Dev nD)
    (x3 : (⟨Cert.ReferenceIdeal.S100000x128, .f32⟩ : BufTy).Contents (Elt Ideal)) (x5 : (⟨Cert.ReferenceIdeal.S800000x2, .i32⟩ : BufTy).Contents (Elt Ideal))
    (hagg : V c main_v115 = Cert.ReferenceIdeal.Read.val_main_v127 (F := Ideal) x3 x5) (hx : V c main_arg3 = x3)
    (hsc : ∀ i, V c main_v102 i = Cert.ReferenceIdeal.Read.val_main_v114 (F := Ideal) x5 (ix1 (i 0))) :
    (dat3 V c).arrAt 3 cfg3.N = Cert.ReferenceIdeal.Read.val_main_v132 (F := Ideal) x3 x5 :=
  (final3 V c).trans (combRelu3_is_ref _ _ _ x3 x5 hagg hx hsc)

end Cert.KernelIdeal.Hand

end
-- ==== Proof.KI.Val4.lean ====
/-
  The value of region 4 at the ideal floats: region 1's computation on the second graph. Its output array, after the
  25 grid points have written their row blocks back, is agg + x * coef entry by entry, agg the second layer's
  aggregate the region finds in its first window's array, x the first layer's output, coef the column of self-loop
  coefficients: block t of the output is rows 4000 t … 4000 t + 3999, every input block is read at the same rows, and
  row r lies in block r / 4000. The reference computes the same entries by broadcasting the coefficient vector along
  the lanes.
-/
import proofs.«114291_j3908420239568_2_alg».proof.Proof.KI.Reg4
import proofs.«114291_j3908420239568_2_alg».proof.Proof.LibColumnLayout
import proofs.«114291_j3908420239568_2_alg».proof.Proof.KI.ValSpec
import proofs.«114291_j3908420239568_2_alg».proof.Proof.Gen.ReferenceIdeal.Read
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The stored value at entry (p, q) of the block: the combine of the three loaded blocks there, the
    coefficient read at row p. -/
theorem pay4_point (x0 x1 : Vec Ideal S4000x128 .f32) (x2 : Vec Ideal S4000x1 .f32) (p : Fin 4000) (q : Fin 128) :
    k4_pay1 (F := Ideal) x0 x1 x2 (ix2 p q) = x0 (ix2 p q) + x1 (ix2 p q) * x2 (ix2 p (0 : Fin 1)) := by
  unfold k4_pay1
  rw [addf_apply, mulf_apply, shapeCast_self, shapeCast_self, shapeCast_self, Lay.broadcastTo_a1_ab_apply]

/-- The index maps over the grid: every window's block index on the row axis is the output's, which is the point's
    number; on the lane axis it is 0. -/
theorem idx_facts4 : ∀ t : Fin cfg4.N, win4_0.index t (0 : Fin 2) = win4_3.index t (0 : Fin 2)
    ∧ win4_0.index t (1 : Fin 2) = win4_3.index t (1 : Fin 2)
    ∧ win4_1.index t (0 : Fin 2) = win4_3.index t (0 : Fin 2)
    ∧ win4_1.index t (1 : Fin 2) = win4_3.index t (1 : Fin 2)
    ∧ win4_2.index t (0 : Fin 2) = win4_3.index t (0 : Fin 2)
    ∧ win4_2.index t (1 : Fin 2) = 0
    ∧ win4_3.index t (0 : Fin 2) = t.val
    ∧ win4_3.index t (1 : Fin 2) = 0 :=
  (by decide +kernel : ∀ t : Fin grid4.N, _)

/-- What point t writes back is block t of the combine of the three arrays as the region finds them. -/
theorem flushed4_eq (c : Dev nD) (t : Fin cfg4.N) :
    (dat4 V c).flushed 3 t = ((cfg4.win 3).blk t).view.read (Elt Ideal) (Spec.comb (V c main_v129) (V c main_v116) (V c main_v102)) := by
  show (cfg4.win 3).cut (grid4.coords t) ((dat4 V c).after 3 t) = _
  rw [after4_3]
  unfold out4_3
  rw [View.canon_unit_zero hz4]
  simp only [View.ld_unit_zero (S := S4000x128) hz4, View.ld_unit_zero (S := S4000x1) hz4]
  obtain ⟨e0, e1, e2, e3, e4, e5, e6, e7⟩ := idx_facts4 t
  funext j
  obtain ⟨p, q, rfl⟩ : ∃ (p : Fin 4000) (q : Fin 128), j = ix2 p q := ⟨j 0, j 1, eq_ix2 j⟩
  refine (pay4_point (iblk4 V c 0 t) (iblk4 V c 1 t) (iblk4 V c 2 t) p q).trans ?_
  have h0 : iblk4 V c 0 t (ix2 p q) = V c main_v129 (((cfg4.win 3).blk t).view.emb (ix2 p q)) := by
    show V c main_v129 (((cfg4.win 0).blk t).view.emb (ix2 p q)) = _
    refine congrArg (V c main_v129) (funext fun a => Fin.ext ?_)
    match a with
    | ⟨0, _⟩ => show win4_0.index t (0 : Fin 2) * 4000 + 1 * p.val = win4_3.index t (0 : Fin 2) * 4000 + 1 * p.val; omega
    | ⟨1, _⟩ => show win4_0.index t (1 : Fin 2) * 128 + 1 * q.val = win4_3.index t (1 : Fin 2) * 128 + 1 * q.val; omega
  have h1 : iblk4 V c 1 t (ix2 p q) = V c main_v116 (((cfg4.win 3).blk t).view.emb (ix2 p q)) := by
    show V c main_v116 (((cfg4.win 1).blk t).view.emb (ix2 p q)) = _
    refine congrArg (V c main_v116) (funext fun a => Fin.ext ?_)
    match a with
    | ⟨0, _⟩ => show win4_1.index t (0 : Fin 2) * 4000 + 1 * p.val = win4_3.index t (0 : Fin 2) * 4000 + 1 * p.val; omega
    | ⟨1, _⟩ => show win4_1.index t (1 : Fin 2) * 128 + 1 * q.val = win4_3.index t (1 : Fin 2) * 128 + 1 * q.val; omega
  have h2 : iblk4 V c 2 t (ix2 p (0 : Fin 1)) = V c main_v102 (ix2 ((((cfg4.win 3).blk t).view.emb (ix2 p q)) 0) (0 : Fin 1)) := by
    show V c main_v102 (((cfg4.win 2).blk t).view.emb (ix2 p (0 : Fin 1))) = _
    refine congrArg (V c main_v102) (funext fun a => Fin.ext ?_)
    match a with
    | ⟨0, _⟩ => show win4_2.index t (0 : Fin 2) * 4000 + 1 * p.val = win4_3.index t (0 : Fin 2) * 4000 + 1 * p.val; omega
    | ⟨1, _⟩ => show win4_2.index t (1 : Fin 2) * 1 + 1 * 0 = 0; omega
  rw [h0, h1, h2]
  rfl

/-- An index of the output array is in point t's block iff each coordinate is in the block's range on its axis. -/
theorem mem_blk4 (t : Fin cfg4.N) (i : S100000x128.Idx) :
    i ∈ ((cfg4.win 3).blk t).view.set ↔ ∀ a : Fin 2, win4_3.index t a * S4000x128.size a ≤ (i a).val ∧ (i a).val < win4_3.index t a * S4000x128.size a + S4000x128.size a := by
  show i ∈ ((View.whole main_v130).slice (win4_3.rect t)).set ↔ _
  rw [View.set_slice_whole, Rect.mem_set_unit]
  exact Iff.rfl

/-- Row r of the output lies in the block of point r / 4000: the 25 blocks cover the array. -/
theorem cover4 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 25 := N_4
  obtain ⟨t, ht⟩ : ∃ t : Fin cfg4.N, t.val = (i 0).val / 4000 := ⟨⟨(i 0).val / 4000, by rw [hN]; omega⟩, rfl⟩
  obtain ⟨-, -, -, -, -, -, e6, e7⟩ := idx_facts4 t
  refine ⟨t, flush4_3 t, ?_⟩
  rw [mem_blk4]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 128 ≤ (i 1).val ∧ (i 1).val < win4_3.index t (1 : Fin 2) * 128 + 128; omega

/-- The output array after the region: the combine of the three arrays the region finds. -/
theorem final4 (c : Dev nD) :
    (dat4 V c).arrAt 3 cfg4.N = Spec.comb (V c main_v129) (V c main_v116) (V c main_v102) :=
  (dat4 V c).arrAt_eq_of_cover 3 _ (fun t _ => flushed4_eq V c t) cover4

open Cert.ReferenceIdeal.Read in
/-- The reference's second-layer stage on the second graph is the same function of its own aggregate, its
    first-layer stage and the coefficient vector: its two broadcasts read the coefficient of the entry's row. -/
theorem comb4_is_ref (A X : S100000x128.Idx → EReal) (S : S100000x1.Idx → EReal)
    (x3 : (⟨Cert.ReferenceIdeal.S100000x128, .f32⟩ : BufTy).Contents (Elt Ideal)) (x5 : (⟨Cert.ReferenceIdeal.S800000x2, .i32⟩ : BufTy).Contents (Elt Ideal))
    (hagg : A = val_main_v145 (F := Ideal) x3 x5) (hx : X = val_main_v132 (F := Ideal) x3 x5)
    (hsc : ∀ i, S i = val_main_v114 (F := Ideal) x5 (ix1 (i 0))) :
    Spec.comb A X S = val_main_v149 (F := Ideal) x3 x5 := by
  funext i
  have hs : S (ix2 (i 0) (0 : Fin 1)) = val_main_v114 (F := Ideal) x5 (idx_main_v146 (idx_main_v147 i)) :=
    (hsc (ix2 (i 0) (0 : Fin 1))).trans (congrArg (val_main_v114 (F := Ideal) x5)
      (funext fun a => Fin.ext (by match a with | ⟨0, _⟩ => rfl)))
  rw [val_main_v149_apply, val_main_v148_apply, val_main_v147_apply, val_main_v146_apply]
  unfold Spec.comb
  rw [hagg, hx, hs]
  generalize val_main_v145 (F := Ideal) x3 x5 i = a
  generalize val_main_v114 (F := Ideal) x5 (idx_main_v146 (idx_main_v147 i)) = s
  generalize val_main_v132 (F := Ideal) x3 x5 i = b
  rfl

/-- Region 4 leaves in its output array the reference's second-layer stage on the second graph. -/
theorem region4_is_ref (c : Dev nD)
    (x3 : (⟨Cert.ReferenceIdeal.S100000x128, .f32⟩ : BufTy).Contents (Elt Ideal)) (x5 : (⟨Cert.ReferenceIdeal.S800000x2, .i32⟩ : BufTy).Contents (Elt Ideal))
    (hagg : V c main_v129 = Cert.ReferenceIdeal.Read.val_main_v145 (F := Ideal) x3 x5) (hx : V c main_v116 = Cert.ReferenceIdeal.Read.val_main_v132 (F := Ideal) x3 x5)
    (hsc : ∀ i, V c main_v102 i = Cert.ReferenceIdeal.Read.val_main_v114 (F := Ideal) x5 (ix1 (i 0))) :
    (dat4 V c).arrAt 3 cfg4.N = Cert.ReferenceIdeal.Read.val_main_v149 (F := Ideal) x3 x5 :=
  (final4 V c).trans (comb4_is_ref _ _ _ x3 x5 hagg hx hsc)

end Cert.KernelIdeal.Hand

end
-- ==== Proof.KI.ValRef5.lean ====
/-
  The reference's row normalization on the second graph, read entry by entry: the stage before it divided by the row's
  Euclidean length clipped below at the constant of bit pattern 0x2B8CBCCC.
-/
import proofs.«114291_j3908420239568_2_alg».proof.Proof.KI.ValSpec
import proofs.«114291_j3908420239568_2_alg».proof.Proof.Gen.ReferenceIdeal.Read

set_option maxRecDepth 16384

noncomputable section

namespace Cert.KernelIdeal.Hand

open Idealize.ShloMosaic Idealize.ShloMosaic.ValueIdx
open Cert.ReferenceIdeal.Read

/-- The reference's normalized stage on the second graph is the row normalization of its own stage before it: its
    reduction over the lane axis starts from the zero constant and sums the squares of the entry's row, and its
    broadcasts read the row's clipped length. -/
theorem l2n5_is_ref (X : (⟨2, ![100000, 128]⟩ : Shape).Idx → EReal)
    (x3 : (⟨Cert.ReferenceIdeal.S100000x128, .f32⟩ : BufTy).Contents (Elt Ideal)) (x5 : (⟨Cert.ReferenceIdeal.S800000x2, .i32⟩ : BufTy).Contents (Elt Ideal))
    (hx : X = val_main_v149 (F := Ideal) x3 x5) :
    Spec.l2n X = val_main_v157 (F := Ideal) x3 x5 := by
  funext i
  have hidx : ∀ k : Fin 128, idx_main_v151 (idx_main_v152 (idx_main_v156 i)) k = ix2 (i 0) k :=
    fun k => funext fun a => Fin.ext (by match a with | ⟨0, _⟩ => rfl | ⟨1, _⟩ => rfl)
  have hsum : ∀ k : Fin 128, val_main_v150 (F := Ideal) x3 x5 (idx_main_v151 (idx_main_v152 (idx_main_v156 i)) k)
      = X (ix2 (i 0) k) * X (ix2 (i 0) k) := fun k => by
    rw [val_main_v150_apply, ← hx, hidx k]
    rfl
  have hS : (∑ k : Fin 128, val_main_v150 (F := Ideal) x3 x5 (idx_main_v151 (idx_main_v152 (idx_main_v156 i)) k))
      = ∑ k : Fin 128, X (ix2 (i 0) k) * X (ix2 (i 0) k) := Finset.sum_congr rfl fun k _ => hsum k
  rw [val_main_v157_apply, val_main_v156_apply, val_main_v155_apply, val_main_v154_apply, val_main_cst_29_apply,
    val_main_v153_apply, val_main_v152_apply, val_main_v151_apply, val_main_cst_28_apply]
  rw [hS, ← hx]
  unfold Spec.l2n
  generalize (∑ k : Fin 128, X (ix2 (i 0) k) * X (ix2 (i 0) k)) = s
  generalize X i = a
  show _ = Ideal.div a (max (Ideal.sqrt (Ideal.ofBits .f32 0x00000000#32 + s)) (Ideal.ofBits .f32 0x2B8CBCCC#32))
  rw [Ideal.ofBits_zero_f32, zero_add]

end Cert.KernelIdeal.Hand

end
-- ==== Proof.KI.Val5.lean ====
/-
  The value of region 5 at the ideal floats: region 2's computation on the second graph — the rows of the array the
  region finds, each divided by its Euclidean length clipped below at the constant of bit pattern 0x2B8CBCCC. Block t of
  the output is rows 4000 t … 4000 t + 3999, a row's length is the square root of the sum over its 128 lanes of the
  squares, all of which lie in the same block, and row r lies in block r / 4000. The reference computes the same
  entries through a reduction over the lane axis and two broadcasts.
-/
import proofs.«114291_j3908420239568_2_alg».proof.Proof.KI.Reg5
import proofs.«114291_j3908420239568_2_alg».proof.Proof.LibColumnLayout
import proofs.«114291_j3908420239568_2_alg».proof.Proof.KI.ValSpec
import proofs.«114291_j3908420239568_2_alg».proof.Proof.KI.ValRef5
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The stored value at entry (p, q) of the block: the loaded block's entry divided by the clipped length of row p. -/
theorem pay5_point (x0 : Vec Ideal S4000x128 .f32) (p : Fin 4000) (q : Fin 128) :
    k5_pay1 (F := Ideal) x0 (ix2 p q)
      = Ideal.div (x0 (ix2 p q)) (max (Ideal.sqrt (∑ k : Fin 128, x0 (ix2 p k) * x0 (ix2 p k))) (Ideal.ofBits .f32 0x2B8CBCCC#32)) := by
  unfold k5_pay1
  rw [divf_apply, shapeCast_self, Lay.broadcastTo_a1_ab_apply, maximumf_apply, broadcast_apply]
  refine congrArg (fun z => Ideal.div (x0 (ix2 p q)) (max (Ideal.sqrt z) (Ideal.ofBits .f32 0x2B8CBCCC#32))) ?_
  refine (Lay.shapeCast_a_a1_apply _ shapeCasts_S4000_S4000x1 p (0 : Fin 1)).trans ?_
  refine (Lay.rowSum_apply (mulf x0 x0) reduces_S4000x128_S4000 _ _ p).trans ?_
  rfl

/-- The index maps over the grid: the input's block index on the row axis is the output's, which is the point's
    number; on the lane axis both are 0. -/
theorem idx_facts5 : ∀ t : Fin cfg5.N, win5_0.index t (0 : Fin 2) = win5_1.index t (0 : Fin 2)
    ∧ win5_0.index t (1 : Fin 2) = 0
    ∧ win5_1.index t (0 : Fin 2) = t.val
    ∧ win5_1.index t (1 : Fin 2) = 0 :=
  (by decide +kernel : ∀ t : Fin grid5.N, _)

/-- An entry (p, q') of the input block at point t is the array's entry (r, q'), r the array row at which the output's
    block at t has its row p. -/
theorem iblk5_at (c : Dev nD) (t : Fin cfg5.N) (p : Fin 4000) (q : Fin 128) (r : Fin 100000)
    (hr : ((cfg5.win 1).blk t).view.emb (ix2 p q) = ix2 r q) (q' : Fin 128) :
    iblk5 V c 0 t (ix2 p q') = V c main_v130 (ix2 r q') := by
  obtain ⟨e0, e1, e2, e3⟩ := idx_facts5 t
  have h0 : win5_1.index t (0 : Fin 2) * 4000 + 1 * p.val = r.val := congrArg (fun f => (f 0).val) hr
  show V c main_v130 (((cfg5.win 0).blk t).view.emb (ix2 p q')) = _
  refine congrArg (V c main_v130) (funext fun a => Fin.ext ?_)
  match a with
  | ⟨0, _⟩ => show win5_0.index t (0 : Fin 2) * 4000 + 1 * p.val = r.val; omega
  | ⟨1, _⟩ => show win5_0.index t (1 : Fin 2) * 128 + 1 * q'.val = q'.val; omega

/-- What point t writes back is block t of the row-normalized array the region finds. -/
theorem flushed5_eq (c : Dev nD) (t : Fin cfg5.N) :
    (dat5 V c).flushed 1 t = ((cfg5.win 1).blk t).view.read (Elt Ideal) (Spec.l2n (V c main_v130)) := by
  show (cfg5.win 1).cut (grid5.coords t) ((dat5 V c).after 1 t) = _
  rw [after5_1]
  unfold out5_1
  rw [View.canon_unit_zero hz5]
  simp only [View.ld_unit_zero (S := S4000x128) hz5]
  obtain ⟨e0, e1, e2, e3⟩ := idx_facts5 t
  funext j
  obtain ⟨p, q, rfl⟩ : ∃ (p : Fin 4000) (q : Fin 128), j = ix2 p q := ⟨j 0, j 1, eq_ix2 j⟩
  refine (pay5_point (iblk5 V c 0 t) p q).trans ?_
  obtain ⟨r, hr⟩ : ∃ r : Fin 100000, ((cfg5.win 1).blk t).view.emb (ix2 p q) = ix2 r q :=
    ⟨((cfg5.win 1).blk t).view.emb (ix2 p q) 0, funext fun a => Fin.ext (by
      match a with
      | ⟨0, _⟩ => rfl
      | ⟨1, _⟩ => show win5_1.index t (1 : Fin 2) * 128 + 1 * q.val = q.val; omega)⟩
  simp only [iblk5_at V c t p q r hr]
  show _ = Spec.l2n (V c main_v130) (((cfg5.win 1).blk t).view.emb (ix2 p q))
  rw [hr]
  rfl

/-- An index of the output array is in point t's block iff each coordinate is in the block's range on its axis. -/
theorem mem_blk5 (t : Fin cfg5.N) (i : S100000x128.Idx) :
    i ∈ ((cfg5.win 1).blk t).view.set ↔ ∀ a : Fin 2, win5_1.index t a * S4000x128.size a ≤ (i a).val ∧ (i a).val < win5_1.index t a * S4000x128.size a + S4000x128.size a := by
  show i ∈ ((View.whole main_v131).slice (win5_1.rect t)).set ↔ _
  rw [View.set_slice_whole, Rect.mem_set_unit]
  exact Iff.rfl

/-- Row r of the output lies in the block of point r / 4000: the 25 blocks cover the array. -/
theorem cover5 (i : S100000x128.Idx) : ∃ t : Fin cfg5.N, (cfg5.win 1).flush t = true ∧ i ∈ ((cfg5.win 1).blk t).view.set := by
  have hi0 : (i 0).val < 100000 := (i 0).isLt
  have hi1 : (i 1).val < 128 := (i 1).isLt
  have hN : cfg5.N = 25 := N_5
  obtain ⟨t, ht⟩ : ∃ t : Fin cfg5.N, t.val = (i 0).val / 4000 := ⟨⟨(i 0).val / 4000, by rw [hN]; omega⟩, rfl⟩
  obtain ⟨-, -, e2, e3⟩ := idx_facts5 t
  refine ⟨t, flush5_1 t, ?_⟩
  rw [mem_blk5]
  intro a
  match a with
  | ⟨0, _⟩ => show win5_1.index t (0 : Fin 2) * 4000 ≤ (i 0).val ∧ (i 0).val < win5_1.index t (0 : Fin 2) * 4000 + 4000; omega
  | ⟨1, _⟩ => show win5_1.index t (1 : Fin 2) * 128 ≤ (i 1).val ∧ (i 1).val < win5_1.index t (1 : Fin 2) * 128 + 128; omega

/-- The output array after the region: the row-normalized array the region finds. -/
theorem final5 (c : Dev nD) : (dat5 V c).arrAt 1 cfg5.N = Spec.l2n (V c main_v130) :=
  (dat5 V c).arrAt_eq_of_cover 1 _ (fun t _ => flushed5_eq V c t) cover5

/-- Region 5 leaves in its output array the reference's normalized stage on the second graph. -/
theorem region5_is_ref (c : Dev nD)
    (x3 : (⟨Cert.ReferenceIdeal.S100000x128, .f32⟩ : BufTy).Contents (Elt Ideal)) (x5 : (⟨Cert.ReferenceIdeal.S800000x2, .i32⟩ : BufTy).Contents (Elt Ideal))
    (hx : V c main_v130 = Cert.ReferenceIdeal.Read.val_main_v149 (F := Ideal) x3 x5) :
    (dat5 V c).arrAt 1 cfg5.N = Cert.ReferenceIdeal.Read.val_main_v157 (F := Ideal) x3 x5 :=
  (final5 V c).trans (l2n5_is_ref _ x3 x5 hx)

end Cert.KernelIdeal.Hand

end
-- ==== Proof.KI.Val6.lean ====
/-
  The value of gather region 6: row s of its result array is row `seed s` of the table array it reads, seed s the
  table word at s. Point t of the grid (its one coordinate is t) fetches row `seed t` of the [100000, 1, 128] array
  and stores it, unchanged, as row t of the [10000, 1, 128] result; every point writes its row back, and row s lies in
  point s's block. The table's contents stay a variable throughout.
-/
import proofs.«114291_j3908420239568_2_alg».proof.Proof.KI.Reg6
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

theorem hz6 : (![0, 0, 0] : Fin 3 → Nat) = fun _ => 0 := funext fun a => by fin_cases a <;> rfl

/-- The stored value is the loaded block: the cast is to the block's own shape. -/
theorem pay6_eq (x0 : Vec F S1x1x128 .f32) : k6_pay1 x0 = x0 := by
  unfold k6_pay1; exact shapeCast_self _ _

/-- The body leaves the input block in the output's buffer: one whole-block store of the whole-block load. -/
theorem out6_1_eq (x0 : Vec F S1x1x128 .f32) : out6_1 x0 = x0 := by
  unfold out6_1
  rw [View.canon_unit_zero hz6, View.ld_unit_zero (S := S1x1x128) hz6, pay6_eq]

/-- A point's one coordinate is its number. -/
theorem coord6 (t : Fin grid6.N) : (grid6.coords t 0).val = t.val := by
  have ht : t.val < 10000 := lt_of_lt_of_eq t.isLt N_6
  show t.val / grid6.stride 0 % 10000 = t.val
  have hs : grid6.stride 0 = 1 := by decide
  rw [hs, Nat.div_one]; omega

/-- The one word of the table a unit rectangle at offset n reads is word n. -/
theorem unit_emb6 (n : Nat) (inb : ∀ a, (![n] : Fin 1 → Nat) a + S1.size a ≤ S10000.size a)
    (x : (Rect.unit (s := S10000) ![n] S1.size inb).shape.Idx) (s : Fin 10000) (hs : n = s.val) :
    (Rect.unit (s := S10000) ![n] S1.size inb).emb x = ix1 s := by
  funext a; apply Fin.ext
  match a with
  | ⟨0, _⟩ =>
    show n + 1 * (x 0).val = s.val
    have hx : (x 0).val < 1 := (x 0).isLt
    omega

/-- Window 0's block index at coordinates whose value is s: the table's word at s, then zeros. -/
theorem word6 (pf : pre6.Contents (Elt F)) (i : grid6.Coords) (s : Fin 10000) (hs : (i 0).val = s.val) :
    cc6_transform_0 Facts₀.k6_off1_inb Facts₀.numel1_S1 pf i = ![((pf 0 (ix1 s) : BitVec 32)).toNat, 0, 0] := by
  have hn : (Scalar.indexCast (BitVec.ofNat 32 (i 0).val)).toNat = s.val := by
    show (BitVec.ofNat 32 (i 0).val).toNat = s.val
    rw [BitVec.toNat_ofNat, hs]; have := s.isLt; omega
  unfold cc6_transform_0
  refine congrArg (fun w : BitVec 32 => (![w.toNat, 0, 0] : Fin 3 → Nat)) (congrArg (pf 0) ?_)
  exact unit_emb6 _ _ _ s hn

/-- Window 1's block index at coordinates whose value is s: s, then zeros. -/
theorem row6 (i : grid6.Coords) (s : Fin 10000) (hs : (i 0).val = s.val) : cc6_transform_1 i = ![s.val, 0, 0] := by
  unfold cc6_transform_1
  show ![(BitVec.ofNat 32 (i 0).val).toNat, 0, 0] = _
  rw [BitVec.toNat_ofNat, hs, Nat.mod_eq_of_lt (by have := s.isLt; omega)]

section Value
variable (V : (c : Dev nD) → (b : Ref sig .tc) → Buf (Elt F) ((c : Thread nD τ).loc b))
variable (a : (pcfg6 (F := F)).Adm)

/-- Admissible contents have every word below 100000: the side condition at the point whose coordinate is s. -/
theorem adm6_lt (s : Fin 10000) : ((a.1 0 (ix1 s) : BitVec 32)).toNat < 100000 := by
  obtain ⟨h, -⟩ := (a.2 : ok6 (F := F) a.1) (fun b => match b with | ⟨0, _⟩ => s)
  have h0 := h 0
  rw [word6 a.1 _ s rfl] at h0
  have h1 : (((a.1 0 (ix1 s) : BitVec 32)).toNat + 1) * 1 ≤ 100000 := h0
  omega

/-- The block indices at point t, whose number is s. -/
theorem index6_0 (t : Fin (cfg6 a).N) (s : Fin 10000) (hs : t.val = s.val) :
    ((cfg6 a).win 0).index t = ![((a.1 0 (ix1 s) : BitVec 32)).toNat, 0, 0] :=
  word6 a.1 (grid6.coords t) s ((coord6 t).trans hs)
theorem index6_1 (t : Fin (cfg6 a).N) (s : Fin 10000) (hs : t.val = s.val) :
    ((cfg6 a).win 1).index t = ![s.val, 0, 0] :=
  row6 (grid6.coords t) s ((coord6 t).trans hs)

/-- THE RESULT: row s is row `seed s` of the table array as the region finds it. -/
def G6 (c : Dev nD) : S10000x1x128.Idx → Elt F .f32 := fun j =>
  V c main_v132 (ix3 (⟨((a.1 0 (ix1 (⟨(j 0).val, (j 0).isLt⟩ : Fin 10000)) : BitVec 32)).toNat, adm6_lt a _⟩ : Fin 100000) (0 : Fin 1)
    (⟨(j 2).val, (j 2).isLt⟩ : Fin 128))

/-- What point t writes back is block t of `G6`. -/
theorem flushed6_eq (c : Dev nD) (t : Fin (cfg6 a).N) :
    (dat6 V a c).flushed 1 t = (((cfg6 a).win 1).blk t).view.read (Elt F) (G6 V a c) := by
  show ((cfg6 a).win 1).cut ((cfg6 a).grid.coords t) ((dat6 V a c).after 1 t) = _
  rw [after6_1, out6_1_eq (iblk6 V a c 0 t)]
  have ht : t.val < 10000 := lt_of_lt_of_eq t.isLt N_6
  obtain ⟨s, hs⟩ : ∃ s : Fin 10000, t.val = s.val := ⟨⟨t.val, ht⟩, rfl⟩
  have e0 := index6_0 a t s hs
  have e1 := index6_1 a t s hs
  show (fun j : S1x1x128.Idx => V c main_v132 ((((cfg6 a).win 0).blk t).view.emb j))
    = (fun j : S1x1x128.Idx => G6 V a c ((((cfg6 a).win 1).blk t).view.emb j))
  funext j
  obtain ⟨u0, u1, l, rfl⟩ : ∃ (u0 : Fin 1) (u1 : Fin 1) (l : Fin 128), j = ix3 u0 u1 l := ⟨j 0, j 1, j 2, eq_ix3 j⟩
  have hu0 : u0.val = 0 := by omega
  have hu1 : u1.val = 0 := by omega
  have hout : (((cfg6 a).win 1).blk t).view.emb (ix3 u0 u1 l) = ix3 s (0 : Fin 1) l := funext fun b => Fin.ext (by
    match b with
    | ⟨0, _⟩ => show ((cfg6 a).win 1).index t (0 : Fin 3) * 1 + 1 * u0.val = s.val; rw [e1]; show s.val * 1 + 1 * u0.val = s.val; omega
    | ⟨1, _⟩ => show ((cfg6 a).win 1).index t (1 : Fin 3) * 1 + 1 * u1.val = 0; rw [e1]; show 0 * 1 + 1 * u1.val = 0; omega
    | ⟨2, _⟩ => show ((cfg6 a).win 1).index t (2 : Fin 3) * 128 + 1 * l.val = l.val; rw [e1]; show 0 * 128 + 1 * l.val = l.val; omega)
  show V c main_v132 ((((cfg6 a).win 0).blk t).view.emb (ix3 u0 u1 l)) = G6 V a c ((((cfg6 a).win 1).blk t).view.emb (ix3 u0 u1 l))
  rw [hout]
  unfold G6
  refine congrArg (V c main_v132) (funext fun b => Fin.ext ?_)
  match b with
  | ⟨0, _⟩ => show ((cfg6 a).win 0).index t (0 : Fin 3) * 1 + 1 * u0.val = ((a.1 0 (ix1 s) : BitVec 32)).toNat; rw [e0]; show ((a.1 0 (ix1 s) : BitVec 32)).toNat * 1 + 1 * u0.val = _; omega
  | ⟨1, _⟩ => show ((cfg6 a).win 0).index t (1 : Fin 3) * 1 + 1 * u1.val = 0; rw [e0]; show 0 * 1 + 1 * u1.val = 0; omega
  | ⟨2, _⟩ => show ((cfg6 a).win 0).index t (2 : Fin 3) * 128 + 1 * l.val = l.val; rw [e0]; show 0 * 128 + 1 * l.val = l.val; omega

end Value

/-- Window 1 is written back at every point: at the next point its block index differs on axis 0. -/
theorem flushOf6 (t : Fin grid6.N) : Pipeline.Window.flushOf grid6 true cc6_transform_1 t = true := by
  have hN : grid6.N = 10000 := N_6
  have ht : t.val < 10000 := lt_of_lt_of_eq t.isLt N_6
  unfold Pipeline.Window.flushOf
  simp only [Bool.true_and, Bool.or_eq_true, decide_eq_true_eq]
  by_cases h : t.val + 1 = grid6.N
  · exact Or.inl h
  · have h' : t.val + 1 < grid6.N := by omega
    refine Or.inr ⟨h', fun e => ?_⟩
    have e0 := congrFun e 0
    rw [row6 _ (⟨t.val + 1, by omega⟩ : Fin 10000) (coord6 ⟨t.val + 1, h'⟩), row6 _ (⟨t.val, ht⟩ : Fin 10000) (coord6 t)] at e0
    have e1 : t.val + 1 = t.val := e0
    omega

section Final
variable (V : (c : Dev nD) → (b : Ref sig .tc) → Buf (Elt F) ((c : Thread nD τ).loc b))
variable (a : (pcfg6 (F := F)).Adm)

theorem flush6_1 (t : Fin (cfg6 a).N) : ((cfg6 a).win 1).flush t = true := flushOf6 t

/-- An index of the result array is in point t's block iff each coordinate is in the block's range on its axis. -/
theorem mem_blk6 (t : Fin (cfg6 a).N) (i : S10000x1x128.Idx) :
    i ∈ (((cfg6 a).win 1).blk t).view.set ↔ ∀ b : Fin 3, ((cfg6 a).win 1).index t b * S1x1x128.size b ≤ (i b).val
      ∧ (i b).val < ((cfg6 a).win 1).index t b * S1x1x128.size b + S1x1x128.size b := by
  show i ∈ ((View.whole main_v133).slice (((cfg6 a).win 1).rect t)).set ↔ _
  refine (iff_of_eq (congrArg (fun S => i ∈ S) (View.set_slice_whole main_v133 (((cfg6 a).win 1).rect t)))).trans ?_
  exact Rect.mem_set_unit

/-- Row s of the result lies in point s's block: the 10000 blocks cover the array. -/
theorem cover6 (i : S10000x1x128.Idx) :
    ∃ t : Fin (cfg6 a).N, ((cfg6 a).win 1).flush t = true ∧ i ∈ (((cfg6 a).win 1).blk t).view.set := by
  have hi0 : (i 0).val < 10000 := (i 0).isLt
  have hi1 : (i 1).val < 1 := (i 1).isLt
  have hi2 : (i 2).val < 128 := (i 2).isLt
  obtain ⟨t, ht⟩ : ∃ t : Fin (cfg6 a).N, t.val = (i 0).val := ⟨⟨(i 0).val, lt_of_lt_of_eq hi0 N_6.symm⟩, rfl⟩
  have e1 := index6_1 a t (⟨(i 0).val, hi0⟩ : Fin 10000) ht
  refine ⟨t, flush6_1 a t, ?_⟩
  rw [mem_blk6]
  intro b
  match b with
  | ⟨0, _⟩ =>
    show ((cfg6 a).win 1).index t (0 : Fin 3) * 1 ≤ (i 0).val ∧ (i 0).val < ((cfg6 a).win 1).index t (0 : Fin 3) * 1 + 1
    rw [e1]; show (i 0).val * 1 ≤ (i 0).val ∧ (i 0).val < (i 0).val * 1 + 1; omega
  | ⟨1, _⟩ =>
    show ((cfg6 a).win 1).index t (1 : Fin 3) * 1 ≤ (i 1).val ∧ (i 1).val < ((cfg6 a).win 1).index t (1 : Fin 3) * 1 + 1
    rw [e1]; show 0 * 1 ≤ (i 1).val ∧ (i 1).val < 0 * 1 + 1; omega
  | ⟨2, _⟩ =>
    show ((cfg6 a).win 1).index t (2 : Fin 3) * 128 ≤ (i 2).val ∧ (i 2).val < ((cfg6 a).win 1).index t (2 : Fin 3) * 128 + 128
    rw [e1]; show 0 * 128 ≤ (i 2).val ∧ (i 2).val < 0 * 128 + 128; omega

/-- The result array after the region. -/
theorem final6 (c : Dev nD) : (dat6 V a c).arrAt 1 (cfg6 a).N = G6 V a c :=
  (dat6 V a c).arrAt_eq_of_cover 1 _ (fun t _ => flushed6_eq V a c t) (cover6 a)

/-- ROW s OF THE RESULT IS ROW `seed s` OF THE TABLE ARRAY the region finds. -/
theorem gather6_rows (c : Dev nD) (s : Fin 10000) (l : Fin 128) (h : ((a.1 0 (ix1 s) : BitVec 32)).toNat < 100000) :
    (dat6 V a c).arrAt 1 (cfg6 a).N (ix3 s (0 : Fin 1) l)
      = V c main_v132 (ix3 (⟨((a.1 0 (ix1 s) : BitVec 32)).toNat, h⟩ : Fin 100000) (0 : Fin 1) l) := by
  rw [final6 V a c]
  rfl

end Final

end Cert.KernelIdeal.Hand

end
-- ==== Proof.KI.Val7.lean ====
/-
  The value of gather region 7: row s of its result array is row `seed s` of the table array it reads, seed s the
  table word at s. Point t of the grid (its one coordinate is t) fetches row `seed t` of the [100000, 1, 128] array
  and stores it, unchanged, as row t of the [10000, 1, 128] result; every point writes its row back, and row s lies in
  point s's block. The table's contents stay a variable throughout.
-/
import proofs.«114291_j3908420239568_2_alg».proof.Proof.KI.Reg7
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

theorem hz7 : (![0, 0, 0] : Fin 3 → Nat) = fun _ => 0 := funext fun a => by fin_cases a <;> rfl

/-- The stored value is the loaded block: the cast is to the block's own shape. -/
theorem pay7_eq (x0 : Vec F S1x1x128 .f32) : k7_pay1 x0 = x0 := by
  unfold k7_pay1; exact shapeCast_self _ _

/-- The body leaves the input block in the output's buffer: one whole-block store of the whole-block load. -/
theorem out7_1_eq (x0 : Vec F S1x1x128 .f32) : out7_1 x0 = x0 := by
  unfold out7_1
  rw [View.canon_unit_zero hz7, View.ld_unit_zero (S := S1x1x128) hz7, pay7_eq]

/-- A point's one coordinate is its number. -/
theorem coord7 (t : Fin grid7.N) : (grid7.coords t 0).val = t.val := by
  have ht : t.val < 10000 := lt_of_lt_of_eq t.isLt N_7
  show t.val / grid7.stride 0 % 10000 = t.val
  have hs : grid7.stride 0 = 1 := by decide
  rw [hs, Nat.div_one]; omega

/-- The one word of the table a unit rectangle at offset n reads is word n. -/
theorem unit_emb7 (n : Nat) (inb : ∀ a, (![n] : Fin 1 → Nat) a + S1.size a ≤ S10000.size a)
    (x : (Rect.unit (s := S10000) ![n] S1.size inb).shape.Idx) (s : Fin 10000) (hs : n = s.val) :
    (Rect.unit (s := S10000) ![n] S1.size inb).emb x = ix1 s := by
  funext a; apply Fin.ext
  match a with
  | ⟨0, _⟩ =>
    show n + 1 * (x 0).val = s.val
    have hx : (x 0).val < 1 := (x 0).isLt
    omega

/-- Window 0's block index at coordinates whose value is s: the table's word at s, then zeros. -/
theorem word7 (pf : pre7.Contents (Elt F)) (i : grid7.Coords) (s : Fin 10000) (hs : (i 0).val = s.val) :
    cc7_transform_0 Facts₀.k7_off1_inb Facts₀.numel1_S1 pf i = ![((pf 0 (ix1 s) : BitVec 32)).toNat, 0, 0] := by
  have hn : (Scalar.indexCast (BitVec.ofNat 32 (i 0).val)).toNat = s.val := by
    show (BitVec.ofNat 32 (i 0).val).toNat = s.val
    rw [BitVec.toNat_ofNat, hs]; have := s.isLt; omega
  unfold cc7_transform_0
  refine congrArg (fun w : BitVec 32 => (![w.toNat, 0, 0] : Fin 3 → Nat)) (congrArg (pf 0) ?_)
  exact unit_emb7 _ _ _ s hn

/-- Window 1's block index at coordinates whose value is s: s, then zeros. -/
theorem row7 (i : grid7.Coords) (s : Fin 10000) (hs : (i 0).val = s.val) : cc7_transform_1 i = ![s.val, 0, 0] := by
  unfold cc7_transform_1
  show ![(BitVec.ofNat 32 (i 0).val).toNat, 0, 0] = _
  rw [BitVec.toNat_ofNat, hs, Nat.mod_eq_of_lt (by have := s.isLt; omega)]

section Value
variable (V : (c : Dev nD) → (b : Ref sig .tc) → Buf (Elt F) ((c : Thread nD τ).loc b))
variable (a : (pcfg7 (F := F)).Adm)

/-- Admissible contents have every word below 100000: the side condition at the point whose coordinate is s. -/
theorem adm7_lt (s : Fin 10000) : ((a.1 0 (ix1 s) : BitVec 32)).toNat < 100000 := by
  obtain ⟨h, -⟩ := (a.2 : ok7 (F := F) a.1) (fun b => match b with | ⟨0, _⟩ => s)
  have h0 := h 0
  rw [word7 a.1 _ s rfl] at h0
  have h1 : (((a.1 0 (ix1 s) : BitVec 32)).toNat + 1) * 1 ≤ 100000 := h0
  omega

/-- The block indices at point t, whose number is s. -/
theorem index7_0 (t : Fin (cfg7 a).N) (s : Fin 10000) (hs : t.val = s.val) :
    ((cfg7 a).win 0).index t = ![((a.1 0 (ix1 s) : BitVec 32)).toNat, 0, 0] :=
  word7 a.1 (grid7.coords t) s ((coord7 t).trans hs)
theorem index7_1 (t : Fin (cfg7 a).N) (s : Fin 10000) (hs : t.val = s.val) :
    ((cfg7 a).win 1).index t = ![s.val, 0, 0] :=
  row7 (grid7.coords t) s ((coord7 t).trans hs)

/-- THE RESULT: row s is row `seed s` of the table array as the region finds it. -/
def G7 (c : Dev nD) : S10000x1x128.Idx → Elt F .f32 := fun j =>
  V c main_v135 (ix3 (⟨((a.1 0 (ix1 (⟨(j 0).val, (j 0).isLt⟩ : Fin 10000)) : BitVec 32)).toNat, adm7_lt a _⟩ : Fin 100000) (0 : Fin 1)
    (⟨(j 2).val, (j 2).isLt⟩ : Fin 128))

/-- What point t writes back is block t of `G7`. -/
theorem flushed7_eq (c : Dev nD) (t : Fin (cfg7 a).N) :
    (dat7 V a c).flushed 1 t = (((cfg7 a).win 1).blk t).view.read (Elt F) (G7 V a c) := by
  show ((cfg7 a).win 1).cut ((cfg7 a).grid.coords t) ((dat7 V a c).after 1 t) = _
  rw [after7_1, out7_1_eq (iblk7 V a c 0 t)]
  have ht : t.val < 10000 := lt_of_lt_of_eq t.isLt N_7
  obtain ⟨s, hs⟩ : ∃ s : Fin 10000, t.val = s.val := ⟨⟨t.val, ht⟩, rfl⟩
  have e0 := index7_0 a t s hs
  have e1 := index7_1 a t s hs
  show (fun j : S1x1x128.Idx => V c main_v135 ((((cfg7 a).win 0).blk t).view.emb j))
    = (fun j : S1x1x128.Idx => G7 V a c ((((cfg7 a).win 1).blk t).view.emb j))
  funext j
  obtain ⟨u0, u1, l, rfl⟩ : ∃ (u0 : Fin 1) (u1 : Fin 1) (l : Fin 128), j = ix3 u0 u1 l := ⟨j 0, j 1, j 2, eq_ix3 j⟩
  have hu0 : u0.val = 0 := by omega
  have hu1 : u1.val = 0 := by omega
  have hout : (((cfg7 a).win 1).blk t).view.emb (ix3 u0 u1 l) = ix3 s (0 : Fin 1) l := funext fun b => Fin.ext (by
    match b with
    | ⟨0, _⟩ => show ((cfg7 a).win 1).index t (0 : Fin 3) * 1 + 1 * u0.val = s.val; rw [e1]; show s.val * 1 + 1 * u0.val = s.val; omega
    | ⟨1, _⟩ => show ((cfg7 a).win 1).index t (1 : Fin 3) * 1 + 1 * u1.val = 0; rw [e1]; show 0 * 1 + 1 * u1.val = 0; omega
    | ⟨2, _⟩ => show ((cfg7 a).win 1).index t (2 : Fin 3) * 128 + 1 * l.val = l.val; rw [e1]; show 0 * 128 + 1 * l.val = l.val; omega)
  show V c main_v135 ((((cfg7 a).win 0).blk t).view.emb (ix3 u0 u1 l)) = G7 V a c ((((cfg7 a).win 1).blk t).view.emb (ix3 u0 u1 l))
  rw [hout]
  unfold G7
  refine congrArg (V c main_v135) (funext fun b => Fin.ext ?_)
  match b with
  | ⟨0, _⟩ => show ((cfg7 a).win 0).index t (0 : Fin 3) * 1 + 1 * u0.val = ((a.1 0 (ix1 s) : BitVec 32)).toNat; rw [e0]; show ((a.1 0 (ix1 s) : BitVec 32)).toNat * 1 + 1 * u0.val = _; omega
  | ⟨1, _⟩ => show ((cfg7 a).win 0).index t (1 : Fin 3) * 1 + 1 * u1.val = 0; rw [e0]; show 0 * 1 + 1 * u1.val = 0; omega
  | ⟨2, _⟩ => show ((cfg7 a).win 0).index t (2 : Fin 3) * 128 + 1 * l.val = l.val; rw [e0]; show 0 * 128 + 1 * l.val = l.val; omega

end Value

/-- Window 1 is written back at every point: at the next point its block index differs on axis 0. -/
theorem flushOf7 (t : Fin grid7.N) : Pipeline.Window.flushOf grid7 true cc7_transform_1 t = true := by
  have hN : grid7.N = 10000 := N_7
  have ht : t.val < 10000 := lt_of_lt_of_eq t.isLt N_7
  unfold Pipeline.Window.flushOf
  simp only [Bool.true_and, Bool.or_eq_true, decide_eq_true_eq]
  by_cases h : t.val + 1 = grid7.N
  · exact Or.inl h
  · have h' : t.val + 1 < grid7.N := by omega
    refine Or.inr ⟨h', fun e => ?_⟩
    have e0 := congrFun e 0
    rw [row7 _ (⟨t.val + 1, by omega⟩ : Fin 10000) (coord7 ⟨t.val + 1, h'⟩), row7 _ (⟨t.val, ht⟩ : Fin 10000) (coord7 t)] at e0
    have e1 : t.val + 1 = t.val := e0
    omega

section Final
variable (V : (c : Dev nD) → (b : Ref sig .tc) → Buf (Elt F) ((c : Thread nD τ).loc b))
variable (a : (pcfg7 (F := F)).Adm)

theorem flush7_1 (t : Fin (cfg7 a).N) : ((cfg7 a).win 1).flush t = true := flushOf7 t

/-- An index of the result array is in point t's block iff each coordinate is in the block's range on its axis. -/
theorem mem_blk7 (t : Fin (cfg7 a).N) (i : S10000x1x128.Idx) :
    i ∈ (((cfg7 a).win 1).blk t).view.set ↔ ∀ b : Fin 3, ((cfg7 a).win 1).index t b * S1x1x128.size b ≤ (i b).val
      ∧ (i b).val < ((cfg7 a).win 1).index t b * S1x1x128.size b + S1x1x128.size b := by
  show i ∈ ((View.whole main_v136).slice (((cfg7 a).win 1).rect t)).set ↔ _
  refine (iff_of_eq (congrArg (fun S => i ∈ S) (View.set_slice_whole main_v136 (((cfg7 a).win 1).rect t)))).trans ?_
  exact Rect.mem_set_unit

/-- Row s of the result lies in point s's block: the 10000 blocks cover the array. -/
theorem cover7 (i : S10000x1x128.Idx) :
    ∃ t : Fin (cfg7 a).N, ((cfg7 a).win 1).flush t = true ∧ i ∈ (((cfg7 a).win 1).blk t).view.set := by
  have hi0 : (i 0).val < 10000 := (i 0).isLt
  have hi1 : (i 1).val < 1 := (i 1).isLt
  have hi2 : (i 2).val < 128 := (i 2).isLt
  obtain ⟨t, ht⟩ : ∃ t : Fin (cfg7 a).N, t.val = (i 0).val := ⟨⟨(i 0).val, lt_of_lt_of_eq hi0 N_7.symm⟩, rfl⟩
  have e1 := index7_1 a t (⟨(i 0).val, hi0⟩ : Fin 10000) ht
  refine ⟨t, flush7_1 a t, ?_⟩
  rw [mem_blk7]
  intro b
  match b with
  | ⟨0, _⟩ =>
    show ((cfg7 a).win 1).index t (0 : Fin 3) * 1 ≤ (i 0).val ∧ (i 0).val < ((cfg7 a).win 1).index t (0 : Fin 3) * 1 + 1
    rw [e1]; show (i 0).val * 1 ≤ (i 0).val ∧ (i 0).val < (i 0).val * 1 + 1; omega
  | ⟨1, _⟩ =>
    show ((cfg7 a).win 1).index t (1 : Fin 3) * 1 ≤ (i 1).val ∧ (i 1).val < ((cfg7 a).win 1).index t (1 : Fin 3) * 1 + 1
    rw [e1]; show 0 * 1 ≤ (i 1).val ∧ (i 1).val < 0 * 1 + 1; omega
  | ⟨2, _⟩ =>
    show ((cfg7 a).win 1).index t (2 : Fin 3) * 128 ≤ (i 2).val ∧ (i 2).val < ((cfg7 a).win 1).index t (2 : Fin 3) * 128 + 128
    rw [e1]; show 0 * 128 ≤ (i 2).val ∧ (i 2).val < 0 * 128 + 128; omega

/-- The result array after the region. -/
theorem final7 (c : Dev nD) : (dat7 V a c).arrAt 1 (cfg7 a).N = G7 V a c :=
  (dat7 V a c).arrAt_eq_of_cover 1 _ (fun t _ => flushed7_eq V a c t) (cover7 a)

/-- ROW s OF THE RESULT IS ROW `seed s` OF THE TABLE ARRAY the region finds. -/
theorem gather7_rows (c : Dev nD) (s : Fin 10000) (l : Fin 128) (h : ((a.1 0 (ix1 s) : BitVec 32)).toNat < 100000) :
    (dat7 V a c).arrAt 1 (cfg7 a).N (ix3 s (0 : Fin 1) l)
      = V c main_v135 (ix3 (⟨((a.1 0 (ix1 s) : BitVec 32)).toNat, h⟩ : Fin 100000) (0 : Fin 1) l) := by
  rw [final7 V a c]
  rfl

end Final

end Cert.KernelIdeal.Hand

end
-- ==== Proof.Br.Final.lean ====
/-
  The four results of the program at the end are the reference's four results, as functions of the six arguments'
  launch contents: the chain of boundaries with every region's value in place.
-/
import proofs.«114291_j3908420239568_2_alg».proof.Proof.Br.FinalOf
import proofs.«114291_j3908420239568_2_alg».proof.Proof.KI.Val0
import proofs.«114291_j3908420239568_2_alg».proof.Proof.KI.Val1
import proofs.«114291_j3908420239568_2_alg».proof.Proof.KI.Val2
import proofs.«114291_j3908420239568_2_alg».proof.Proof.KI.Val3
import proofs.«114291_j3908420239568_2_alg».proof.Proof.KI.Val4
import proofs.«114291_j3908420239568_2_alg».proof.Proof.KI.Val5
import proofs.«114291_j3908420239568_2_alg».proof.Proof.KI.Val6
import proofs.«114291_j3908420239568_2_alg».proof.Proof.KI.Val7

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem
open Cert.ReferenceIdeal.Read

/-! ## Every region leaves what the chain asks of it -/

theorem region0_spec : Region0Spec := fun V c x2 x4 => region0_is_ref V c x2 x4
theorem region1_spec : Region1Spec := fun V c x2 x4 => region1_is_ref V c x2 x4
theorem region2_spec : Region2Spec := fun V c x2 x4 => region2_is_ref V c x2 x4
theorem region3_spec : Region3Spec := fun V c x3 x5 => region3_is_ref V c x3 x5
theorem region4_spec : Region4Spec := fun V c x3 x5 => region4_is_ref V c x3 x5
theorem region5_spec : Region5Spec := fun V c x3 x5 => region5_is_ref V c x3 x5
theorem gather6_spec : Gather6Spec := fun V a c s l h => gather6_rows V a c s l h
theorem gather7_spec : Gather7Spec := fun V a c s l h => gather7_rows V a c s l h

/-! ## The four results -/

/-- The normalized embeddings of graph `sr`. -/
theorem final_v65 (m : (ℓ : Loc Cert.KernelIdeal.nD Cert.KernelIdeal.τ Cert.KernelIdeal.sig) → Buf (Elt Ideal) ℓ)
    (hs0 : ∀ (c : Dev nD) x, ((m ((c : Thread nD τ).loc main_arg0) x : BitVec 32)).toNat < 100000)
    (hs1 : ∀ (c : Dev nD) x, ((m ((c : Thread nD τ).loc main_arg1) x : BitVec 32)).toNat < 100000) (c : Dev nD) :
    Cert.KernelIdeal.Hand.W15 m hs0 hs1 c (Proc.devRef .tc Cert.KernelIdeal.main_v65)
      = Cert.ReferenceIdeal.Read.val_main_v78 (F := Ideal) (m ((c : Thread Cert.KernelIdeal.nD Cert.KernelIdeal.τ).loc Cert.KernelIdeal.main_arg2)) (m ((c : Thread Cert.KernelIdeal.nD Cert.KernelIdeal.τ).loc Cert.KernelIdeal.main_arg4)) :=
  final_v65_of m c hs0 hs1 region0_spec region1_spec region2_spec

/-- The normalized embeddings of graph `tg`. -/
theorem final_v131 (m : (ℓ : Loc Cert.KernelIdeal.nD Cert.KernelIdeal.τ Cert.KernelIdeal.sig) → Buf (Elt Ideal) ℓ)
    (hs0 : ∀ (c : Dev nD) x, ((m ((c : Thread nD τ).loc main_arg0) x : BitVec 32)).toNat < 100000)
    (hs1 : ∀ (c : Dev nD) x, ((m ((c : Thread nD τ).loc main_arg1) x : BitVec 32)).toNat < 100000) (c : Dev nD) :
    Cert.KernelIdeal.Hand.W15 m hs0 hs1 c (Proc.devRef .tc Cert.KernelIdeal.main_v131)
      = Cert.ReferenceIdeal.Read.val_main_v157 (F := Ideal) (m ((c : Thread Cert.KernelIdeal.nD Cert.KernelIdeal.τ).loc Cert.KernelIdeal.main_arg3)) (m ((c : Thread Cert.KernelIdeal.nD Cert.KernelIdeal.τ).loc Cert.KernelIdeal.main_arg5)) :=
  final_v131_of m c hs0 hs1 region3_spec region4_spec region5_spec

/-- The rows of graph `sr`'s embeddings at the first seeds. -/
theorem final_v134 (m : (ℓ : Loc Cert.KernelIdeal.nD Cert.KernelIdeal.τ Cert.KernelIdeal.sig) → Buf (Elt Ideal) ℓ)
    (hs0 : ∀ (c : Dev nD) x, ((m ((c : Thread nD τ).loc main_arg0) x : BitVec 32)).toNat < 100000)
    (hs1 : ∀ (c : Dev nD) x, ((m ((c : Thread nD τ).loc main_arg1) x : BitVec 32)).toNat < 100000) (c : Dev nD) :
    Cert.KernelIdeal.Hand.W15 m hs0 hs1 c (Proc.devRef .tc Cert.KernelIdeal.main_v134)
      = Cert.ReferenceIdeal.Read.val_main_v164 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg4)) :=
  final_v134_of m c hs0 hs1 region0_spec region1_spec region2_spec gather6_spec

/-- The rows of graph `tg`'s embeddings at the second seeds. -/
theorem final_v137 (m : (ℓ : Loc Cert.KernelIdeal.nD Cert.KernelIdeal.τ Cert.KernelIdeal.sig) → Buf (Elt Ideal) ℓ)
    (hs0 : ∀ (c : Dev nD) x, ((m ((c : Thread nD τ).loc main_arg0) x : BitVec 32)).toNat < 100000)
    (hs1 : ∀ (c : Dev nD) x, ((m ((c : Thread nD τ).loc main_arg1) x : BitVec 32)).toNat < 100000) (c : Dev nD) :
    Cert.KernelIdeal.Hand.W15 m hs0 hs1 c (Proc.devRef .tc Cert.KernelIdeal.main_v137)
      = Cert.ReferenceIdeal.Read.val_main_v171 (F := Ideal) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg5)) :=
  final_v137_of m c hs0 hs1 region3_spec region4_spec region5_spec gather7_spec

end Cert.Bridge
-- ==== Proof.lean ====
/-
  The certificate of a two-layer featureless graph convolution over two graphs, followed by a row-wise L2
  normalization and a row gather by seeds: the kernel program computes the per-layer combine
  agg + x * self_coef (clipped below at 0 after the first layer), the normalization x / max(|x|, eps) and the
  gather inside eight kernel regions, on row blocks, where the reference computes them by whole-array host
  operations; the edge gather and scatter-add and the degree normalization are the same host operations in both
  programs. At the ideal instance the two programs compute the same extended reals: a block of a pointwise
  function of whole arrays is that function of the blocks, a row's squared norm only reads the row, and with every
  seed in range the gathered row is the seed's row on both sides. No law that needs finiteness is used.

  The three frames: each kernel program's from its run over @main's fifteen items (at any float instance), the
  seeds' bound being what makes the two gather regions' block indices lie inside the table; the reference's from its
  run read back. The idealization rewrote nothing, so that conjunct is trivial. The two idealized programs' results:
  the kernel program's last boundary contents at its four result buffers are the reference's four result terms of
  the same arguments.
-/
import proofs.«114291_j3908420239568_2_alg».proof.Defs
import proofs.«114291_j3908420239568_2_alg».proof.Proof.Gen.Kernel
import proofs.«114291_j3908420239568_2_alg».proof.Proof.Gen.KernelIdeal
import proofs.«114291_j3908420239568_2_alg».proof.Proof.Gen.ReferenceIdeal
import proofs.«114291_j3908420239568_2_alg».proof.Proof.Gen.ReferenceIdeal.Read
import proofs.«114291_j3908420239568_2_alg».proof.Proof.Gen.Pre_finite_inputs
import proofs.«114291_j3908420239568_2_alg».proof.Proof.KI.SeedRange
import proofs.«114291_j3908420239568_2_alg».proof.Proof.KI.Run
import proofs.«114291_j3908420239568_2_alg».proof.Proof.KI.Args
import proofs.«114291_j3908420239568_2_alg».proof.Proof.K.Run
import proofs.«114291_j3908420239568_2_alg».proof.Proof.K.Args
import proofs.«114291_j3908420239568_2_alg».proof.Proof.Br.Final
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_k : @Cert.frame_Kernel Cert.Kernel.Gen.facts Cert.Pre_finite_inputs.Gen.facts := fun m ρ hpre => by
  have hs := fun c => Cert.Hand.seeds_in_range (F := Bits) _ _ _ _ _ _ (hpre c)
  have hs0 : ∀ (c : Dev Cert.Kernel.nD) x, ((m ((c : Thread Cert.Kernel.nD Cert.Kernel.τ).loc Cert.Kernel.main_arg0) x : BitVec 32)).toNat < 100000 := fun c x => (hs c).1 x
  have hs1 : ∀ (c : Dev Cert.Kernel.nD) x, ((m ((c : Thread Cert.Kernel.nD Cert.Kernel.τ).loc Cert.Kernel.main_arg1) x : BitVec 32)).toNat < 100000 := fun c x => (hs c).2 x
  refine (θ_run _ _ _).mono (fun r h c => ?_) (Cert.Kernel.Hand.run_all m ρ hs0 hs1)
  exact ⟨(h c _ (Cert.Kernel.Hand.mem_uc Cert.Kernel.main_arg0 (by decide))).trans (Cert.Kernel.Hand.W15_arg0 m hs0 hs1 c),
    (h c _ (Cert.Kernel.Hand.mem_uc Cert.Kernel.main_arg1 (by decide))).trans (Cert.Kernel.Hand.W15_arg1 m hs0 hs1 c),
    (h c _ (Cert.Kernel.Hand.mem_uc Cert.Kernel.main_arg2 (by decide))).trans (Cert.Kernel.Hand.W15_arg2 m hs0 hs1 c),
    (h c _ (Cert.Kernel.Hand.mem_uc Cert.Kernel.main_arg3 (by decide))).trans (Cert.Kernel.Hand.W15_arg3 m hs0 hs1 c),
    (h c _ (Cert.Kernel.Hand.mem_uc Cert.Kernel.main_arg4 (by decide))).trans (Cert.Kernel.Hand.W15_arg4 m hs0 hs1 c),
    (h c _ (Cert.Kernel.Hand.mem_uc Cert.Kernel.main_arg5 (by decide))).trans (Cert.Kernel.Hand.W15_arg5 m hs0 hs1 c)⟩

/-- The idealized kernel program likewise. -/
theorem frame_ki : @Cert.frame_KernelIdeal Cert.KernelIdeal.Gen.facts Cert.Pre_finite_inputs.Gen.facts := fun m ρ hpre => by
  have hs := fun c => Cert.Hand.seeds_in_range (F := Ideal) _ _ _ _ _ _ (hpre c)
  have hs0 : ∀ (c : Dev Cert.KernelIdeal.nD) x, ((m ((c : Thread Cert.KernelIdeal.nD Cert.KernelIdeal.τ).loc Cert.KernelIdeal.main_arg0) x : BitVec 32)).toNat < 100000 := fun c x => (hs c).1 x
  have hs1 : ∀ (c : Dev Cert.KernelIdeal.nD) x, ((m ((c : Thread Cert.KernelIdeal.nD Cert.KernelIdeal.τ).loc Cert.KernelIdeal.main_arg1) x : BitVec 32)).toNat < 100000 := fun c x => (hs c).2 x
  refine (θ_run _ _ _).mono (fun r h c => ?_) (Cert.KernelIdeal.Hand.run_all m ρ hs0 hs1)
  exact ⟨(h c _ (Cert.KernelIdeal.Hand.mem_uc Cert.KernelIdeal.main_arg0 (by decide))).trans (Cert.KernelIdeal.Hand.W15_arg0 m hs0 hs1 c),
    (h c _ (Cert.KernelIdeal.Hand.mem_uc Cert.KernelIdeal.main_arg1 (by decide))).trans (Cert.KernelIdeal.Hand.W15_arg1 m hs0 hs1 c),
    (h c _ (Cert.KernelIdeal.Hand.mem_uc Cert.KernelIdeal.main_arg2 (by decide))).trans (Cert.KernelIdeal.Hand.W15_arg2 m hs0 hs1 c),
    (h c _ (Cert.KernelIdeal.Hand.mem_uc Cert.KernelIdeal.main_arg3 (by decide))).trans (Cert.KernelIdeal.Hand.W15_arg3 m hs0 hs1 c),
    (h c _ (Cert.KernelIdeal.Hand.mem_uc Cert.KernelIdeal.main_arg4 (by decide))).trans (Cert.KernelIdeal.Hand.W15_arg4 m hs0 hs1 c),
    (h c _ (Cert.KernelIdeal.Hand.mem_uc Cert.KernelIdeal.main_arg5 (by decide))).trans (Cert.KernelIdeal.Hand.W15_arg5 m hs0 hs1 c)⟩

/-- The reference runs to the end and leaves its arguments as launched: its run read back, the results dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2.2.2) (Cert.ReferenceIdeal.Value.run (F := Ideal) m ρ)

/-- The two idealized programs, from memories that agree on the arguments, end with the same four results: the
    kernel program's last boundary contents at its result buffers are the reference's result terms of the same
    arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  have hs := fun c => Cert.Hand.seeds_in_range (F := Ideal) _ _ _ _ _ _ (hpre c)
  have hs0 : ∀ (c : Dev Cert.KernelIdeal.nD) x, ((m ((c : Thread Cert.KernelIdeal.nD Cert.KernelIdeal.τ).loc Cert.KernelIdeal.main_arg0) x : BitVec 32)).toNat < 100000 := fun c x => (hs c).1 x
  have hs1 : ∀ (c : Dev Cert.KernelIdeal.nD) x, ((m ((c : Thread Cert.KernelIdeal.nD Cert.KernelIdeal.τ).loc Cert.KernelIdeal.main_arg1) x : BitVec 32)).toNat < 100000 := fun c x => (hs c).2 x
  refine ⟨fun c => Cert.KernelIdeal.Hand.W15 m hs0 hs1 c (Proc.devRef .tc Cert.KernelIdeal.main_v134),
    fun c => Cert.KernelIdeal.Hand.W15 m hs0 hs1 c (Proc.devRef .tc Cert.KernelIdeal.main_v137),
    fun c => Cert.KernelIdeal.Hand.W15 m hs0 hs1 c (Proc.devRef .tc Cert.KernelIdeal.main_v65),
    fun c => Cert.KernelIdeal.Hand.W15 m hs0 hs1 c (Proc.devRef .tc Cert.KernelIdeal.main_v131), ?_, ?_⟩
  · refine (θ_run _ _ _).mono (fun r h c => ?_) (Cert.KernelIdeal.Hand.run_all m ρ hs0 hs1)
    exact ⟨h c _ (Cert.KernelIdeal.Hand.mem_uc Cert.KernelIdeal.main_v134 (by decide)),
      h c _ (Cert.KernelIdeal.Hand.mem_uc Cert.KernelIdeal.main_v137 (by decide)),
      h c _ (Cert.KernelIdeal.Hand.mem_uc Cert.KernelIdeal.main_v65 (by decide)),
      h c _ (Cert.KernelIdeal.Hand.mem_uc Cert.KernelIdeal.main_v131 (by decide)),
      (h c _ (Cert.KernelIdeal.Hand.mem_uc Cert.KernelIdeal.main_arg0 (by decide))).trans (Cert.KernelIdeal.Hand.W15_arg0 m hs0 hs1 c),
      (h c _ (Cert.KernelIdeal.Hand.mem_uc Cert.KernelIdeal.main_arg1 (by decide))).trans (Cert.KernelIdeal.Hand.W15_arg1 m hs0 hs1 c),
      (h c _ (Cert.KernelIdeal.Hand.mem_uc Cert.KernelIdeal.main_arg2 (by decide))).trans (Cert.KernelIdeal.Hand.W15_arg2 m hs0 hs1 c),
      (h c _ (Cert.KernelIdeal.Hand.mem_uc Cert.KernelIdeal.main_arg3 (by decide))).trans (Cert.KernelIdeal.Hand.W15_arg3 m hs0 hs1 c),
      (h c _ (Cert.KernelIdeal.Hand.mem_uc Cert.KernelIdeal.main_arg4 (by decide))).trans (Cert.KernelIdeal.Hand.W15_arg4 m hs0 hs1 c),
      (h c _ (Cert.KernelIdeal.Hand.mem_uc Cert.KernelIdeal.main_arg5 (by decide))).trans (Cert.KernelIdeal.Hand.W15_arg5 m hs0 hs1 c)⟩
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5⟩ := hagree c
    refine ⟨h0.trans ?_, h1.trans ?_, h2.trans ?_, h3.trans ?_, hargs⟩
    · rw [Cert.ReferenceIdeal.Read.val_main_v164_eq, e0, e2, e4]; exact (Cert.Bridge.final_v134 m hs0 hs1 c).symm
    · rw [Cert.ReferenceIdeal.Read.val_main_v171_eq, e1, e3, e5]; exact (Cert.Bridge.final_v137 m hs0 hs1 c).symm
    · rw [Cert.ReferenceIdeal.Read.val_main_v78_eq, e2, e4]; exact (Cert.Bridge.final_v65 m hs0 hs1 c).symm
    · rw [Cert.ReferenceIdeal.Read.val_main_v157_eq, e3, e5]; exact (Cert.Bridge.final_v131 m hs0 hs1 c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
